-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S100000x128 : Shape := ⟨2, ![100000, 128]⟩
abbrev S512x256 : Shape := ⟨2, ![512, 256]⟩
abbrev S512 : Shape := ⟨1, ![512]⟩
abbrev S256x512 : Shape := ⟨2, ![256, 512]⟩
abbrev S256 : Shape := ⟨1, ![256]⟩
abbrev S128x256 : Shape := ⟨2, ![128, 256]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_
  bcast_S_S16384 : S_.BroadcastsInDim S16384 (![] : Fin 0 → Fin S16384.rank)
  reducesTo_S16384_S_d0 : S16384.ReducesTo [0] S_

variable [Facts]

def fn_part3 {F : FTy → Type} [FloatOps F] (main_arg0 : IVec S16384 32) (main_arg1 : IVec S16384 32) (main_v48 : IVec S_ 1) (main_v50 : IVec S16384 1) : IVec S_ 1 :=
  let main_c_19 : IVec S_ 32 := constantI S_ 32 99999#32
  let main_v51 : IVec S16384 32 := broadcastInDim S16384 ![] bcast_S_S16384 main_c_19
  let main_v52 : IVec S16384 1 := cmpi .sle main_arg0 main_v51
  let main_v53 : IVec S16384 1 := andi main_v50 main_v52
  let main_c_20 : IVec S_ 1 := constantI S_ 1 1#1
  let main_v54 : IVec S_ 1 := (fun x v => Host.reduce IntOp.andi x v reducesTo_S16384_S_d0 h_S_) main_v53 main_c_20
  let main_v55 : IVec S_ 1 := andi main_v48 main_v54
  let main_c_21 : IVec S_ 32 := constantI S_ 32 0#32
  let main_v56 : IVec S16384 32 := broadcastInDim S16384 ![] bcast_S_S16384 main_c_21
  let main_v57 : IVec S16384 1 := cmpi .sge main_arg1 main_v56
  let main_c_22 : IVec S_ 32 := constantI S_ 32 99999#32
  let main_v58 : IVec S16384 32 := broadcastInDim S16384 ![] bcast_S_S16384 main_c_22
  let main_v59 : IVec S16384 1 := cmpi .sle main_arg1 main_v58
  let main_v60 : IVec S16384 1 := andi main_v57 main_v59
  let main_c_23 : IVec S_ 1 := constantI S_ 1 1#1
  let main_v61 : IVec S_ 1 := (fun x v => Host.reduce IntOp.andi x v reducesTo_S16384_S_d0 h_S_) main_v60 main_c_23
  let main_v62 : IVec S_ 1 := andi main_v55 main_v61
  main_v62

def fn_part2 {F : FTy → Type} [FloatOps F] (main_arg0 : IVec S16384 32) (main_arg1 : IVec S16384 32) (main_arg9 : FVec F S128 .f32) (main_arg10 : FVec F S1x128 .f32) (main_arg11 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S1x128 .f32 := Host.absf main_arg10
  let main_cst_14 : FVec F S_ .f32 := constant S_ .f32 0x7F800000#32
  let main_v40 : FVec F S1x128 .f32 := broadcastInDim S1x128 ![] bcast_S_S1x128 main_cst_14
  let main_v41 : IVec S1x128 1 := cmpf .olt main_v39 main_v40
  let main_c_15 : IVec S_ 1 := constantI S_ 1 1#1
  let main_v42 : IVec S_ 1 := (fun x v => Host.reduce IntOp.andi x v reducesTo_S1x128_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_c_18 : IVec S_ 32 := constantI S_ 32 0#32
  let main_v49 : IVec S16384 32 := broadcastInDim S16384 ![] bcast_S_S16384 main_c_18
  let main_v50 : IVec S16384 1 := cmpi .sge main_arg0 main_v49
  fn_part3 (F := F) main_arg0 main_arg1 main_v48 main_v50

def fn_part1 {F : FTy → Type} [FloatOps F] (main_arg0 : IVec S16384 32) (main_arg1 : IVec S16384 32) (main_arg6 : FVec F S256x512 .f32) (main_arg7 : FVec F S256 .f32) (main_arg8 : FVec F S128x256 .f32) (main_arg9 : FVec F S128 .f32) (main_arg10 : FVec F S1x128 .f32) (main_arg11 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S256x512 .f32 := Host.absf main_arg6
  let main_cst_6 : FVec F S_ .f32 := constant S_ .f32 0x7F800000#32
  let main_v20 : FVec F S256x512 .f32 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S128x256 .f32 := Host.absf main_arg8
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg0 main_arg1 main_arg9 main_arg10 main_arg11 main_v33

def fn {F : FTy → Type} [FloatOps F] (main_arg0 : IVec S16384 32) (main_arg1 : IVec S16384 32) (main_arg2 : FVec F S100000x128 .f32) (main_arg3 : FVec F S100000x128 .f32) (main_arg4 : FVec F S512x256 .f32) (main_arg5 : FVec F S512 .f32) (main_arg6 : FVec F S256x512 .f32) (main_arg7 : FVec F S256 .f32) (main_arg8 : FVec F S128x256 .f32) (main_arg9 : FVec F S128 .f32) (main_arg10 : FVec F S1x128 .f32) (main_arg11 : FVec F S1 .f32) : IVec S_ 1 :=
  let main_v0 : FVec F S100000x128 .f32 := Host.absf main_arg2
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg3
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S512x256 .f32 := Host.absf main_arg4
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S512 .f32 := Host.absf main_arg5
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg0 main_arg1 main_arg6 main_arg7 main_arg8 main_arg9 main_arg10 main_arg11 main_v13 main_v16
-- ==== Kernel.lean ====
abbrev S16384 : Shape := ⟨1, ![16384]⟩
abbrev S100000x128 : Shape := ⟨2, ![100000, 128]⟩
abbrev S512x256 : Shape := ⟨2, ![512, 256]⟩
abbrev S512 : Shape := ⟨1, ![512]⟩
abbrev S256x512 : Shape := ⟨2, ![256, 512]⟩
abbrev S256 : Shape := ⟨1, ![256]⟩
abbrev S128x256 : Shape := ⟨2, ![128, 256]⟩
abbrev S128 : Shape := ⟨1, ![128]⟩
abbrev S1x128 : Shape := ⟨2, ![1, 128]⟩
abbrev S1 : Shape := ⟨1, ![1]⟩
abbrev S16384x256 : Shape := ⟨2, ![16384, 256]⟩
abbrev S4x128x128 : Shape := ⟨3, ![4, 128, 128]⟩
abbrev S_ : Shape := ⟨0, ![]⟩
abbrev S1x128x128 : Shape := ⟨3, ![1, 128, 128]⟩
abbrev S128x128 : Shape := ⟨2, ![128, 128]⟩
abbrev S1x512 : Shape := ⟨2, ![1, 512]⟩
abbrev S1x256 : Shape := ⟨2, ![1, 256]⟩
abbrev S256x128 : Shape := ⟨2, ![256, 128]⟩
abbrev S1x1 : Shape := ⟨2, ![1, 1]⟩
abbrev S4096x256 : Shape := ⟨2, ![4096, 256]⟩
abbrev S32x128 : Shape := ⟨2, ![32, 128]⟩
abbrev S4096x512 : Shape := ⟨2, ![4096, 512]⟩
abbrev S4096x128 : Shape := ⟨2, ![4096, 128]⟩
abbrev S1x4096 : Shape := ⟨2, ![1, 4096]⟩

abbrev nBuf : Table → Nat
  | .hbm => 24
  | .local .tc .vmem => 12
  | .local .scVector .vmem => 3
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S100000x128, .f32⟩
  | .hbm, ⟨3, _⟩ => ⟨S100000x128, .f32⟩
  | .hbm, ⟨4, _⟩ => ⟨S512x256, .f32⟩
  | .hbm, ⟨5, _⟩ => ⟨S512, .f32⟩
  | .hbm, ⟨6, _⟩ => ⟨S256x512, .f32⟩
  | .hbm, ⟨7, _⟩ => ⟨S256, .f32⟩
  | .hbm, ⟨8, _⟩ => ⟨S128x256, .f32⟩
  | .hbm, ⟨9, _⟩ => ⟨S128, .f32⟩
  | .hbm, ⟨10, _⟩ => ⟨S1x128, .f32⟩
  | .hbm, ⟨11, _⟩ => ⟨S1, .f32⟩
  | .hbm, ⟨12, _⟩ => ⟨S16384x256, .f32⟩
  | .hbm, ⟨13, _⟩ => ⟨S256x512, .f32⟩
  | .hbm, ⟨14, _⟩ => ⟨S256x512, .bf16⟩
  | .hbm, ⟨15, _⟩ => ⟨S1x512, .f32⟩
  | .hbm, ⟨16, _⟩ => ⟨S512x256, .f32⟩
  | .hbm, ⟨17, _⟩ => ⟨S512x256, .bf16⟩
  | .hbm, ⟨18, _⟩ => ⟨S1x256, .f32⟩
  | .hbm, ⟨19, _⟩ => ⟨S256x128, .f32⟩
  | .hbm, ⟨20, _⟩ => ⟨S1x128, .f32⟩
  | .hbm, ⟨21, _⟩ => ⟨S1x1, .f32⟩
  | .hbm, ⟨22, _⟩ => ⟨S128x128, .f32⟩
  | .hbm, ⟨23, _⟩ => ⟨S16384, .f32⟩
  | .local .tc .vmem, ⟨0, _⟩ => ⟨S4096x256, .f32⟩
  | .local .tc .vmem, ⟨1, _⟩ => ⟨S4096x256, .f32⟩
  | .local .tc .vmem, ⟨2, _⟩ => ⟨S256x512, .bf16⟩
  | .local .tc .vmem, ⟨3, _⟩ => ⟨S1x512, .f32⟩
  | .local .tc .vmem, ⟨4, _⟩ => ⟨S512x256, .bf16⟩
  | .local .tc .vmem, ⟨5, _⟩ => ⟨S1x256, .f32⟩
  | .local .tc .vmem, ⟨6, _⟩ => ⟨S256x128, .f32⟩
  | .local .tc .vmem, ⟨7, _⟩ => ⟨S1x128, .f32⟩
  | .local .tc .vmem, ⟨8, _⟩ => ⟨S1x128, .f32⟩
  | .local .tc .vmem, ⟨9, _⟩ => ⟨S1x1, .f32⟩
  | .local .tc .vmem, ⟨10, _⟩ => ⟨S32x128, .f32⟩
  | .local .tc .vmem, ⟨11, _⟩ => ⟨S32x128, .f32⟩
  | .local .scVector .vmem, ⟨0, _⟩ => ⟨S512, .i32⟩
  | .local .scVector .vmem, ⟨1, _⟩ => ⟨S512, .i32⟩
  | .local .scVector .vmem, ⟨2, _⟩ => ⟨S4x128x128, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 22 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTables nBuf rfl bufTy 4 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_v0_scv : Ref sig .scVector := ⟨.hbm, 12, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg6_0 : Ref sig .tc := ⟨.vmem, 7, rfl⟩
abbrev cc1_stg7_0 : Ref sig .tc := ⟨.vmem, 8, rfl⟩
abbrev cc1_stg8_0 : Ref sig .tc := ⟨.vmem, 9, rfl⟩
abbrev cc1_stg9_0 : Ref sig .tc := ⟨.vmem, 10, rfl⟩
abbrev cc1_stg9_1 : Ref sig .tc := ⟨.vmem, 11, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem9_1 : DmaSem sig := 21
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) (c0_i32_24 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v23 : BitVec 32 := Scalar.addi v2 c0_i32_24
  let c0_i32_28 : BitVec 32 := 0#32
  ![v23.toNat, 0]
def k0_off3 (i : grid0.Coords) (c0_i32_132 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v107 : BitVec 32 := Scalar.addi v2 c0_i32_132
  let c128_i32_136 : BitVec 32 := 128#32
  ![v107.toNat, 128]
abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S32x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S4x128x128_S1x128x128_0_0_0 : ∀ a, (![0, 0, 0] : Fin 3 → Nat) a + S1x128x128.size a ≤ S4x128x128.size a
  squeezes_S1x128x128_S128x128 : S1x128x128.Squeezes S128x128
  inb_S512_S128_0 : ∀ a, (![0] : Fin 1 → Nat) a + S128.size a ≤ S512.size a
  inb_S100000x128_S100000x128_0_0 : ∀ a, (![0, 0] : Fin 2 → Nat) a + S100000x128.size a ≤ S100000x128.size a
  gathers_S100000x128_S128x128 : S100000x128.Gathers 0 S128x128
  inb_S4x128x128_S1x128x128_1_0_0 : ∀ a, (![1, 0, 0] : Fin 3 → Nat) a + S1x128x128.size a ≤ S4x128x128.size a
  inb_S512_S128_128 : ∀ a, (![128] : Fin 1 → Nat) a + S128.size a ≤ S512.size a
  inb_S4x128x128_S1x128x128_2_0_0 : ∀ a, (![2, 0, 0] : Fin 3 → Nat) a + S1x128x128.size a ≤ S4x128x128.size a
  inb_S512_S128_256 : ∀ a, (![256] : Fin 1 → Nat) a + S128.size a ≤ S512.size a
  inb_S4x128x128_S1x128x128_3_0_0 : ∀ a, (![3, 0, 0] : Fin 3 → Nat) a + S1x128x128.size a ≤ S4x128x128.size a
  inb_S512_S128_384 : ∀ a, (![384] : Fin 1 → Nat) a + S128.size a ≤ S512.size a
  transposes_S512x256_S256x512_1_0 : S512x256.Transposes [1, 0] S256x512
  bitsLt_bf16_f32 : FTy.bits .bf16 < FTy.bits .f32
  shapeCasts_S512_S1x512 : S512.ShapeCasts S1x512
  transposes_S256x512_S512x256_1_0 : S256x512.Transposes [1, 0] S512x256
  shapeCasts_S256_S1x256 : S256.ShapeCasts S1x256
  transposes_S128x256_S256x128_1_0 : S128x256.Transposes [1, 0] S256x128
  shapeCasts_S128_S1x128 : S128.ShapeCasts S1x128
  shapeCasts_S1_S1x1 : S1.ShapeCasts S1x1
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4096x512 : S1x512.Broadcasts S4096x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  shapeCasts_S1x4096_S32x128 : S1x4096.ShapeCasts S32x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S32x128_S32x128_0_0 : ∀ a, (![0, 0] : Fin 2 → Nat) a + S32x128.size a ≤ S32x128.size a
  h_S32x128 : 0 < S32x128.numel
  shapeCasts_S128x128_S16384 : S128x128.ShapeCasts S16384
  dot_S4096x256_S256x512_S4096x512_1_0_0_1_n_n_wf : DotDims.WF S4096x256 S256x512 S4096x512 [1] [0] [0] [1] [] []
  dot_S4096x512_S512x256_S4096x256_1_0_0_1_n_n_wf : DotDims.WF S4096x512 S512x256 S4096x256 [1] [0] [0] [1] [] []
  dot_S4096x256_S256x128_S4096x128_1_0_0_1_n_n_wf : DotDims.WF S4096x256 S256x128 S4096x128 [1] [0] [0] [1] [] []
  dot_S1x128_S4096x128_S1x4096_1_1_0_0_n_n_wf : DotDims.WF S1x128 S4096x128 S1x4096 [1] [1] [0] [0] [] []
  hcc0_scratch3 : 0 + S_.numel ≤ 22
  hcc0_scratch4 : 1 + S_.numel ≤ 22
  hcc0_scratch5 : 2 + S_.numel ≤ 22
  hcc0_scratch6 : 3 + S_.numel ≤ 22
  hcc0_scratch7 : 4 + S_.numel ≤ 22
  hcc0_scratch8 : 5 + S_.numel ≤ 22
  hcc0_scratch9 : 6 + S_.numel ≤ 22
  hcc0_scratch10 : 7 + S_.numel ≤ 22
  hcc0_scoped0 : 8 + S_.numel ≤ 22
  hcc0_scoped1 : 9 + S_.numel ≤ 22
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S16384.size a
  k0_off2_inb : ∀ i : grid0.Coords, ∀ (r : Fin 4), ∀ a, (k0_off2 i (BitVec.ofNat 32 (128 * r.val))) a + S128x128.size a ≤ S16384x256.size a
  k0_off3_inb : ∀ i : grid0.Coords, ∀ (r : Fin 4), ∀ a, (k0_off3 i (BitVec.ofNat 32 (128 * r.val))) a + S128x128.size a ≤ S16384x256.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x256.size a ≤ S16384x256.size a
  hwx1_0 : ∀ i : grid1.Coords, EltTy.bits .f32 = 32 ∨ (Rect.block (s := S16384x256) S4096x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x512.size a ≤ S256x512.size a
  hwx1_1 : ∀ i : grid1.Coords, EltTy.bits .bf16 = 32 ∨ (Rect.block (s := S256x512) S256x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S512x256.size a
  hwx1_3 : ∀ i : grid1.Coords, EltTy.bits .bf16 = 32 ∨ (Rect.block (s := S512x256) S512x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S256x128.size a
  hwx1_5 : ∀ i : grid1.Coords, EltTy.bits .f32 = 32 ∨ (Rect.block (s := S256x128) S256x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1.size a ≤ S1x1.size a
  hwx1_8 : ∀ i : grid1.Coords, EltTy.bits .f32 = 32 ∨ (Rect.block (s := S1x1) S1x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S32x128.size a ≤ S128x128.size a
  hwx1_9 : ∀ i : grid1.Coords, EltTy.bits .f32 = 32 ∨ (Rect.block (s := S128x128) S32x128.size (cc1_transform_9 i) (hinb1_9 i)).WholeWords (EltTy.packing .f32)

variable [Facts₀]

abbrev cc0_scratch3 : DmaSems sig S_ := SemArray.consecutive 0 S_ hcc0_scratch3
abbrev cc0_scratch4 : DmaSems sig S_ := SemArray.consecutive 1 S_ hcc0_scratch4
abbrev cc0_scratch5 : DmaSems sig S_ := SemArray.consecutive 2 S_ hcc0_scratch5
abbrev cc0_scratch6 : DmaSems sig S_ := SemArray.consecutive 3 S_ hcc0_scratch6
abbrev cc0_scratch7 : DmaSems sig S_ := SemArray.consecutive 4 S_ hcc0_scratch7
abbrev cc0_scratch8 : DmaSems sig S_ := SemArray.consecutive 5 S_ hcc0_scratch8
abbrev cc0_scratch9 : DmaSems sig S_ := SemArray.consecutive 6 S_ hcc0_scratch9
abbrev cc0_scratch10 : DmaSems sig S_ := SemArray.consecutive 7 S_ hcc0_scratch10
abbrev cc0_scoped0 : DmaSems sig S_ := SemArray.consecutive 8 S_ hcc0_scoped0
abbrev cc0_scoped1 : DmaSems sig S_ := SemArray.consecutive 9 S_ hcc0_scoped1
def dot_S4096x256_S256x512_S4096x512_1_0_0_1_n_n : DotDims S4096x256 S256x512 S4096x512 where
  lhsContracting := [1]
  rhsContracting := [0]
  lhsNonContracting := [0]
  rhsNonContracting := [1]
  lhsBatch := []
  rhsBatch := []
  wf := dot_S4096x256_S256x512_S4096x512_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S1x128_S4096x128_S1x4096_1_1_0_0_n_n : DotDims S1x128 S4096x128 S1x4096 where
  lhsContracting := [1]
  rhsContracting := [1]
  lhsNonContracting := [0]
  rhsNonContracting := [0]
  lhsBatch := []
  rhsBatch := []
  wf := dot_S1x128_S4096x128_S1x4096_1_1_0_0_n_n_wf

abbrev win1_0 : Pipeline.Window sig grid1 :=
  Pipeline.Window.ofSpec (Memref.whole main_v0) S4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S256x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S512x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S256x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v8) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg10) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v9) S1x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v10) S32x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S16384 : Shape := ⟨1, ![16384]⟩
abbrev S100000x128 : Shape := ⟨2, ![100000, 128]⟩
abbrev S512x256 : Shape := ⟨2, ![512, 256]⟩
abbrev S512 : Shape := ⟨1, ![512]⟩
abbrev S256x512 : Shape := ⟨2, ![256, 512]⟩
abbrev S256 : Shape := ⟨1, ![256]⟩
abbrev S128x256 : Shape := ⟨2, ![128, 256]⟩
abbrev S128 : Shape := ⟨1, ![128]⟩
abbrev S1x128 : Shape := ⟨2, ![1, 128]⟩
abbrev S1 : Shape := ⟨1, ![1]⟩
abbrev S_ : Shape := ⟨0, ![]⟩
abbrev S16384x1 : Shape := ⟨2, ![16384, 1]⟩
abbrev S1x1 : Shape := ⟨2, ![1, 1]⟩
abbrev S16384x128 : Shape := ⟨2, ![16384, 128]⟩
abbrev S16384x256 : Shape := ⟨2, ![16384, 256]⟩
abbrev S16384x512 : Shape := ⟨2, ![16384, 512]⟩
abbrev S1x512 : Shape := ⟨2, ![1, 512]⟩
abbrev S1x256 : Shape := ⟨2, ![1, 256]⟩
abbrev S256x128 : Shape := ⟨2, ![256, 128]⟩
abbrev S128x1 : Shape := ⟨2, ![128, 1]⟩

abbrev nBuf : Space → Nat
  | .hbm => 89
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S100000x128, .f32⟩
  | .hbm, ⟨3, _⟩ => ⟨S100000x128, .f32⟩
  | .hbm, ⟨4, _⟩ => ⟨S512x256, .f32⟩
  | .hbm, ⟨5, _⟩ => ⟨S512, .f32⟩
  | .hbm, ⟨6, _⟩ => ⟨S256x512, .f32⟩
  | .hbm, ⟨7, _⟩ => ⟨S256, .f32⟩
  | .hbm, ⟨8, _⟩ => ⟨S128x256, .f32⟩
  | .hbm, ⟨9, _⟩ => ⟨S128, .f32⟩
  | .hbm, ⟨10, _⟩ => ⟨S1x128, .f32⟩
  | .hbm, ⟨11, _⟩ => ⟨S1, .f32⟩
  | .hbm, ⟨12, _⟩ => ⟨S_, .i32⟩
  | .hbm, ⟨13, _⟩ => ⟨S16384, .i32⟩
  | .hbm, ⟨14, _⟩ => ⟨S16384, .i1⟩
  | .hbm, ⟨15, _⟩ => ⟨S_, .i32⟩
  | .hbm, ⟨16, _⟩ => ⟨S16384, .i32⟩
  | .hbm, ⟨17, _⟩ => ⟨S16384, .i32⟩
  | .hbm, ⟨18, _⟩ => ⟨S16384, .i32⟩
  | .hbm, ⟨19, _⟩ => ⟨S16384x1, .i32⟩
  | .hbm, ⟨20, _⟩ => ⟨S1, .i32⟩
  | .hbm, ⟨21, _⟩ => ⟨S_, .i32⟩
  | .hbm, ⟨22, _⟩ => ⟨S16384x1, .i32⟩
  | .hbm, ⟨23, _⟩ => ⟨S16384x1, .i1⟩
  | .hbm, ⟨24, _⟩ => ⟨S1x1, .i32⟩
  | .hbm, ⟨25, _⟩ => ⟨S16384x1, .i32⟩
  | .hbm, ⟨26, _⟩ => ⟨S16384x1, .i1⟩
  | .hbm, ⟨27, _⟩ => ⟨S16384x1, .i1⟩
  | .hbm, ⟨28, _⟩ => ⟨S_, .i1⟩
  | .hbm, ⟨29, _⟩ => ⟨S16384, .i1⟩
  | .hbm, ⟨30, _⟩ => ⟨S16384x128, .f32⟩
  | .hbm, ⟨31, _⟩ => ⟨S16384x128, .i1⟩
  | .hbm, ⟨32, _⟩ => ⟨S_, .f32⟩
  | .hbm, ⟨33, _⟩ => ⟨S16384x128, .f32⟩
  | .hbm, ⟨34, _⟩ => ⟨S16384x128, .f32⟩
  | .hbm, ⟨35, _⟩ => ⟨S_, .i32⟩
  | .hbm, ⟨36, _⟩ => ⟨S16384, .i32⟩
  | .hbm, ⟨37, _⟩ => ⟨S16384, .i1⟩
  | .hbm, ⟨38, _⟩ => ⟨S_, .i32⟩
  | .hbm, ⟨39, _⟩ => ⟨S16384, .i32⟩
  | .hbm, ⟨40, _⟩ => ⟨S16384, .i32⟩
  | .hbm, ⟨41, _⟩ => ⟨S16384, .i32⟩
  | .hbm, ⟨42, _⟩ => ⟨S16384x1, .i32⟩
  | .hbm, ⟨43, _⟩ => ⟨S1, .i32⟩
  | .hbm, ⟨44, _⟩ => ⟨S_, .i32⟩
  | .hbm, ⟨45, _⟩ => ⟨S16384x1, .i32⟩
  | .hbm, ⟨46, _⟩ => ⟨S16384x1, .i1⟩
  | .hbm, ⟨47, _⟩ => ⟨S1x1, .i32⟩
  | .hbm, ⟨48, _⟩ => ⟨S16384x1, .i32⟩
  | .hbm, ⟨49, _⟩ => ⟨S16384x1, .i1⟩
  | .hbm, ⟨50, _⟩ => ⟨S16384x1, .i1⟩
  | .hbm, ⟨51, _⟩ => ⟨S_, .i1⟩
  | .hbm, ⟨52, _⟩ => ⟨S16384, .i1⟩
  | .hbm, ⟨53, _⟩ => ⟨S16384x128, .f32⟩
  | .hbm, ⟨54, _⟩ => ⟨S16384x128, .i1⟩
  | .hbm, ⟨55, _⟩ => ⟨S_, .f32⟩
  | .hbm, ⟨56, _⟩ => ⟨S16384x128, .f32⟩
  | .hbm, ⟨57, _⟩ => ⟨S16384x128, .f32⟩
  | .hbm, ⟨58, _⟩ => ⟨S16384x256, .f32⟩
  | .hbm, ⟨59, _⟩ => ⟨S256x512, .f32⟩
  | .hbm, ⟨60, _⟩ => ⟨S16384x512, .f32⟩
  | .hbm, ⟨61, _⟩ => ⟨S1x512, .f32⟩
  | .hbm, ⟨62, _⟩ => ⟨S16384x512, .f32⟩
  | .hbm, ⟨63, _⟩ => ⟨S16384x512, .f32⟩
  | .hbm, ⟨64, _⟩ => ⟨S_, .f32⟩
  | .hbm, ⟨65, _⟩ => ⟨S16384x512, .f32⟩
  | .hbm, ⟨66, _⟩ => ⟨S16384x512, .f32⟩
  | .hbm, ⟨67, _⟩ => ⟨S512x256, .f32⟩
  | .hbm, ⟨68, _⟩ => ⟨S16384x256, .f32⟩
  | .hbm, ⟨69, _⟩ => ⟨S1x256, .f32⟩
  | .hbm, ⟨70, _⟩ => ⟨S16384x256, .f32⟩
  | .hbm, ⟨71, _⟩ => ⟨S16384x256, .f32⟩
  | .hbm, ⟨72, _⟩ => ⟨S_, .f32⟩
  | .hbm, ⟨73, _⟩ => ⟨S16384x256, .f32⟩
  | .hbm, ⟨74, _⟩ => ⟨S16384x256, .f32⟩
  | .hbm, ⟨75, _⟩ => ⟨S256x128, .f32⟩
  | .hbm, ⟨76, _⟩ => ⟨S16384x128, .f32⟩
  | .hbm, ⟨77, _⟩ => ⟨S1x128, .f32⟩
  | .hbm, ⟨78, _⟩ => ⟨S16384x128, .f32⟩
  | .hbm, ⟨79, _⟩ => ⟨S16384x128, .f32⟩
  | .hbm, ⟨80, _⟩ => ⟨S_, .f32⟩
  | .hbm, ⟨81, _⟩ => ⟨S16384x128, .f32⟩
  | .hbm, ⟨82, _⟩ => ⟨S16384x128, .f32⟩
  | .hbm, ⟨83, _⟩ => ⟨S128x1, .f32⟩
  | .hbm, ⟨84, _⟩ => ⟨S16384x1, .f32⟩
  | .hbm, ⟨85, _⟩ => ⟨S1x1, .f32⟩
  | .hbm, ⟨86, _⟩ => ⟨S16384x1, .f32⟩
  | .hbm, ⟨87, _⟩ => ⟨S16384x1, .f32⟩
  | .hbm, ⟨88, _⟩ => ⟨S16384, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v0 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v1 : Ref sig .tc := ⟨.hbm, 57, rfl⟩
abbrev main_v2 : Ref sig .tc := ⟨.hbm, 58, rfl⟩
abbrev main_v3 : Ref sig .tc := ⟨.hbm, 59, rfl⟩
abbrev main_v4 : Ref sig .tc := ⟨.hbm, 60, rfl⟩
abbrev main_v5 : Ref sig .tc := ⟨.hbm, 61, rfl⟩
abbrev main_v6 : Ref sig .tc := ⟨.hbm, 62, rfl⟩
abbrev main_v7 : Ref sig .tc := ⟨.hbm, 63, rfl⟩
abbrev main_call2_cst : Ref sig .tc := ⟨.hbm, 64, rfl⟩
abbrev main_call2_v0 : Ref sig .tc := ⟨.hbm, 65, rfl⟩
abbrev main_v8 : Ref sig .tc := ⟨.hbm, 66, rfl⟩
abbrev main_v9 : Ref sig .tc := ⟨.hbm, 67, rfl⟩
abbrev main_v10 : Ref sig .tc := ⟨.hbm, 68, rfl⟩
abbrev main_v11 : Ref sig .tc := ⟨.hbm, 69, rfl⟩
abbrev main_v12 : Ref sig .tc := ⟨.hbm, 70, rfl⟩
abbrev main_v13 : Ref sig .tc := ⟨.hbm, 71, rfl⟩
abbrev main_call3_cst : Ref sig .tc := ⟨.hbm, 72, rfl⟩
abbrev main_call3_v0 : Ref sig .tc := ⟨.hbm, 73, rfl⟩
abbrev main_v14 : Ref sig .tc := ⟨.hbm, 74, rfl⟩
abbrev main_v15 : Ref sig .tc := ⟨.hbm, 75, rfl⟩
abbrev main_v16 : Ref sig .tc := ⟨.hbm, 76, rfl⟩
abbrev main_v17 : Ref sig .tc := ⟨.hbm, 77, rfl⟩
abbrev main_v18 : Ref sig .tc := ⟨.hbm, 78, rfl⟩
abbrev main_v19 : Ref sig .tc := ⟨.hbm, 79, rfl⟩
abbrev main_call4_cst : Ref sig .tc := ⟨.hbm, 80, rfl⟩
abbrev main_call4_v0 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x128_0 : S16384.BroadcastsInDim S16384x128 (![0] : Fin 1 → Fin S16384x128.rank)
  bcast_S_S16384x128 : S_.BroadcastsInDim S16384x128 (![] : Fin 0 → Fin S16384x128.rank)
  concatenates_S16384x128_S16384x128_S16384x256_d1 : Shape.Concatenates [S16384x128, S16384x128] S16384x256 1
  transposes_S512x256_S256x512_1_0 : S512x256.Transposes [1, 0] S256x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  transposes_S256x512_S512x256_1_0 : S256x512.Transposes [1, 0] S512x256
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  transposes_S128x256_S256x128_1_0 : S128x256.Transposes [1, 0] S256x128
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  transposes_S1x128_S128x1_1_0 : S1x128.Transposes [1, 0] S128x1
  shapeCasts_S16384x1_S16384 : S16384x1.ShapeCasts S16384
  gather_S100000x128_S16384x1_S16384x128_1_0_n_n_0_1_1128_wf : GatherDims.WF S100000x128 S16384x1 S16384x128 [1] [0] [] [0] [] 1 ![1, 128]
  dot_S16384x256_S256x512_S16384x512_1_0_0_1_n_n_wf : DotDims.WF S16384x256 S256x512 S16384x512 [1] [0] [0] [1] [] []
  dot_S16384x512_S512x256_S16384x256_1_0_0_1_n_n_wf : DotDims.WF S16384x512 S512x256 S16384x256 [1] [0] [0] [1] [] []
  dot_S16384x256_S256x128_S16384x128_1_0_0_1_n_n_wf : DotDims.WF S16384x256 S256x128 S16384x128 [1] [0] [0] [1] [] []
  dot_S16384x128_S128x1_S16384x1_1_0_0_1_n_n_wf : DotDims.WF S16384x128 S128x1 S16384x1 [1] [0] [0] [1] [] []

variable [Facts₀]

def gather_S100000x128_S16384x1_S16384x128_1_0_n_n_0_1_1128 : GatherDims S100000x128 S16384x1 S16384x128 where
  offsetDims := [1]
  collapsedSliceDims := [0]
  operandBatchingDims := []
  startIndicesBatchingDims := []
  startIndexMap := [0]
  indexVectorDim := 1
  sliceSizes := ![1, 128]
  wf := gather_S100000x128_S16384x1_S16384x128_1_0_n_n_0_1_1128_wf
def dot_S16384x256_S256x512_S16384x512_1_0_0_1_n_n : DotDims S16384x256 S256x512 S16384x512 where
  lhsContracting := [1]
  rhsContracting := [0]
  lhsNonContracting := [0]
  rhsNonContracting := [1]
  lhsBatch := []
  rhsBatch := []
  wf := dot_S16384x256_S256x512_S16384x512_1_0_0_1_n_n_wf
def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def dot_S16384x128_S128x1_S16384x1_1_0_0_1_n_n : DotDims S16384x128 S128x1 S16384x1 where
  lhsContracting := [1]
  rhsContracting := [0]
  lhsNonContracting := [0]
  rhsNonContracting := [1]
  lhsBatch := []
  rhsBatch := []
  wf := dot_S16384x128_S128x1_S16384x1_1_0_0_1_n_n_wf

class Facts : Prop extends Facts₀ where

variable [Facts]
-- ==== Proof.Setup.lean ====
/-
  The program as the launch theorem sees it, and the ghost state of its proof.

  @main starts the gather on the two SparseCores' thirty-two tiles, waits for it, and then runs host operations and
  one TensorCore pipeline.  Three protocols meet in one proof, each with its own component of the ghost state: the
  launch handshakes between the TensorCore, the sequencers and the tiles (rounds indexed by the call), the tiles' own
  local copies (each waited for by the tile that issued it: plain counters, no schedule), and the TensorCore
  pipeline's staging cells (rounds with no index).
-/
import proofs.«201366_g32727650796262_cont_8to1_b_1271_35_alg».proof.Proof.Gen.KernelIdeal.Launch
import Idealize.ShloMosaic.Lib.SparseCore.Launch
import Idealize.ShloMosaic.Lib.Transfers
import Idealize.ShloMosaic.Lib.Pipeline.Kit
import Idealize.ShloMosaic.Lib.Pipeline.Regions

noncomputable section

namespace Cert.KernelIdeal.Launch

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.Sem
open Idealize.ShloMosaic.Rounds

variable {F : FTy → Type}

/-! ## The program -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: handshake rounds, pipeline rounds, transfer counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds: the left factor. -/
def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
/-- The pipeline's rounds: the middle factor. The counters are found by instance in the right. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

example : CountersIn UU := inferInstance

/-! ## The arrays the SparseCore call touches -/

abbrev uLoc (d : Dev nD) : Loc nD τ sig := (SparseCore.T d).loc main_arg0
abbrev vLoc (d : Dev nD) : Loc nD τ sig := (SparseCore.T d).loc main_arg1
abbrev utLoc (d : Dev nD) : Loc nD τ sig := (SparseCore.T d).loc main_arg2
abbrev itLoc (d : Dev nD) : Loc nD τ sig := (SparseCore.T d).loc main_arg3
abbrev xLoc (d : Dev nD) : Loc nD τ sig := (SparseCore.T d).loc main_v0

end Cert.KernelIdeal.Launch

end
-- ==== Proof.MainTail.lean ====
/-
  @main, read as the launch theorems want it.

  After the SparseCore call @main is a straight line on the TensorCore: nine host operations that lay the weights out
  for the kernel (three transposes, two of them followed by a change of float format; four reshapes of the biases to
  row form), the TensorCore pipeline, and the reshape of its `[128, 128]` result to `[16384]`.  None of it calls
  back into the SparseCore, so that line is a program of the pipeline's own signature, lifted.
-/
import proofs.«201366_g32727650796262_cont_8to1_b_1271_35_alg».proof.Proof.Setup
import Idealize.ShloMosaic.Lib.StableHlo.Run

noncomputable section

namespace Cert.KernelIdeal.Launch

open Cert.KernelIdeal Cert.KernelIdeal.Gen
open Idealize.ShloMosaic Idealize.SL.Sem

variable {F : FTy → Type} [FloatOps F]

/-- The host operations between the gather and the pipeline. -/
abbrev hostOpsA : List (HloOp τ sig (Elt F)) := [
  StableHlo.unary main_arg4 main_v1 ((transpose S256x512 [1, 0] · transposes_S512x256_S256x512_1_0) : (⟨S512x256, .f32⟩ : BufTy).Contents (Elt F) → (⟨S256x512, .f32⟩ : BufTy).Contents (Elt F)),
  StableHlo.unary main_v1 main_v2 ((truncf .bf16 · bitsLt_bf16_f32) : (⟨S256x512, .f32⟩ : BufTy).Contents (Elt F) → (⟨S256x512, .bf16⟩ : BufTy).Contents (Elt F)),
  StableHlo.reshape main_arg5 main_v3 rfl shapeCasts_S512_S1x512,
  StableHlo.unary main_arg6 main_v4 ((transpose S512x256 [1, 0] · transposes_S256x512_S512x256_1_0) : (⟨S256x512, .f32⟩ : BufTy).Contents (Elt F) → (⟨S512x256, .f32⟩ : BufTy).Contents (Elt F)),
  StableHlo.unary main_v4 main_v5 ((truncf .bf16 · bitsLt_bf16_f32) : (⟨S512x256, .f32⟩ : BufTy).Contents (Elt F) → (⟨S512x256, .bf16⟩ : BufTy).Contents (Elt F)),
  StableHlo.reshape main_arg7 main_v6 rfl shapeCasts_S256_S1x256,
  StableHlo.unary main_arg8 main_v7 ((transpose S256x128 [1, 0] · transposes_S128x256_S256x128_1_0) : (⟨S128x256, .f32⟩ : BufTy).Contents (Elt F) → (⟨S256x128, .f32⟩ : BufTy).Contents (Elt F)),
  StableHlo.reshape main_arg9 main_v8 rfl shapeCasts_S128_S1x128,
  StableHlo.reshape main_arg11 main_v9 rfl shapeCasts_S1_S1x1]

/-- The host operation after the pipeline. -/
abbrev hostOpsB : List (HloOp τ sig (Elt F)) := [
  StableHlo.reshape main_v10 main_v11 rfl shapeCasts_S128x128_S16384]

/-- @main after the SparseCore call, in the pipeline's signature: host line, region, host line. -/
def tail : Prog (TpuEff nD τ sig (Elt F) (ΛP (F := F)) .tc) PUnit :=
  StableHlo.seq hostOpsA >>= fun _ =>
    .op (.customCall (Pipeline.entry 0) ()) fun _ => StableHlo.seq hostOpsB >>= fun _ => .ret ⟨⟩

/-- @main is the SparseCore call followed by that line, lifted. -/
theorem main_eq (d : Dev nD) :
    main (F := F) d = ((K (F := F)).run d 0 >>= fun _ => SparseCore.liftProg (Q := 1) (tail (F := F))) := by
  simp only [main, tail, hostOpsA, hostOpsB, StableHlo.seq, Prog.lift, bind_assoc, pure_bind, Prog.bind_assoc, Prog.bind_op, Prog.bind_ret]
  rfl

end Cert.KernelIdeal.Launch

end
-- ==== Proof.Vals.lean ====
/-
  What the TensorCore's unscoped buffers hold between the items of @main.

  Five moments: at the launch (`V0`); after the SparseCore call, which changes the gathered array `main_v0` alone
  (`V1`, at contents `X`); after the nine host operations (`V2`); after the pipeline, which changes its result
  `main_v10` alone (`V3`, at contents `Y`); after the last reshape (`V4`).  No item writes an argument array: each
  reaches the end as launched.  The result `main_v11` ends at the reshape of `Y`.
-/
import proofs.«201366_g32727650796262_cont_8to1_b_1271_35_alg».proof.Proof.MainTail
import Idealize.ShloMosaic.Lib.Pipeline.Frame

noncomputable section

namespace Cert.KernelIdeal.Launch

open Cert.KernelIdeal Cert.KernelIdeal.Gen
open Idealize.ShloMosaic Idealize.ShloMosaic.TcCoe Idealize.SL.Sem

variable {F : FTy → Type} [FloatOps F]

variable (m : (ℓ : Loc nD τ sig) → Buf (Elt F) ℓ)
  (X : (c : Dev nD) → Buf (Elt F) ((c : Thread nD τ).loc main_v0))
  (Y : (c : Dev nD) → Buf (Elt F) ((c : Thread nD τ).loc main_v10))

/-- At the launch. -/
abbrev V0 (c : Dev nD) : Valuation τ sig (Elt F) := fun b => m (c, b)
/-- After the SparseCore call: the gathered array at `X`. -/
abbrev V1 (c : Dev nD) : Valuation τ sig (Elt F) := Function.update (V0 m c) main_v0 (X c)
/-- After the host operations that lay the weights out. -/
abbrev V2 (c : Dev nD) : Valuation τ sig (Elt F) := StableHlo.after hostOpsA (V1 m X c)
/-- After the pipeline: its result at `Y`. -/
abbrev V3 (c : Dev nD) : Valuation τ sig (Elt F) := Function.update (V2 m X c) main_v10 (Y c)
/-- After the last reshape. -/
abbrev V4 (c : Dev nD) : Valuation τ sig (Elt F) := StableHlo.after hostOpsB (V3 m X Y c)

/-! ## The host lines touch TensorCore buffers only, allocate nothing, and write these -/

theorem hostOpsA_sub : (hostOpsA : List (HloOp τ sig (Elt F))).Forall fun op => op.bufs ⊆ StableHlo.tcRefs τ sig := by
  simp only [List.Forall, StableHlo.unary_bufs_sub, StableHlo.reshape_bufs_sub, and_self]
theorem hostOpsB_sub : (hostOpsB : List (HloOp τ sig (Elt F))).Forall fun op => op.bufs ⊆ StableHlo.tcRefs τ sig := by
  simp only [List.Forall, StableHlo.unary_bufs_sub, StableHlo.reshape_bufs_sub, and_self]
theorem hostOpsA_fresh : (hostOpsA : List (HloOp τ sig (Elt F))).Forall fun op => op.fresh = ∅ := by
  simp only [List.Forall]; repeat' constructor
theorem hostOpsB_fresh : (hostOpsB : List (HloOp τ sig (Elt F))).Forall fun op => op.fresh = ∅ := by
  simp only [List.Forall]; repeat' constructor

abbrev hostOpsA_W : List (Ref sig .tc) := [main_v1, main_v2, main_v3, main_v4, main_v5, main_v6, main_v7, main_v8, main_v9]
abbrev hostOpsB_W : List (Ref sig .tc) := [main_v11]
theorem hostOpsA_writes : (hostOpsA : List (HloOp τ sig (Elt F))).Forall fun op => op.writes ⊆ (hostOpsA_W.map (Proc.devRef (τ := τ) .tc)).toFinset := by
  simp only [List.Forall, StableHlo.unary_writes, StableHlo.reshape_writes, Finset.singleton_subset_iff, List.mem_toFinset]
  refine ⟨?_, ?_, ?_, ?_, ?_, ?_, ?_, ?_, ?_⟩ <;> exact List.mem_map_of_mem (by decide)
theorem hostOpsB_writes : (hostOpsB : List (HloOp τ sig (Elt F))).Forall fun op => op.writes ⊆ (hostOpsB_W.map (Proc.devRef (τ := τ) .tc)).toFinset := by
  simp only [List.Forall, StableHlo.unary_writes, StableHlo.reshape_writes, Finset.singleton_subset_iff, List.mem_toFinset]
  exact List.mem_map_of_mem (by decide)

/-! ## What each item leaves alone

The SparseCore call and the pipeline each change one array; a host line changes the arrays its operations write. -/

/-- The SparseCore call changes `main_v0` alone. -/
theorem call_keeps (c : Dev nD) (r : Ref sig .tc) (h : r ≠ main_v0) : V1 m X c r = V0 m c r :=
  Function.update_of_ne (fun e => h (Proc.devRef_injective _ e)) _ _
/-- The first host line changes only the nine arrays it writes. -/
theorem hostA_keeps (c : Dev nD) (r : Ref sig .tc) (h : r ∉ hostOpsA_W) : V2 m X c r = V1 m X c r :=
  StableHlo.after_of_writes_sub hostOpsA _ hostOpsA_writes h
/-- The pipeline changes `main_v10` alone. -/
theorem pipeline_keeps (c : Dev nD) (r : Ref sig .tc) (h : r ≠ main_v10) : V3 m X Y c r = V2 m X c r :=
  Function.update_of_ne (fun e => h (Proc.devRef_injective _ e)) _ _
/-- The last host line changes `main_v11` alone. -/
theorem hostB_keeps (c : Dev nD) (r : Ref sig .tc) (h : r ∉ hostOpsB_W) : V4 m X Y c r = V3 m X Y c r :=
  StableHlo.after_of_writes_sub hostOpsB _ hostOpsB_writes h

/-! ## No item writes an argument -/

/-- `main_arg0` reaches the end as launched. -/
theorem V4_main_arg0 (c : Dev nD) : V4 m X Y c main_arg0 = m ((c : Thread nD τ).loc main_arg0) := by
  rw [hostB_keeps m X Y c main_arg0 (by decide), pipeline_keeps m X Y c main_arg0 (by decide), hostA_keeps m X c main_arg0 (by decide), call_keeps m X c main_arg0 (by decide)]
/-- `main_arg1` reaches the end as launched. -/
theorem V4_main_arg1 (c : Dev nD) : V4 m X Y c main_arg1 = m ((c : Thread nD τ).loc main_arg1) := by
  rw [hostB_keeps m X Y c main_arg1 (by decide), pipeline_keeps m X Y c main_arg1 (by decide), hostA_keeps m X c main_arg1 (by decide), call_keeps m X c main_arg1 (by decide)]
/-- `main_arg2` reaches the end as launched. -/
theorem V4_main_arg2 (c : Dev nD) : V4 m X Y c main_arg2 = m ((c : Thread nD τ).loc main_arg2) := by
  rw [hostB_keeps m X Y c main_arg2 (by decide), pipeline_keeps m X Y c main_arg2 (by decide), hostA_keeps m X c main_arg2 (by decide), call_keeps m X c main_arg2 (by decide)]
/-- `main_arg3` reaches the end as launched. -/
theorem V4_main_arg3 (c : Dev nD) : V4 m X Y c main_arg3 = m ((c : Thread nD τ).loc main_arg3) := by
  rw [hostB_keeps m X Y c main_arg3 (by decide), pipeline_keeps m X Y c main_arg3 (by decide), hostA_keeps m X c main_arg3 (by decide), call_keeps m X c main_arg3 (by decide)]
/-- `main_arg4` reaches the end as launched. -/
theorem V4_main_arg4 (c : Dev nD) : V4 m X Y c main_arg4 = m ((c : Thread nD τ).loc main_arg4) := by
  rw [hostB_keeps m X Y c main_arg4 (by decide), pipeline_keeps m X Y c main_arg4 (by decide), hostA_keeps m X c main_arg4 (by decide), call_keeps m X c main_arg4 (by decide)]
/-- `main_arg5` reaches the end as launched. -/
theorem V4_main_arg5 (c : Dev nD) : V4 m X Y c main_arg5 = m ((c : Thread nD τ).loc main_arg5) := by
  rw [hostB_keeps m X Y c main_arg5 (by decide), pipeline_keeps m X Y c main_arg5 (by decide), hostA_keeps m X c main_arg5 (by decide), call_keeps m X c main_arg5 (by decide)]
/-- `main_arg6` reaches the end as launched. -/
theorem V4_main_arg6 (c : Dev nD) : V4 m X Y c main_arg6 = m ((c : Thread nD τ).loc main_arg6) := by
  rw [hostB_keeps m X Y c main_arg6 (by decide), pipeline_keeps m X Y c main_arg6 (by decide), hostA_keeps m X c main_arg6 (by decide), call_keeps m X c main_arg6 (by decide)]
/-- `main_arg7` reaches the end as launched. -/
theorem V4_main_arg7 (c : Dev nD) : V4 m X Y c main_arg7 = m ((c : Thread nD τ).loc main_arg7) := by
  rw [hostB_keeps m X Y c main_arg7 (by decide), pipeline_keeps m X Y c main_arg7 (by decide), hostA_keeps m X c main_arg7 (by decide), call_keeps m X c main_arg7 (by decide)]
/-- `main_arg8` reaches the end as launched. -/
theorem V4_main_arg8 (c : Dev nD) : V4 m X Y c main_arg8 = m ((c : Thread nD τ).loc main_arg8) := by
  rw [hostB_keeps m X Y c main_arg8 (by decide), pipeline_keeps m X Y c main_arg8 (by decide), hostA_keeps m X c main_arg8 (by decide), call_keeps m X c main_arg8 (by decide)]
/-- `main_arg9` reaches the end as launched. -/
theorem V4_main_arg9 (c : Dev nD) : V4 m X Y c main_arg9 = m ((c : Thread nD τ).loc main_arg9) := by
  rw [hostB_keeps m X Y c main_arg9 (by decide), pipeline_keeps m X Y c main_arg9 (by decide), hostA_keeps m X c main_arg9 (by decide), call_keeps m X c main_arg9 (by decide)]
/-- `main_arg10` reaches the end as launched. -/
theorem V4_main_arg10 (c : Dev nD) : V4 m X Y c main_arg10 = m ((c : Thread nD τ).loc main_arg10) := by
  rw [hostB_keeps m X Y c main_arg10 (by decide), pipeline_keeps m X Y c main_arg10 (by decide), hostA_keeps m X c main_arg10 (by decide), call_keeps m X c main_arg10 (by decide)]
/-- `main_arg11` reaches the end as launched. -/
theorem V4_main_arg11 (c : Dev nD) : V4 m X Y c main_arg11 = m ((c : Thread nD τ).loc main_arg11) := by
  rw [hostB_keeps m X Y c main_arg11 (by decide), pipeline_keeps m X Y c main_arg11 (by decide), hostA_keeps m X c main_arg11 (by decide), call_keeps m X c main_arg11 (by decide)]

end Cert.KernelIdeal.Launch

end
-- ==== Proof.Main.lean ====
/-
  @main on the TensorCore.

  The TensorCore holds every unscoped buffer whole.  At the SparseCore call it hands over the five arrays the call
  touches — the two index arrays, the two tables, the gathered array — split among the SparseCores, and takes them
  back with the gathered array filled in.  The rest of @main is a straight line of the pipeline's own signature:
  it runs as a list of segments (host line, pipeline region, host line), each from the buffers' contents the one
  before it left.  The TensorCore owes nothing after its one call, so the region's waits meet no outstanding debt.
-/
import proofs.«201366_g32727650796262_cont_8to1_b_1271_35_alg».proof.Proof.Vals
import Idealize.ShloMosaic.Lib.SparseCore.Launch
import Idealize.ShloMosaic.Lib.Pipeline.Regions
import Idealize.ShloMosaic.Lib.Tactic

noncomputable section

namespace Cert.KernelIdeal.Launch

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr)
open Idealize.ShloMosaic.Pipeline (Dat Seg HostSeg RegionSeg ucRefs)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)
  (X : (c : Dev nD) → Buf (Elt F) ((c : Thread nD τ).loc main_v0))
  (Y : (c : Dev nD) → Buf (Elt F) ((c : Thread nD τ).loc main_v10))

/-- The prefetched tables' admissible contents: the pipeline has no table. -/
abbrev admP : (p : Fin 1) → (pcfgs (F := F) p).Adm := fun p => (cfgs p).toPCfg_adm

/-- The five arrays the SparseCore call touches. -/
abbrev S5 : Finset (DevRef τ sig) :=
  {(main_arg0 : DevRef τ sig), (main_arg1 : DevRef τ sig), (main_arg2 : DevRef τ sig), (main_arg3 : DevRef τ sig), (main_v0 : DevRef τ sig)}

theorem S5_sub : (S5 : Finset (DevRef τ sig)) ⊆ ucRefs τ sig := by decide

/-- The launch's unscoped buffers are the unscoped set held at the launch contents. -/
theorem launch_held (d : Dev nD) :
    (unscopedBufs d (fun b => m ((SparseCore.T d).loc b)) : sProp 𝕄) ⊢ held (SparseCore.T d) (ucRefs τ sig) (V0 m d) := by
  rw [← Pipeline.unscopedBufs_held (Ix := HIx 1) (Name := ℕ) (U := UU) (Lvl := ℕ) d (V0 m d)]

/-- What the SparseCore call leaves alone is held at the new contents as it was at the old. -/
theorem rest_after_call (d : Dev nD) :
    (held (SparseCore.T d) (ucRefs τ sig \ S5) (V0 m d) : sProp 𝕄) = held (SparseCore.T d) (ucRefs τ sig \ S5) (V1 m X d) :=
  held_congr (SparseCore.T d) fun b hb => by
    have hne : b ≠ (main_v0 : DevRef τ sig) := fun e => (Finset.mem_sdiff.mp hb).2 (by rw [e]; decide)
    exact (Function.update_of_ne hne _ _).symm

/-- The five arrays back from the call and the rest make the unscoped set whole again. -/
theorem held_after_call (d : Dev nD) :
    iprop((held (SparseCore.T d) S5 (V1 m X d) : sProp 𝕄) ∗ held (SparseCore.T d) (ucRefs τ sig \ S5) (V0 m d))
      ⊢ held (SparseCore.T d) (ucRefs τ sig) (V1 m X d) := by
  rw [rest_after_call, ← held_sub_split (SparseCore.T d) S5_sub (V1 m X d)]

/-- The TensorCore's handshake state after its one call, but for what it owes. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

/-- After its one call the TensorCore owes nothing. -/
theorem tcSt_one_eq (d : Dev nD) :
    ((K (F := F)).tcSt EH d 1 : sProp 𝕄)
      = iprop((∃ W, ⌜(K (F := F)).WBelow (SparseCore.T d) W (8 * 1)⌝ ∗ owes (SparseCore.T d) (0 : CellTallies nD τ sig (HIx 1)) W) ∗ tcRest (F := F) d) := by
  unfold SparseCore.Cfg.tcSt tcRest
  rw [(K (F := F)).Otc_end d le_rfl]

section Main

variable (P : (K (F := F)).Pay (nD := nD) (Val := Elt F) (Name := ℕ) (U := UU))
  (pdats : Waits sig (HIx 1) → (p : Fin 1) → (c : Dev nD) → Dat τ (Elt F) (HIx 1) ℕ UU ℕ (cfgs p) c)
  (R : (W : Waits sig (HIx 1)) → RegionSeg (pcfgs (F := F)) admP (pdats W) (none : HIx 1) defs₀ 𝒱₀ (K (F := F)).L (K (F := F)).lev 0)

/-- @main after the call as segments, at the wait set the TensorCore carries: the host line from the buffers as the
    call left them, the pipeline's region, the last reshape from the buffers as the region left them; the TensorCore's
    empty debt rides along. -/
def segs (W : Waits sig (HIx 1)) :
    List (Seg (pcfgs (F := F)) admP (pdats W) (none : HIx 1) defs₀ 𝒱₀ (K (F := F)).L (K (F := F)).lev) :=
  [.host (HostSeg.ofOps _ _ _ _ _ (ucRefs τ sig) hostOpsA
      (fun op h => Pipeline.sub_ucRefs op ((List.forall_iff_forall_mem.mp hostOpsA_sub) op h))
      (fun op h => (List.forall_iff_forall_mem.mp hostOpsA_fresh) op h) (V1 m X)
      (fun c => (owes (SparseCore.T c) (0 : CellTallies nD τ sig (HIx 1)) W : sProp 𝕄))),
   .region (R W),
   .host (HostSeg.ofOps _ _ _ _ _ (ucRefs τ sig) hostOpsB
      (fun op h => Pipeline.sub_ucRefs op ((List.forall_iff_forall_mem.mp hostOpsB_sub) op h))
      (fun op h => (List.forall_iff_forall_mem.mp hostOpsB_fresh) op h) (V3 m X Y)
      (fun c => (iprop(∃ W', ⌜∀ p ∈ W', p ∈ W ∨ p.2 = none⌝ ∗ owes (SparseCore.T c) (0 : CellTallies nD τ sig (HIx 1)) W') : sProp 𝕄)))]

theorem tail_eq (W : Waits sig (HIx 1)) : (tail (F := F)) = Seg.run (segs m X Y pdats R W) := rfl

theorem hmain
    (hst : ∀ d : Dev nD, (held (T d) S5 (V0 m d) : sProp 𝕄) ⊢ bigSep Finset.univ fun c : Fin ((K (F := F)).nCore 0) => P.st 0 d c)
    (hdn : ∀ d : Dev nD, (bigSep Finset.univ fun c : Fin ((K (F := F)).nCore 0) => P.dn 0 d c) ⊢ (held (T d) S5 (V1 m X d) : sProp 𝕄))
    (hpre : ∀ W (c : Dev nD), iprop((held (T c) (ucRefs τ sig) (V2 m X c) : sProp 𝕄) ∗ owes (T c) (0 : CellTallies nD τ sig (HIx 1)) W) ⊢ (R W).pre c)
    (hpost : ∀ W (c : Dev nD), (R W).post c ⊢ iprop((held (T c) (ucRefs τ sig) (V3 m X Y c) : sProp 𝕄)
        ∗ ∃ W', ⌜∀ p ∈ W', p ∈ W ∨ p.2 = none⌝ ∗ owes (T c) (0 : CellTallies nD τ sig (HIx 1)) W'))
    (κ : GSem nD τ sig → ℕ) (d : Dev nD) :
    iprop((K (F := F)).ctx EH P κ ∗ (K (F := F)).tcSt EH d 0 ∗ (K (F := F)).tcRes m ρ d
        ∗ Pipeline.ghostOn (pcfgs (F := F)) admP EP {0} d)
      ⊢ wp frame (wpE ((K (F := F)).defs (D (F := F))) 𝒱 (T d) none) Set.univ (main d)
          fun _ => iprop((K (F := F)).tcSt EH d 1 ∗ (held (T d) (ucRefs τ sig) (V4 m X Y d) : sProp 𝕄)) := by
  rw [main_eq, wp_bind]
  unfold SparseCore.Cfg.tcRes
  iintro ⟨#Hctx, Hst, ⟨Hbd, Hub, Hsems, Hprng⟩, Hg⟩
  ihave Hheld := (launch_held m d) $$ Hub
  ihave Hsp := (Entails.of_eq (held_sub_split (T d) S5_sub (V0 m d))) $$ Hheld
  icases Hsp with ⟨H5, Hrest⟩
  iapply ((K (F := F)).wp_run (D (F := F)) 𝒱 (EH := EH) (P := P) κ d 0) $$ [Hst H5 Hbd Hrest Hg]
  isplitr; · iexact Hctx
  isplitl [Hst]; · iexact Hst
  isplitl [H5]; · iapply (hst d); iexact H5
  iintro ⟨Hst, Hdn⟩
  ihave H5 := (hdn d) $$ Hdn
  ihave Hh1 := (held_after_call m X d) $$ [H5 Hrest]
  · isplitl [H5] <;> iassumption
  ihave Hst' := (Entails.of_eq (show ((K (F := F)).tcSt EH d ((0 : Fin 1).val + 1) : sProp 𝕄) = _ from tcSt_one_eq (F := F) d)) $$ Hst
  icases Hst' with ⟨⟨%W, %hW, HO⟩, Hrs⟩
  iapply ((K (F := F)).wp_liftProg (D (F := F)) 𝒱 (T d) Set.univ none (tail (F := F)) _)
  rw [tail_eq m X Y pdats R W]
  iapply (Pipeline.wp_segs (pcfgs (F := F)) admP (pdats W) (none : HIx 1) cellOf_inj EP defs₀ 𝒱₀ (K (F := F)).L (K (F := F)).lev d
    (segs m X Y pdats R W) {0}
    (fun c => iprop((held (T c) (ucRefs τ sig) (V1 m X c) : sProp 𝕄) ∗ owes (T c) (0 : CellTallies nD τ sig (HIx 1)) W))
    (fun c => iprop((held (T c) (ucRefs τ sig) (V4 m X Y c) : sProp 𝕄) ∗ ∃ W', ⌜∀ p ∈ W', p ∈ W ∨ p.2 = none⌝ ∗ owes (T c) (0 : CellTallies nD τ sig (HIx 1)) W'))
    (by rw [show Seg.pipes (segs m X Y pdats R W) = [(0 : Fin 1)] from rfl]; exact List.nodup_singleton _)
    (fun p _ => Finset.mem_singleton.mpr (Subsingleton.elim p 0))
    ⟨fun c => .rfl, fun c => hpre W c, fun c => hpost W c, fun c => .rfl⟩) $$ [Hbd Hg Hh1 HO Hrs]
  isplitl [Hrs]
  · iintro ⟨Hbd, Hh4, %W', %hW', HO'⟩
    rw [tcSt_one_eq (F := F) d]
    isplitr [Hh4]
    · isplitr [Hrs]
      · iexists W'
        isplitr
        · ipureintro
          exact fun p hp => (hW' p hp).elim (hW p) fun h => by rw [h]; exact Nat.zero_le _
        · iexact HO'
      · iexact Hrs
    · iexact Hh4
  isplitl [Hbd]; · iexact Hbd
  isplitl [Hh1 HO]
  · isplitl [Hh1] <;> iassumption
  isplitr [Hg]
  · iapply (SparseCore.Cfg.ctx_levAts κ); iexact Hctx
  · iexact Hg

end Main

end Cert.KernelIdeal.Launch

end
-- ==== Proof.ScSetup.lean ====
/-
  The launch-side names for the SparseCore gather kernel, and how a vector subcore's own storage opens.

  The kernel runs once on each vector subcore (tile) of the 2 × 16 grid. Every semaphore it uses is the
  tile's own and every copy it starts is local to the tile and awaited by the tile itself; no thread signals
  another. So no schedule is stated: the ghost state need only hold a copy of the exclusive counters that
  the local transfers' invariants are built from, beside whatever the handshakes of the launch use. The
  statements here are therefore over ANY ghost-state type `U` that contains such a copy (`CountersIn U`);
  `UU`, the handshakes' rounds beside the counters, is the smallest one that serves a launch.

  A tile owns ten DMA semaphores (two for the two synchronous index copies, four for the gathers into the
  four row buffers, four for the stores out of them) and three scratch buffers (the two index lists of 512
  words and the four row buffers of 128 × 128 words as one array). `ownSems0_V` and `ownBufs_V` name
  them inside the tile's scoped storage: the ten counters at zero and the rest, the three buffers at some
  contents and the rest.
-/
import proofs.«201366_g32727650796262_cont_8to1_b_1271_35_alg».proof.KernelIdeal
import proofs.«201366_g32727650796262_cont_8to1_b_1271_35_alg».proof.Proof.Gen.KernelIdeal
import Idealize.ShloMosaic.Lib.SparseCore.Launch
import Idealize.ShloMosaic.Lib.SparseCore.Ops
import Idealize.ShloMosaic.Lib.SparseCore.Stream
import Idealize.ShloMosaic.Lib.Pipeline.Kit
import Idealize.ShloMosaic.Lib.Tactic

noncomputable section

namespace Cert.KernelIdeal.ScSetup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The smallest ghost state that serves a launch: the handshakes' rounds beside the transfers' counters -/

abbrev UH : Type := URounds (GSem nD τ sig) ℕ
abbrev UU : Type := UH × Counters
abbrev EH : Emb UH (MT nD τ sig (HIx 1) (Elt F) ℕ UU ℕ) := embL

/-! ## The tile at a grid point -/

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl

/-- The grid point of core `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-! ## A tile's own semaphores and buffers, over any ghost state -/

variable {U : Type} [URA U]

local notation "𝕄" => MT nD τ sig (HIx 1) (Elt F) ℕ U ℕ

abbrev cell_scoped0 (d : Dev nD) (c : Fin τ.nSC) (i : Fin τ.nSub) : GSem nD τ sig := (V d c i, .dma cc0_scoped0.sem)
abbrev cell_scoped1 (d : Dev nD) (c : Fin τ.nSC) (i : Fin τ.nSub) : GSem nD τ sig := (V d c i, .dma cc0_scoped1.sem)
abbrev cell_scratch3 (d : Dev nD) (c : Fin τ.nSC) (i : Fin τ.nSub) : GSem nD τ sig := (V d c i, .dma cc0_scratch3.sem)
abbrev cell_scratch4 (d : Dev nD) (c : Fin τ.nSC) (i : Fin τ.nSub) : GSem nD τ sig := (V d c i, .dma cc0_scratch4.sem)
abbrev cell_scratch5 (d : Dev nD) (c : Fin τ.nSC) (i : Fin τ.nSub) : GSem nD τ sig := (V d c i, .dma cc0_scratch5.sem)
abbrev cell_scratch6 (d : Dev nD) (c : Fin τ.nSC) (i : Fin τ.nSub) : GSem nD τ sig := (V d c i, .dma cc0_scratch6.sem)
abbrev cell_scratch7 (d : Dev nD) (c : Fin τ.nSC) (i : Fin τ.nSub) : GSem nD τ sig := (V d c i, .dma cc0_scratch7.sem)
abbrev cell_scratch8 (d : Dev nD) (c : Fin τ.nSC) (i : Fin τ.nSub) : GSem nD τ sig := (V d c i, .dma cc0_scratch8.sem)
abbrev cell_scratch9 (d : Dev nD) (c : Fin τ.nSC) (i : Fin τ.nSub) : GSem nD τ sig := (V d c i, .dma cc0_scratch9.sem)
abbrev cell_scratch10 (d : Dev nD) (c : Fin τ.nSC) (i : Fin τ.nSub) : GSem nD τ sig := (V d c i, .dma cc0_scratch10.sem)

theorem cell_ne (d : Dev nD) (c : Fin τ.nSC) (i : Fin τ.nSub) {a b : DmaSem sig} (h : a ≠ b) :
    ((V d c i, SemLoc.dma a) : GSem nD τ sig) ≠ (V d c i, SemLoc.dma b) :=
  fun e => h (SemLoc.dma.inj (Prod.mk.inj e).2)

/-- The cells left once the ten the kernel uses are set aside. -/
abbrev restCells (d : Dev nD) (c : Fin τ.nSC) (i : Fin τ.nSub) : Finset (GSem nD τ sig) :=
  (((((((((((ownCells (V d c i)).erase (cell_scoped0 d c i)).erase (cell_scoped1 d c i)).erase (cell_scratch3 d c i)).erase (cell_scratch4 d c i)).erase (cell_scratch5 d c i)).erase (cell_scratch6 d c i)).erase (cell_scratch7 d c i)).erase (cell_scratch8 d c i)).erase (cell_scratch9 d c i)).erase (cell_scratch10 d c i))

/-- A tile's own counters at zero are the ten the kernel uses, at zero, and the rest. -/
theorem ownSems0_V (d : Dev nD) (c : Fin τ.nSC) (i : Fin τ.nSub) :
    (ownSems0 (V d c i) : sProp 𝕄)
      = iprop(semVal (cell_scoped0 d c i) 0 ∗ semVal (cell_scoped1 d c i) 0 ∗ semVal (cell_scratch3 d c i) 0 ∗ semVal (cell_scratch4 d c i) 0 ∗ semVal (cell_scratch5 d c i) 0 ∗ semVal (cell_scratch6 d c i) 0 ∗ semVal (cell_scratch7 d c i) 0 ∗ semVal (cell_scratch8 d c i) 0 ∗ semVal (cell_scratch9 d c i) 0 ∗ semVal (cell_scratch10 d c i) 0
          ∗ bigSep (restCells d c i) fun g => semVal g 0) := by
  unfold SparseCore.Cfg.ownSems0
  rw [
    SparseCore.bigSep_erase' ((mem_ownCells (g := cell_scoped0 d c i)).mpr ⟨rfl, by show (SemLoc.dma cc0_scoped0.sem : SemLoc sig).isScoped .scVector = true; decide⟩),
    SparseCore.bigSep_erase' (Finset.mem_erase.mpr ⟨cell_ne d c i (show cc0_scoped1.sem ≠ cc0_scoped0.sem by decide), (mem_ownCells (g := cell_scoped1 d c i)).mpr ⟨rfl, by show (SemLoc.dma cc0_scoped1.sem : SemLoc sig).isScoped .scVector = true; decide⟩⟩),
    SparseCore.bigSep_erase' (Finset.mem_erase.mpr ⟨cell_ne d c i (show cc0_scratch3.sem ≠ cc0_scoped1.sem by decide), Finset.mem_erase.mpr ⟨cell_ne d c i (show cc0_scratch3.sem ≠ cc0_scoped0.sem by decide), (mem_ownCells (g := cell_scratch3 d c i)).mpr ⟨rfl, by show (SemLoc.dma cc0_scratch3.sem : SemLoc sig).isScoped .scVector = true; decide⟩⟩⟩),
    SparseCore.bigSep_erase' (Finset.mem_erase.mpr ⟨cell_ne d c i (show cc0_scratch4.sem ≠ cc0_scratch3.sem by decide), Finset.mem_erase.mpr ⟨cell_ne d c i (show cc0_scratch4.sem ≠ cc0_scoped1.sem by decide), Finset.mem_erase.mpr ⟨cell_ne d c i (show cc0_scratch4.sem ≠ cc0_scoped0.sem by decide), (mem_ownCells (g := cell_scratch4 d c i)).mpr ⟨rfl, by show (SemLoc.dma cc0_scratch4.sem : SemLoc sig).isScoped .scVector = true; decide⟩⟩⟩⟩),
    SparseCore.bigSep_erase' (Finset.mem_erase.mpr ⟨cell_ne d c i (show cc0_scratch5.sem ≠ cc0_scratch4.sem by decide), Finset.mem_erase.mpr ⟨cell_ne d c i (show cc0_scratch5.sem ≠ cc0_scratch3.sem by decide), Finset.mem_erase.mpr ⟨cell_ne d c i (show cc0_scratch5.sem ≠ cc0_scoped1.sem by decide), Finset.mem_erase.mpr ⟨cell_ne d c i (show cc0_scratch5.sem ≠ cc0_scoped0.sem by decide), (mem_ownCells (g := cell_scratch5 d c i)).mpr ⟨rfl, by show (SemLoc.dma cc0_scratch5.sem : SemLoc sig).isScoped .scVector = true; decide⟩⟩⟩⟩⟩),
    SparseCore.bigSep_erase' (Finset.mem_erase.mpr ⟨cell_ne d c i (show cc0_scratch6.sem ≠ cc0_scratch5.sem by decide), Finset.mem_erase.mpr ⟨cell_ne d c i (show cc0_scratch6.sem ≠ cc0_scratch4.sem by decide), Finset.mem_erase.mpr ⟨cell_ne d c i (show cc0_scratch6.sem ≠ cc0_scratch3.sem by decide), Finset.mem_erase.mpr ⟨cell_ne d c i (show cc0_scratch6.sem ≠ cc0_scoped1.sem by decide), Finset.mem_erase.mpr ⟨cell_ne d c i (show cc0_scratch6.sem ≠ cc0_scoped0.sem by decide), (mem_ownCells (g := cell_scratch6 d c i)).mpr ⟨rfl, by show (SemLoc.dma cc0_scratch6.sem : SemLoc sig).isScoped .scVector = true; decide⟩⟩⟩⟩⟩⟩),
    SparseCore.bigSep_erase' (Finset.mem_erase.mpr ⟨cell_ne d c i (show cc0_scratch7.sem ≠ cc0_scratch6.sem by decide), Finset.mem_erase.mpr ⟨cell_ne d c i (show cc0_scratch7.sem ≠ cc0_scratch5.sem by decide), Finset.mem_erase.mpr ⟨cell_ne d c i (show cc0_scratch7.sem ≠ cc0_scratch4.sem by decide), Finset.mem_erase.mpr ⟨cell_ne d c i (show cc0_scratch7.sem ≠ cc0_scratch3.sem by decide), Finset.mem_erase.mpr ⟨cell_ne d c i (show cc0_scratch7.sem ≠ cc0_scoped1.sem by decide), Finset.mem_erase.mpr ⟨cell_ne d c i (show cc0_scratch7.sem ≠ cc0_scoped0.sem by decide), (mem_ownCells (g := cell_scratch7 d c i)).mpr ⟨rfl, by show (SemLoc.dma cc0_scratch7.sem : SemLoc sig).isScoped .scVector = true; decide⟩⟩⟩⟩⟩⟩⟩),
    SparseCore.bigSep_erase' (Finset.mem_erase.mpr ⟨cell_ne d c i (show cc0_scratch8.sem ≠ cc0_scratch7.sem by decide), Finset.mem_erase.mpr ⟨cell_ne d c i (show cc0_scratch8.sem ≠ cc0_scratch6.sem by decide), Finset.mem_erase.mpr ⟨cell_ne d c i (show cc0_scratch8.sem ≠ cc0_scratch5.sem by decide), Finset.mem_erase.mpr ⟨cell_ne d c i (show cc0_scratch8.sem ≠ cc0_scratch4.sem by decide), Finset.mem_erase.mpr ⟨cell_ne d c i (show cc0_scratch8.sem ≠ cc0_scratch3.sem by decide), Finset.mem_erase.mpr ⟨cell_ne d c i (show cc0_scratch8.sem ≠ cc0_scoped1.sem by decide), Finset.mem_erase.mpr ⟨cell_ne d c i (show cc0_scratch8.sem ≠ cc0_scoped0.sem by decide), (mem_ownCells (g := cell_scratch8 d c i)).mpr ⟨rfl, by show (SemLoc.dma cc0_scratch8.sem : SemLoc sig).isScoped .scVector = true; decide⟩⟩⟩⟩⟩⟩⟩⟩),
    SparseCore.bigSep_erase' (Finset.mem_erase.mpr ⟨cell_ne d c i (show cc0_scratch9.sem ≠ cc0_scratch8.sem by decide), Finset.mem_erase.mpr ⟨cell_ne d c i (show cc0_scratch9.sem ≠ cc0_scratch7.sem by decide), Finset.mem_erase.mpr ⟨cell_ne d c i (show cc0_scratch9.sem ≠ cc0_scratch6.sem by decide), Finset.mem_erase.mpr ⟨cell_ne d c i (show cc0_scratch9.sem ≠ cc0_scratch5.sem by decide), Finset.mem_erase.mpr ⟨cell_ne d c i (show cc0_scratch9.sem ≠ cc0_scratch4.sem by decide), Finset.mem_erase.mpr ⟨cell_ne d c i (show cc0_scratch9.sem ≠ cc0_scratch3.sem by decide), Finset.mem_erase.mpr ⟨cell_ne d c i (show cc0_scratch9.sem ≠ cc0_scoped1.sem by decide), Finset.mem_erase.mpr ⟨cell_ne d c i (show cc0_scratch9.sem ≠ cc0_scoped0.sem by decide), (mem_ownCells (g := cell_scratch9 d c i)).mpr ⟨rfl, by show (SemLoc.dma cc0_scratch9.sem : SemLoc sig).isScoped .scVector = true; decide⟩⟩⟩⟩⟩⟩⟩⟩⟩),
    SparseCore.bigSep_erase' (Finset.mem_erase.mpr ⟨cell_ne d c i (show cc0_scratch10.sem ≠ cc0_scratch9.sem by decide), Finset.mem_erase.mpr ⟨cell_ne d c i (show cc0_scratch10.sem ≠ cc0_scratch8.sem by decide), Finset.mem_erase.mpr ⟨cell_ne d c i (show cc0_scratch10.sem ≠ cc0_scratch7.sem by decide), Finset.mem_erase.mpr ⟨cell_ne d c i (show cc0_scratch10.sem ≠ cc0_scratch6.sem by decide), Finset.mem_erase.mpr ⟨cell_ne d c i (show cc0_scratch10.sem ≠ cc0_scratch5.sem by decide), Finset.mem_erase.mpr ⟨cell_ne d c i (show cc0_scratch10.sem ≠ cc0_scratch4.sem by decide), Finset.mem_erase.mpr ⟨cell_ne d c i (show cc0_scratch10.sem ≠ cc0_scratch3.sem by decide), Finset.mem_erase.mpr ⟨cell_ne d c i (show cc0_scratch10.sem ≠ cc0_scoped1.sem by decide), Finset.mem_erase.mpr ⟨cell_ne d c i (show cc0_scratch10.sem ≠ cc0_scoped0.sem by decide), (mem_ownCells (g := cell_scratch10 d c i)).mpr ⟨rfl, by show (SemLoc.dma cc0_scratch10.sem : SemLoc sig).isScoped .scVector = true; decide⟩⟩⟩⟩⟩⟩⟩⟩⟩⟩)]

/-- The buffers left once the three scratches are set aside. -/
abbrev restRefs (c : Fin τ.nSC) (i : Fin τ.nSub) : Finset (DevRef τ sig) :=
  (((ownRefs (τ := τ) (.scVector c i)).erase ((Proc.scVector c i).devRef cc0_scratch0)).erase ((Proc.scVector c i).devRef cc0_scratch1)).erase
    ((Proc.scVector c i).devRef cc0_scratch2)

/-- A tile's own buffers are the two index lists and the row buffers, each at some contents, and the rest. -/
theorem ownBufs_V (d : Dev nD) (c : Fin τ.nSC) (i : Fin τ.nSub) :
    (ownBufs (V d c i) : sProp 𝕄)
      = iprop((∃ f, (V d c i).loc cc0_scratch0 ↦{fullShare} f) ∗ (∃ f, (V d c i).loc cc0_scratch1 ↦{fullShare} f)
          ∗ (∃ f, (V d c i).loc cc0_scratch2 ↦{fullShare} f)
          ∗ bigSep (restRefs c i) fun b => iprop(∃ f, ((d, b) : Loc nD τ sig) ↦{fullShare} f)) := by
  unfold SparseCore.Cfg.ownBufs
  refine (SparseCore.bigSep_erase' (SparseCore.Cfg.mem_ownRefs_of_owner (p := Proc.scVector c i)
    (b := (Proc.scVector c i).devRef cc0_scratch0) rfl)).trans ?_
  rw [SparseCore.bigSep_erase' (Finset.mem_erase.mpr ⟨fun e => absurd (Proc.devRef_injective _ e) (show (cc0_scratch1 : Ref sig .scVector) ≠ cc0_scratch0 by decide),
      SparseCore.Cfg.mem_ownRefs_of_owner (p := Proc.scVector c i) (b := (Proc.scVector c i).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
        SparseCore.Cfg.mem_ownRefs_of_owner (p := Proc.scVector c i) (b := (Proc.scVector c i).devRef cc0_scratch2) rfl⟩⟩)]

end Cert.KernelIdeal.ScSetup

end
-- ==== Proof.ScTileDefs.lean ====
/-
  The gather kernel on one vector subcore (tile): the names its obligation is stated over.

  The tile at grid point (core, subcore) works on the 512 batch rows `[base, base + 512)`,
  `base = 1024 · subcore + 512 · core`. It reads its 512 words of the user and of the item index array, and for each
  of the four chunks of 128 words writes two blocks of the output: rows `[base + 128 j, base + 128 j + 128)`,
  columns `[0, 128)` from the user table and columns `[128, 256)` from the item table. Row `ρ` of a block is the
  table's row whose number is word `ρ` of the chunk (`blockPay`, read at an index by `blockPay_apply`).

  What the tile is handed and hands back is stated here so that the launch can deal it out: a read share of each of
  the four input arrays, whole, at the launch contents (`inputs`), and full ownership of the eight output blocks,
  each held on exactly the elements of the slice the program addresses it by (`blocksIn`, `blocksOut`). Every word
  of either index array must name a row of its table (`PreOK`): the gathers are served entry by entry, and an entry
  out of range would never be served.
-/
import proofs.«201366_g32727650796262_cont_8to1_b_1271_35_alg».proof.Proof.ScSetup
import Idealize.ShloMosaic.Lib.ValueIdx

noncomputable section

namespace Cert.KernelIdeal.ScTile

open Cert.KernelIdeal Cert.KernelIdeal.Gen Cert.KernelIdeal.ScSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable {U : Type} [URA U] [CountersIn U]

local notation "𝕄" => MT nD τ sig (HIx 1) (Elt F) ℕ U ℕ

local notation "uiV" => (Memref.whole Cert.KernelIdeal.main_arg0_scv : Memref Cert.KernelIdeal.sig Kind.scVector Space.hbm Cert.KernelIdeal.S16384 EltTy.i32)
local notation "iiV" => (Memref.whole Cert.KernelIdeal.main_arg1_scv : Memref Cert.KernelIdeal.sig Kind.scVector Space.hbm Cert.KernelIdeal.S16384 EltTy.i32)
local notation "utV" => (Memref.whole Cert.KernelIdeal.main_arg2_scv : Memref Cert.KernelIdeal.sig Kind.scVector Space.hbm Cert.KernelIdeal.S100000x128 EltTy.f32)
local notation "itV" => (Memref.whole Cert.KernelIdeal.main_arg3_scv : Memref Cert.KernelIdeal.sig Kind.scVector Space.hbm Cert.KernelIdeal.S100000x128 EltTy.f32)
local notation "oV" => (Memref.whole Cert.KernelIdeal.main_v0_scv : Memref Cert.KernelIdeal.sig Kind.scVector Space.hbm Cert.KernelIdeal.S16384x256 EltTy.f32)
local notation "usV" => (Memref.whole Cert.KernelIdeal.cc0_scratch0 : Memref Cert.KernelIdeal.sig Kind.scVector Space.vmem Cert.KernelIdeal.S512 EltTy.i32)
local notation "isV" => (Memref.whole Cert.KernelIdeal.cc0_scratch1 : Memref Cert.KernelIdeal.sig Kind.scVector Space.vmem Cert.KernelIdeal.S512 EltTy.i32)
local notation "bV" => (Memref.whole Cert.KernelIdeal.cc0_scratch2 : Memref Cert.KernelIdeal.sig Kind.scVector Space.vmem Cert.KernelIdeal.S4x128x128 EltTy.f32)

/-! ## The launch memory and the arrays -/

variable (m : (ℓ : Loc nD τ sig) → Buf (Elt F) ℓ)

abbrev uiLoc (d : Dev nD) : Loc nD τ sig := (SparseCore.T d).loc main_arg0
abbrev iiLoc (d : Dev nD) : Loc nD τ sig := (SparseCore.T d).loc main_arg1
abbrev utLoc (d : Dev nD) : Loc nD τ sig := (SparseCore.T d).loc main_arg2
abbrev itLoc (d : Dev nD) : Loc nD τ sig := (SparseCore.T d).loc main_arg3
abbrev oLoc (d : Dev nD) : Loc nD τ sig := (SparseCore.T d).loc main_v0

/-- What the proof asks of the launch memory: every word of either index array names a row of its table. -/
def PreOK : Prop := ∀ (d : Dev nD) (j : S16384.Idx), (m (uiLoc d) j).toNat < 100000 ∧ (m (iiLoc d) j).toNat < 100000

/-! ## The tile's views, spelt as the program slices them -/

section Views

variable (L : grid0.Coords)

/-- The tile's 512 words of the user and of the item index array: words `[base, base + 512)`. -/
abbrev uiS : Memref sig .scVector .hbm S512 .i32 := (uiV).slice (Rect.unit (s := S16384) (k0_off1 L) S512.size (k0_off1_inb L)) (fun _ => rfl)
abbrev iiS : Memref sig .scVector .hbm S512 .i32 := (iiV).slice (Rect.unit (s := S16384) (k0_off1 L) S512.size (k0_off1_inb L)) (fun _ => rfl)
/-- The two tables, whole, as the gathers address them. -/
abbrev utS : Memref sig .scVector .hbm S100000x128 .f32 := (utV).slice (Rect.unit (s := S100000x128) ![0, 0] S100000x128.size inb_S100000x128_S100000x128_0_0) (fun _ => rfl)
abbrev itS : Memref sig .scVector .hbm S100000x128 .f32 := (itV).slice (Rect.unit (s := S100000x128) ![0, 0] S100000x128.size inb_S100000x128_S100000x128_0_0) (fun _ => rfl)
/-- Chunk 0 (words `[0, 128)`) of a 512-word index list. -/
abbrev chunk0 : Rect S512 := Rect.unit (s := S512) ![0] S128.size inb_S512_S128_0
abbrev usC0 : Memref sig .scVector .vmem S128 .i32 := (usV).slice chunk0 (fun _ => rfl)
abbrev isC0 : Memref sig .scVector .vmem S128 .i32 := (isV).slice chunk0 (fun _ => rfl)
/-- Row buffer 0: plane 0 of the `[4, 128, 128]` scratch, squeezed. -/
abbrev buf0 : Memref sig .scVector .vmem S128x128 .f32 :=
  ((bV).slice (Rect.unit (s := S4x128x128) ![0, 0, 0] S1x128x128.size inb_S4x128x128_S1x128x128_0_0_0) (fun _ => rfl)).squeeze S128x128 squeezes_S1x128x128_S128x128
/-- Output block (user half, chunk 0): rows `[base + 0, base + 128)`, columns `[0, 128)`. -/
abbrev oU0 : Memref sig .scVector .hbm S128x128 .f32 := (oV).slice (Rect.unit (s := S16384x256) (k0_off2 L 0#32) S128x128.size (k0_off2_inb L 0)) (fun _ => rfl)
/-- Output block (item half, chunk 0): the same rows, columns `[128, 256)`. -/
abbrev oI0 : Memref sig .scVector .hbm S128x128 .f32 := (oV).slice (Rect.unit (s := S16384x256) (k0_off3 L 0#32) S128x128.size (k0_off3_inb L 0)) (fun _ => rfl)
/-- Chunk 1 (words `[128, 256)`) of a 512-word index list. -/
abbrev chunk1 : Rect S512 := Rect.unit (s := S512) ![128] S128.size inb_S512_S128_128
abbrev usC1 : Memref sig .scVector .vmem S128 .i32 := (usV).slice chunk1 (fun _ => rfl)
abbrev isC1 : Memref sig .scVector .vmem S128 .i32 := (isV).slice chunk1 (fun _ => rfl)
/-- Row buffer 1: plane 1 of the `[4, 128, 128]` scratch, squeezed. -/
abbrev buf1 : Memref sig .scVector .vmem S128x128 .f32 :=
  ((bV).slice (Rect.unit (s := S4x128x128) ![1, 0, 0] S1x128x128.size inb_S4x128x128_S1x128x128_1_0_0) (fun _ => rfl)).squeeze S128x128 squeezes_S1x128x128_S128x128
/-- Output block (user half, chunk 1): rows `[base + 128, base + 256)`, columns `[0, 128)`. -/
abbrev oU1 : Memref sig .scVector .hbm S128x128 .f32 := (oV).slice (Rect.unit (s := S16384x256) (k0_off2 L 128#32) S128x128.size (k0_off2_inb L 1)) (fun _ => rfl)
/-- Output block (item half, chunk 1): the same rows, columns `[128, 256)`. -/
abbrev oI1 : Memref sig .scVector .hbm S128x128 .f32 := (oV).slice (Rect.unit (s := S16384x256) (k0_off3 L 128#32) S128x128.size (k0_off3_inb L 1)) (fun _ => rfl)
/-- Chunk 2 (words `[256, 384)`) of a 512-word index list. -/
abbrev chunk2 : Rect S512 := Rect.unit (s := S512) ![256] S128.size inb_S512_S128_256
abbrev usC2 : Memref sig .scVector .vmem S128 .i32 := (usV).slice chunk2 (fun _ => rfl)
abbrev isC2 : Memref sig .scVector .vmem S128 .i32 := (isV).slice chunk2 (fun _ => rfl)
/-- Row buffer 2: plane 2 of the `[4, 128, 128]` scratch, squeezed. -/
abbrev buf2 : Memref sig .scVector .vmem S128x128 .f32 :=
  ((bV).slice (Rect.unit (s := S4x128x128) ![2, 0, 0] S1x128x128.size inb_S4x128x128_S1x128x128_2_0_0) (fun _ => rfl)).squeeze S128x128 squeezes_S1x128x128_S128x128
/-- Output block (user half, chunk 2): rows `[base + 256, base + 384)`, columns `[0, 128)`. -/
abbrev oU2 : Memref sig .scVector .hbm S128x128 .f32 := (oV).slice (Rect.unit (s := S16384x256) (k0_off2 L 256#32) S128x128.size (k0_off2_inb L 2)) (fun _ => rfl)
/-- Output block (item half, chunk 2): the same rows, columns `[128, 256)`. -/
abbrev oI2 : Memref sig .scVector .hbm S128x128 .f32 := (oV).slice (Rect.unit (s := S16384x256) (k0_off3 L 256#32) S128x128.size (k0_off3_inb L 2)) (fun _ => rfl)
/-- Chunk 3 (words `[384, 512)`) of a 512-word index list. -/
abbrev chunk3 : Rect S512 := Rect.unit (s := S512) ![384] S128.size inb_S512_S128_384
abbrev usC3 : Memref sig .scVector .vmem S128 .i32 := (usV).slice chunk3 (fun _ => rfl)
abbrev isC3 : Memref sig .scVector .vmem S128 .i32 := (isV).slice chunk3 (fun _ => rfl)
/-- Row buffer 3: plane 3 of the `[4, 128, 128]` scratch, squeezed. -/
abbrev buf3 : Memref sig .scVector .vmem S128x128 .f32 :=
  ((bV).slice (Rect.unit (s := S4x128x128) ![3, 0, 0] S1x128x128.size inb_S4x128x128_S1x128x128_3_0_0) (fun _ => rfl)).squeeze S128x128 squeezes_S1x128x128_S128x128
/-- Output block (user half, chunk 3): rows `[base + 384, base + 512)`, columns `[0, 128)`. -/
abbrev oU3 : Memref sig .scVector .hbm S128x128 .f32 := (oV).slice (Rect.unit (s := S16384x256) (k0_off2 L 384#32) S128x128.size (k0_off2_inb L 3)) (fun _ => rfl)
/-- Output block (item half, chunk 3): the same rows, columns `[128, 256)`. -/
abbrev oI3 : Memref sig .scVector .hbm S128x128 .f32 := (oV).slice (Rect.unit (s := S16384x256) (k0_off3 L 384#32) S128x128.size (k0_off3_inb L 3)) (fun _ => rfl)

end Views

/-! ## What the tile leaves in its output blocks -/

section Payload

variable (d : Dev nD) (L : grid0.Coords)

/-- The offset lists as launched: chunk `j` of the tile's 512 words of the user (item) index array. -/
abbrev uLst0 : S128.Idx → Elt F .i32 := ((uiS L).slice chunk0 (fun _ => rfl)).view.read (Elt F) (m (uiLoc d))
abbrev iLst0 : S128.Idx → Elt F .i32 := ((iiS L).slice chunk0 (fun _ => rfl)).view.read (Elt F) (m (iiLoc d))
abbrev uLst1 : S128.Idx → Elt F .i32 := ((uiS L).slice chunk1 (fun _ => rfl)).view.read (Elt F) (m (uiLoc d))
abbrev iLst1 : S128.Idx → Elt F .i32 := ((iiS L).slice chunk1 (fun _ => rfl)).view.read (Elt F) (m (iiLoc d))
abbrev uLst2 : S128.Idx → Elt F .i32 := ((uiS L).slice chunk2 (fun _ => rfl)).view.read (Elt F) (m (uiLoc d))
abbrev iLst2 : S128.Idx → Elt F .i32 := ((iiS L).slice chunk2 (fun _ => rfl)).view.read (Elt F) (m (iiLoc d))
abbrev uLst3 : S128.Idx → Elt F .i32 := ((uiS L).slice chunk3 (fun _ => rfl)).view.read (Elt F) (m (uiLoc d))
abbrev iLst3 : S128.Idx → Elt F .i32 := ((iiS L).slice chunk3 (fun _ => rfl)).view.read (Elt F) (m (iiLoc d))

/-- The tables as launched. -/
abbrev uTab : S100000x128.Idx → Elt F .f32 := (utS).view.read (Elt F) (m (utLoc d))
abbrev iTab : S100000x128.Idx → Elt F .f32 := (itS).view.read (Elt F) (m (itLoc d))

/-- A gathered block: row `ρ` of the block is the table's row named by word `ρ` of the list. -/
abbrev blockPay (tab : S100000x128.Idx → Elt F .f32) (lst : S128.Idx → Elt F .i32)
    (hin : ∀ x, (lst x).toNat < S100000x128.size gathers_S100000x128_S128x128.axis) : S128x128.Idx → Elt F .f32 :=
  SparseCore.gatherPayload gathers_S100000x128_S128x128 tab (SparseCore.rows lst (rfl : S128.numel = S128x128.size gathers_S100000x128_S128x128.axis') hin)

end Payload

/-! ## A gathered block read at an index -/

section PayApply

open Idealize.ShloMosaic.ValueIdx

/-- Row `ρ`, column `κ` of a gathered block is the table at the row that word `ρ` of the list names, column `κ`. -/
theorem blockPay_apply (tab : S100000x128.Idx → Elt F .f32) (lst : S128.Idx → Elt F .i32)
    (hin : ∀ x, (lst x).toNat < S100000x128.size gathers_S100000x128_S128x128.axis) (ρ κ : Fin 128) :
    blockPay tab lst hin (ix2 ρ κ) = tab (ix2 ⟨(lst (ix1 ρ)).toNat, hin (ix1 ρ)⟩ κ) := by
  show tab (gathers_S100000x128_S128x128.idx _ (ix2 ρ κ)) = _
  congr 1
  funext b
  match b with
  | ⟨0, _⟩ =>
    apply Fin.ext
    show (lst (S128.rowMajor.symm _)).toNat = (lst (ix1 ρ)).toNat
    congr 2
    apply S128.rowMajor.injective
    rw [Equiv.apply_symm_apply]
    apply Fin.ext
    rw [Shape.rowMajor_val_one]
    rfl
  | ⟨1, _⟩ => rfl

end PayApply

/-! ## The offsets are in range -/

section InRange

variable (d : Dev nD) (L : grid0.Coords)

theorem uLst0_inb (hpre : PreOK m) : ∀ x, (uLst0 m d L x).toNat < S100000x128.size gathers_S100000x128_S128x128.axis := by
  intro x
  have e : uLst0 m d L x = m (uiLoc d) (((uiS L).slice chunk0 (fun _ => rfl)).view.emb x) := (View.read_apply _ _).trans (cast_eq _ _)
  rw [e]; exact (hpre d _).1
theorem iLst0_inb (hpre : PreOK m) : ∀ x, (iLst0 m d L x).toNat < S100000x128.size gathers_S100000x128_S128x128.axis := by
  intro x
  have e : iLst0 m d L x = m (iiLoc d) (((iiS L).slice chunk0 (fun _ => rfl)).view.emb x) := (View.read_apply _ _).trans (cast_eq _ _)
  rw [e]; exact (hpre d _).2

theorem uLst1_inb (hpre : PreOK m) : ∀ x, (uLst1 m d L x).toNat < S100000x128.size gathers_S100000x128_S128x128.axis := by
  intro x
  have e : uLst1 m d L x = m (uiLoc d) (((uiS L).slice chunk1 (fun _ => rfl)).view.emb x) := (View.read_apply _ _).trans (cast_eq _ _)
  rw [e]; exact (hpre d _).1
theorem iLst1_inb (hpre : PreOK m) : ∀ x, (iLst1 m d L x).toNat < S100000x128.size gathers_S100000x128_S128x128.axis := by
  intro x
  have e : iLst1 m d L x = m (iiLoc d) (((iiS L).slice chunk1 (fun _ => rfl)).view.emb x) := (View.read_apply _ _).trans (cast_eq _ _)
  rw [e]; exact (hpre d _).2

theorem uLst2_inb (hpre : PreOK m) : ∀ x, (uLst2 m d L x).toNat < S100000x128.size gathers_S100000x128_S128x128.axis := by
  intro x
  have e : uLst2 m d L x = m (uiLoc d) (((uiS L).slice chunk2 (fun _ => rfl)).view.emb x) := (View.read_apply _ _).trans (cast_eq _ _)
  rw [e]; exact (hpre d _).1
theorem iLst2_inb (hpre : PreOK m) : ∀ x, (iLst2 m d L x).toNat < S100000x128.size gathers_S100000x128_S128x128.axis := by
  intro x
  have e : iLst2 m d L x = m (iiLoc d) (((iiS L).slice chunk2 (fun _ => rfl)).view.emb x) := (View.read_apply _ _).trans (cast_eq _ _)
  rw [e]; exact (hpre d _).2

theorem uLst3_inb (hpre : PreOK m) : ∀ x, (uLst3 m d L x).toNat < S100000x128.size gathers_S100000x128_S128x128.axis := by
  intro x
  have e : uLst3 m d L x = m (uiLoc d) (((uiS L).slice chunk3 (fun _ => rfl)).view.emb x) := (View.read_apply _ _).trans (cast_eq _ _)
  rw [e]; exact (hpre d _).1
theorem iLst3_inb (hpre : PreOK m) : ∀ x, (iLst3 m d L x).toNat < S100000x128.size gathers_S100000x128_S128x128.axis := by
  intro x
  have e : iLst3 m d L x = m (iiLoc d) (((iiS L).slice chunk3 (fun _ => rfl)).view.emb x) := (View.read_apply _ _).trans (cast_eq _ _)
  rw [e]; exact (hpre d _).2

end InRange

/-! ## What the two synchronous copies leave in the index scratches -/

section Scratch

variable (d : Dev nD) (L : grid0.Coords)

/-- The tile's 512 words of the user (item) index array, as the index scratch holds them after its copy. -/
abbrev usW : S512.Idx → Elt F .i32 := (uiS L).view.read (Elt F) (m (uiLoc d))
abbrev isW : S512.Idx → Elt F .i32 := (iiS L).view.read (Elt F) (m (iiLoc d))

end Scratch

/-! ## The tile's obligation -/

abbrev oU0Set (L : grid0.Coords) : Finset S16384x256.Idx := (oU0 L).view.set
abbrev oU1Set (L : grid0.Coords) : Finset S16384x256.Idx := (oU1 L).view.set
abbrev oU2Set (L : grid0.Coords) : Finset S16384x256.Idx := (oU2 L).view.set
abbrev oU3Set (L : grid0.Coords) : Finset S16384x256.Idx := (oU3 L).view.set
abbrev oI0Set (L : grid0.Coords) : Finset S16384x256.Idx := (oI0 L).view.set
abbrev oI1Set (L : grid0.Coords) : Finset S16384x256.Idx := (oI1 L).view.set
abbrev oI2Set (L : grid0.Coords) : Finset S16384x256.Idx := (oI2 L).view.set
abbrev oI3Set (L : grid0.Coords) : Finset S16384x256.Idx := (oI3 L).view.set

section Tile

variable (d : Dev nD) (L : grid0.Coords)

/-- Block (user half, chunk 0) after the tile: the launch contents of the output with the gathered block written on the block's elements. -/
abbrev oU0Val (hpre : PreOK m) : Buf (Elt F) (oLoc d) :=
  (oU0 L).view.write (Elt F) (m (oLoc d)) (blockPay (uTab m d) (uLst0 m d L) (uLst0_inb m d L hpre)) Finset.univ
/-- Block (user half, chunk 1) after the tile: the launch contents of the output with the gathered block written on the block's elements. -/
abbrev oU1Val (hpre : PreOK m) : Buf (Elt F) (oLoc d) :=
  (oU1 L).view.write (Elt F) (m (oLoc d)) (blockPay (uTab m d) (uLst1 m d L) (uLst1_inb m d L hpre)) Finset.univ
/-- Block (user half, chunk 2) after the tile: the launch contents of the output with the gathered block written on the block's elements. -/
abbrev oU2Val (hpre : PreOK m) : Buf (Elt F) (oLoc d) :=
  (oU2 L).view.write (Elt F) (m (oLoc d)) (blockPay (uTab m d) (uLst2 m d L) (uLst2_inb m d L hpre)) Finset.univ
/-- Block (user half, chunk 3) after the tile: the launch contents of the output with the gathered block written on the block's elements. -/
abbrev oU3Val (hpre : PreOK m) : Buf (Elt F) (oLoc d) :=
  (oU3 L).view.write (Elt F) (m (oLoc d)) (blockPay (uTab m d) (uLst3 m d L) (uLst3_inb m d L hpre)) Finset.univ
/-- Block (item half, chunk 0) after the tile: the launch contents of the output with the gathered block written on the block's elements. -/
abbrev oI0Val (hpre : PreOK m) : Buf (Elt F) (oLoc d) :=
  (oI0 L).view.write (Elt F) (m (oLoc d)) (blockPay (iTab m d) (iLst0 m d L) (iLst0_inb m d L hpre)) Finset.univ
/-- Block (item half, chunk 1) after the tile: the launch contents of the output with the gathered block written on the block's elements. -/
abbrev oI1Val (hpre : PreOK m) : Buf (Elt F) (oLoc d) :=
  (oI1 L).view.write (Elt F) (m (oLoc d)) (blockPay (iTab m d) (iLst1 m d L) (iLst1_inb m d L hpre)) Finset.univ
/-- Block (item half, chunk 2) after the tile: the launch contents of the output with the gathered block written on the block's elements. -/
abbrev oI2Val (hpre : PreOK m) : Buf (Elt F) (oLoc d) :=
  (oI2 L).view.write (Elt F) (m (oLoc d)) (blockPay (iTab m d) (iLst2 m d L) (iLst2_inb m d L hpre)) Finset.univ
/-- Block (item half, chunk 3) after the tile: the launch contents of the output with the gathered block written on the block's elements. -/
abbrev oI3Val (hpre : PreOK m) : Buf (Elt F) (oLoc d) :=
  (oI3 L).view.write (Elt F) (m (oLoc d)) (blockPay (iTab m d) (iLst3 m d L) (iLst3_inb m d L hpre)) Finset.univ

/-- The read shares of the four input arrays, whole, at the launch contents. -/
abbrev inputs (qui qii qut qit : PosShare TreeShare) : sProp 𝕄 :=
  iprop((uiLoc d ↦{qui} m (uiLoc d)) ∗ (iiLoc d ↦{qii} m (iiLoc d)) ∗ (utLoc d ↦{qut} m (utLoc d)) ∗ (itLoc d ↦{qit} m (itLoc d)))

/-- The tile's eight output blocks as launched. -/
abbrev blocksIn : sProp 𝕄 :=
  iprop((oLoc d ↦[oU0Set L]{fullShare} m (oLoc d))
          ∗ (oLoc d ↦[oU1Set L]{fullShare} m (oLoc d))
          ∗ (oLoc d ↦[oU2Set L]{fullShare} m (oLoc d))
          ∗ (oLoc d ↦[oU3Set L]{fullShare} m (oLoc d))
          ∗ (oLoc d ↦[oI0Set L]{fullShare} m (oLoc d))
          ∗ (oLoc d ↦[oI1Set L]{fullShare} m (oLoc d))
          ∗ (oLoc d ↦[oI2Set L]{fullShare} m (oLoc d))
          ∗ (oLoc d ↦[oI3Set L]{fullShare} m (oLoc d)))

/-- The tile's eight output blocks, each at the gathered rows. -/
abbrev blocksOut (hpre : PreOK m) : sProp 𝕄 :=
  iprop((oLoc d ↦[oU0Set L]{fullShare} oU0Val m d L hpre)
          ∗ (oLoc d ↦[oU1Set L]{fullShare} oU1Val m d L hpre)
          ∗ (oLoc d ↦[oU2Set L]{fullShare} oU2Val m d L hpre)
          ∗ (oLoc d ↦[oU3Set L]{fullShare} oU3Val m d L hpre)
          ∗ (oLoc d ↦[oI0Set L]{fullShare} oI0Val m d L hpre)
          ∗ (oLoc d ↦[oI1Set L]{fullShare} oI1Val m d L hpre)
          ∗ (oLoc d ↦[oI2Set L]{fullShare} oI2Val m d L hpre)
          ∗ (oLoc d ↦[oI3Set L]{fullShare} oI3Val m d L hpre))

end Tile

end Cert.KernelIdeal.ScTile

end
-- ==== Proof.SplitShares.lean ====
/-
  One buffer shared among 2ⁿ readers.

  A positive share of a buffer is the composite of its left and right halves, so ownership of the buffer's elements at a
  share is the same thing as ownership at the left half together with ownership at the right half.  Halving n times
  gives 2ⁿ shares, the leaves of the complete binary tree of depth n below the share; index the leaves by the numbers
  below 2ⁿ, the first 2ⁿ⁻¹ under the left half and the last 2ⁿ⁻¹ under the right half.  Then ownership at the share is the
  separating conjunction, over the 2ⁿ leaves, of ownership at each leaf: the readers take one leaf each, and give the
  leaves back to whoever held the share.
-/
import Idealize.ShloMosaic.Rules.PointsTo
import Idealize.SL.ProofMode.BigOp

noncomputable section

namespace Cert.ShareLeaves

open Idealize.ShloMosaic Idealize.SL Idealize.SL.RA
open Idealize.SL.BI (sProp bigSep bigSep_congr bigSep_univ_equiv bigSep_univ_sum bigSep_univ_of_subsingleton)
open scoped Idealize.SL.BI
open Idealize.SL.BI.BIBase Idealize.SL.BI.Laws Idealize.SL.ProofMode Idealize.SL.Sem

/-- The numbers below 2ⁿ⁺¹ are the first 2ⁿ of them and the last 2ⁿ. -/
def halves (n : ℕ) : Fin (2 ^ n) ⊕ Fin (2 ^ n) ≃ Fin (2 ^ (n + 1)) :=
  finSumFinEquiv.trans (finCongr (by rw [pow_succ', two_mul]))

/-- Leaf `i` of the complete binary tree of depth `n` below the share `q`. -/
def leaf : (n : ℕ) → PosShare TreeShare → Fin (2 ^ n) → PosShare TreeShare
  | 0, q, _ => q
  | n + 1, q, i => Sum.elim (leaf n q.left) (leaf n q.right) ((halves n).symm i)

theorem leaf_zero (q : PosShare TreeShare) (i : Fin (2 ^ 0)) : leaf 0 q i = q := rfl

/-- The first half of the leaves are the leaves below the left half, -/
theorem leaf_first (n : ℕ) (q : PosShare TreeShare) (i : Fin (2 ^ n)) :
    leaf (n + 1) q (halves n (Sum.inl i)) = leaf n q.left i := by
  show Sum.elim (leaf n q.left) (leaf n q.right) ((halves n).symm (halves n (Sum.inl i))) = _
  rw [Equiv.symm_apply_apply]
  rfl

/-- and the last half the leaves below the right half. -/
theorem leaf_last (n : ℕ) (q : PosShare TreeShare) (i : Fin (2 ^ n)) :
    leaf (n + 1) q (halves n (Sum.inr i)) = leaf n q.right i := by
  show Sum.elim (leaf n q.left) (leaf n q.right) ((halves n).symm (halves n (Sum.inr i))) = _
  rw [Equiv.symm_apply_apply]
  rfl

section

variable {nD : Nat} {τ : Topo} {sig : RefSig} {Ix : Type} [DecidableEq Ix]
variable {Val : EltTy → Type} {Name : Type} [DecidableEq Name] {U : Type} [URA U] {Lvl : Type}

local notation "𝕄" => MT nD τ sig Ix Val Name U Lvl

/-- Ownership at a share is ownership at its two halves. -/
theorem pointsTo_halves {ℓ : Loc nD τ sig} (I : Finset (Idx ℓ)) (f : Buf Val ℓ) (q : PosShare TreeShare) :
    (ℓ ↦[I]{q} f : sProp 𝕄) = iprop((ℓ ↦[I]{q.left} f) ∗ ℓ ↦[I]{q.right} f) :=
  BI.Entails.antisymm (pointsTo_share (PosShare.mem_left_op_right q)).1 (pointsTo_share (PosShare.mem_left_op_right q)).2

/-- Ownership at a share is ownership at each of the 2ⁿ leaves below it. -/
theorem pointsTo_leaves {ℓ : Loc nD τ sig} (I : Finset (Idx ℓ)) (f : Buf Val ℓ) :
    ∀ (n : ℕ) (q : PosShare TreeShare),
      (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [pointsTo_halves I f q, pointsTo_leaves I f n q.left, pointsTo_leaves I f n q.right,
      bigSep_univ_equiv (halves n) (fun i : Fin (2 ^ (n + 1)) => (ℓ ↦[I]{leaf (n + 1) q i} f : sProp 𝕄)), bigSep_univ_sum]
    congr 1 <;> refine bigSep_congr fun i _ => ?_
    · rw [leaf_first]
    · rw [leaf_last]

end

end Cert.ShareLeaves

end
-- ==== Proof.Spec.lean ====
/-
  The function both programs compute, index by index, on the extended reals.

  A batch row `r` looks up row `u[r]` of the user table and row `v[r]` of the item table (each row number read as a
  signed integer and clamped into the table), lays the two 128-wide rows side by side as one 256-wide row, passes it
  through three layers `x ↦ max (x · Wᵀ + b) 0` of widths 512, 256 and 128, and ends with the inner product against the
  single output row `Wo` plus the output bias.  Every sum is the exact sum over the contraction index and `max` is the
  lattice maximum: no rounding, no change of format.  Nothing here needs the inputs to be finite: the two programs are
  compared sum by sum, factor by factor, and only commutativity of the product is used between them.
-/
import Idealize.ShloMosaic.PureOps.Ideal
import Idealize.ShloMosaic.Lib.ValueIdx

noncomputable section

namespace Cert.Spec

open Idealize.ShloMosaic Idealize.ShloMosaic.ValueIdx

/-- A table row number: the word read signed, clamped into `[0, 99999]`. -/
def rowOf (w : BitVec 32) : Fin 100000 := ⟨min w.toInt.toNat 99999, by omega⟩

/-- When the word is already a row number the clamp does nothing. -/
theorem rowOf_val_of_lt (w : BitVec 32) (h0 : 0 ≤ w.toInt) (hlt : w.toInt < 100000) : (rowOf w).val = w.toInt.toNat := by
  show min w.toInt.toNat 99999 = w.toInt.toNat
  omega

/-- Row `r` of the concatenated lookup: columns `[0, 128)` from the user table, `[128, 256)` from the item table. -/
def xcat (u v : (⟨1, ![16384]⟩ : Shape).Idx → BitVec 32)
    (utab itab : (⟨2, ![100000, 128]⟩ : Shape).Idx → EReal) (r : Fin 16384) (k : Fin 256) : EReal :=
  if h : k.val < 128 then utab (ix2 (rowOf (u (ix1 r))) ⟨k.val, h⟩)
  else itab (ix2 (rowOf (v (ix1 r))) ⟨k.val - 128, by omega⟩)

/-- One layer: `max (Σ_k x[k] · W[j, k] + b[j]) z`, with `z` the layer's zero. -/
def layer {K N : Nat} (z : EReal) (W : (⟨2, ![N, K]⟩ : Shape).Idx → EReal) (b : (⟨1, ![N]⟩ : Shape).Idx → EReal)
    (x : Fin K → EReal) (j : Fin N) : EReal :=
  max (∑ k : Fin K, x k * W (ix2 j k) + b (ix1 j)) z

/-- The result at batch row `r`. `z` is the value of the float literal `0.0` (the real number zero). -/
def out (z : EReal) (u v : (⟨1, ![16384]⟩ : Shape).Idx → BitVec 32)
    (utab itab : (⟨2, ![100000, 128]⟩ : Shape).Idx → EReal)
    (W1 : (⟨2, ![512, 256]⟩ : Shape).Idx → EReal) (b1 : (⟨1, ![512]⟩ : Shape).Idx → EReal)
    (W2 : (⟨2, ![256, 512]⟩ : Shape).Idx → EReal) (b2 : (⟨1, ![256]⟩ : Shape).Idx → EReal)
    (W3 : (⟨2, ![128, 256]⟩ : Shape).Idx → EReal) (b3 : (⟨1, ![128]⟩ : Shape).Idx → EReal)
    (Wo : (⟨2, ![1, 128]⟩ : Shape).Idx → EReal) (bo : (⟨1, ![1]⟩ : Shape).Idx → EReal)
    (r : Fin 16384) : EReal :=
  (∑ k : Fin 128, layer z W3 b3 (layer z W2 b2 (layer z W1 b1 (xcat u v utab itab r))) k * Wo (ix2 0 k)) + bo (ix1 0)

/-- The same, as the result array `[16384]`. -/
def G (z : EReal) (u v : (⟨1, ![16384]⟩ : Shape).Idx → BitVec 32)
    (utab itab : (⟨2, ![100000, 128]⟩ : Shape).Idx → EReal)
    (W1 : (⟨2, ![512, 256]⟩ : Shape).Idx → EReal) (b1 : (⟨1, ![512]⟩ : Shape).Idx → EReal)
    (W2 : (⟨2, ![256, 512]⟩ : Shape).Idx → EReal) (b2 : (⟨1, ![256]⟩ : Shape).Idx → EReal)
    (W3 : (⟨2, ![128, 256]⟩ : Shape).Idx → EReal) (b3 : (⟨1, ![128]⟩ : Shape).Idx → EReal)
    (Wo : (⟨2, ![1, 128]⟩ : Shape).Idx → EReal) (bo : (⟨1, ![1]⟩ : Shape).Idx → EReal) :
    (⟨1, ![16384]⟩ : Shape).Idx → EReal :=
  fun j => out z u v utab itab W1 b1 W2 b2 W3 b3 Wo bo (j 0)

end Cert.Spec

end
-- ==== Proof.Split.lean ====
/-
  The SparseCore call's operands, dealt to the thirty-two tiles and gathered back.

  The call takes five arrays from the TensorCore: the two arrays of row numbers and the two tables, which it only
  reads, and the array of gathered rows, which it fills.  Each of the thirty-two tiles (two SparseCores, sixteen vector
  subcores each) reads all four inputs, so each gets a read share of every one of them: the full share halved once for
  the SparseCore and four more times for the subcore.  A tile writes eight blocks of the gathered array — for each of
  its four groups of 128 batch rows the left half of the columns (from the user table) and the right half (from the item
  table) — and the 256 blocks of all tiles are pairwise disjoint and cover the array: the tile at (core c, subcore s)
  owns rows [1024·s + 512·c, +512).  So the array's ownership splits into the blocks' and joins back from them.

  What comes back in a block is the table row each batch row names; all blocks together are ONE function of the launch
  memory, `gathered`: at (r, k) the user table's row `u[r]` at column k when k < 128, the item table's row `v[r]` at
  column k − 128 otherwise (the row number read unsigned and clamped into the table, so that the function is total; under
  the precondition no clamp happens).  Ownership of a set of elements depends only on the contents on that set, so each
  block may be restated at `gathered` and the blocks joined into the whole array at `gathered`.
-/
import proofs.«201366_g32727650796262_cont_8to1_b_1271_35_alg».proof.Proof.Main
import proofs.«201366_g32727650796262_cont_8to1_b_1271_35_alg».proof.Proof.ScTileDefs
import proofs.«201366_g32727650796262_cont_8to1_b_1271_35_alg».proof.Proof.SplitShares
import proofs.«201366_g32727650796262_cont_8to1_b_1271_35_alg».proof.Proof.Spec

noncomputable section

namespace Cert.KernelIdeal.Launch

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.ValueIdx
open Cert.ShareLeaves

variable {F : FTy → Type} [FloatOps F]

local notation "𝕄" => MT nD τ sig (HIx 1) (Elt F) ℕ UU ℕ

variable (m : (ℓ : Loc nD τ sig) → Buf (Elt F) ℓ)

/-! ## The gathered array as one function of the launch memory -/

/-- Row `r` of the user (item) index array, read unsigned and clamped into the table. -/
def uRow (d : Dev nD) (r : Fin 16384) : Fin 100000 :=
  ⟨min ((m (ScTile.uiLoc d) : IVec S16384 32) (ix1 r)).toNat 99999, by omega⟩
def iRow (d : Dev nD) (r : Fin 16384) : Fin 100000 :=
  ⟨min ((m (ScTile.iiLoc d) : IVec S16384 32) (ix1 r)).toNat 99999, by omega⟩

/-- The gathered array: the user table's row in the left half of the columns, the item table's in the right half. -/
def gathered (d : Dev nD) : Buf (Elt F) ((d : Thread nD τ).loc main_v0) :=
  ((fun j : S16384x256.Idx =>
      if h : (j 1).val < 128 then
        (m (ScTile.utLoc d) : FVec F S100000x128 .f32) (ix2 (uRow m d ⟨(j 0).val, idx2_lt0 j⟩) (⟨(j 1).val, h⟩ : Fin 128))
      else
        (m (ScTile.itLoc d) : FVec F S100000x128 .f32)
          (ix2 (iRow m d ⟨(j 0).val, idx2_lt0 j⟩) (⟨(j 1).val - 128, by have := idx2_lt1 j; omega⟩ : Fin 128))) :
    FVec F S16384x256 .f32)

/-! ## What the handshakes carry -/

/-- The tile at SparseCore `c`, vector subcore `i`, as a point of the kernel's grid. -/
abbrev tileL (c : Fin ((K (F := F)).nCore 0)) (i : Fin ((K (F := F)).nSub 0)) : grid0.Coords :=
  ScSetup.coordsV (Fin.cast (show (K (F := F)).nCore 0 = grid0.bound 0 from rfl) c)
    (Fin.cast (show (K (F := F)).nSub 0 = grid0.bound 1 from rfl) i)

/-- A tile's read share: the full share halved once for its SparseCore, four times for its subcore. -/
def tileShare (c : Fin 2) (i : Fin 16) : PosShare TreeShare := leaf 4 (leaf 1 fullShare c) i

abbrev tileQ (c : Fin ((K (F := F)).nCore 0)) (i : Fin ((K (F := F)).nSub 0)) : PosShare TreeShare :=
  tileShare (Fin.cast (nCore_zero (F := F)) c) (Fin.cast (nSub_zero (F := F)) i)

/-- What a tile is handed: its share of the four inputs and its eight blocks as launched. -/
abbrev goP (d : Dev nD) (c : Fin ((K (F := F)).nCore 0)) (i : Fin ((K (F := F)).nSub 0)) : sProp 𝕄 :=
  iprop(ScTile.inputs m d (tileQ (F := F) c i) (tileQ (F := F) c i) (tileQ (F := F) c i) (tileQ (F := F) c i)
    ∗ ScTile.blocksIn m d (tileL (F := F) c i))

/-- What a tile hands back: the same shares and its eight blocks at the gathered rows. -/
abbrev tdP (hpre : ScTile.PreOK m) (d : Dev nD) (c : Fin ((K (F := F)).nCore 0)) (i : Fin ((K (F := F)).nSub 0)) : sProp 𝕄 :=
  iprop(ScTile.inputs m d (tileQ (F := F) c i) (tileQ (F := F) c i) (tileQ (F := F) c i) (tileQ (F := F) c i)
    ∗ ScTile.blocksOut m d (tileL (F := F) c i) hpre)

/-- The one call: a SparseCore's sequencer is handed exactly what its sixteen tiles are, and hands back what they do. -/
def P (hpre : ScTile.PreOK m) : (K (F := F)).Pay (nD := nD) (Val := Elt F) (Name := ℕ) (U := UU) where
  st := fun q d c => match q with | 0 => bigSep Finset.univ fun i : Fin ((K (F := F)).nSub 0) => goP m d c i
  dn := fun q d c => match q with | 0 => bigSep Finset.univ fun i : Fin ((K (F := F)).nSub 0) => tdP m hpre d c i
  go := fun q d c i => match q with | 0 => goP m d c i
  td := fun q d c i => match q with | 0 => tdP m hpre d c i
  x := fun _ _ => iprop(emp)

instance P_storable (hpre : ScTile.PreOK m) : (P (F := F) m hpre).IsStorable where
  st q d c := match q with
    | 0 => (inferInstance : BI.Storable (upEmb : UEmb _ 𝕄) (bigSep Finset.univ fun i : Fin ((K (F := F)).nSub 0) => goP m d c i))
  dn q d c := match q with
    | 0 => (inferInstance : BI.Storable (upEmb : UEmb _ 𝕄) (bigSep Finset.univ fun i : Fin ((K (F := F)).nSub 0) => tdP m hpre d c i))
  go q d c i := match q with
    | 0 => (inferInstance : BI.Storable (upEmb : UEmb _ 𝕄) (goP m d c i))
  td q d c i := match q with
    | 0 => (inferInstance : BI.Storable (upEmb : UEmb _ 𝕄) (tdP m hpre d c i))

theorem P_x (hpre : ScTile.PreOK m) : (P (F := F) m hpre).x = fun _ _ => iprop(emp) := rfl
theorem P_held (hpre : ScTile.PreOK m) : (P (F := F) m hpre).held = ∅ := rfl

/-- The sequencer's hand is its tiles' hands, both ways. -/
theorem vecSplit (hpre : ScTile.PreOK m) : (K (F := F)).VecSplit' (P m hpre) 0 := by
  intro d c
  show (bigSep Finset.univ fun i : Fin ((K (F := F)).nSub 0) => goP m d c i)
    ⊢ |={Set.univ}=> iprop((bigSep Finset.univ fun i : Fin ((K (F := F)).nSub 0) => goP m d c i)
        ∗ ((bigSep Finset.univ fun i : Fin ((K (F := F)).nSub 0) => tdP m hpre d c i)
            -∗ bigSep Finset.univ fun i : Fin ((K (F := F)).nSub 0) => tdP m hpre d c i))
  iintro H
  imodintro
  isplitl [H]; · iexact H
  iintro H'
  iexact H'

local notation "oV" => (Memref.whole Cert.KernelIdeal.main_v0_scv : Memref Cert.KernelIdeal.sig Kind.scVector Space.hbm Cert.KernelIdeal.S16384x256 EltTy.f32)

/-- The elements of the 128×128 block of the gathered array at offsets `off`. -/
theorem mem_slice (off : Fin 2 → Nat) (inb : ∀ a, off a + S128x128.size a ≤ S16384x256.size a) (x : S16384x256.Idx) :
    x ∈ ((oV).slice (Rect.unit (s := S16384x256) off S128x128.size inb) (fun _ => rfl)).view.set
      ↔ (off 0 ≤ (x 0).val ∧ (x 0).val < off 0 + 128) ∧ (off 1 ≤ (x 1).val ∧ (x 1).val < off 1 + 128) := by
  show x ∈ ((View.whole main_v0_scv).slice (Rect.unit (s := S16384x256) off S128x128.size inb)).set ↔ _
  rw [View.set_slice_whole, Rect.mem_set_unit]
  exact ⟨fun h => ⟨h 0, h 1⟩, fun h a => match a with | ⟨0, _⟩ => h.1 | ⟨1, _⟩ => h.2⟩

theorem mem_oU0 (L : grid0.Coords) (x : S16384x256.Idx) :
    x ∈ ScTile.oU0Set L
      ↔ (1024 * (L 1).val + 512 * (L 0).val + 128 * 0 ≤ (x 0).val ∧ (x 0).val < 1024 * (L 1).val + 512 * (L 0).val + 128 * 0 + 128)
        ∧ (0 ≤ (x 1).val ∧ (x 1).val < 0 + 128) := by
  show x ∈ ((oV).slice (Rect.unit (s := S16384x256) (k0_off2 L 0#32) S128x128.size (k0_off2_inb L 0)) (fun _ => rfl)).view.set ↔ _
  rw [mem_slice, show k0_off2 L 0#32 = ![1024 * (L 1).val + 512 * (L 0).val + 128 * 0, 0] from k0_off2_eq L ⟨0, by decide⟩]
  exact Iff.rfl
theorem mem_oU1 (L : grid0.Coords) (x : S16384x256.Idx) :
    x ∈ ScTile.oU1Set L
      ↔ (1024 * (L 1).val + 512 * (L 0).val + 128 * 1 ≤ (x 0).val ∧ (x 0).val < 1024 * (L 1).val + 512 * (L 0).val + 128 * 1 + 128)
        ∧ (0 ≤ (x 1).val ∧ (x 1).val < 0 + 128) := by
  show x ∈ ((oV).slice (Rect.unit (s := S16384x256) (k0_off2 L 128#32) S128x128.size (k0_off2_inb L 1)) (fun _ => rfl)).view.set ↔ _
  rw [mem_slice, show k0_off2 L 128#32 = ![1024 * (L 1).val + 512 * (L 0).val + 128 * 1, 0] from k0_off2_eq L ⟨1, by decide⟩]
  exact Iff.rfl
theorem mem_oU2 (L : grid0.Coords) (x : S16384x256.Idx) :
    x ∈ ScTile.oU2Set L
      ↔ (1024 * (L 1).val + 512 * (L 0).val + 128 * 2 ≤ (x 0).val ∧ (x 0).val < 1024 * (L 1).val + 512 * (L 0).val + 128 * 2 + 128)
        ∧ (0 ≤ (x 1).val ∧ (x 1).val < 0 + 128) := by
  show x ∈ ((oV).slice (Rect.unit (s := S16384x256) (k0_off2 L 256#32) S128x128.size (k0_off2_inb L 2)) (fun _ => rfl)).view.set ↔ _
  rw [mem_slice, show k0_off2 L 256#32 = ![1024 * (L 1).val + 512 * (L 0).val + 128 * 2, 0] from k0_off2_eq L ⟨2, by decide⟩]
  exact Iff.rfl
theorem mem_oU3 (L : grid0.Coords) (x : S16384x256.Idx) :
    x ∈ ScTile.oU3Set L
      ↔ (1024 * (L 1).val + 512 * (L 0).val + 128 * 3 ≤ (x 0).val ∧ (x 0).val < 1024 * (L 1).val + 512 * (L 0).val + 128 * 3 + 128)
        ∧ (0 ≤ (x 1).val ∧ (x 1).val < 0 + 128) := by
  show x ∈ ((oV).slice (Rect.unit (s := S16384x256) (k0_off2 L 384#32) S128x128.size (k0_off2_inb L 3)) (fun _ => rfl)).view.set ↔ _
  rw [mem_slice, show k0_off2 L 384#32 = ![1024 * (L 1).val + 512 * (L 0).val + 128 * 3, 0] from k0_off2_eq L ⟨3, by decide⟩]
  exact Iff.rfl
theorem mem_oI0 (L : grid0.Coords) (x : S16384x256.Idx) :
    x ∈ ScTile.oI0Set L
      ↔ (1024 * (L 1).val + 512 * (L 0).val + 128 * 0 ≤ (x 0).val ∧ (x 0).val < 1024 * (L 1).val + 512 * (L 0).val + 128 * 0 + 128)
        ∧ (128 ≤ (x 1).val ∧ (x 1).val < 128 + 128) := by
  show x ∈ ((oV).slice (Rect.unit (s := S16384x256) (k0_off3 L 0#32) S128x128.size (k0_off3_inb L 0)) (fun _ => rfl)).view.set ↔ _
  rw [mem_slice, show k0_off3 L 0#32 = ![1024 * (L 1).val + 512 * (L 0).val + 128 * 0, 128] from k0_off3_eq L ⟨0, by decide⟩]
  exact Iff.rfl
theorem mem_oI1 (L : grid0.Coords) (x : S16384x256.Idx) :
    x ∈ ScTile.oI1Set L
      ↔ (1024 * (L 1).val + 512 * (L 0).val + 128 * 1 ≤ (x 0).val ∧ (x 0).val < 1024 * (L 1).val + 512 * (L 0).val + 128 * 1 + 128)
        ∧ (128 ≤ (x 1).val ∧ (x 1).val < 128 + 128) := by
  show x ∈ ((oV).slice (Rect.unit (s := S16384x256) (k0_off3 L 128#32) S128x128.size (k0_off3_inb L 1)) (fun _ => rfl)).view.set ↔ _
  rw [mem_slice, show k0_off3 L 128#32 = ![1024 * (L 1).val + 512 * (L 0).val + 128 * 1, 128] from k0_off3_eq L ⟨1, by decide⟩]
  exact Iff.rfl
theorem mem_oI2 (L : grid0.Coords) (x : S16384x256.Idx) :
    x ∈ ScTile.oI2Set L
      ↔ (1024 * (L 1).val + 512 * (L 0).val + 128 * 2 ≤ (x 0).val ∧ (x 0).val < 1024 * (L 1).val + 512 * (L 0).val + 128 * 2 + 128)
        ∧ (128 ≤ (x 1).val ∧ (x 1).val < 128 + 128) := by
  show x ∈ ((oV).slice (Rect.unit (s := S16384x256) (k0_off3 L 256#32) S128x128.size (k0_off3_inb L 2)) (fun _ => rfl)).view.set ↔ _
  rw [mem_slice, show k0_off3 L 256#32 = ![1024 * (L 1).val + 512 * (L 0).val + 128 * 2, 128] from k0_off3_eq L ⟨2, by decide⟩]
  exact Iff.rfl
theorem mem_oI3 (L : grid0.Coords) (x : S16384x256.Idx) :
    x ∈ ScTile.oI3Set L
      ↔ (1024 * (L 1).val + 512 * (L 0).val + 128 * 3 ≤ (x 0).val ∧ (x 0).val < 1024 * (L 1).val + 512 * (L 0).val + 128 * 3 + 128)
        ∧ (128 ≤ (x 1).val ∧ (x 1).val < 128 + 128) := by
  show x ∈ ((oV).slice (Rect.unit (s := S16384x256) (k0_off3 L 384#32) S128x128.size (k0_off3_inb L 3)) (fun _ => rfl)).view.set ↔ _
  rw [mem_slice, show k0_off3 L 384#32 = ![1024 * (L 1).val + 512 * (L 0).val + 128 * 3, 128] from k0_off3_eq L ⟨3, by decide⟩]
  exact Iff.rfl

/-- A tile's eight blocks, numbered as it is handed them: the four row groups' left halves, then their right halves. -/
def blkSet (L : grid0.Coords) : Fin 8 → Finset S16384x256.Idx
  | ⟨0, _⟩ => ScTile.oU0Set L | ⟨1, _⟩ => ScTile.oU1Set L | ⟨2, _⟩ => ScTile.oU2Set L | ⟨3, _⟩ => ScTile.oU3Set L
  | ⟨4, _⟩ => ScTile.oI0Set L | ⟨5, _⟩ => ScTile.oI1Set L | ⟨6, _⟩ => ScTile.oI2Set L | ⟨7, _⟩ => ScTile.oI3Set L
  | ⟨n + 8, h⟩ => absurd h (by omega)

/-- Block `k` of the tile at `L`: rows [1024·L₁ + 512·L₀ + 128·(k mod 4), +128), columns [128·(k div 4), +128). -/
theorem mem_blkSet (L : grid0.Coords) (k : Fin 8) (x : S16384x256.Idx) :
    x ∈ blkSet L k
      ↔ (1024 * (L 1).val + 512 * (L 0).val + 128 * (k.val % 4) ≤ (x 0).val ∧ (x 0).val < 1024 * (L 1).val + 512 * (L 0).val + 128 * (k.val % 4) + 128)
        ∧ (128 * (k.val / 4) ≤ (x 1).val ∧ (x 1).val < 128 * (k.val / 4) + 128) := by
  obtain ⟨k, hk⟩ := k
  interval_cases k
  · refine (mem_oU0 L x).trans ?_
    simp only [Fin.val_mk]
  · refine (mem_oU1 L x).trans ?_
    simp only [Fin.val_mk]
  · refine (mem_oU2 L x).trans ?_
    simp only [Fin.val_mk]
  · refine (mem_oU3 L x).trans ?_
    simp only [Fin.val_mk]
  · refine (mem_oI0 L x).trans ?_
    simp only [Fin.val_mk]
  · refine (mem_oI1 L x).trans ?_
    simp only [Fin.val_mk]
  · refine (mem_oI2 L x).trans ?_
    simp only [Fin.val_mk]
  · refine (mem_oI3 L x).trans ?_
    simp only [Fin.val_mk]

/-- The tile at SparseCore `c`, subcore `i`, over plain numbers. -/
abbrev tileL2 (c : Fin 2) (i : Fin 16) : grid0.Coords :=
  ScSetup.coordsV (Fin.cast ScSetup.bound_zero.symm c) (Fin.cast ScSetup.bound_one.symm i)

/-- The 256 blocks: tile (c, i), block k. -/
abbrev blkT (t : Fin 2 × (Fin 16 × Fin 8)) : Finset S16384x256.Idx := blkSet (tileL2 t.1 t.2.1) t.2.2

theorem mem_blkT (t : Fin 2 × (Fin 16 × Fin 8)) (x : S16384x256.Idx) :
    x ∈ blkT t
      ↔ (1024 * t.2.1.val + 512 * t.1.val + 128 * (t.2.2.val % 4) ≤ (x 0).val
          ∧ (x 0).val < 1024 * t.2.1.val + 512 * t.1.val + 128 * (t.2.2.val % 4) + 128)
        ∧ (128 * (t.2.2.val / 4) ≤ (x 1).val ∧ (x 1).val < 128 * (t.2.2.val / 4) + 128) :=
  mem_blkSet (tileL2 t.1 t.2.1) t.2.2 x

/-- Different blocks share no element. -/
theorem blkT_disjoint : ∀ t ∈ (Finset.univ : Finset (Fin 2 × (Fin 16 × Fin 8))), ∀ t' ∈ (Finset.univ : Finset (Fin 2 × (Fin 16 × Fin 8))),
    t ≠ t' → Disjoint (blkT t) (blkT t') := by
  intro t _ t' _ hne
  refine Finset.disjoint_left.mpr fun x hx hx' => hne ?_
  have h := (mem_blkT t x).mp hx
  have h' := (mem_blkT t' x).mp hx'
  obtain ⟨c, i, k⟩ := t
  obtain ⟨c', i', k'⟩ := t'
  have hc := c.isLt; have hc' := c'.isLt; have hi := i.isLt; have hi' := i'.isLt; have hk := k.isLt; have hk' := k'.isLt
  dsimp only at h h'
  exact Prod.ext (Fin.ext (by dsimp only; omega)) (Prod.ext (Fin.ext (by dsimp only; omega)) (Fin.ext (by dsimp only; omega)))

/-- Every element lies in a block. -/
theorem blkT_cover : (Finset.univ : Finset (Fin 2 × (Fin 16 × Fin 8))).biUnion blkT = Finset.univ := by
  refine Finset.eq_univ_of_forall fun x => Finset.mem_biUnion.mpr ?_
  have h0 : (x 0).val < 16384 := idx2_lt0 x
  have h1 : (x 1).val < 256 := idx2_lt1 x
  refine ⟨(⟨(x 0).val % 1024 / 512, by omega⟩, (⟨(x 0).val / 1024, by omega⟩, ⟨4 * ((x 1).val / 128) + (x 0).val % 512 / 128, by omega⟩)),
    Finset.mem_univ _, ?_⟩
  rw [mem_blkT]
  dsimp only
  omega

/-- The gathered array whole is its 256 blocks, tile by tile. -/
theorem o_blocks (d : Dev nD) (f : Buf (Elt F) (ScTile.oLoc d)) :
    (ScTile.oLoc d ↦{fullShare} f : sProp 𝕄)
      = bigSep Finset.univ fun c : Fin 2 => bigSep Finset.univ fun i : Fin 16 =>
          bigSep Finset.univ fun k : Fin 8 => ScTile.oLoc d ↦[blkSet (tileL2 c i) k]{fullShare} f := by
  rw [← blkT_cover, pointsTo_biUnion Finset.univ (ℓ := ScTile.oLoc d) blkT blkT_disjoint, BI.bigSep_univ_prod]
  refine bigSep_congr fun c _ => ?_
  rw [BI.bigSep_univ_prod]

/-- Eight in a row. -/
theorem bigSep_fin_eight (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- A tile's eight blocks as launched, as one conjunction over the block number. -/
theorem blocksIn_eq (d : Dev nD) (L : grid0.Coords) :
    (ScTile.blocksIn m d L : sProp 𝕄) = bigSep Finset.univ fun k : Fin 8 => ScTile.oLoc d ↦[blkSet L k]{fullShare} m (ScTile.oLoc d) :=
  (bigSep_fin_eight (fun k : Fin 8 => (ScTile.oLoc d ↦[blkSet L k]{fullShare} m (ScTile.oLoc d) : sProp 𝕄))).symm

/-! ## The split -/

/-- The five arrays the call takes, one by one. -/
theorem held_S5 (d : Dev nD) (W : Valuation τ sig (Elt F)) :
    (held (T d) S5 W : sProp 𝕄)
      = iprop((ScTile.uiLoc d ↦{fullShare} W (main_arg0 : DevRef τ sig)) ∗ (ScTile.iiLoc d ↦{fullShare} W (main_arg1 : DevRef τ sig))
          ∗ (ScTile.utLoc d ↦{fullShare} W (main_arg2 : DevRef τ sig)) ∗ (ScTile.itLoc d ↦{fullShare} W (main_arg3 : DevRef τ sig))
          ∗ ScTile.oLoc d ↦{fullShare} W (main_v0 : DevRef τ sig)) := by
  unfold held S5
  rw [SparseCore.bigSep_insert' (by decide), SparseCore.bigSep_insert' (by decide), SparseCore.bigSep_insert' (by decide),
    SparseCore.bigSep_insert' (by decide), bigSep_singleton]

/-- An array read by every tile: its full share is the thirty-two tiles' shares. -/
theorem pts_tiles {ℓ : Loc nD τ sig} (f : Buf (Elt F) ℓ) :
    (ℓ ↦{fullShare} f : sProp 𝕄)
      = bigSep Finset.univ fun c : Fin 2 => bigSep Finset.univ fun i : Fin 16 => ℓ ↦{tileShare c i} f := by
  rw [pointsTo_leaves Finset.univ f 1 fullShare]
  refine bigSep_congr fun c _ => ?_
  exact pointsTo_leaves Finset.univ f 4 (leaf 1 fullShare c)

/-- What a tile is handed, over plain numbers. -/
abbrev goP2 (d : Dev nD) (c : Fin 2) (i : Fin 16) : sProp 𝕄 :=
  iprop(ScTile.inputs m d (tileShare c i) (tileShare c i) (tileShare c i) (tileShare c i) ∗ ScTile.blocksIn m d (tileL2 c i))

/-- A conjunction over the call's SparseCores (subcores) is one over the numbers below 2 (below 16). -/
theorem bigSep_cores (Φ : Fin 2 → sProp 𝕄) :
    (bigSep Finset.univ fun c : Fin ((K (F := F)).nCore 0) => Φ (Fin.cast (nCore_zero (F := F)) c)) = bigSep Finset.univ Φ :=
  bigSep_congr fun _ _ => congrArg Φ (Fin.ext rfl)
theorem bigSep_subs (Φ : Fin 16 → sProp 𝕄) :
    (bigSep Finset.univ fun i : Fin ((K (F := F)).nSub 0) => Φ (Fin.cast (nSub_zero (F := F)) i)) = bigSep Finset.univ Φ :=
  bigSep_congr fun _ _ => congrArg Φ (Fin.ext rfl)

/-- The five arrays as launched are what the thirty-two tiles are handed. -/
theorem hst2 (d : Dev nD) :
    (held (T d) S5 (V0 m d) : sProp 𝕄) ⊢ bigSep Finset.univ fun c : Fin 2 => bigSep Finset.univ fun i : Fin 16 => goP2 m d c i := by
  rw [held_S5]
  show iprop((ScTile.uiLoc d ↦{fullShare} m (ScTile.uiLoc d)) ∗ (ScTile.iiLoc d ↦{fullShare} m (ScTile.iiLoc d))
      ∗ (ScTile.utLoc d ↦{fullShare} m (ScTile.utLoc d)) ∗ (ScTile.itLoc d ↦{fullShare} m (ScTile.itLoc d))
      ∗ ScTile.oLoc d ↦{fullShare} m (ScTile.oLoc d)) ⊢ _
  rw [pts_tiles (m (ScTile.uiLoc d)), pts_tiles (m (ScTile.iiLoc d)), pts_tiles (m (ScTile.utLoc d)), pts_tiles (m (ScTile.itLoc d)),
    o_blocks d (m (ScTile.oLoc d))]
  have e : (bigSep Finset.univ fun c : Fin 2 => bigSep Finset.univ fun i : Fin 16 => goP2 m d c i)
      = iprop(((bigSep Finset.univ fun c : Fin 2 => bigSep Finset.univ fun i : Fin 16 => ScTile.uiLoc d ↦{tileShare c i} m (ScTile.uiLoc d))
          ∗ (bigSep Finset.univ fun c : Fin 2 => bigSep Finset.univ fun i : Fin 16 => ScTile.iiLoc d ↦{tileShare c i} m (ScTile.iiLoc d))
          ∗ (bigSep Finset.univ fun c : Fin 2 => bigSep Finset.univ fun i : Fin 16 => ScTile.utLoc d ↦{tileShare c i} m (ScTile.utLoc d))
          ∗ (bigSep Finset.univ fun c : Fin 2 => bigSep Finset.univ fun i : Fin 16 => ScTile.itLoc d ↦{tileShare c i} m (ScTile.itLoc d)))
        ∗ bigSep Finset.univ fun c : Fin 2 => bigSep Finset.univ fun i : Fin 16 =>
            bigSep Finset.univ fun k : Fin 8 => ScTile.oLoc d ↦[blkSet (tileL2 c i) k]{fullShare} m (ScTile.oLoc d)) := by
    simp only [blocksIn_eq, bigSep_sep']
  rw [e]
  iintro ⟨Ha, Hb, Hc, Hd, He⟩
  isplitr [He]
  · isplitl [Ha]; · iexact Ha
    isplitl [Hb]; · iexact Hb
    isplitl [Hc]; · iexact Hc
    iexact Hd
  · iexact He

theorem hst (hpre : ScTile.PreOK m) (d : Dev nD) :
    (held (T d) S5 (V0 m d) : sProp 𝕄) ⊢ bigSep Finset.univ fun c : Fin ((K (F := F)).nCore 0) => (P m hpre).st 0 d c := by
  refine (hst2 m d).trans (Entails.of_eq ?_)
  show _ = bigSep Finset.univ fun c : Fin ((K (F := F)).nCore 0) => bigSep Finset.univ fun i : Fin ((K (F := F)).nSub 0) =>
    goP2 m d (Fin.cast (nCore_zero (F := F)) c) (Fin.cast (nSub_zero (F := F)) i)
  rw [← bigSep_cores (F := F) (fun c => bigSep Finset.univ fun i : Fin 16 => goP2 m d c i)]
  exact bigSep_congr fun c _ => (bigSep_subs (F := F) (fun i => goP2 m d (Fin.cast (nCore_zero (F := F)) c) i)).symm

end Cert.KernelIdeal.Launch

end
-- ==== Proof.TileObl.lean ====
/-
  One tile's task, as the launch consumes it.

  A tile of the call is handed a share of the four input arrays and its eight blocks of the gathered array, runs the
  kernel's body at its own grid point, and hands the same shares back with the blocks filled in.  The body's
  specification is stated once, at a symbolic tile; here it is wrapped into the launch theorem's obligation: the body
  table's row for a vector subcore inside the grid is the kernel's function at that subcore's coordinates.
-/
import proofs.«201366_g32727650796262_cont_8to1_b_1271_35_alg».proof.Proof.Split

noncomputable section

namespace Cert.KernelIdeal.Launch

open Cert.KernelIdeal Cert.KernelIdeal.Gen
open Cert.KernelIdeal.ScSetup (cV jV coordsV)

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "uiV" => (Memref.whole Cert.KernelIdeal.main_arg0_scv : Memref Cert.KernelIdeal.sig Kind.scVector Space.hbm Cert.KernelIdeal.S16384 EltTy.i32)
local notation "iiV" => (Memref.whole Cert.KernelIdeal.main_arg1_scv : Memref Cert.KernelIdeal.sig Kind.scVector Space.hbm Cert.KernelIdeal.S16384 EltTy.i32)
local notation "utV" => (Memref.whole Cert.KernelIdeal.main_arg2_scv : Memref Cert.KernelIdeal.sig Kind.scVector Space.hbm Cert.KernelIdeal.S100000x128 EltTy.f32)
local notation "itV" => (Memref.whole Cert.KernelIdeal.main_arg3_scv : Memref Cert.KernelIdeal.sig Kind.scVector Space.hbm Cert.KernelIdeal.S100000x128 EltTy.f32)
local notation "oV" => (Memref.whole Cert.KernelIdeal.main_v0_scv : Memref Cert.KernelIdeal.sig Kind.scVector Space.hbm Cert.KernelIdeal.S16384x256 EltTy.f32)
local notation "usV" => (Memref.whole Cert.KernelIdeal.cc0_scratch0 : Memref Cert.KernelIdeal.sig Kind.scVector Space.vmem Cert.KernelIdeal.S512 EltTy.i32)
local notation "isV" => (Memref.whole Cert.KernelIdeal.cc0_scratch1 : Memref Cert.KernelIdeal.sig Kind.scVector Space.vmem Cert.KernelIdeal.S512 EltTy.i32)
local notation "bV" => (Memref.whole Cert.KernelIdeal.cc0_scratch2 : Memref Cert.KernelIdeal.sig Kind.scVector Space.vmem Cert.KernelIdeal.S4x128x128 EltTy.f32)

variable (m : (ℓ : Loc nD τ sig) → Buf (Elt F) ℓ)

/-- The body's specification at every tile, device and share: from a share of the inputs and the tile's blocks at their
    launch contents to the same share and the blocks filled in; every wait it records is at the kernels' own index. -/
def TileBody (hpre : ScTile.PreOK m) : Prop :=
  ∀ (d : Dev nD) (L : grid0.Coords) (q : PosShare TreeShare) (O : CellTallies nD τ sig (HIx 1)) (W : Waits sig (HIx 1)), (∀ g, O g none = 0) →
    iprop(levAts (K (F := F)).L (K (F := F)).lev ∗ emp
        ∗ (ScTile.inputs m d q q q q ∗ ScTile.blocksIn m d L)
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc0__gather_tec_body L uiV (Memref.isWhole_whole _) iiV (Memref.isWhole_whole _) utV (Memref.isWhole_whole _) itV (Memref.isWhole_whole _)
            oV (Memref.isWhole_whole _) usV (Memref.isWhole_whole _) isV (Memref.isWhole_whole _) bV (Memref.isWhole_whole _)
            cc0_scratch3 cc0_scratch4 cc0_scratch5 cc0_scratch6 cc0_scratch7 cc0_scratch8 cc0_scratch9 cc0_scratch10 cc0_scoped0 cc0_scoped1)
          fun _ => iprop((ScTile.inputs m d q q q q ∗ ScTile.blocksOut m d L hpre)
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄)

/-- The body table's row for a vector subcore is the kernel's function at that subcore's grid point, when the grid
    holds it. -/
theorem defs₀_vector (c : Fin τ.nSC) (s : Fin τ.nSub) :
    defs₀ (F := F) (.scVector c s) 0 ()
      = SparseCore.onTile hcore0 hsub0 (fun c s => cc0__gather_tec_body (coordsV c s)
          uiV (Memref.isWhole_whole _) iiV (Memref.isWhole_whole _) utV (Memref.isWhole_whole _) itV (Memref.isWhole_whole _)
          oV (Memref.isWhole_whole _) usV (Memref.isWhole_whole _) isV (Memref.isWhole_whole _) bV (Memref.isWhole_whole _)
          cc0_scratch3 cc0_scratch4 cc0_scratch5 cc0_scratch6 cc0_scratch7 cc0_scratch8 cc0_scratch9 cc0_scratch10 cc0_scoped0 cc0_scoped1) ⟨⟩ c s := rfl

omit [FloatOps F] in
/-- A wait recorded at the kernels' own index is one the call's obligation allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The tile's obligation of the launch theorem, from the body's specification. -/
theorem tileObl (hpre : ScTile.PreOK m) (hb : TileBody m hpre) :
    (K (F := F)).TileObl (D (F := F)) 𝒱 (P m hpre) v₀ 0 := by
  intro d c i O W hO _ _
  simp only [show (P m hpre).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (hb d (coordsV ⟨_, hci.1⟩ ⟨_, hci.2⟩) (tileQ c i) O W hO).trans (wp_mono frame _ _ fun _ => obl_post)

end Cert.KernelIdeal.Launch

end
-- ==== Proof.TcBody.lean ====
/-
  One grid point of the dense stack, as a statement about buffers.

  At a grid point the dense stack reads nine buffers whole — a block of 4096 concatenated embedding rows, the three
  weight matrices with their bias rows, the output row and the output bias — and writes ONE buffer whole: the
  block of 32 x 128 results.  What it writes is a function of what it read and of nothing else (`outBlk`): the three
  layers and the final inner product applied to the 4096 rows, laid out as 32 rows of 128.  The nine buffers it read
  are left as they were, and whatever the result buffer held before is forgotten.
-/
import proofs.«201366_g32727650796262_cont_8to1_b_1271_35_alg».proof.Proof.Gen.KernelIdeal.Launch
import proofs.«201366_g32727650796262_cont_8to1_b_1271_35_alg».proof.Proof.Gen.KernelIdeal.Skeleton
import Idealize.ShloMosaic.Lib.Pipeline.FrameBody
import Idealize.ShloMosaic.Lib.Pipeline.Value
import Idealize.ShloMosaic.Lib.ValueIdx
import Idealize.ShloMosaic.Lib.Tactic

set_option maxRecDepth 16384

noncomputable section

namespace Cert.KernelIdeal.TcRegion

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F] {Ix : Type} [DecidableEq Ix] {U : Type} [URA U] {Lvl : Type} [Preorder Lvl]

local notation "𝕄" => MT nD τ sig Ix (Elt F) ℕ U Lvl

/-- The 32 x 128 block of results of one grid point, from the contents of the nine buffers read there: the rows
    `x0`, the layers' weights and biases `x1 … x6`, the output row `x7` and the output bias `x8`. -/
def outBlk (x0 : Vec F S4096x256 .f32) (x1 : Vec F S256x512 .bf16) (x2 : Vec F S1x512 .f32) (x3 : Vec F S512x256 .bf16) (x4 : Vec F S1x256 .f32) (x5 : Vec F S256x128 .f32) (x6 : Vec F S1x128 .f32) (x7 : Vec F S1x128 .f32) (x8 : Vec F S1x1 .f32) : Vec F S32x128 .f32 :=
  k1_pay1 (k1_pay2 x0 x1 x2 x3 x4 x5 x6 x7) x8

/-- The offsets of a rectangle that starts at the origin of a matrix. -/
theorem zeros2 : (![0, 0] : Fin 2 → Nat) = fun _ => 0 := by funext a; fin_cases a <;> rfl

set_option maxHeartbeats 1000000 in
/-- One grid point.  From the nine input buffers held whole at contents `x0 … x8` and the result buffer held whole at
    anything, the body runs to its continuation with the inputs as they were and the result buffer at
    `outBlk x0 … x8`: every load is of a whole buffer (a rectangle from the origin of the buffer's own extents reads
    the contents), and the one store covers the result buffer, so what the buffer reads afterwards is the stored
    value, whatever it held. -/
theorem sound_kernel (𝒱₀ : Variants) (c : Dev nD) (E : Set ℕ) (i : grid1.Coords) (arg1 : Memref sig .tc .vmem S4096x256 .f32) (harg1 : arg1.IsWhole) (arg2 : Memref sig .tc .vmem S256x512 .bf16) (harg2 : arg2.IsWhole) (arg3 : Memref sig .tc .vmem S1x512 .f32) (harg3 : arg3.IsWhole) (arg4 : Memref sig .tc .vmem S512x256 .bf16) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1 .f32) (harg9 : arg9.IsWhole) (arg10 : Memref sig .tc .vmem S32x128 .f32) (harg10 : arg10.IsWhole)
    (x0 : Vec F S4096x256 .f32) (x1 : Vec F S256x512 .bf16) (x2 : Vec F S1x512 .f32) (x3 : Vec F S512x256 .bf16) (x4 : Vec F S1x256 .f32) (x5 : Vec F S256x128 .f32) (x6 : Vec F S1x128 .f32) (x7 : Vec F S1x128 .f32) (x8 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (outBlk x0 x1 x2 x3 x4 x5 x6 x7 x8)) -∗ K ⟨⟩))
      ⊢ wp frame (wpE (defs₀ (F := F)) 𝒱₀ c none) E (cc1__mlp_body i arg1 harg1 arg2 harg2 arg3 harg3 arg4 harg4 arg5 harg5 arg6 harg6 arg7 harg7 arg8 harg8 arg9 harg9 arg10 harg10) K := by
  simp only [cc1__mlp_body_eq_skeleton]; unfold cc1__mlp_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  -- the result buffer after the one covering store reads as the stored value
  rw [View.read_writes_eq_canon _ _ _ (fun y => ⟨_, List.mem_singleton_self _, View.mem_set_unit_zero (S := S32x128) zeros2 inb_S32x128_S32x128_0_0 y⟩)]
  rw [View.canon_unit_zero (S := S32x128) zeros2]
  sl_unfold_run_names
  -- each whole-buffer load reads the buffer's contents
  simp only [View.readAt_eq_ld]
  rw [View.ld_unit_zero (S := S4096x256) zeros2, View.ld_unit_zero (S := S256x512) zeros2, View.ld_unit_zero (S := S1x512) zeros2,
    View.ld_unit_zero (S := S512x256) zeros2, View.ld_unit_zero (S := S1x256) zeros2, View.ld_unit_zero (S := S256x128) zeros2,
    View.ld_unit_zero (S := S1x128) zeros2, View.ld_unit_zero (S := S1x128) zeros2, View.ld_unit_zero (S := S1x1) zeros2]
  rfl

end Cert.KernelIdeal.TcRegion

end
-- ==== Proof.TcRegion.lean ====
/-
  The dense stack's kernel call as one region of the program.

  The call runs a grid of four points.  Point `t` fetches rows `[4096 t, 4096 t + 4096)` of the concatenated
  embeddings and (at the first point only; afterwards they stay where they are) the eight parameter arrays whole,
  computes the block of 4096 results laid out as 32 x 128, and writes it back to rows `[32 t, 32 t + 32)` of the
  128 x 128 result array.  The four blocks tile the result array, so after the region row `p` of the result is row
  `p mod 32` of the block of point `p / 32` (`OUT`), and no other array has changed.
-/
import proofs.«201366_g32727650796262_cont_8to1_b_1271_35_alg».proof.Proof.TcBody
import proofs.«201366_g32727650796262_cont_8to1_b_1271_35_alg».proof.Proof.Gen.KernelIdeal.Points
import Idealize.ShloMosaic.Lib.Pipeline.RegionsLoop
import Idealize.ShloMosaic.Lib.ValueIdx

set_option maxRecDepth 16384

noncomputable section

namespace Cert.KernelIdeal.TcRegion

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F] {Ix : Type} [DecidableEq Ix] {U : Type} [URA U] {Lvl : Type} [Preorder Lvl]

local notation "𝕄" => MT nD τ sig Ix (Elt F) ℕ U Lvl

variable (Vin : Dev nD → Valuation τ sig (Elt F)) (W : Waits sig Ix)

/-! ## The blocks -/

/-- Window `w`'s block at grid point `t`, read off the window's array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (Vin c (Pipeline.arrRef spec1 w))

/-- The block of results grid point `t` computes: `outBlk` of rows `[4096 t, 4096 t + 4096)` of the concatenated
    embeddings and of the eight parameter arrays, each read whole. -/
def outBlock (c : Dev nD) (t : Fin cfg1.N) : Vec F S32x128 .f32 :=
  outBlk (iblk Vin c 0 t) (iblk Vin c 1 t) (iblk Vin c 2 t) (iblk Vin c 3 t) (iblk Vin c 4 t) (iblk Vin c 5 t) (iblk Vin c 6 t) (iblk Vin c 7 t) (iblk Vin c 8 t)

/-- The grid point whose block holds row `p` of the result: blocks are 32 rows. -/
def ptOf (p : Fin 128) : Fin cfg1.N := ⟨p.val / 32, by show _ < grid1.N; rw [N_1]; omega⟩

/-- The result array after the region, as one function of the index: row `p = 32 t + a` is row `a` of the block
    grid point `t` computes. -/
def outArr (c : Dev nD) : Vec F S128x128 .f32 :=
  fun i => outBlock Vin c (ptOf (i 0)) (ix2 ⟨(i 0).val % 32, Nat.mod_lt _ (by decide)⟩ (i 1))

/-- The same, as the contents of the result's buffer. -/
def OUT (c : Dev nD) : Buf (Elt F) ((c : Thread nD τ).loc main_v10) := outArr Vin c

theorem OUT_apply (c : Dev nD) (p q : Fin 128) :
    OUT Vin c (ix2 p q) = outBlock Vin c (ptOf p) (ix2 ⟨p.val % 32, Nat.mod_lt _ (by decide)⟩ q) := rfl

/-! ## The proof data -/

/-- The pipeline's data on core `c`: the arrays as the region finds them; after the body at point `t` every input's
    buffer still at its block and the result's at `outBlock`; between points nothing but the core's scoped buffers
    that stage no window; nothing owed; every array held whole; and the waits the core has recorded, the
    pipeline's own apart, stay within the set `W` it entered with. -/
def dat1 (c : Dev nD) : Dat τ (Elt F) Ix ℕ U Lvl cfg1 c where
  A w := Vin c (Pipeline.arrRef spec1 w)
  after w t := match w with
    | ⟨0, _⟩ => iblk Vin c 0 t
    | ⟨1, _⟩ => iblk Vin c 1 t
    | ⟨2, _⟩ => iblk Vin c 2 t
    | ⟨3, _⟩ => iblk Vin c 3 t
    | ⟨4, _⟩ => iblk Vin c 4 t
    | ⟨5, _⟩ => iblk Vin c 5 t
    | ⟨6, _⟩ => iblk Vin c 6 t
    | ⟨7, _⟩ => iblk Vin c 7 t
    | ⟨8, _⟩ => iblk Vin c 8 t
    | ⟨9, _⟩ => outBlock Vin c t
  Φ _ := Pipeline.scopedRest spec1 c
  q _ := fullShare
  owed _ := 0
  recorded _ := (↑W : Set (SemLoc sig × Ix))

/-- No pipeline of the program has a prefetched table. -/
abbrev adm : (p : Fin 1) → (pcfgs (F := F) p).Adm := fun p => (cfgs p).toPCfg_adm

/-- The proof data of every pipeline of the program (there is one). -/
def pdats (p : Fin 1) (c : Dev nD) : Dat τ (Elt F) Ix ℕ U Lvl (cfgs p) c := dat1 Vin W c

theorem A_eq (c : Dev nD) (w : Fin cfg1.W) :
    (dat1 (U := U) (Lvl := Lvl) Vin W c).A w = Vin c (Pipeline.arrRef spec1 w) := by dsimp only [dat1]

theorem after_0 (c : Dev nD) (t : Fin cfg1.N) : (dat1 (U := U) (Lvl := Lvl) Vin W c).after 0 t = iblk Vin c 0 t := by dsimp only [dat1]
theorem after_1 (c : Dev nD) (t : Fin cfg1.N) : (dat1 (U := U) (Lvl := Lvl) Vin W c).after 1 t = iblk Vin c 1 t := by dsimp only [dat1]
theorem after_2 (c : Dev nD) (t : Fin cfg1.N) : (dat1 (U := U) (Lvl := Lvl) Vin W c).after 2 t = iblk Vin c 2 t := by dsimp only [dat1]
theorem after_3 (c : Dev nD) (t : Fin cfg1.N) : (dat1 (U := U) (Lvl := Lvl) Vin W c).after 3 t = iblk Vin c 3 t := by dsimp only [dat1]
theorem after_4 (c : Dev nD) (t : Fin cfg1.N) : (dat1 (U := U) (Lvl := Lvl) Vin W c).after 4 t = iblk Vin c 4 t := by dsimp only [dat1]
theorem after_5 (c : Dev nD) (t : Fin cfg1.N) : (dat1 (U := U) (Lvl := Lvl) Vin W c).after 5 t = iblk Vin c 5 t := by dsimp only [dat1]
theorem after_6 (c : Dev nD) (t : Fin cfg1.N) : (dat1 (U := U) (Lvl := Lvl) Vin W c).after 6 t = iblk Vin c 6 t := by dsimp only [dat1]
theorem after_7 (c : Dev nD) (t : Fin cfg1.N) : (dat1 (U := U) (Lvl := Lvl) Vin W c).after 7 t = iblk Vin c 7 t := by dsimp only [dat1]
theorem after_8 (c : Dev nD) (t : Fin cfg1.N) : (dat1 (U := U) (Lvl := Lvl) Vin W c).after 8 t = iblk Vin c 8 t := by dsimp only [dat1]
theorem after_9 (c : Dev nD) (t : Fin cfg1.N) : (dat1 (U := U) (Lvl := Lvl) Vin W c).after 9 t = outBlock Vin c t := by dsimp only [dat1]

/-! ## What the body finds in an input's buffer

An input's buffer holds the input's block at every point, fetched there or not: a point that does not fetch it has
the block index of the point before, and the body left the block in place. -/

theorem before_0 (c : Dev nD) (t : Fin cfg1.N) (d) : (dat1 (U := U) (Lvl := Lvl) Vin W c).before 0 t d = iblk Vin c 0 t := by
  have hkeep : ∀ t, (cfg1.win 0).cut (cfg1.grid.coords t) ((dat1 (U := U) (Lvl := Lvl) Vin W c).after 0 t) = (dat1 (U := U) (Lvl := Lvl) Vin W c).blockOf 0 t := fun t => by
    rw [after_0]; unfold Dat.blockOf iblk; rw [A_eq]; try rfl
  rw [(dat1 (U := U) (Lvl := Lvl) Vin W c).before_in_eq_fetched 0 rfl (fun _ => rfl) (fun _ _ _ => rfl) hkeep t d]
  unfold Dat.fetched Dat.blockOf iblk; rw [A_eq]; try rfl
theorem before_1 (c : Dev nD) (t : Fin cfg1.N) (d) : (dat1 (U := U) (Lvl := Lvl) Vin W c).before 1 t d = iblk Vin c 1 t := by
  have hkeep : ∀ t, (cfg1.win 1).cut (cfg1.grid.coords t) ((dat1 (U := U) (Lvl := Lvl) Vin W c).after 1 t) = (dat1 (U := U) (Lvl := Lvl) Vin W c).blockOf 1 t := fun t => by
    rw [after_1]; unfold Dat.blockOf iblk; rw [A_eq]; try rfl
  rw [(dat1 (U := U) (Lvl := Lvl) Vin W c).before_in_eq_fetched 1 rfl (fun _ => rfl) (fun _ _ _ => rfl) hkeep t d]
  unfold Dat.fetched Dat.blockOf iblk; rw [A_eq]; try rfl
theorem before_2 (c : Dev nD) (t : Fin cfg1.N) (d) : (dat1 (U := U) (Lvl := Lvl) Vin W c).before 2 t d = iblk Vin c 2 t := by
  have hkeep : ∀ t, (cfg1.win 2).cut (cfg1.grid.coords t) ((dat1 (U := U) (Lvl := Lvl) Vin W c).after 2 t) = (dat1 (U := U) (Lvl := Lvl) Vin W c).blockOf 2 t := fun t => by
    rw [after_2]; unfold Dat.blockOf iblk; rw [A_eq]; try rfl
  rw [(dat1 (U := U) (Lvl := Lvl) Vin W c).before_in_eq_fetched 2 rfl (fun _ => rfl) (fun _ _ _ => rfl) hkeep t d]
  unfold Dat.fetched Dat.blockOf iblk; rw [A_eq]; try rfl
theorem before_3 (c : Dev nD) (t : Fin cfg1.N) (d) : (dat1 (U := U) (Lvl := Lvl) Vin W c).before 3 t d = iblk Vin c 3 t := by
  have hkeep : ∀ t, (cfg1.win 3).cut (cfg1.grid.coords t) ((dat1 (U := U) (Lvl := Lvl) Vin W c).after 3 t) = (dat1 (U := U) (Lvl := Lvl) Vin W c).blockOf 3 t := fun t => by
    rw [after_3]; unfold Dat.blockOf iblk; rw [A_eq]; try rfl
  rw [(dat1 (U := U) (Lvl := Lvl) Vin W c).before_in_eq_fetched 3 rfl (fun _ => rfl) (fun _ _ _ => rfl) hkeep t d]
  unfold Dat.fetched Dat.blockOf iblk; rw [A_eq]; try rfl
theorem before_4 (c : Dev nD) (t : Fin cfg1.N) (d) : (dat1 (U := U) (Lvl := Lvl) Vin W c).before 4 t d = iblk Vin c 4 t := by
  have hkeep : ∀ t, (cfg1.win 4).cut (cfg1.grid.coords t) ((dat1 (U := U) (Lvl := Lvl) Vin W c).after 4 t) = (dat1 (U := U) (Lvl := Lvl) Vin W c).blockOf 4 t := fun t => by
    rw [after_4]; unfold Dat.blockOf iblk; rw [A_eq]; try rfl
  rw [(dat1 (U := U) (Lvl := Lvl) Vin W c).before_in_eq_fetched 4 rfl (fun _ => rfl) (fun _ _ _ => rfl) hkeep t d]
  unfold Dat.fetched Dat.blockOf iblk; rw [A_eq]; try rfl
theorem before_5 (c : Dev nD) (t : Fin cfg1.N) (d) : (dat1 (U := U) (Lvl := Lvl) Vin W c).before 5 t d = iblk Vin c 5 t := by
  have hkeep : ∀ t, (cfg1.win 5).cut (cfg1.grid.coords t) ((dat1 (U := U) (Lvl := Lvl) Vin W c).after 5 t) = (dat1 (U := U) (Lvl := Lvl) Vin W c).blockOf 5 t := fun t => by
    rw [after_5]; unfold Dat.blockOf iblk; rw [A_eq]; try rfl
  rw [(dat1 (U := U) (Lvl := Lvl) Vin W c).before_in_eq_fetched 5 rfl (fun _ => rfl) (fun _ _ _ => rfl) hkeep t d]
  unfold Dat.fetched Dat.blockOf iblk; rw [A_eq]; try rfl
theorem before_6 (c : Dev nD) (t : Fin cfg1.N) (d) : (dat1 (U := U) (Lvl := Lvl) Vin W c).before 6 t d = iblk Vin c 6 t := by
  have hkeep : ∀ t, (cfg1.win 6).cut (cfg1.grid.coords t) ((dat1 (U := U) (Lvl := Lvl) Vin W c).after 6 t) = (dat1 (U := U) (Lvl := Lvl) Vin W c).blockOf 6 t := fun t => by
    rw [after_6]; unfold Dat.blockOf iblk; rw [A_eq]; try rfl
  rw [(dat1 (U := U) (Lvl := Lvl) Vin W c).before_in_eq_fetched 6 rfl (fun _ => rfl) (fun _ _ _ => rfl) hkeep t d]
  unfold Dat.fetched Dat.blockOf iblk; rw [A_eq]; try rfl
theorem before_7 (c : Dev nD) (t : Fin cfg1.N) (d) : (dat1 (U := U) (Lvl := Lvl) Vin W c).before 7 t d = iblk Vin c 7 t := by
  have hkeep : ∀ t, (cfg1.win 7).cut (cfg1.grid.coords t) ((dat1 (U := U) (Lvl := Lvl) Vin W c).after 7 t) = (dat1 (U := U) (Lvl := Lvl) Vin W c).blockOf 7 t := fun t => by
    rw [after_7]; unfold Dat.blockOf iblk; rw [A_eq]; try rfl
  rw [(dat1 (U := U) (Lvl := Lvl) Vin W c).before_in_eq_fetched 7 rfl (fun _ => rfl) (fun _ _ _ => rfl) hkeep t d]
  unfold Dat.fetched Dat.blockOf iblk; rw [A_eq]; try rfl
theorem before_8 (c : Dev nD) (t : Fin cfg1.N) (d) : (dat1 (U := U) (Lvl := Lvl) Vin W c).before 8 t d = iblk Vin c 8 t := by
  have hkeep : ∀ t, (cfg1.win 8).cut (cfg1.grid.coords t) ((dat1 (U := U) (Lvl := Lvl) Vin W c).after 8 t) = (dat1 (U := U) (Lvl := Lvl) Vin W c).blockOf 8 t := fun t => by
    rw [after_8]; unfold Dat.blockOf iblk; rw [A_eq]; try rfl
  rw [(dat1 (U := U) (Lvl := Lvl) Vin W c).before_in_eq_fetched 8 rfl (fun _ => rfl) (fun _ _ _ => rfl) hkeep t d]
  unfold Dat.fetched Dat.blockOf iblk; rw [A_eq]; try rfl

/-! ## The body obligation -/

/-- What the body is called with at point `t`, -/
def bodyPre (ι : Ix) (c : Dev nD) (t : Fin cfg1.N) : sProp 𝕄 :=
  iprop((dat1 (U := U) (Lvl := Lvl) Vin W c).Φ t.castSucc ∗ (dat1 (U := U) (Lvl := Lvl) Vin W c).owesAt ι t.castSucc
    ∗ (∃ d, owns (c : Thread nD τ) (st1_0 t) fullShare ((dat1 (U := U) (Lvl := Lvl) Vin W c).before 0 t d))
    ∗ (∃ d, owns (c : Thread nD τ) (st1_1 t) fullShare ((dat1 (U := U) (Lvl := Lvl) Vin W c).before 1 t d))
    ∗ (∃ d, owns (c : Thread nD τ) (st1_2 t) fullShare ((dat1 (U := U) (Lvl := Lvl) Vin W c).before 2 t d))
    ∗ (∃ d, owns (c : Thread nD τ) (st1_3 t) fullShare ((dat1 (U := U) (Lvl := Lvl) Vin W c).before 3 t d))
    ∗ (∃ d, owns (c : Thread nD τ) (st1_4 t) fullShare ((dat1 (U := U) (Lvl := Lvl) Vin W c).before 4 t d))
    ∗ (∃ d, owns (c : Thread nD τ) (st1_5 t) fullShare ((dat1 (U := U) (Lvl := Lvl) Vin W c).before 5 t d))
    ∗ (∃ d, owns (c : Thread nD τ) (st1_6 t) fullShare ((dat1 (U := U) (Lvl := Lvl) Vin W c).before 6 t d))
    ∗ (∃ d, owns (c : Thread nD τ) (st1_7 t) fullShare ((dat1 (U := U) (Lvl := Lvl) Vin W c).before 7 t d))
    ∗ (∃ d, owns (c : Thread nD τ) (st1_8 t) fullShare ((dat1 (U := U) (Lvl := Lvl) Vin W c).before 8 t d))
    ∗ (∃ d, owns (c : Thread nD τ) (st1_9 t) fullShare ((dat1 (U := U) (Lvl := Lvl) Vin W c).before 9 t d)))

/-- and what it returns. -/
def bodyPost (ι : Ix) (c : Dev nD) (t : Fin cfg1.N) : sProp 𝕄 :=
  iprop((dat1 (U := U) (Lvl := Lvl) Vin W c).Φ t.succ ∗ (dat1 (U := U) (Lvl := Lvl) Vin W c).owesAt ι t.succ
    ∗ owns (c : Thread nD τ) (st1_0 t) fullShare ((dat1 (U := U) (Lvl := Lvl) Vin W c).after 0 t)
    ∗ owns (c : Thread nD τ) (st1_1 t) fullShare ((dat1 (U := U) (Lvl := Lvl) Vin W c).after 1 t)
    ∗ owns (c : Thread nD τ) (st1_2 t) fullShare ((dat1 (U := U) (Lvl := Lvl) Vin W c).after 2 t)
    ∗ owns (c : Thread nD τ) (st1_3 t) fullShare ((dat1 (U := U) (Lvl := Lvl) Vin W c).after 3 t)
    ∗ owns (c : Thread nD τ) (st1_4 t) fullShare ((dat1 (U := U) (Lvl := Lvl) Vin W c).after 4 t)
    ∗ owns (c : Thread nD τ) (st1_5 t) fullShare ((dat1 (U := U) (Lvl := Lvl) Vin W c).after 5 t)
    ∗ owns (c : Thread nD τ) (st1_6 t) fullShare ((dat1 (U := U) (Lvl := Lvl) Vin W c).after 6 t)
    ∗ owns (c : Thread nD τ) (st1_7 t) fullShare ((dat1 (U := U) (Lvl := Lvl) Vin W c).after 7 t)
    ∗ owns (c : Thread nD τ) (st1_8 t) fullShare ((dat1 (U := U) (Lvl := Lvl) Vin W c).after 8 t)
    ∗ owns (c : Thread nD τ) (st1_9 t) fullShare ((dat1 (U := U) (Lvl := Lvl) Vin W c).after 9 t))

theorem sound_body (𝒱₀ : Variants) (ι : Ix) (c : Dev nD) (t : Fin cfg1.N) :
    (bodyPre Vin W ι c t : sProp 𝕄) ⊢ wp frame (wpE (defs₀ (F := F)) 𝒱₀ c none) Set.univ (bodyAt1 t) (fun _ => (bodyPost Vin W ι c t : sProp 𝕄)) := by
  unfold bodyPre bodyPost bodyAt1
  simp only [before_0, before_1, before_2, before_3, before_4, before_5, before_6, before_7, before_8]
  rw [show (dat1 (U := U) (Lvl := Lvl) Vin W c).Φ t.succ = (dat1 (U := U) (Lvl := Lvl) Vin W c).Φ t.castSucc from rfl,
    show (dat1 (U := U) (Lvl := Lvl) Vin W c).owesAt ι t.succ = (dat1 (U := U) (Lvl := Lvl) Vin W c).owesAt ι t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel 𝒱₀ c Set.univ (grid1.coords t) _ _ _ _ _ _ _ _ _ _ _ _ _ _ _ _ _ _ _ _ (iblk Vin c 0 t) (iblk Vin c 1 t) (iblk Vin c 2 t) (iblk Vin c 3 t) (iblk Vin c 4 t) (iblk Vin c 5 t) (iblk Vin c 6 t) (iblk Vin c 7 t) (iblk Vin c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation (𝒱₀ : Variants) (ι : Ix) (c : Dev nD) :
    BodyObligation (dat1 (F := F) (U := U) (Lvl := Lvl) Vin W c) (defs₀ (F := F)) 𝒱₀ ι Set.univ := fun t => by
  rw [bigSep_W1, bigSep_W1]
  exact sound_body Vin W 𝒱₀ ι c t

/-! ## The result array after the region -/

/-- Grid point `t` writes the block of rows `[32 t, 32 t + 32)`, all 128 columns: the block index of the result's
    window is `(t, 0)`. -/
theorem index9 : ∀ t : Fin cfg1.N, (cfg1.win 9).index t (0 : Fin 2) = t.val ∧ (cfg1.win 9).index t (1 : Fin 2) = 0 :=
  (by decide +kernel : ∀ t : Fin grid1.N, win1_9.index t (0 : Fin 2) = t.val ∧ win1_9.index t (1 : Fin 2) = 0)

/-- The result array at an index whose row is `32 t + a`: row `a` of point `t`'s block. -/
theorem outArr_at (c : Dev nD) (t : Fin cfg1.N) (y : S32x128.Idx) (j : S128x128.Idx)
    (h0 : (j (0 : Fin 2)).val = t.val * 32 + (y (0 : Fin 2)).val) (h1 : (j (1 : Fin 2)).val = (y (1 : Fin 2)).val) :
    outArr Vin c j = outBlock Vin c t y := by
  have hy : (y (0 : Fin 2)).val < 32 := (y (0 : Fin 2)).isLt
  have ht : ptOf (j (0 : Fin 2)) = t := Fin.ext (by show (j (0 : Fin 2)).val / 32 = t.val; omega)
  show outBlock Vin c (ptOf (j 0)) (ix2 ⟨(j 0).val % 32, _⟩ (j 1)) = _
  rw [ht]
  congr 1
  funext a
  match a with
  | ⟨0, _⟩ => exact Fin.ext (by show (j (0 : Fin 2)).val % 32 = (y (0 : Fin 2)).val; omega)
  | ⟨1, _⟩ => exact Fin.ext h1

/-- What point `t` writes back is block `t` of `OUT`: row `a` of the block sits at row `32 t + a` of the array, whose
    quotient by 32 is `t` and whose remainder is `a`. -/
theorem flushed9 (c : Dev nD) (t : Fin cfg1.N) :
    (dat1 (U := U) (Lvl := Lvl) Vin W c).flushed 9 t = ((cfg1.win 9).blk t).view.read (Elt F) (OUT Vin c) := by
  funext y
  show (dat1 (U := U) (Lvl := Lvl) Vin W c).after 9 t y = OUT Vin c (((cfg1.win 9).blk t).view.emb y)
  rw [after_9]
  have h0 : ((((cfg1.win 9).blk t).view.emb y) (0 : Fin 2) : Nat) = t.val * 32 + (y (0 : Fin 2)).val := by
    show win1_9.index t (0 : Fin 2) * 32 + 1 * (y (0 : Fin 2)).val = _
    rw [(index9 t).1]; omega
  have h1 : ((((cfg1.win 9).blk t).view.emb y) (1 : Fin 2) : Nat) = (y (1 : Fin 2)).val := by
    show win1_9.index t (1 : Fin 2) * 128 + 1 * (y (1 : Fin 2)).val = _
    rw [(index9 t).2]; omega
  exact (outArr_at Vin c t y _ h0 h1).symm

/-- Every row of the result lies in the block of the point `row / 32`. -/
theorem cover9 (c : Dev nD) (i : ((cfg1.win 9).arr.view.loc (c.tc : Thread nD τ)).2.ty.Idx) :
    ∃ t : Fin cfg1.N, (cfg1.win 9).flush t = true ∧ i ∈ ((cfg1.win 9).blk t).view.set := by
  refine ⟨ptOf (i (0 : Fin 2)), flush1_9 _, ?_⟩
  have hi0 : (i (0 : Fin 2)).val < 128 := (i (0 : Fin 2)).isLt
  have hi1 : (i (1 : Fin 2)).val < 128 := (i (1 : Fin 2)).isLt
  rw [View.set_slice_whole, Rect.mem_set_unit]
  intro a
  match a with
  | ⟨0, _⟩ =>
    show win1_9.index (ptOf (i (0 : Fin 2))) (0 : Fin 2) * 32 ≤ (i (0 : Fin 2)).val
      ∧ (i (0 : Fin 2)).val < win1_9.index (ptOf (i (0 : Fin 2))) (0 : Fin 2) * 32 + 32
    rw [(index9 _).1]
    show (i (0 : Fin 2)).val / 32 * 32 ≤ (i (0 : Fin 2)).val ∧ (i (0 : Fin 2)).val < (i (0 : Fin 2)).val / 32 * 32 + 32
    omega
  | ⟨1, _⟩ =>
    show win1_9.index (ptOf (i (0 : Fin 2))) (1 : Fin 2) * 128 ≤ (i (1 : Fin 2)).val
      ∧ (i (1 : Fin 2)).val < win1_9.index (ptOf (i (0 : Fin 2))) (1 : Fin 2) * 128 + 128
    rw [(index9 _).2]
    omega

/-- So the result array ends the region at `OUT`. -/
theorem final9 (c : Dev nD) : (dat1 (U := U) (Lvl := Lvl) Vin W c).arrAt 9 cfg1.N = OUT Vin c :=
  (dat1 (U := U) (Lvl := Lvl) Vin W c).arrAt_eq_of_cover 9 (OUT Vin c) (fun t _ => flushed9 Vin W c t) (cover9 c)

/-! ## The region's record -/

/-- The unscoped buffers after the region: as the region found them, but for the result array, which holds `OUT`. -/
abbrev Vout (c : Dev nD) : Valuation τ sig (Elt F) := Function.update (Vin c) (Proc.devRef .tc main_v10) (OUT Vin c)

theorem Vout_main_v10 (c : Dev nD) : Vout Vin c (Proc.devRef .tc main_v10) = OUT Vin c := Function.update_self ..

theorem Vout_of_ne (c : Dev nD) (b : Ref sig .tc) (h : b ≠ main_v10) : Vout Vin c (Proc.devRef .tc b) = Vin c (Proc.devRef .tc b) :=
  Function.update_of_ne (StableHlo.devRef_ne_of_ne h) ..

/-- Every array of the pipeline ends the region at what `Vout` says: an input as it was, the result at `OUT`. -/
theorem arrAt_Vout (c : Dev nD) : ∀ w : Fin cfg1.W,
    (dat1 (U := U) (Lvl := Lvl) Vin W c).arrAt w cfg1.N = Vout Vin c (Proc.devRef .tc (Pipeline.arrRef spec1 w))
  | ⟨0, _⟩ => ((dat1 (U := U) (Lvl := Lvl) Vin W c).arrAt_in 0 rfl _).trans ((A_eq Vin W c 0).trans (Vout_of_ne Vin c _ (by decide)).symm)
  | ⟨1, _⟩ => ((dat1 (U := U) (Lvl := Lvl) Vin W c).arrAt_in 1 rfl _).trans ((A_eq Vin W c 1).trans (Vout_of_ne Vin c _ (by decide)).symm)
  | ⟨2, _⟩ => ((dat1 (U := U) (Lvl := Lvl) Vin W c).arrAt_in 2 rfl _).trans ((A_eq Vin W c 2).trans (Vout_of_ne Vin c _ (by decide)).symm)
  | ⟨3, _⟩ => ((dat1 (U := U) (Lvl := Lvl) Vin W c).arrAt_in 3 rfl _).trans ((A_eq Vin W c 3).trans (Vout_of_ne Vin c _ (by decide)).symm)
  | ⟨4, _⟩ => ((dat1 (U := U) (Lvl := Lvl) Vin W c).arrAt_in 4 rfl _).trans ((A_eq Vin W c 4).trans (Vout_of_ne Vin c _ (by decide)).symm)
  | ⟨5, _⟩ => ((dat1 (U := U) (Lvl := Lvl) Vin W c).arrAt_in 5 rfl _).trans ((A_eq Vin W c 5).trans (Vout_of_ne Vin c _ (by decide)).symm)
  | ⟨6, _⟩ => ((dat1 (U := U) (Lvl := Lvl) Vin W c).arrAt_in 6 rfl _).trans ((A_eq Vin W c 6).trans (Vout_of_ne Vin c _ (by decide)).symm)
  | ⟨7, _⟩ => ((dat1 (U := U) (Lvl := Lvl) Vin W c).arrAt_in 7 rfl _).trans ((A_eq Vin W c 7).trans (Vout_of_ne Vin c _ (by decide)).symm)
  | ⟨8, _⟩ => ((dat1 (U := U) (Lvl := Lvl) Vin W c).arrAt_in 8 rfl _).trans ((A_eq Vin W c 8).trans (Vout_of_ne Vin c _ (by decide)).symm)
  | ⟨9, _⟩ => (final9 Vin W c).trans (Vout_main_v10 Vin c).symm

/-- A buffer that is no array of the pipeline is not the result array. -/
theorem Vout_rest (c : Dev nD) (b : Ref sig .tc) (hb : b ∉ Finset.univ.image (Pipeline.arrRef spec1)) :
    Vout Vin c (Proc.devRef .tc b) = Vin c (Proc.devRef .tc b) :=
  Vout_of_ne Vin c b fun e => hb (Finset.mem_image.mpr ⟨9, Finset.mem_univ _, e.symm⟩)

set_option backward.isDefEq.respectTransparency.types false in
/-- THE REGION.  Entered with every unscoped buffer held whole at `Vin c` and the core owing nothing, having
    recorded the waits `W`; left with every unscoped buffer at `Vout Vin c` — the result array at `OUT`, the others
    untouched — and the core still owing nothing, every wait it has recorded since being one of the pipeline's own,
    at the index `ι`.  The pipeline's arrays are split out of the unscoped buffers at entry and put back at exit; the
    others go round the region; the kernel has no semaphore of its own and reads no prefetched table. -/
def R (ι : Ix) (𝒱₀ : Variants) (L : GSem nD τ sig → Finset Ix) (lv : GSem nD τ sig → Ix → Lvl) :
    Pipeline.RegionSeg (Name := ℕ) (U := U) (pcfgs (F := F)) adm (pdats (U := U) (Lvl := Lvl) Vin W) ι defs₀ 𝒱₀ L lv 0 where
  win := launch1.win.to₀
  block_pos := launch1.block_pos
  stage_whole := launch1.stage_whole
  K := PEmpty
  osem k := k.elim
  ho := Pipeline.OwnSemFacts.none _
  hbody c := (body_obligation Vin W 𝒱₀ ι c).loose
  hwaits := Pipeline.hwaits_of_owed_zero _ _ _ _ L lv 0 fun _ _ => rfl
  pre c := iprop(StableHlo.held (c : Thread nD τ) (Pipeline.ucRefs τ sig) (Vin c) ∗ owes (c : Thread nD τ) (0 : CellTallies nD τ sig Ix) W)
  post c := iprop(StableHlo.held (c : Thread nD τ) (Pipeline.ucRefs τ sig) (Vout Vin c)
    ∗ ∃ W', ⌜∀ p ∈ W', p ∈ W ∨ p.2 = ι⌝ ∗ owes (c : Thread nD τ) (0 : CellTallies nD τ sig Ix) W')
  X c := iprop(emp)
  Y c := iprop(emp)
  Z c := Pipeline.unscopedRest (Ix := Ix) (Name := ℕ) (U := U) (Lvl := Lvl) spec1 c (fun b => Vin c (Proc.devRef .tc b))
  hentry c := by
    rw [Pipeline.ownSems0_none]
    have hsplit := Pipeline.arrays_of_unscopedBufs (p := 0) (pcfgs (F := F)) adm (pdats (U := U) (Lvl := Lvl) Vin W) launch1.win launch1.arr_whole c
      ((pdats (U := U) (Lvl := Lvl) Vin W 0 c).share_full fun _ => rfl) (fun b => Vin c (Proc.devRef .tc b)) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun _ h => Or.inl h
      iexact HO
    isplitr; · iempintro
    iexact Hrest
  hin c := by
    rw [show (pdats (U := U) (Lvl := Lvl) Vin W 0 c).Φ 0 = Pipeline.scopedRest spec1 c from rfl]
    iintro ⟨-, -, Hr⟩
    iexact Hr
  hout c := by
    rw [Pipeline.ownSems0_none, show (pdats (U := U) (Lvl := Lvl) Vin W 0 c).Φ (Fin.last _) = Pipeline.scopedRest spec1 c from rfl]
    iintro Hr
    isplitr; · iempintro
    isplitr; · iempintro
    iexact Hr
  hexit c := by
    have hjoin := Pipeline.unscopedBufs_of_arrays (p := 0) (pcfgs (F := F)) adm (Ix := Ix) (Name := ℕ) (U := U) (Lvl := Lvl)
      launch1.win launch1.arr_whole c (pdats Vin W) ((pdats (U := U) (Lvl := Lvl) Vin W 0 c).share_full fun _ => rfl)
      (fun b => Vin c (Proc.devRef .tc b)) (fun b => Vout Vin c (Proc.devRef .tc b)) ((pdats (U := U) (Lvl := Lvl) Vin W 0 c).arrAt · cfg1.N)
      (arrAt_Vout Vin W c) (Vout_rest Vin c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W', %hW', HO⟩
    iexists W'; isplitr
    · ipureintro
      intro p hp
      rcases hW' (Finset.mem_coe.mpr hp) with h | ⟨w, s, rfl⟩
      · exact Or.inl (Finset.mem_coe.mp h)
      · exact Or.inr rfl
    iexact HO

/-- What the region is entered from, -/
theorem R_pre (ι : Ix) (𝒱₀ : Variants) (L : GSem nD τ sig → Finset Ix) (lv : GSem nD τ sig → Ix → Lvl) (c : Dev nD) :
    (R (U := U) Vin W ι 𝒱₀ L lv).pre c
      = iprop(StableHlo.held (c : Thread nD τ) (Pipeline.ucRefs τ sig) (Vin c) ∗ owes (c : Thread nD τ) (0 : CellTallies nD τ sig Ix) W) := rfl

/-- and what it leaves. -/
theorem R_post (ι : Ix) (𝒱₀ : Variants) (L : GSem nD τ sig → Finset Ix) (lv : GSem nD τ sig → Ix → Lvl) (c : Dev nD) :
    (R (U := U) Vin W ι 𝒱₀ L lv).post c
      = iprop(StableHlo.held (c : Thread nD τ) (Pipeline.ucRefs τ sig) (Vout Vin c)
          ∗ ∃ W', ⌜∀ p ∈ W', p ∈ W ∨ p.2 = ι⌝ ∗ owes (c : Thread nD τ) (0 : CellTallies nD τ sig Ix) W') := rfl

end Cert.KernelIdeal.TcRegion

end
-- ==== Proof.RunMain.lean ====
/-
  The launch: the ghost state dealt, the final memory read, the program's run.
-/
import proofs.«201366_g32727650796262_cont_8to1_b_1271_35_alg».proof.Proof.Main
import Idealize.ShloMosaic.Adequacy

noncomputable section

namespace Cert.KernelIdeal.Launch

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (Dat Seg HostSeg RegionSeg ucRefs)
open Idealize.ShloMosaic.Tactic

variable {F : FTy → Type} [FloatOps F]

local notation "𝕄" => MT nD τ sig (HIx 1) (Elt F) ℕ UU ℕ

/-! ## The launch element -/

/-- The launch element: the handshakes' cells and tokens, the pipeline's staging cells and tokens, the counters' unit. -/
def u₀ : UU :=
  (initOf (K (F := F)).hsCells (K (F := F)).hsToks,
    (initOf (Pipeline.cells (nD := nD) (τ := τ) cfgs cellOf_inj) (Pipeline.launchToks (nD := nD) (τ := τ) cfgs cellOf_inj), 1))

omit [FloatOps F] in
/-- The element splits into the handshakes' part and the pipeline's. -/
theorem ownU_split (a : UH) (b : UP) (c : Counters) :
    (ownU ((a, (b, c)) : UU) : sProp 𝕄) ⊢ iprop(BI.own (EH a) ∗ BI.own (EP b)) := by
  have h1 : (ownU ((a, (b, c)) : UU) : sProp 𝕄) ⊢ iprop(BI.own (EH a) ∗ BI.own ((uEmb (nD := nD) (sig := sig) (Ix := HIx 1) (Val := Elt F) (Name := ℕ) (U := UU) (Lvl := ℕ)).toEmb ((1, (b, c)) : UU))) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op (b, c))))
  have h2 : (BI.own ((uEmb (nD := nD) (sig := sig) (Ix := HIx 1) (Val := Elt F) (Name := ℕ) (U := UU) (Lvl := ℕ)).toEmb ((1, (b, c)) : UU)) : sProp 𝕄)
      ⊢ iprop(BI.own (EP b) ∗ BI.own ((uEmb (nD := nD) (sig := sig) (Ix := HIx 1) (Val := Elt F) (Name := ℕ) (U := UU) (Lvl := ℕ)).toEmb ((1, (1, c)) : UU))) :=
    BI.own_op_elim ((uEmb (nD := nD) (sig := sig) (Ix := HIx 1) (Val := Elt F) (Name := ℕ) (U := UU) (Lvl := ℕ)).toEmb.op_of_mem
      (Prod.mk_mem_op (URA.mem_op_one (1 : UH)) (Prod.mk_mem_op (URA.mem_op_one b) (URA.mem_one_op c))))
  iintro H
  ihave H1 := h1 $$ H
  icases H1 with ⟨HH, HR⟩
  ihave H2 := h2 $$ HR
  icases H2 with ⟨HP, -⟩
  isplitl [HH]; · iexact HH
  iexact HP

/-! ## What the launch deals -/

omit [FloatOps F] in
/-- One TensorCore's share of the pipeline's ghost state: its staging cells' launch states and its transfers' tokens. -/
theorem ghostOn_eq (d : Dev nD) :
    (Pipeline.ghostOn (pcfgs (F := F)) admP EP {0} d : sProp 𝕄)
      = iprop((bigSep Finset.univ fun p : Fin 1 => Pipeline.cellsGhost cfgs (EP (F := F)) p d)
          ∗ bigSep Finset.univ fun p : Fin 1 => Pipeline.toksInit cfgs (EP (F := F)) p d) := by
  unfold Pipeline.ghostOn Pipeline.PerCore.ghostOn
  rw [show ({0} : Finset (Fin 1)) = Finset.univ from rfl, bigSep_sep']

section Launch

variable (P : (K (F := F)).Pay (nD := nD) (Val := Elt F) (Name := ℕ) (U := UU))

/-- From the launch element: the handshakes' library, each TensorCore's share of the pipeline's ghost state (its
    staging cells not yet under invariants: host operations precede the region), nothing for the kernels. -/
theorem hu₀ (hx : ∀ q thr, P.x q thr = iprop(emp)) :
    (ownU (u₀ (F := F)) : sProp 𝕄)
      ⊢ |={Set.univ}=> iprop(BI.own (EH (initOf (K (F := F)).hsCells (K (F := F)).hsToks))
          ∗ (bigSep Finset.univ fun d : Dev nD => Pipeline.ghostOn (pcfgs (F := F)) admP EP {0} d)
          ∗ bigSep Finset.univ fun thr : Thread nD τ => bigSep Finset.univ fun q : Fin 1 => P.x q thr) := by
  unfold u₀
  iintro Hu
  ihave H := (ownU_split (F := F) _ _ _) $$ Hu
  icases H with ⟨HH, HP⟩
  imod (Pipeline.fund_ghost (nD := nD) (τ := τ) (cfgs) (EP (F := F)) cellOf_inj) $$ HP with ⟨Hg, Ht⟩
  imodintro
  isplitl [HH]; · iexact HH
  isplitl [Hg Ht]
  · rw [show (bigSep Finset.univ fun d : Dev nD => Pipeline.ghostOn (pcfgs (F := F)) admP EP {0} d)
        = bigSep Finset.univ fun d : Dev nD => iprop((bigSep Finset.univ fun p : Fin 1 => Pipeline.cellsGhost cfgs (EP (F := F)) p d)
            ∗ bigSep Finset.univ fun p : Fin 1 => Pipeline.toksInit cfgs (EP (F := F)) p d) from
          bigSep_congr fun d _ => ghostOn_eq (F := F) d, bigSep_sep']
    isplitl [Hg] <;> iassumption
  · rw [show (bigSep Finset.univ fun thr : Thread nD τ => bigSep Finset.univ fun q : Fin 1 => P.x q thr) = bigSep Finset.univ fun _ : Thread nD τ => (iprop(emp) : sProp 𝕄) from
      bigSep_congr fun thr _ => by rw [bigSep_univ_of_subsingleton (0 : Fin 1), hx],
      show (bigSep Finset.univ fun _ : Thread nD τ => (iprop(emp) : sProp 𝕄)) = iprop(emp) from BI.bigSep_emp_const _]
    iempintro

end Launch

/-! ## The final memory read, and the run -/

section Run

variable (m : (ℓ : Loc nD τ sig) → Buf (Elt F) ℓ) (ρ : Dev nD → PrngReg)
  (X : (c : Dev nD) → Buf (Elt F) ((c : Thread nD τ).loc main_v0))
  (Y : (c : Dev nD) → Buf (Elt F) ((c : Thread nD τ).loc main_v10))

/-- What a final state holds on device d: every unscoped TensorCore buffer at the last valuation. -/
def fq (d : Dev nD) (s' : Phys nD τ sig (Elt F)) : Prop :=
  ∀ b ∈ ucRefs τ sig, s'.mem.mem ((d, b) : Loc nD τ sig) = V4 m X Y d b

/-- The same of a final memory, on every device. -/
def QC : PUnit × MemSt nD τ sig (Elt F) → Prop :=
  fun r => ∀ (c : Dev nD), ∀ b ∈ ucRefs τ sig, r.2.mem ((c, b) : Loc nD τ sig) = V4 m X Y c b

/-- The TensorCore's last thread state holds the buffers whole: the final memory agrees with them. -/
theorem hfin (d : Dev nD) (s' : Phys nD τ sig (Elt F)) :
    iprop((held (SparseCore.T d) (ucRefs τ sig) (V4 m X Y d) : sProp 𝕄) ∗ SI s') ⊢ (⌜fq m X Y d s'⌝ : sProp 𝕄) := by
  unfold held
  iintro ⟨Hh, HSI⟩
  ihave Hr := (pointsTo_read_all (ucRefs τ sig) (fun b => ((d, b) : Loc nD τ sig)) (V4 m X Y d) s') $$ [Hh HSI]
  · isplitl [Hh] <;> iassumption
  icases Hr with ⟨%h, -⟩
  ipureintro
  exact h

variable (P : (K (F := F)).Pay (nD := nD) (Val := Elt F) (Name := ℕ) (U := UU)) [P.IsStorable]
  (pdats : Waits sig (HIx 1) → (p : Fin 1) → (c : Dev nD) → Dat τ (Elt F) (HIx 1) ℕ UU ℕ (cfgs p) c)
  (R : (W : Waits sig (HIx 1)) → RegionSeg (pcfgs (F := F)) admP (pdats W) (none : HIx 1) defs₀ 𝒱₀ (K (F := F)).L (K (F := F)).lev 0)

/-- The program's run: from the tile's obligation, the split of the call's operands, and the pipeline's region
    record, every weakly fair execution of all thirty-five threads ends, at the last valuation. -/
theorem run_main [∀ e, Nonempty (Elt F e)]
    (hx : ∀ q thr, P.x q thr = iprop(emp)) (hheld : P.held = ∅)
    (htile : (K (F := F)).TileObl (D (F := F)) 𝒱 P v₀ 0) (hvec : (K (F := F)).VecSplit' P 0)
    (hst : ∀ d : Dev nD, (held (T d) S5 (V0 m d) : sProp 𝕄) ⊢ bigSep Finset.univ fun c : Fin ((K (F := F)).nCore 0) => P.st 0 d c)
    (hdn : ∀ d : Dev nD, (bigSep Finset.univ fun c : Fin ((K (F := F)).nCore 0) => P.dn 0 d c) ⊢ (held (T d) S5 (V1 m X d) : sProp 𝕄))
    (hpre : ∀ W (c : Dev nD), iprop((held (T c) (ucRefs τ sig) (V2 m X c) : sProp 𝕄) ∗ owes (T c) (0 : CellTallies nD τ sig (HIx 1)) W) ⊢ (R W).pre c)
    (hpost : ∀ W (c : Dev nD), (R W).post c ⊢ iprop((held (T c) (ucRefs τ sig) (V3 m X Y c) : sProp 𝕄)
        ∗ ∃ W', ⌜∀ p ∈ W', p ∈ W ∨ p.2 = none⌝ ∗ owes (T c) (0 : CellTallies nD τ sig (HIx 1)) W')) :
    θ_run (Cert.KernelIdeal.defs (F := F)) (Cert.KernelIdeal.threads (F := F)) ⟨m, fun _ => 0, ρ⟩ (QC m X Y) :=
  SparseCore.Cfg.θ_run_sc (K := K (F := F)) (D := D (F := F)) (𝒱 := 𝒱) (EH := EH) (P := P) facts v₀
    (fun q hq => match q with | 0 => nomatch hq)
    (fun q _ => match q with | 0 => htile)
    (fun q _ => match q with | 0 => SparseCore.Cfg.VecSplit.of_plain hvec)
    m ρ main (fun d => Pipeline.ghostOn (pcfgs (F := F)) admP EP {0} d) (fun d => (held (T d) (ucRefs τ sig) (V4 m X Y d) : sProp 𝕄))
    (u₀ (F := F)) (sep_elim_left.trans (hu₀ P hx)) (hmain m ρ X Y P pdats R hst hdn hpre hpost)
    (fq m X Y) (hfin m X Y) (QC m X Y) (fun _ h c => h c) hheld

end Run

end Cert.KernelIdeal.Launch

end
-- ==== Proof.Post.lean ====
/-
  From the run's post to the claims' posts: every argument array ends as launched, and the result ends at the last
  valuation's contents of the result buffer.
-/
import proofs.«201366_g32727650796262_cont_8to1_b_1271_35_alg».proof.Proof.RunMain

noncomputable section

namespace Cert.KernelIdeal.Launch

open Cert.KernelIdeal Cert.KernelIdeal.Gen
open Idealize.ShloMosaic Idealize.ShloMosaic.TcCoe Idealize.SL.Sem
open Idealize.ShloMosaic.Pipeline (ucRefs)

variable {F : FTy → Type} [FloatOps F]

variable (m : (ℓ : Loc nD τ sig) → Buf (Elt F) ℓ)
  (X : (c : Dev nD) → Buf (Elt F) ((c : Thread nD τ).loc main_v0))
  (Y : (c : Dev nD) → Buf (Elt F) ((c : Thread nD τ).loc main_v10))

omit [FloatOps F] in
/-- A TensorCore reference in HBM is an unscoped buffer. -/
theorem mem_ucRefs (r : Ref sig .tc) (h : (Proc.devRef (τ := τ) .tc r).isScoped = false) : (r : DevRef τ sig) ∈ ucRefs τ sig :=
  Finset.mem_filter.mpr ⟨StableHlo.devRef_mem_tcRefs r, by rw [h]; decide⟩

/-- The argument arrays end as launched. -/
theorem QC_args (r : PUnit × MemSt nD τ sig (Elt F)) (h : QC m X Y r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  ⟨(h c main_arg0 (mem_ucRefs main_arg0 rfl)).trans (V4_main_arg0 m X Y c),
    (h c main_arg1 (mem_ucRefs main_arg1 rfl)).trans (V4_main_arg1 m X Y c),
    (h c main_arg2 (mem_ucRefs main_arg2 rfl)).trans (V4_main_arg2 m X Y c),
    (h c main_arg3 (mem_ucRefs main_arg3 rfl)).trans (V4_main_arg3 m X Y c),
    (h c main_arg4 (mem_ucRefs main_arg4 rfl)).trans (V4_main_arg4 m X Y c),
    (h c main_arg5 (mem_ucRefs main_arg5 rfl)).trans (V4_main_arg5 m X Y c),
    (h c main_arg6 (mem_ucRefs main_arg6 rfl)).trans (V4_main_arg6 m X Y c),
    (h c main_arg7 (mem_ucRefs main_arg7 rfl)).trans (V4_main_arg7 m X Y c),
    (h c main_arg8 (mem_ucRefs main_arg8 rfl)).trans (V4_main_arg8 m X Y c),
    (h c main_arg9 (mem_ucRefs main_arg9 rfl)).trans (V4_main_arg9 m X Y c),
    (h c main_arg10 (mem_ucRefs main_arg10 rfl)).trans (V4_main_arg10 m X Y c),
    (h c main_arg11 (mem_ucRefs main_arg11 rfl)).trans (V4_main_arg11 m X Y c)⟩

/-- The result ends at the last valuation's contents. -/
theorem QC_result (r : PUnit × MemSt nD τ sig (Elt F)) (h : QC m X Y r) (c : Dev nD) :
    r.2.mem ((c.tc : Thread nD τ).loc main_v11) = V4 m X Y c main_v11 :=
  h c main_v11 (mem_ucRefs main_v11 rfl)

end Cert.KernelIdeal.Launch

end
-- ==== Proof.KRun.lean ====
/-
  The kernel's run, assembled: the tiles' gather, @main's host lines, the pipeline's region.
-/
import proofs.«201366_g32727650796262_cont_8to1_b_1271_35_alg».proof.Proof.TileObl
import proofs.«201366_g32727650796262_cont_8to1_b_1271_35_alg».proof.Proof.TcRegion
import proofs.«201366_g32727650796262_cont_8to1_b_1271_35_alg».proof.Proof.Post

noncomputable section

namespace Cert.KernelIdeal.Launch

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.Sem
open Idealize.ShloMosaic.StableHlo (held)
open Idealize.ShloMosaic.Pipeline (ucRefs)

variable {F : FTy → Type} [FloatOps F]

local notation "𝕄" => MT nD τ sig (HIx 1) (Elt F) ℕ UU ℕ

variable (m : (ℓ : Loc nD τ sig) → Buf (Elt F) ℓ) (ρ : Dev nD → PrngReg)

/-- The pipeline's result array, from the buffers as the host line leaves them after the gather. -/
abbrev result (c : Dev nD) : Buf (Elt F) ((c : Thread nD τ).loc main_v10) := TcRegion.OUT (V2 m (gathered m)) c

/-- The kernel's run, from the tile body's specification and the split and join of the call's operands. -/
theorem kernel_run [∀ e, Nonempty (Elt F e)] (hpre : ScTile.PreOK m) (hb : TileBody m hpre)
    (hst : ∀ d : Dev nD, (held (T d) S5 (V0 m d) : sProp 𝕄) ⊢ bigSep Finset.univ fun c : Fin ((K (F := F)).nCore 0) => (P m hpre).st 0 d c)
    (hdn : ∀ d : Dev nD, (bigSep Finset.univ fun c : Fin ((K (F := F)).nCore 0) => (P m hpre).dn 0 d c) ⊢ (held (T d) S5 (V1 m (gathered m) d) : sProp 𝕄)) :
    θ_run (Cert.KernelIdeal.defs (F := F)) (Cert.KernelIdeal.threads (F := F)) ⟨m, fun _ => 0, ρ⟩ (QC m (gathered m) (result m)) :=
  run_main m ρ (gathered m) (result m) (P m hpre)
    (fun W => TcRegion.pdats (V2 m (gathered m)) W)
    (fun W => TcRegion.R (V2 m (gathered m)) W (none : HIx 1) 𝒱₀ (K (F := F)).L (K (F := F)).lev)
    (fun _ _ => rfl) (P_held m hpre) (tileObl m hpre hb) (vecSplit m hpre) hst hdn
    (fun W c => Entails.of_eq (TcRegion.R_pre (V2 m (gathered m)) W (none : HIx 1) 𝒱₀ (K (F := F)).L (K (F := F)).lev c).symm)
    (fun W c => Entails.of_eq (TcRegion.R_post (V2 m (gathered m)) W (none : HIx 1) 𝒱₀ (K (F := F)).L (K (F := F)).lev c))

end Cert.KernelIdeal.Launch

end
-- ==== Proof.ScTile.lean ====
/-
  The gather kernel's body on one vector subcore (tile), once, at a symbolic grid point.

  WHAT THE BODY DOES. The tile at grid point (core, subcore) owns the 512 batch rows `[base, base + 512)`,
  `base = 1024 · subcore + 512 · core`. Two synchronous copies, each awaited at once, bring its 512 words of the
  user and of the item index array from HBM into its two index scratches. Then eight tasks `t = 0 … 7` go through four
  row buffers `b = t mod 4` (the planes of one `[4, 128, 128]` scratch): task `t` gathers the 128 table rows named
  by chunk `t mod 4` of an index scratch (the user table and scratch for `t < 4`, the item ones for `t ≥ 4`) into
  buffer `b`, and stores buffer `b` to the block of the output at rows `[base + 128 (t mod 4), + 128)` and columns
  `[0, 128)` (user) or `[128, 256)` (item).

  THE PROTOCOL. Every semaphore the body uses is the tile's own, every copy it starts is local to the tile and is
  awaited by the tile itself: no thread signals another. So no schedule is stated. Beside whatever the launch's
  handshakes use, the ghost state holds only a copy of the exclusive counters from which each local transfer's
  invariant is built (in flight, landed with what it delivers, closed), and what the tile owes changes only by recording
  its own waits; the statement is therefore over ANY ghost state containing such a copy. With `g_b` the gather and
  `s_b` the store semaphore of buffer `b`, the order is:
      the four user gathers are issued, chunk `b` into buffer `b` on `g_b`;
      for `b = 0 … 3`:  wait `g_b`;  store buffer `b` to user block `b` on `s_b`;  wait `s_b`;
                        issue the item gather of chunk `b` into buffer `b` on `g_b`;
      for `b = 0 … 3`:  wait `g_b`;  store buffer `b` to item block `b` on `s_b`;
      wait `s_0`, `s_1`, `s_2`, `s_3`.
  On each semaphore at most one transfer is in flight at a time. Between a transfer's issue and its wait neither its
  source nor its destination is touched: a buffer is gathered into only after the store out of it has been awaited,
  and stored from only after the gather into it has been awaited; an output block is written by one store only. The
  index scratches are written once, by the two synchronous copies, and only read afterwards, as the gathers' offset
  lists. Up to four gathers read one table at the same time, each through its own chunk of one index scratch: the tile's
  read share of a table is quartered and one quarter lent to each gather until its wait, and the three scratches are
  held as their four chunks and four planes, each lent whole to the one transfer that uses it. Different tiles write
  disjoint row ranges of the output and only read the tables and the index arrays: a tile is handed a read share of
  each input array and full ownership of exactly its eight output blocks, and hands the same back.

  WHY EVERY WAIT RETURNS. A gather is served entry by entry, and an offset that names no row would leave it unserved
  and its wait without return. What a gather reads as its offsets is what the synchronous copy landed in the scratch,
  the tile's slice of the index array as launched; every such word is below 100000 by `PreOK`.

  WHAT IS LEFT. Each store's payload is what its buffer reads after the gather's write, that is the gather's payload:
  row `ρ` of the block is the table's row named by word `ρ` of the chunk (`blockPay`, `blockPay_apply`). The inputs
  are unchanged, the scratches hold some contents, every semaphore is back at zero.
-/
import proofs.«201366_g32727650796262_cont_8to1_b_1271_35_alg».proof.Proof.ScTileDefs
import proofs.«201366_g32727650796262_cont_8to1_b_1271_35_alg».proof.Proof.Gen.KernelIdeal.Skeleton
import Idealize.ShloMosaic.Lib.Pipeline.Value

noncomputable section

namespace Cert.KernelIdeal.ScTile

open Cert.KernelIdeal Cert.KernelIdeal.Gen Cert.KernelIdeal.ScSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable {U : Type} [URA U] [CountersIn U]

local notation "𝕄" => MT nD τ sig (HIx 1) (Elt F) ℕ U ℕ

local notation "uiV" => (Memref.whole Cert.KernelIdeal.main_arg0_scv : Memref Cert.KernelIdeal.sig Kind.scVector Space.hbm Cert.KernelIdeal.S16384 EltTy.i32)
local notation "iiV" => (Memref.whole Cert.KernelIdeal.main_arg1_scv : Memref Cert.KernelIdeal.sig Kind.scVector Space.hbm Cert.KernelIdeal.S16384 EltTy.i32)
local notation "utV" => (Memref.whole Cert.KernelIdeal.main_arg2_scv : Memref Cert.KernelIdeal.sig Kind.scVector Space.hbm Cert.KernelIdeal.S100000x128 EltTy.f32)
local notation "itV" => (Memref.whole Cert.KernelIdeal.main_arg3_scv : Memref Cert.KernelIdeal.sig Kind.scVector Space.hbm Cert.KernelIdeal.S100000x128 EltTy.f32)
local notation "oV" => (Memref.whole Cert.KernelIdeal.main_v0_scv : Memref Cert.KernelIdeal.sig Kind.scVector Space.hbm Cert.KernelIdeal.S16384x256 EltTy.f32)
local notation "usV" => (Memref.whole Cert.KernelIdeal.cc0_scratch0 : Memref Cert.KernelIdeal.sig Kind.scVector Space.vmem Cert.KernelIdeal.S512 EltTy.i32)
local notation "isV" => (Memref.whole Cert.KernelIdeal.cc0_scratch1 : Memref Cert.KernelIdeal.sig Kind.scVector Space.vmem Cert.KernelIdeal.S512 EltTy.i32)
local notation "bV" => (Memref.whole Cert.KernelIdeal.cc0_scratch2 : Memref Cert.KernelIdeal.sig Kind.scVector Space.vmem Cert.KernelIdeal.S4x128x128 EltTy.f32)

/-! ## Splitting a points-to four ways: along the share, and along disjoint element sets -/

section Split

variable {ℓ : Loc nD τ sig} {q : PosShare TreeShare}

/-- A share is its four quarters. -/
theorem share4_split {I : Finset (Idx ℓ)} {f : Buf (Elt F) ℓ} :
    (ℓ ↦[I]{q} f : sProp 𝕄) ⊢ iprop((ℓ ↦[I]{q.left.left} f) ∗ (ℓ ↦[I]{q.left.right} f) ∗ (ℓ ↦[I]{q.right.left} f) ∗ (ℓ ↦[I]{q.right.right} f)) := by
  iintro H
  ihave H := (pointsTo_share (PosShare.mem_left_op_right q)).1 $$ H
  icases H with ⟨Hl, Hr⟩
  ihave Hl := (pointsTo_share (PosShare.mem_left_op_right q.left)).1 $$ Hl
  ihave Hr := (pointsTo_share (PosShare.mem_left_op_right q.right)).1 $$ Hr
  icases Hl with ⟨Hll, Hlr⟩
  icases Hr with ⟨Hrl, Hrr⟩
  isplitl [Hll]; · iexact Hll
  isplitl [Hlr]; · iexact Hlr
  isplitl [Hrl]; · iexact Hrl
  iexact Hrr

/-- and the quarters are the share again. -/
theorem share4_join {I : Finset (Idx ℓ)} {f : Buf (Elt F) ℓ} :
    iprop((ℓ ↦[I]{q.left.left} f) ∗ (ℓ ↦[I]{q.left.right} f) ∗ (ℓ ↦[I]{q.right.left} f) ∗ (ℓ ↦[I]{q.right.right} f)) ⊢ (ℓ ↦[I]{q} f : sProp 𝕄) := by
  iintro ⟨Hll, Hlr, Hrl, Hrr⟩
  ihave Hl := (pointsTo_share (PosShare.mem_left_op_right q.left)).2 $$ [Hll Hlr]
  · isplitl [Hll]; · iexact Hll
    iexact Hlr
  ihave Hr := (pointsTo_share (PosShare.mem_left_op_right q.right)).2 $$ [Hrl Hrr]
  · isplitl [Hrl]; · iexact Hrl
    iexact Hrr
  iapply (pointsTo_share (PosShare.mem_left_op_right q)).2
  isplitl [Hl]; · iexact Hl
  iexact Hr

/-- What is left of a buffer once four sets are carved out of it. -/
abbrev rest4 (A0 A1 A2 A3 : Finset (Idx ℓ)) : Finset (Idx ℓ) := (((Finset.univ \ A0) \ A1) \ A2) \ A3

/-- Four pairwise disjoint element sets carved out of a buffer held whole. -/
theorem carve4 {f : Buf (Elt F) ℓ} (A0 A1 A2 A3 : Finset (Idx ℓ))
    (h10 : Disjoint A1 A0) (h20 : Disjoint A2 A0) (h30 : Disjoint A3 A0) (h21 : Disjoint A2 A1) (h31 : Disjoint A3 A1) (h32 : Disjoint A3 A2) :
    (ℓ ↦{q} f : sProp 𝕄) ⊢ iprop((ℓ ↦[A0]{q} f) ∗ (ℓ ↦[A1]{q} f) ∗ (ℓ ↦[A2]{q} f) ∗ (ℓ ↦[A3]{q} f) ∗ (ℓ ↦[rest4 A0 A1 A2 A3]{q} f)) := by
  have s0 : A0 ⊆ Finset.univ := Finset.subset_univ _
  have s1 : A1 ⊆ Finset.univ \ A0 := Finset.subset_sdiff.mpr ⟨Finset.subset_univ _, h10⟩
  have s2 : A2 ⊆ (Finset.univ \ A0) \ A1 := Finset.subset_sdiff.mpr ⟨Finset.subset_sdiff.mpr ⟨Finset.subset_univ _, h20⟩, h21⟩
  have s3 : A3 ⊆ ((Finset.univ \ A0) \ A1) \ A2 :=
    Finset.subset_sdiff.mpr ⟨Finset.subset_sdiff.mpr ⟨Finset.subset_sdiff.mpr ⟨Finset.subset_univ _, h30⟩, h31⟩, h32⟩
  iintro H
  ihave H := (pointsTo_split_subset s0).1 $$ H
  icases H with ⟨H0, H⟩
  ihave H := (pointsTo_split_subset s1).1 $$ H
  icases H with ⟨H1, H⟩
  ihave H := (pointsTo_split_subset s2).1 $$ H
  icases H with ⟨H2, H⟩
  ihave H := (pointsTo_split_subset s3).1 $$ H
  icases H with ⟨H3, H⟩
  isplitl [H0]; · iexact H0
  isplitl [H1]; · iexact H1
  isplitl [H2]; · iexact H2
  isplitl [H3]; · iexact H3
  iexact H

/-- The four sets, each at contents of its own, and the rest are the buffer whole again, at some contents. -/
theorem join4 {f0 f1 f2 f3 fr : Buf (Elt F) ℓ} (A0 A1 A2 A3 : Finset (Idx ℓ))
    (h10 : Disjoint A1 A0) (h20 : Disjoint A2 A0) (h30 : Disjoint A3 A0) (h21 : Disjoint A2 A1) (h31 : Disjoint A3 A1) (h32 : Disjoint A3 A2) :
    iprop((ℓ ↦[A0]{q} f0) ∗ (ℓ ↦[A1]{q} f1) ∗ (ℓ ↦[A2]{q} f2) ∗ (ℓ ↦[A3]{q} f3) ∗ (ℓ ↦[rest4 A0 A1 A2 A3]{q} fr)) ⊢ (iprop(∃ g, ℓ ↦{q} g) : sProp 𝕄) := by
  have s0 : A0 ⊆ Finset.univ := Finset.subset_univ _
  have s1 : A1 ⊆ Finset.univ \ A0 := Finset.subset_sdiff.mpr ⟨Finset.subset_univ _, h10⟩
  have s2 : A2 ⊆ (Finset.univ \ A0) \ A1 := Finset.subset_sdiff.mpr ⟨Finset.subset_sdiff.mpr ⟨Finset.subset_univ _, h20⟩, h21⟩
  have s3 : A3 ⊆ ((Finset.univ \ A0) \ A1) \ A2 :=
    Finset.subset_sdiff.mpr ⟨Finset.subset_sdiff.mpr ⟨Finset.subset_sdiff.mpr ⟨Finset.subset_univ _, h30⟩, h31⟩, h32⟩
  iintro ⟨H0, H1, H2, H3, H⟩
  ihave H := (pointsTo_join_subset s3) $$ [H3 H]
  · isplitl [H3]; · iexact H3
    iexact H
  ihave H := (pointsTo_join_subset s2) $$ [H2 H]
  · isplitl [H2]; · iexact H2
    iexact H
  ihave H := (pointsTo_join_subset s1) $$ [H1 H]
  · isplitl [H1]; · iexact H1
    iexact H
  ihave H := (pointsTo_join_subset s0) $$ [H0 H]
  · isplitl [H0]; · iexact H0
    iexact H
  iexists _; iexact H

end Split

/-! ## The element sets of the planes, the chunks and the tables -/

section Geometry

/-- A plane of the row-buffer scratch, squeezed, has the plane's elements. -/
theorem set_plane (o : Fin 3 → Nat) (inb : ∀ a, o a + S1x128x128.size a ≤ S4x128x128.size a) :
    ((((bV).slice (Rect.unit (s := S4x128x128) o S1x128x128.size inb) (fun _ => rfl)).squeeze S128x128 squeezes_S1x128x128_S128x128).view.set
      : Finset S4x128x128.Idx) = (Rect.unit (s := S4x128x128) o S1x128x128.size inb).set := by
  show (((View.whole cc0_scratch2).slice (Rect.unit (s := S4x128x128) o S1x128x128.size inb)).reshape S128x128 squeezes_S1x128x128_S128x128.numel_eq).set = _
  rw [View.set_reshape]; exact View.set_slice_whole cc0_scratch2 _

/-- Two planes at different first coordinates share no element. -/
theorem plane_disj {o o' : Fin 3 → Nat} {inb : ∀ a, o a + S1x128x128.size a ≤ S4x128x128.size a} {inb' : ∀ a, o' a + S1x128x128.size a ≤ S4x128x128.size a}
    (h : o 0 + S1x128x128.size 0 ≤ o' 0 ∨ o' 0 + S1x128x128.size 0 ≤ o 0) :
    Disjoint ((((bV).slice (Rect.unit (s := S4x128x128) o S1x128x128.size inb) (fun _ => rfl)).squeeze S128x128 squeezes_S1x128x128_S128x128).view.set : Finset S4x128x128.Idx)
      (((bV).slice (Rect.unit (s := S4x128x128) o' S1x128x128.size inb') (fun _ => rfl)).squeeze S128x128 squeezes_S1x128x128_S128x128).view.set := by
  rw [set_plane, set_plane]; exact Rect.unit_disjoint 0 h

/-- A chunk of an index list has the chunk's elements, and two chunks apart share none. -/
theorem set_usC (o : Fin 1 → Nat) (inb : ∀ a, o a + S128.size a ≤ S512.size a) :
    (((usV).slice (Rect.unit (s := S512) o S128.size inb) (fun _ => rfl)).view.set : Finset S512.Idx) = (Rect.unit (s := S512) o S128.size inb).set :=
  View.set_slice_whole cc0_scratch0 _
theorem set_isC (o : Fin 1 → Nat) (inb : ∀ a, o a + S128.size a ≤ S512.size a) :
    (((isV).slice (Rect.unit (s := S512) o S128.size inb) (fun _ => rfl)).view.set : Finset S512.Idx) = (Rect.unit (s := S512) o S128.size inb).set :=
  View.set_slice_whole cc0_scratch1 _
theorem usC_disj {o o' : Fin 1 → Nat} {inb : ∀ a, o a + S128.size a ≤ S512.size a} {inb' : ∀ a, o' a + S128.size a ≤ S512.size a}
    (h : o 0 + S128.size 0 ≤ o' 0 ∨ o' 0 + S128.size 0 ≤ o 0) :
    Disjoint (((usV).slice (Rect.unit (s := S512) o S128.size inb) (fun _ => rfl)).view.set : Finset S512.Idx)
      ((usV).slice (Rect.unit (s := S512) o' S128.size inb') (fun _ => rfl)).view.set := by
  rw [set_usC, set_usC]; exact Rect.unit_disjoint 0 h
theorem isC_disj {o o' : Fin 1 → Nat} {inb : ∀ a, o a + S128.size a ≤ S512.size a} {inb' : ∀ a, o' a + S128.size a ≤ S512.size a}
    (h : o 0 + S128.size 0 ≤ o' 0 ∨ o' 0 + S128.size 0 ≤ o 0) :
    Disjoint (((isV).slice (Rect.unit (s := S512) o S128.size inb) (fun _ => rfl)).view.set : Finset S512.Idx)
      ((isV).slice (Rect.unit (s := S512) o' S128.size inb') (fun _ => rfl)).view.set := by
  rw [set_isC, set_isC]; exact Rect.unit_disjoint 0 h

/-- The tables are addressed whole: every element is in the slice the gathers read. -/
theorem set_utS : ((utS).view.set : Finset S100000x128.Idx) = Finset.univ :=
  (View.set_slice_whole main_arg2_scv _).trans (Finset.eq_univ_iff_forall.mpr fun y =>
    View.mem_set_unit_zero (by funext a; match a with | ⟨0, _⟩ => rfl | ⟨1, _⟩ => rfl) _ y)
theorem set_itS : ((itS).view.set : Finset S100000x128.Idx) = Finset.univ :=
  (View.set_slice_whole main_arg3_scv _).trans (Finset.eq_univ_iff_forall.mpr fun y =>
    View.mem_set_unit_zero (by funext a; match a with | ⟨0, _⟩ => rfl | ⟨1, _⟩ => rfl) _ y)

end Geometry

/-! ## One listed write of a whole block is the block written -/

section Block

/-- On the view's own elements, a payload written through the whole-rectangle slice of the view is the payload
    written through the view. -/
theorem write_slice_whole_emb {sig' : RefSig} {κ : Kind} {sp : Space} {s : Shape} {e : EltTy} {Val : EltTy → Type}
    (v : View sig' κ sp s e) (f : v.ty.Contents Val) (w : s.Idx → Val e) (x : s.Idx) :
    (v.slice (Rect.whole s)).write Val f w Finset.univ (v.emb x) = v.write Val f w Finset.univ (v.emb x) := by
  have e : v.emb x = (v.slice (Rect.whole s)).emb x := by
    show _ = v.emb ((Rect.whole s).emb x); rw [Rect.emb_whole_apply]
  conv_lhs => rw [e, View.write_emb_of_mem _ _ (Finset.mem_univ _)]
  rw [View.write_emb_of_mem _ _ (Finset.mem_univ _)]

/-- A block memref held on its own elements after ONE listed write of the whole block holds the block written. -/
theorem block_written (v : Memref sig .scVector .hbm S128x128 .f32) (d : Dev nD) (c : Fin τ.nSC) (i : Fin τ.nSub) (f : Buf (Elt F) (v.view.loc (V d c i)))
    (P Q : S128x128.Idx → Elt F .f32) (h : P = Q) :
    (v.view.loc (V d c i) ↦[v.view.set]{fullShare} v.view.writes (Elt F) f [⟨Rect.whole S128x128, P⟩] : sProp 𝕄)
      = v.view.loc (V d c i) ↦[v.view.set]{fullShare} v.view.write (Elt F) f Q Finset.univ := by
  subst h
  refine pointsTo_congr fun i hi => ?_
  obtain ⟨x, -, rfl⟩ := Finset.mem_map.mp hi
  exact write_slice_whole_emb v.view f P x

/-- What a buffer reads after a list of writes whose last covers it: that last payload. -/
theorem read_writes_whole {sig' : RefSig} {κ : Kind} {sp : Space} {s : Shape} {e : EltTy} {Val : EltTy → Type}
    (v : View sig' κ sp s e) (f : v.ty.Contents Val) (w : s.Idx → Val e) (L : List (View.Piece Val s e)) :
    v.read Val (v.writes Val f (⟨Rect.whole s, w⟩ :: L)) = w := by
  funext y
  have := View.read_writes_cons_emb v f (Rect.whole s) w L y
  rwa [Rect.emb_whole_apply] at this

end Block

/-! ## The tile's obligation -/

section Tile

variable (m : (ℓ : Loc nD τ sig) → Buf (Elt F) ℓ) (d : Dev nD) (L : grid0.Coords)

set_option maxHeartbeats 4000000 in
/-- The body on vector subcore `(L 0, L 1)` of device `d`: from a read share of each input array, the tile's eight
    output blocks as launched and its own scratch storage, to the same with the blocks at the gathered rows. -/
theorem tile_body (hF : (K (F := F)).Facts) (hpre : PreOK m) (qui qii qut qit : PosShare TreeShare)
    (O : CellTallies nD τ sig (HIx 1)) (W : Waits sig (HIx 1)) (hO : ∀ g, O g none = 0) :
    iprop(levAts (K (F := F)).L (K (F := F)).lev ∗ emp
        ∗ (inputs m d qui qii qut qit ∗ blocksIn m d L)
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc0__gather_tec_body L uiV (Memref.isWhole_whole _) iiV (Memref.isWhole_whole _) utV (Memref.isWhole_whole _) itV (Memref.isWhole_whole _)
            oV (Memref.isWhole_whole _) usV (Memref.isWhole_whole _) isV (Memref.isWhole_whole _) bV (Memref.isWhole_whole _)
            cc0_scratch3 cc0_scratch4 cc0_scratch5 cc0_scratch6 cc0_scratch7 cc0_scratch8 cc0_scratch9 cc0_scratch10 cc0_scoped0 cc0_scoped1)
          fun _ => iprop((inputs m d qui qii qut qit ∗ blocksOut m d L hpre)
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  simp only [cc0__gather_tec_body_eq_skeleton]; unfold cc0__gather_tec_body_skel
  rw [(K (F := F)).scopedBufs_V hF d (cV L) (jV L), SparseCore.Cfg.scopedSems0_V (Val := Elt F) d (cV L) (jV L), ownSems0_V, ownBufs_V]
  iintro ⟨#Hlv, -, ⟨⟨Hui, Hii, Hut, Hit⟩, ⟨HoU0, HoU1, HoU2, HoU3, HoI0, HoI1, HoI2, HoI3⟩⟩, ⟨⟨%fus, Hus⟩, ⟨%fis, His⟩, ⟨%fb, Hb⟩, Hbufs⟩, ⟨Hs0, Hs1, Hg0, Hg1, Hg2, Hg3, Ht0, Ht1, Ht2, Ht3, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hui' := (Entails.of_eq (show (uiLoc d ↦{qui} m (uiLoc d) : sProp 𝕄) = (uiV).view.loc (V d (cV L) (jV L)) ↦{qui} m (uiLoc d) from rfl)) $$ Hui
  ihave Hii' := (Entails.of_eq (show (iiLoc d ↦{qii} m (iiLoc d) : sProp 𝕄) = (iiV).view.loc (V d (cV L) (jV L)) ↦{qii} m (iiLoc d) from rfl)) $$ Hii
  ihave Hus' := (Entails.of_eq (show ((V d (cV L) (jV L)).loc cc0_scratch0 ↦{fullShare} fus : sProp 𝕄) = (usV).view.loc (V d (cV L) (jV L)) ↦{fullShare} fus from rfl)) $$ Hus
  ihave His' := (Entails.of_eq (show ((V d (cV L) (jV L)).loc cc0_scratch1 ↦{fullShare} fis : sProp 𝕄) = (isV).view.loc (V d (cV L) (jV L)) ↦{fullShare} fis from rfl)) $$ His
  ihave Hb' := (Entails.of_eq (show ((V d (cV L) (jV L)).loc cc0_scratch2 ↦{fullShare} fb : sProp 𝕄) = (bV).view.loc (V d (cV L) (jV L)) ↦{fullShare} fb from rfl)) $$ Hb
  ihave Hut' := (Entails.of_eq (show (utLoc d ↦{qut} m (utLoc d) : sProp 𝕄) = (utV).view.loc (V d (cV L) (jV L)) ↦{qut} m (utLoc d) from rfl)) $$ Hut
  ihave Hit' := (Entails.of_eq (show (itLoc d ↦{qit} m (itLoc d) : sProp 𝕄) = (itV).view.loc (V d (cV L) (jV L)) ↦{qit} m (itLoc d) from rfl)) $$ Hit
  sl_exec
  -- the index scratches: name what the copies left, carve the four chunks of each
  have eUs : (View.write (Elt F) (usV).view fus (tile_body.sl.dma0 m d L) Finset.univ : Buf (Elt F) ((usV).view.loc (V d (cV L) (jV L)))) = usW m d L := View.write_whole_univ _ _ _
  have eIs : (View.write (Elt F) (isV).view fis (tile_body.sl.dma0_1 m d L) Finset.univ : Buf (Elt F) ((isV).view.loc (V d (cV L) (jV L)))) = isW m d L := View.write_whole_univ _ _ _
  ihave Hus2 := (Entails.of_eq (congrArg (fun f => ((usV).view.loc (V d (cV L) (jV L)) ↦{fullShare} f : sProp 𝕄)) eUs)) $$ Hus'
  ihave His2 := (Entails.of_eq (congrArg (fun f => ((isV).view.loc (V d (cV L) (jV L)) ↦{fullShare} f : sProp 𝕄)) eIs)) $$ His'
  ihave Hus3 := (carve4 (ℓ := (usV).view.loc (V d (cV L) (jV L))) (usC0).view.set (usC1).view.set (usC2).view.set (usC3).view.set
    (usC_disj (Or.inr (by decide))) (usC_disj (Or.inr (by decide))) (usC_disj (Or.inr (by decide))) (usC_disj (Or.inr (by decide))) (usC_disj (Or.inr (by decide))) (usC_disj (Or.inr (by decide)))) $$ Hus2
  icases Hus3 with ⟨Hu0, Hu1, Hu2, Hu3, Hur⟩
  ihave His3 := (carve4 (ℓ := (isV).view.loc (V d (cV L) (jV L))) (isC0).view.set (isC1).view.set (isC2).view.set (isC3).view.set
    (isC_disj (Or.inr (by decide))) (isC_disj (Or.inr (by decide))) (isC_disj (Or.inr (by decide))) (isC_disj (Or.inr (by decide))) (isC_disj (Or.inr (by decide))) (isC_disj (Or.inr (by decide)))) $$ His2
  icases His3 with ⟨Hi0, Hi1, Hi2, Hi3, Hir⟩
  ihave Hu0 := (Entails.of_eq (show ((usV).view.loc (V d (cV L) (jV L)) ↦[(usC0).view.set]{fullShare} usW m d L : sProp 𝕄) = (usC0).view.loc (V d (cV L) (jV L)) ↦[(usC0).view.set]{fullShare} usW m d L from rfl)) $$ Hu0
  ihave Hi0 := (Entails.of_eq (show ((isV).view.loc (V d (cV L) (jV L)) ↦[(isC0).view.set]{fullShare} isW m d L : sProp 𝕄) = (isC0).view.loc (V d (cV L) (jV L)) ↦[(isC0).view.set]{fullShare} isW m d L from rfl)) $$ Hi0
  ihave Hu1 := (Entails.of_eq (show ((usV).view.loc (V d (cV L) (jV L)) ↦[(usC1).view.set]{fullShare} usW m d L : sProp 𝕄) = (usC1).view.loc (V d (cV L) (jV L)) ↦[(usC1).view.set]{fullShare} usW m d L from rfl)) $$ Hu1
  ihave Hi1 := (Entails.of_eq (show ((isV).view.loc (V d (cV L) (jV L)) ↦[(isC1).view.set]{fullShare} isW m d L : sProp 𝕄) = (isC1).view.loc (V d (cV L) (jV L)) ↦[(isC1).view.set]{fullShare} isW m d L from rfl)) $$ Hi1
  ihave Hu2 := (Entails.of_eq (show ((usV).view.loc (V d (cV L) (jV L)) ↦[(usC2).view.set]{fullShare} usW m d L : sProp 𝕄) = (usC2).view.loc (V d (cV L) (jV L)) ↦[(usC2).view.set]{fullShare} usW m d L from rfl)) $$ Hu2
  ihave Hi2 := (Entails.of_eq (show ((isV).view.loc (V d (cV L) (jV L)) ↦[(isC2).view.set]{fullShare} isW m d L : sProp 𝕄) = (isC2).view.loc (V d (cV L) (jV L)) ↦[(isC2).view.set]{fullShare} isW m d L from rfl)) $$ Hi2
  ihave Hu3 := (Entails.of_eq (show ((usV).view.loc (V d (cV L) (jV L)) ↦[(usC3).view.set]{fullShare} usW m d L : sProp 𝕄) = (usC3).view.loc (V d (cV L) (jV L)) ↦[(usC3).view.set]{fullShare} usW m d L from rfl)) $$ Hu3
  ihave Hi3 := (Entails.of_eq (show ((isV).view.loc (V d (cV L) (jV L)) ↦[(isC3).view.set]{fullShare} isW m d L : sProp 𝕄) = (isC3).view.loc (V d (cV L) (jV L)) ↦[(isC3).view.set]{fullShare} isW m d L from rfl)) $$ Hi3
  have hinU0 : ∀ x, ((usC0).view.read (Elt F) (usW m d L) x).toNat < S100000x128.size gathers_S100000x128_S128x128.axis := uLst0_inb m d L hpre
  have hinI0 : ∀ x, ((isC0).view.read (Elt F) (isW m d L) x).toNat < S100000x128.size gathers_S100000x128_S128x128.axis := iLst0_inb m d L hpre
  have hinU1 : ∀ x, ((usC1).view.read (Elt F) (usW m d L) x).toNat < S100000x128.size gathers_S100000x128_S128x128.axis := uLst1_inb m d L hpre
  have hinI1 : ∀ x, ((isC1).view.read (Elt F) (isW m d L) x).toNat < S100000x128.size gathers_S100000x128_S128x128.axis := iLst1_inb m d L hpre
  have hinU2 : ∀ x, ((usC2).view.read (Elt F) (usW m d L) x).toNat < S100000x128.size gathers_S100000x128_S128x128.axis := uLst2_inb m d L hpre
  have hinI2 : ∀ x, ((isC2).view.read (Elt F) (isW m d L) x).toNat < S100000x128.size gathers_S100000x128_S128x128.axis := iLst2_inb m d L hpre
  have hinU3 : ∀ x, ((usC3).view.read (Elt F) (usW m d L) x).toNat < S100000x128.size gathers_S100000x128_S128x128.axis := uLst3_inb m d L hpre
  have hinI3 : ∀ x, ((isC3).view.read (Elt F) (isW m d L) x).toNat < S100000x128.size gathers_S100000x128_S128x128.axis := iLst3_inb m d L hpre
  -- the row buffers: the four planes
  ihave Hb3 := (carve4 (ℓ := (bV).view.loc (V d (cV L) (jV L))) (buf0).view.set (buf1).view.set (buf2).view.set (buf3).view.set
    (plane_disj (Or.inr (by decide))) (plane_disj (Or.inr (by decide))) (plane_disj (Or.inr (by decide))) (plane_disj (Or.inr (by decide))) (plane_disj (Or.inr (by decide))) (plane_disj (Or.inr (by decide)))) $$ Hb'
  icases Hb3 with ⟨Hb0, Hb1, Hb2, Hb3, Hbr⟩
  ihave Hb0 := (Entails.of_eq (show ((bV).view.loc (V d (cV L) (jV L)) ↦[(buf0).view.set]{fullShare} fb : sProp 𝕄) = (buf0).view.loc (V d (cV L) (jV L)) ↦[(buf0).view.set]{fullShare} fb from rfl)) $$ Hb0
  ihave Hb1 := (Entails.of_eq (show ((bV).view.loc (V d (cV L) (jV L)) ↦[(buf1).view.set]{fullShare} fb : sProp 𝕄) = (buf1).view.loc (V d (cV L) (jV L)) ↦[(buf1).view.set]{fullShare} fb from rfl)) $$ Hb1
  ihave Hb2 := (Entails.of_eq (show ((bV).view.loc (V d (cV L) (jV L)) ↦[(buf2).view.set]{fullShare} fb : sProp 𝕄) = (buf2).view.loc (V d (cV L) (jV L)) ↦[(buf2).view.set]{fullShare} fb from rfl)) $$ Hb2
  ihave Hb3 := (Entails.of_eq (show ((bV).view.loc (V d (cV L) (jV L)) ↦[(buf3).view.set]{fullShare} fb : sProp 𝕄) = (buf3).view.loc (V d (cV L) (jV L)) ↦[(buf3).view.set]{fullShare} fb from rfl)) $$ Hb3
  -- the tables: by exactly the elements the gathers read, a quarter of the share each
  ihave Hut2 := (Entails.of_eq (show ((utV).view.loc (V d (cV L) (jV L)) ↦{qut} m (utLoc d) : sProp 𝕄) = (utS).view.loc (V d (cV L) (jV L)) ↦[(utS).view.set]{qut} m (utLoc d) by rw [set_utS])) $$ Hut'
  ihave Hut3 := share4_split $$ Hut2
  icases Hut3 with ⟨Hut0, Hut1, Hut2, Hut3⟩
  ihave Hit2 := (Entails.of_eq (show ((itV).view.loc (V d (cV L) (jV L)) ↦{qit} m (itLoc d) : sProp 𝕄) = (itS).view.loc (V d (cV L) (jV L)) ↦[(itS).view.set]{qit} m (itLoc d) by rw [set_itS])) $$ Hit'
  ihave Hit3 := share4_split $$ Hit2
  icases Hit3 with ⟨Hit0, Hit1, Hit2, Hit3⟩
  -- the output blocks, through their own memrefs
  ihave HoU0 := (Entails.of_eq (show (oLoc d ↦[oU0Set L]{fullShare} m (oLoc d) : sProp 𝕄) = (oU0 L).view.loc (V d (cV L) (jV L)) ↦[(oU0 L).view.set]{fullShare} m (oLoc d) from rfl)) $$ HoU0
  ihave HoU1 := (Entails.of_eq (show (oLoc d ↦[oU1Set L]{fullShare} m (oLoc d) : sProp 𝕄) = (oU1 L).view.loc (V d (cV L) (jV L)) ↦[(oU1 L).view.set]{fullShare} m (oLoc d) from rfl)) $$ HoU1
  ihave HoU2 := (Entails.of_eq (show (oLoc d ↦[oU2Set L]{fullShare} m (oLoc d) : sProp 𝕄) = (oU2 L).view.loc (V d (cV L) (jV L)) ↦[(oU2 L).view.set]{fullShare} m (oLoc d) from rfl)) $$ HoU2
  ihave HoU3 := (Entails.of_eq (show (oLoc d ↦[oU3Set L]{fullShare} m (oLoc d) : sProp 𝕄) = (oU3 L).view.loc (V d (cV L) (jV L)) ↦[(oU3 L).view.set]{fullShare} m (oLoc d) from rfl)) $$ HoU3
  ihave HoI0 := (Entails.of_eq (show (oLoc d ↦[oI0Set L]{fullShare} m (oLoc d) : sProp 𝕄) = (oI0 L).view.loc (V d (cV L) (jV L)) ↦[(oI0 L).view.set]{fullShare} m (oLoc d) from rfl)) $$ HoI0
  ihave HoI1 := (Entails.of_eq (show (oLoc d ↦[oI1Set L]{fullShare} m (oLoc d) : sProp 𝕄) = (oI1 L).view.loc (V d (cV L) (jV L)) ↦[(oI1 L).view.set]{fullShare} m (oLoc d) from rfl)) $$ HoI1
  ihave HoI2 := (Entails.of_eq (show (oLoc d ↦[oI2Set L]{fullShare} m (oLoc d) : sProp 𝕄) = (oI2 L).view.loc (V d (cV L) (jV L)) ↦[(oI2 L).view.set]{fullShare} m (oLoc d) from rfl)) $$ HoI2
  ihave HoI3 := (Entails.of_eq (show (oLoc d ↦[oI3Set L]{fullShare} m (oLoc d) : sProp 𝕄) = (oI3 L).view.loc (V d (cV L) (jV L)) ↦[(oI3 L).view.set]{fullShare} m (oLoc d) from rfl)) $$ HoI3
  sl_exec
  sl_step
  -- the eight blocks hold the gathered rows
  have ePU0 : tile_body.sl.dma0_2 m d L fb hinU0 = blockPay (uTab m d) (uLst0 m d L) (uLst0_inb m d L hpre) := (read_writes_whole (buf0).view fb _ []).trans rfl
  have ePI0 : tile_body.sl.dma0_6 m d L fb hinU0 hinI0 = blockPay (iTab m d) (iLst0 m d L) (iLst0_inb m d L hpre) := (read_writes_whole (buf0).view fb _ [_]).trans rfl
  have ePU1 : tile_body.sl.dma0_3 m d L fb hinU1 = blockPay (uTab m d) (uLst1 m d L) (uLst1_inb m d L hpre) := (read_writes_whole (buf1).view fb _ []).trans rfl
  have ePI1 : tile_body.sl.dma0_7 m d L fb hinU1 hinI1 = blockPay (iTab m d) (iLst1 m d L) (iLst1_inb m d L hpre) := (read_writes_whole (buf1).view fb _ [_]).trans rfl
  have ePU2 : tile_body.sl.dma0_4 m d L fb hinU2 = blockPay (uTab m d) (uLst2 m d L) (uLst2_inb m d L hpre) := (read_writes_whole (buf2).view fb _ []).trans rfl
  have ePI2 : tile_body.sl.dma0_8 m d L fb hinU2 hinI2 = blockPay (iTab m d) (iLst2 m d L) (iLst2_inb m d L hpre) := (read_writes_whole (buf2).view fb _ [_]).trans rfl
  have ePU3 : tile_body.sl.dma0_5 m d L fb hinU3 = blockPay (uTab m d) (uLst3 m d L) (uLst3_inb m d L hpre) := (read_writes_whole (buf3).view fb _ []).trans rfl
  have ePI3 : tile_body.sl.dma0_9 m d L fb hinU3 hinI3 = blockPay (iTab m d) (iLst3 m d L) (iLst3_inb m d L hpre) := (read_writes_whole (buf3).view fb _ [_]).trans rfl
  isplitl [Hui' Hii' Hut0 Hut1 Hut2 Hut3 Hit0 Hit1 Hit2 Hit3 HoU0 HoU1 HoU2 HoU3 HoI0 HoI1 HoI2 HoI3]
  · isplitl [Hui' Hii' Hut0 Hut1 Hut2 Hut3 Hit0 Hit1 Hit2 Hit3]
    · isplitl [Hui']; · iexact Hui'
      isplitl [Hii']; · iexact Hii'
      isplitl [Hut0 Hut1 Hut2 Hut3]
      · iapply (Entails.of_eq (show ((utS).view.loc (V d (cV L) (jV L)) ↦[(utS).view.set]{qut} m (utLoc d) : sProp 𝕄) = (utLoc d ↦{qut} m (utLoc d)) by rw [set_utS]))
        iapply share4_join
        isplitl [Hut0]; · iexact Hut0
        isplitl [Hut1]; · iexact Hut1
        isplitl [Hut2]; · iexact Hut2
        iexact Hut3
      · iapply (Entails.of_eq (show ((itS).view.loc (V d (cV L) (jV L)) ↦[(itS).view.set]{qit} m (itLoc d) : sProp 𝕄) = (itLoc d ↦{qit} m (itLoc d)) by rw [set_itS]))
        iapply share4_join
        isplitl [Hit0]; · iexact Hit0
        isplitl [Hit1]; · iexact Hit1
        isplitl [Hit2]; · iexact Hit2
        iexact Hit3
    · isplitl [HoU0]; · iapply (Entails.of_eq (block_written (oU0 L) d (cV L) (jV L) (m (oLoc d)) _ _ ePU0)); iexact HoU0
      isplitl [HoU1]; · iapply (Entails.of_eq (block_written (oU1 L) d (cV L) (jV L) (m (oLoc d)) _ _ ePU1)); iexact HoU1
      isplitl [HoU2]; · iapply (Entails.of_eq (block_written (oU2 L) d (cV L) (jV L) (m (oLoc d)) _ _ ePU2)); iexact HoU2
      isplitl [HoU3]; · iapply (Entails.of_eq (block_written (oU3 L) d (cV L) (jV L) (m (oLoc d)) _ _ ePU3)); iexact HoU3
      isplitl [HoI0]; · iapply (Entails.of_eq (block_written (oI0 L) d (cV L) (jV L) (m (oLoc d)) _ _ ePI0)); iexact HoI0
      isplitl [HoI1]; · iapply (Entails.of_eq (block_written (oI1 L) d (cV L) (jV L) (m (oLoc d)) _ _ ePI1)); iexact HoI1
      isplitl [HoI2]; · iapply (Entails.of_eq (block_written (oI2 L) d (cV L) (jV L) (m (oLoc d)) _ _ ePI2)); iexact HoI2
      iapply (Entails.of_eq (block_written (oI3 L) d (cV L) (jV L) (m (oLoc d)) _ _ ePI3)); iexact HoI3
  -- the scratches whole again, at some contents
  ihave Hu0 := (Entails.of_eq (show ((usC0).view.loc (V d (cV L) (jV L)) ↦[(usC0).view.set]{fullShare} usW m d L : sProp 𝕄) = (usV).view.loc (V d (cV L) (jV L)) ↦[(usC0).view.set]{fullShare} usW m d L from rfl)) $$ Hu0
  ihave Hi0 := (Entails.of_eq (show ((isC0).view.loc (V d (cV L) (jV L)) ↦[(isC0).view.set]{fullShare} isW m d L : sProp 𝕄) = (isV).view.loc (V d (cV L) (jV L)) ↦[(isC0).view.set]{fullShare} isW m d L from rfl)) $$ Hi0
  ihave Hu1 := (Entails.of_eq (show ((usC1).view.loc (V d (cV L) (jV L)) ↦[(usC1).view.set]{fullShare} usW m d L : sProp 𝕄) = (usV).view.loc (V d (cV L) (jV L)) ↦[(usC1).view.set]{fullShare} usW m d L from rfl)) $$ Hu1
  ihave Hi1 := (Entails.of_eq (show ((isC1).view.loc (V d (cV L) (jV L)) ↦[(isC1).view.set]{fullShare} isW m d L : sProp 𝕄) = (isV).view.loc (V d (cV L) (jV L)) ↦[(isC1).view.set]{fullShare} isW m d L from rfl)) $$ Hi1
  ihave Hu2 := (Entails.of_eq (show ((usC2).view.loc (V d (cV L) (jV L)) ↦[(usC2).view.set]{fullShare} usW m d L : sProp 𝕄) = (usV).view.loc (V d (cV L) (jV L)) ↦[(usC2).view.set]{fullShare} usW m d L from rfl)) $$ Hu2
  ihave Hi2 := (Entails.of_eq (show ((isC2).view.loc (V d (cV L) (jV L)) ↦[(isC2).view.set]{fullShare} isW m d L : sProp 𝕄) = (isV).view.loc (V d (cV L) (jV L)) ↦[(isC2).view.set]{fullShare} isW m d L from rfl)) $$ Hi2
  ihave Hu3 := (Entails.of_eq (show ((usC3).view.loc (V d (cV L) (jV L)) ↦[(usC3).view.set]{fullShare} usW m d L : sProp 𝕄) = (usV).view.loc (V d (cV L) (jV L)) ↦[(usC3).view.set]{fullShare} usW m d L from rfl)) $$ Hu3
  ihave Hi3 := (Entails.of_eq (show ((isC3).view.loc (V d (cV L) (jV L)) ↦[(isC3).view.set]{fullShare} isW m d L : sProp 𝕄) = (isV).view.loc (V d (cV L) (jV L)) ↦[(isC3).view.set]{fullShare} isW m d L from rfl)) $$ Hi3
  isplitl [Hu0 Hu1 Hu2 Hu3 Hur Hi0 Hi1 Hi2 Hi3 Hir Hb0 Hb1 Hb2 Hb3 Hbr Hbufs]
  · isplitl [Hu0 Hu1 Hu2 Hu3 Hur]
    · iapply (join4 (ℓ := (usV).view.loc (V d (cV L) (jV L))) (usC0).view.set (usC1).view.set (usC2).view.set (usC3).view.set
        (usC_disj (Or.inr (by decide))) (usC_disj (Or.inr (by decide))) (usC_disj (Or.inr (by decide))) (usC_disj (Or.inr (by decide))) (usC_disj (Or.inr (by decide))) (usC_disj (Or.inr (by decide))))
      isplitl [Hu0]; · iexact Hu0
      isplitl [Hu1]; · iexact Hu1
      isplitl [Hu2]; · iexact Hu2
      isplitl [Hu3]; · iexact Hu3
      iexact Hur
    isplitl [Hi0 Hi1 Hi2 Hi3 Hir]
    · iapply (join4 (ℓ := (isV).view.loc (V d (cV L) (jV L))) (isC0).view.set (isC1).view.set (isC2).view.set (isC3).view.set
        (isC_disj (Or.inr (by decide))) (isC_disj (Or.inr (by decide))) (isC_disj (Or.inr (by decide))) (isC_disj (Or.inr (by decide))) (isC_disj (Or.inr (by decide))) (isC_disj (Or.inr (by decide))))
      isplitl [Hi0]; · iexact Hi0
      isplitl [Hi1]; · iexact Hi1
      isplitl [Hi2]; · iexact Hi2
      isplitl [Hi3]; · iexact Hi3
      iexact Hir
    isplitl [Hb0 Hb1 Hb2 Hb3 Hbr]
    · iapply (join4 (ℓ := (bV).view.loc (V d (cV L) (jV L))) (buf0).view.set (buf1).view.set (buf2).view.set (buf3).view.set
        (plane_disj (Or.inr (by decide))) (plane_disj (Or.inr (by decide))) (plane_disj (Or.inr (by decide))) (plane_disj (Or.inr (by decide))) (plane_disj (Or.inr (by decide))) (plane_disj (Or.inr (by decide))))
      isplitl [Hb0]; · iexact Hb0
      isplitl [Hb1]; · iexact Hb1
      isplitl [Hb2]; · iexact Hb2
      isplitl [Hb3]; · iexact Hb3
      iexact Hbr
    iexact Hbufs
  isplitl [Hs0 Hs1 Hg0 Hg1 Hg2 Hg3 Ht0 Ht1 Ht2 Ht3 Hsems]
  · isplitl [Hs0]; · iexact Hs0
    isplitl [Hs1]; · iexact Hs1
    isplitl [Hg0]; · iexact Hg0
    isplitl [Hg1]; · iexact Hg1
    isplitl [Hg2]; · iexact Hg2
    isplitl [Hg3]; · iexact Hg3
    isplitl [Ht0]; · iexact Ht0
    isplitl [Ht1]; · iexact Ht1
    isplitl [Ht2]; · iexact Ht2
    isplitl [Ht3]; · iexact Ht3
    iexact Hsems
  iexists _; isplitr
  swap; · iexact HO
  ipureintro; intro p hp
  repeat (rcases Finset.mem_insert.mp hp with hp | hp; · exact .inr (hp ▸ rfl))
  exact .inl hp

end Tile

end Cert.KernelIdeal.ScTile

end
-- ==== Proof.SplitJoin.lean ====
/-
  The gathered array joined back from its 256 blocks.

  After the gather call every tile hands back its read shares of the four input arrays and its eight blocks of the
  gathered array.  A block was written through its own slice, so at an element `(r, k)` of the block it holds the
  gathered payload at the element's position inside the block: the table row that word `r` of the index array names,
  at column `k` (left half, user table) or `k − 128` (right half, item table).  That is the value of the one function
  `gathered` of the launch memory at `(r, k)` — the clamp in `gathered` does nothing because every index word names a
  row of its table.  Ownership of a set of elements depends only on the contents on that set, so each block is held at
  `gathered`; the 256 blocks are pairwise disjoint and cover the array, so they join to the whole array at
  `gathered`; the thirty-two read shares of each input join back to the full share at the launch contents.
-/
import proofs.«201366_g32727650796262_cont_8to1_b_1271_35_alg».proof.Proof.Split

noncomputable section

namespace Cert.KernelIdeal.SplitJoin

open Cert.KernelIdeal.Launch

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.ValueIdx

variable {F : FTy → Type} [FloatOps F]

local notation "uiV" => (Memref.whole Cert.KernelIdeal.main_arg0_scv : Memref Cert.KernelIdeal.sig Kind.scVector Space.hbm Cert.KernelIdeal.S16384 EltTy.i32)
local notation "iiV" => (Memref.whole Cert.KernelIdeal.main_arg1_scv : Memref Cert.KernelIdeal.sig Kind.scVector Space.hbm Cert.KernelIdeal.S16384 EltTy.i32)
local notation "utV" => (Memref.whole Cert.KernelIdeal.main_arg2_scv : Memref Cert.KernelIdeal.sig Kind.scVector Space.hbm Cert.KernelIdeal.S100000x128 EltTy.f32)
local notation "itV" => (Memref.whole Cert.KernelIdeal.main_arg3_scv : Memref Cert.KernelIdeal.sig Kind.scVector Space.hbm Cert.KernelIdeal.S100000x128 EltTy.f32)
local notation "oV" => (Memref.whole Cert.KernelIdeal.main_v0_scv : Memref Cert.KernelIdeal.sig Kind.scVector Space.hbm Cert.KernelIdeal.S16384x256 EltTy.f32)

local notation "𝕄" => MT nD τ sig (HIx 1) (Elt F) ℕ UU ℕ

variable (m : (ℓ : Loc nD τ sig) → Buf (Elt F) ℓ)

/-! ## A block written through its slice; the tables and the index lists read at an index -/

/-- A block of the gathered array written through its slice: at an element of the block, the payload at the
    element's position inside the block. -/
theorem oBlk_write (d : Dev nD) (off : Fin 2 → Nat) (inb : ∀ a, off a + S128x128.size a ≤ S16384x256.size a)
    (f : Buf (Elt F) (ScTile.oLoc d)) (w : S128x128.Idx → Elt F .f32) (x : S16384x256.Idx)
    (h0 : off 0 ≤ (x 0).val ∧ (x 0).val < off 0 + 128) (h1 : off 1 ≤ (x 1).val ∧ (x 1).val < off 1 + 128) :
    ((oV).slice (Rect.unit (s := S16384x256) off S128x128.size inb) (fun _ => rfl)).view.write (Elt F) f w Finset.univ x
      = w (ix2 ⟨(x 0).val - off 0, by omega⟩ ⟨(x 1).val - off 1, by omega⟩) := by
  have hx : ((oV).slice (Rect.unit (s := S16384x256) off S128x128.size inb) (fun _ => rfl)).view.emb
      (ix2 ⟨(x 0).val - off 0, by omega⟩ ⟨(x 1).val - off 1, by omega⟩) = x := by
    funext a
    apply Fin.ext
    match a with
    | ⟨0, _⟩ => show off 0 + 1 * ((x 0).val - off 0) = (x 0).val; omega
    | ⟨1, _⟩ => show off 1 + 1 * ((x 1).val - off 1) = (x 1).val; omega
  conv_lhs => rw [← hx]
  exact (View.write_emb_of_mem _ _ (Finset.mem_univ _)).trans (cast_eq _ _)

/-- The same with the offsets given as numbers. -/
theorem oBlk_write' (d : Dev nD) (off : Fin 2 → Nat) (inb : ∀ a, off a + S128x128.size a ≤ S16384x256.size a)
    (o0 o1 : Nat) (e : off = ![o0, o1])
    (f : Buf (Elt F) (ScTile.oLoc d)) (w : S128x128.Idx → Elt F .f32) (x : S16384x256.Idx)
    (h0 : o0 ≤ (x 0).val ∧ (x 0).val < o0 + 128) (h1 : o1 ≤ (x 1).val ∧ (x 1).val < o1 + 128) :
    ((oV).slice (Rect.unit (s := S16384x256) off S128x128.size inb) (fun _ => rfl)).view.write (Elt F) f w Finset.univ x
      = w (ix2 ⟨(x 0).val - o0, by omega⟩ ⟨(x 1).val - o1, by omega⟩) := by
  subst e
  exact oBlk_write d _ inb f w x h0 h1

/-- A table read whole is the table. -/
theorem uTab_apply (d : Dev nD) (j : S100000x128.Idx) : ScTile.uTab m d j = m (ScTile.utLoc d) j := by
  have e : ScTile.uTab m d j = m (ScTile.utLoc d) ((ScTile.utS).view.emb j) := (View.read_apply _ _).trans (cast_eq _ _)
  rw [e]
  congr 1
  funext a
  apply Fin.ext
  match a with
  | ⟨0, _⟩ => show 0 + 1 * (j 0).val = (j 0).val; omega
  | ⟨1, _⟩ => show 0 + 1 * (j 1).val = (j 1).val; omega
theorem iTab_apply (d : Dev nD) (j : S100000x128.Idx) : ScTile.iTab m d j = m (ScTile.itLoc d) j := by
  have e : ScTile.iTab m d j = m (ScTile.itLoc d) ((ScTile.itS).view.emb j) := (View.read_apply _ _).trans (cast_eq _ _)
  rw [e]
  congr 1
  funext a
  apply Fin.ext
  match a with
  | ⟨0, _⟩ => show 0 + 1 * (j 0).val = (j 0).val; omega
  | ⟨1, _⟩ => show 0 + 1 * (j 1).val = (j 1).val; omega

/-! Word `ρ` of row group `j` of the tile's words of an index array is word `base + 128 j + ρ` of the array,
`base = 1024 · subcore + 512 · core`. -/

theorem uLst0_apply (d : Dev nD) (L : grid0.Coords) (ρ : Fin 128)
    (h : 1024 * (L 1).val + 512 * (L 0).val + 128 * 0 + ρ.val < 16384) :
    ScTile.uLst0 m d L (ix1 ρ) = m (ScTile.uiLoc d) (ix1 ⟨1024 * (L 1).val + 512 * (L 0).val + 128 * 0 + ρ.val, h⟩) := by
  have e : ScTile.uLst0 m d L (ix1 ρ) = m (ScTile.uiLoc d) (((ScTile.uiS L).slice ScTile.chunk0 (fun _ => rfl)).view.emb (ix1 ρ)) :=
    (View.read_apply _ _).trans (cast_eq _ _)
  rw [e]
  congr 1
  funext a
  apply Fin.ext
  match a with
  | ⟨0, _⟩ =>
    show k0_off1 L 0 + 1 * (0 + 1 * ρ.val) = 1024 * (L 1).val + 512 * (L 0).val + 128 * 0 + ρ.val
    rw [k0_off1_eq L]
    show 1024 * (L 1).val + 512 * (L 0).val + 1 * (0 + 1 * ρ.val) = _
    omega
theorem uLst1_apply (d : Dev nD) (L : grid0.Coords) (ρ : Fin 128)
    (h : 1024 * (L 1).val + 512 * (L 0).val + 128 * 1 + ρ.val < 16384) :
    ScTile.uLst1 m d L (ix1 ρ) = m (ScTile.uiLoc d) (ix1 ⟨1024 * (L 1).val + 512 * (L 0).val + 128 * 1 + ρ.val, h⟩) := by
  have e : ScTile.uLst1 m d L (ix1 ρ) = m (ScTile.uiLoc d) (((ScTile.uiS L).slice ScTile.chunk1 (fun _ => rfl)).view.emb (ix1 ρ)) :=
    (View.read_apply _ _).trans (cast_eq _ _)
  rw [e]
  congr 1
  funext a
  apply Fin.ext
  match a with
  | ⟨0, _⟩ =>
    show k0_off1 L 0 + 1 * (128 + 1 * ρ.val) = 1024 * (L 1).val + 512 * (L 0).val + 128 * 1 + ρ.val
    rw [k0_off1_eq L]
    show 1024 * (L 1).val + 512 * (L 0).val + 1 * (128 + 1 * ρ.val) = _
    omega
theorem uLst2_apply (d : Dev nD) (L : grid0.Coords) (ρ : Fin 128)
    (h : 1024 * (L 1).val + 512 * (L 0).val + 128 * 2 + ρ.val < 16384) :
    ScTile.uLst2 m d L (ix1 ρ) = m (ScTile.uiLoc d) (ix1 ⟨1024 * (L 1).val + 512 * (L 0).val + 128 * 2 + ρ.val, h⟩) := by
  have e : ScTile.uLst2 m d L (ix1 ρ) = m (ScTile.uiLoc d) (((ScTile.uiS L).slice ScTile.chunk2 (fun _ => rfl)).view.emb (ix1 ρ)) :=
    (View.read_apply _ _).trans (cast_eq _ _)
  rw [e]
  congr 1
  funext a
  apply Fin.ext
  match a with
  | ⟨0, _⟩ =>
    show k0_off1 L 0 + 1 * (256 + 1 * ρ.val) = 1024 * (L 1).val + 512 * (L 0).val + 128 * 2 + ρ.val
    rw [k0_off1_eq L]
    show 1024 * (L 1).val + 512 * (L 0).val + 1 * (256 + 1 * ρ.val) = _
    omega
theorem uLst3_apply (d : Dev nD) (L : grid0.Coords) (ρ : Fin 128)
    (h : 1024 * (L 1).val + 512 * (L 0).val + 128 * 3 + ρ.val < 16384) :
    ScTile.uLst3 m d L (ix1 ρ) = m (ScTile.uiLoc d) (ix1 ⟨1024 * (L 1).val + 512 * (L 0).val + 128 * 3 + ρ.val, h⟩) := by
  have e : ScTile.uLst3 m d L (ix1 ρ) = m (ScTile.uiLoc d) (((ScTile.uiS L).slice ScTile.chunk3 (fun _ => rfl)).view.emb (ix1 ρ)) :=
    (View.read_apply _ _).trans (cast_eq _ _)
  rw [e]
  congr 1
  funext a
  apply Fin.ext
  match a with
  | ⟨0, _⟩ =>
    show k0_off1 L 0 + 1 * (384 + 1 * ρ.val) = 1024 * (L 1).val + 512 * (L 0).val + 128 * 3 + ρ.val
    rw [k0_off1_eq L]
    show 1024 * (L 1).val + 512 * (L 0).val + 1 * (384 + 1 * ρ.val) = _
    omega
theorem iLst0_apply (d : Dev nD) (L : grid0.Coords) (ρ : Fin 128)
    (h : 1024 * (L 1).val + 512 * (L 0).val + 128 * 0 + ρ.val < 16384) :
    ScTile.iLst0 m d L (ix1 ρ) = m (ScTile.iiLoc d) (ix1 ⟨1024 * (L 1).val + 512 * (L 0).val + 128 * 0 + ρ.val, h⟩) := by
  have e : ScTile.iLst0 m d L (ix1 ρ) = m (ScTile.iiLoc d) (((ScTile.iiS L).slice ScTile.chunk0 (fun _ => rfl)).view.emb (ix1 ρ)) :=
    (View.read_apply _ _).trans (cast_eq _ _)
  rw [e]
  congr 1
  funext a
  apply Fin.ext
  match a with
  | ⟨0, _⟩ =>
    show k0_off1 L 0 + 1 * (0 + 1 * ρ.val) = 1024 * (L 1).val + 512 * (L 0).val + 128 * 0 + ρ.val
    rw [k0_off1_eq L]
    show 1024 * (L 1).val + 512 * (L 0).val + 1 * (0 + 1 * ρ.val) = _
    omega
theorem iLst1_apply (d : Dev nD) (L : grid0.Coords) (ρ : Fin 128)
    (h : 1024 * (L 1).val + 512 * (L 0).val + 128 * 1 + ρ.val < 16384) :
    ScTile.iLst1 m d L (ix1 ρ) = m (ScTile.iiLoc d) (ix1 ⟨1024 * (L 1).val + 512 * (L 0).val + 128 * 1 + ρ.val, h⟩) := by
  have e : ScTile.iLst1 m d L (ix1 ρ) = m (ScTile.iiLoc d) (((ScTile.iiS L).slice ScTile.chunk1 (fun _ => rfl)).view.emb (ix1 ρ)) :=
    (View.read_apply _ _).trans (cast_eq _ _)
  rw [e]
  congr 1
  funext a
  apply Fin.ext
  match a with
  | ⟨0, _⟩ =>
    show k0_off1 L 0 + 1 * (128 + 1 * ρ.val) = 1024 * (L 1).val + 512 * (L 0).val + 128 * 1 + ρ.val
    rw [k0_off1_eq L]
    show 1024 * (L 1).val + 512 * (L 0).val + 1 * (128 + 1 * ρ.val) = _
    omega
theorem iLst2_apply (d : Dev nD) (L : grid0.Coords) (ρ : Fin 128)
    (h : 1024 * (L 1).val + 512 * (L 0).val + 128 * 2 + ρ.val < 16384) :
    ScTile.iLst2 m d L (ix1 ρ) = m (ScTile.iiLoc d) (ix1 ⟨1024 * (L 1).val + 512 * (L 0).val + 128 * 2 + ρ.val, h⟩) := by
  have e : ScTile.iLst2 m d L (ix1 ρ) = m (ScTile.iiLoc d) (((ScTile.iiS L).slice ScTile.chunk2 (fun _ => rfl)).view.emb (ix1 ρ)) :=
    (View.read_apply _ _).trans (cast_eq _ _)
  rw [e]
  congr 1
  funext a
  apply Fin.ext
  match a with
  | ⟨0, _⟩ =>
    show k0_off1 L 0 + 1 * (256 + 1 * ρ.val) = 1024 * (L 1).val + 512 * (L 0).val + 128 * 2 + ρ.val
    rw [k0_off1_eq L]
    show 1024 * (L 1).val + 512 * (L 0).val + 1 * (256 + 1 * ρ.val) = _
    omega
theorem iLst3_apply (d : Dev nD) (L : grid0.Coords) (ρ : Fin 128)
    (h : 1024 * (L 1).val + 512 * (L 0).val + 128 * 3 + ρ.val < 16384) :
    ScTile.iLst3 m d L (ix1 ρ) = m (ScTile.iiLoc d) (ix1 ⟨1024 * (L 1).val + 512 * (L 0).val + 128 * 3 + ρ.val, h⟩) := by
  have e : ScTile.iLst3 m d L (ix1 ρ) = m (ScTile.iiLoc d) (((ScTile.iiS L).slice ScTile.chunk3 (fun _ => rfl)).view.emb (ix1 ρ)) :=
    (View.read_apply _ _).trans (cast_eq _ _)
  rw [e]
  congr 1
  funext a
  apply Fin.ext
  match a with
  | ⟨0, _⟩ =>
    show k0_off1 L 0 + 1 * (384 + 1 * ρ.val) = 1024 * (L 1).val + 512 * (L 0).val + 128 * 3 + ρ.val
    rw [k0_off1_eq L]
    show 1024 * (L 1).val + 512 * (L 0).val + 1 * (384 + 1 * ρ.val) = _
    omega

/-! ## The gathered array at an element of the left half and of the right half -/

/-- Under the precondition the row number is not clamped. -/
theorem gath_left (hpre : ScTile.PreOK m) (d : Dev nD) (x : S16384x256.Idx) (h : (x 1).val < 128)
    (n : Nat) (hn : n < 100000) (κ : Fin 128) (hκ : κ.val = (x 1).val)
    (hnv : n = (m (ScTile.uiLoc d) (ix1 (⟨(x 0).val, idx2_lt0 x⟩ : Fin 16384))).toNat) :
    m (ScTile.utLoc d) (ix2 (⟨n, hn⟩ : Fin 100000) κ) = gathered m d x := by
  unfold gathered
  rw [dif_pos h]
  congr 1
  have hle := (hpre d (ix1 (⟨(x 0).val, idx2_lt0 x⟩ : Fin 16384))).1
  funext a
  match a with
  | ⟨0, _⟩ => exact Fin.ext (by show n = min _ 99999; rw [hnv]; omega)
  | ⟨1, _⟩ => exact Fin.ext hκ

theorem gath_right (hpre : ScTile.PreOK m) (d : Dev nD) (x : S16384x256.Idx) (h : ¬ (x 1).val < 128)
    (n : Nat) (hn : n < 100000) (κ : Fin 128) (hκ : κ.val = (x 1).val - 128)
    (hnv : n = (m (ScTile.iiLoc d) (ix1 (⟨(x 0).val, idx2_lt0 x⟩ : Fin 16384))).toNat) :
    m (ScTile.itLoc d) (ix2 (⟨n, hn⟩ : Fin 100000) κ) = gathered m d x := by
  unfold gathered
  rw [dif_neg h]
  congr 1
  have hle := (hpre d (ix1 (⟨(x 0).val, idx2_lt0 x⟩ : Fin 16384))).2
  funext a
  match a with
  | ⟨0, _⟩ => exact Fin.ext (by show n = min _ 99999; rw [hnv]; omega)
  | ⟨1, _⟩ => exact Fin.ext hκ

/-! ## Every block holds the gathered rows -/

/-- Block (user half, row group 0) holds the gathered rows on its own elements. -/
theorem oU0_eq (hpre : ScTile.PreOK m) (d : Dev nD) (L : grid0.Coords) (x : S16384x256.Idx) (hx : x ∈ ScTile.oU0Set L) :
    ScTile.oU0Val m d L hpre x = gathered m d x := by
  obtain ⟨h0, h1⟩ := (mem_oU0 L x).mp hx
  have hx0 : (x 0).val < 16384 := idx2_lt0 x
  have hw := oBlk_write' d (k0_off2 L 0#32) (k0_off2_inb L 0) (1024 * (L 1).val + 512 * (L 0).val + 128 * 0) 0
    (k0_off2_eq L ⟨0, by decide⟩) (m (ScTile.oLoc d))
    (ScTile.blockPay (ScTile.uTab m d) (ScTile.uLst0 m d L) (ScTile.uLst0_inb m d L hpre)) x h0 h1
  refine hw.trans ?_
  rw [ScTile.blockPay_apply, uTab_apply]
  refine gath_left m hpre d x (by omega) _ _ _ (by show (x 1).val - 0 = _; omega) ?_
  rw [uLst0_apply m d L _ (by show 1024 * (L 1).val + 512 * (L 0).val + 128 * 0 + ((x 0).val - (1024 * (L 1).val + 512 * (L 0).val + 128 * 0)) < 16384; omega)]
  congr 3
  apply Fin.ext
  show 1024 * (L 1).val + 512 * (L 0).val + 128 * 0 + ((x 0).val - (1024 * (L 1).val + 512 * (L 0).val + 128 * 0)) = (x 0).val
  omega
/-- Block (user half, row group 1) holds the gathered rows on its own elements. -/
theorem oU1_eq (hpre : ScTile.PreOK m) (d : Dev nD) (L : grid0.Coords) (x : S16384x256.Idx) (hx : x ∈ ScTile.oU1Set L) :
    ScTile.oU1Val m d L hpre x = gathered m d x := by
  obtain ⟨h0, h1⟩ := (mem_oU1 L x).mp hx
  have hx0 : (x 0).val < 16384 := idx2_lt0 x
  have hw := oBlk_write' d (k0_off2 L 128#32) (k0_off2_inb L 1) (1024 * (L 1).val + 512 * (L 0).val + 128 * 1) 0
    (k0_off2_eq L ⟨1, by decide⟩) (m (ScTile.oLoc d))
    (ScTile.blockPay (ScTile.uTab m d) (ScTile.uLst1 m d L) (ScTile.uLst1_inb m d L hpre)) x h0 h1
  refine hw.trans ?_
  rw [ScTile.blockPay_apply, uTab_apply]
  refine gath_left m hpre d x (by omega) _ _ _ (by show (x 1).val - 0 = _; omega) ?_
  rw [uLst1_apply m d L _ (by show 1024 * (L 1).val + 512 * (L 0).val + 128 * 1 + ((x 0).val - (1024 * (L 1).val + 512 * (L 0).val + 128 * 1)) < 16384; omega)]
  congr 3
  apply Fin.ext
  show 1024 * (L 1).val + 512 * (L 0).val + 128 * 1 + ((x 0).val - (1024 * (L 1).val + 512 * (L 0).val + 128 * 1)) = (x 0).val
  omega
/-- Block (user half, row group 2) holds the gathered rows on its own elements. -/
theorem oU2_eq (hpre : ScTile.PreOK m) (d : Dev nD) (L : grid0.Coords) (x : S16384x256.Idx) (hx : x ∈ ScTile.oU2Set L) :
    ScTile.oU2Val m d L hpre x = gathered m d x := by
  obtain ⟨h0, h1⟩ := (mem_oU2 L x).mp hx
  have hx0 : (x 0).val < 16384 := idx2_lt0 x
  have hw := oBlk_write' d (k0_off2 L 256#32) (k0_off2_inb L 2) (1024 * (L 1).val + 512 * (L 0).val + 128 * 2) 0
    (k0_off2_eq L ⟨2, by decide⟩) (m (ScTile.oLoc d))
    (ScTile.blockPay (ScTile.uTab m d) (ScTile.uLst2 m d L) (ScTile.uLst2_inb m d L hpre)) x h0 h1
  refine hw.trans ?_
  rw [ScTile.blockPay_apply, uTab_apply]
  refine gath_left m hpre d x (by omega) _ _ _ (by show (x 1).val - 0 = _; omega) ?_
  rw [uLst2_apply m d L _ (by show 1024 * (L 1).val + 512 * (L 0).val + 128 * 2 + ((x 0).val - (1024 * (L 1).val + 512 * (L 0).val + 128 * 2)) < 16384; omega)]
  congr 3
  apply Fin.ext
  show 1024 * (L 1).val + 512 * (L 0).val + 128 * 2 + ((x 0).val - (1024 * (L 1).val + 512 * (L 0).val + 128 * 2)) = (x 0).val
  omega
/-- Block (user half, row group 3) holds the gathered rows on its own elements. -/
theorem oU3_eq (hpre : ScTile.PreOK m) (d : Dev nD) (L : grid0.Coords) (x : S16384x256.Idx) (hx : x ∈ ScTile.oU3Set L) :
    ScTile.oU3Val m d L hpre x = gathered m d x := by
  obtain ⟨h0, h1⟩ := (mem_oU3 L x).mp hx
  have hx0 : (x 0).val < 16384 := idx2_lt0 x
  have hw := oBlk_write' d (k0_off2 L 384#32) (k0_off2_inb L 3) (1024 * (L 1).val + 512 * (L 0).val + 128 * 3) 0
    (k0_off2_eq L ⟨3, by decide⟩) (m (ScTile.oLoc d))
    (ScTile.blockPay (ScTile.uTab m d) (ScTile.uLst3 m d L) (ScTile.uLst3_inb m d L hpre)) x h0 h1
  refine hw.trans ?_
  rw [ScTile.blockPay_apply, uTab_apply]
  refine gath_left m hpre d x (by omega) _ _ _ (by show (x 1).val - 0 = _; omega) ?_
  rw [uLst3_apply m d L _ (by show 1024 * (L 1).val + 512 * (L 0).val + 128 * 3 + ((x 0).val - (1024 * (L 1).val + 512 * (L 0).val + 128 * 3)) < 16384; omega)]
  congr 3
  apply Fin.ext
  show 1024 * (L 1).val + 512 * (L 0).val + 128 * 3 + ((x 0).val - (1024 * (L 1).val + 512 * (L 0).val + 128 * 3)) = (x 0).val
  omega
/-- Block (item half, row group 0) holds the gathered rows on its own elements. -/
theorem oI0_eq (hpre : ScTile.PreOK m) (d : Dev nD) (L : grid0.Coords) (x : S16384x256.Idx) (hx : x ∈ ScTile.oI0Set L) :
    ScTile.oI0Val m d L hpre x = gathered m d x := by
  obtain ⟨h0, h1⟩ := (mem_oI0 L x).mp hx
  have hx0 : (x 0).val < 16384 := idx2_lt0 x
  have hw := oBlk_write' d (k0_off3 L 0#32) (k0_off3_inb L 0) (1024 * (L 1).val + 512 * (L 0).val + 128 * 0) 128
    (k0_off3_eq L ⟨0, by decide⟩) (m (ScTile.oLoc d))
    (ScTile.blockPay (ScTile.iTab m d) (ScTile.iLst0 m d L) (ScTile.iLst0_inb m d L hpre)) x h0 h1
  refine hw.trans ?_
  rw [ScTile.blockPay_apply, iTab_apply]
  refine gath_right m hpre d x (by omega) _ _ _ (by show (x 1).val - 128 = _; omega) ?_
  rw [iLst0_apply m d L _ (by show 1024 * (L 1).val + 512 * (L 0).val + 128 * 0 + ((x 0).val - (1024 * (L 1).val + 512 * (L 0).val + 128 * 0)) < 16384; omega)]
  congr 3
  apply Fin.ext
  show 1024 * (L 1).val + 512 * (L 0).val + 128 * 0 + ((x 0).val - (1024 * (L 1).val + 512 * (L 0).val + 128 * 0)) = (x 0).val
  omega
/-- Block (item half, row group 1) holds the gathered rows on its own elements. -/
theorem oI1_eq (hpre : ScTile.PreOK m) (d : Dev nD) (L : grid0.Coords) (x : S16384x256.Idx) (hx : x ∈ ScTile.oI1Set L) :
    ScTile.oI1Val m d L hpre x = gathered m d x := by
  obtain ⟨h0, h1⟩ := (mem_oI1 L x).mp hx
  have hx0 : (x 0).val < 16384 := idx2_lt0 x
  have hw := oBlk_write' d (k0_off3 L 128#32) (k0_off3_inb L 1) (1024 * (L 1).val + 512 * (L 0).val + 128 * 1) 128
    (k0_off3_eq L ⟨1, by decide⟩) (m (ScTile.oLoc d))
    (ScTile.blockPay (ScTile.iTab m d) (ScTile.iLst1 m d L) (ScTile.iLst1_inb m d L hpre)) x h0 h1
  refine hw.trans ?_
  rw [ScTile.blockPay_apply, iTab_apply]
  refine gath_right m hpre d x (by omega) _ _ _ (by show (x 1).val - 128 = _; omega) ?_
  rw [iLst1_apply m d L _ (by show 1024 * (L 1).val + 512 * (L 0).val + 128 * 1 + ((x 0).val - (1024 * (L 1).val + 512 * (L 0).val + 128 * 1)) < 16384; omega)]
  congr 3
  apply Fin.ext
  show 1024 * (L 1).val + 512 * (L 0).val + 128 * 1 + ((x 0).val - (1024 * (L 1).val + 512 * (L 0).val + 128 * 1)) = (x 0).val
  omega
/-- Block (item half, row group 2) holds the gathered rows on its own elements. -/
theorem oI2_eq (hpre : ScTile.PreOK m) (d : Dev nD) (L : grid0.Coords) (x : S16384x256.Idx) (hx : x ∈ ScTile.oI2Set L) :
    ScTile.oI2Val m d L hpre x = gathered m d x := by
  obtain ⟨h0, h1⟩ := (mem_oI2 L x).mp hx
  have hx0 : (x 0).val < 16384 := idx2_lt0 x
  have hw := oBlk_write' d (k0_off3 L 256#32) (k0_off3_inb L 2) (1024 * (L 1).val + 512 * (L 0).val + 128 * 2) 128
    (k0_off3_eq L ⟨2, by decide⟩) (m (ScTile.oLoc d))
    (ScTile.blockPay (ScTile.iTab m d) (ScTile.iLst2 m d L) (ScTile.iLst2_inb m d L hpre)) x h0 h1
  refine hw.trans ?_
  rw [ScTile.blockPay_apply, iTab_apply]
  refine gath_right m hpre d x (by omega) _ _ _ (by show (x 1).val - 128 = _; omega) ?_
  rw [iLst2_apply m d L _ (by show 1024 * (L 1).val + 512 * (L 0).val + 128 * 2 + ((x 0).val - (1024 * (L 1).val + 512 * (L 0).val + 128 * 2)) < 16384; omega)]
  congr 3
  apply Fin.ext
  show 1024 * (L 1).val + 512 * (L 0).val + 128 * 2 + ((x 0).val - (1024 * (L 1).val + 512 * (L 0).val + 128 * 2)) = (x 0).val
  omega
/-- Block (item half, row group 3) holds the gathered rows on its own elements. -/
theorem oI3_eq (hpre : ScTile.PreOK m) (d : Dev nD) (L : grid0.Coords) (x : S16384x256.Idx) (hx : x ∈ ScTile.oI3Set L) :
    ScTile.oI3Val m d L hpre x = gathered m d x := by
  obtain ⟨h0, h1⟩ := (mem_oI3 L x).mp hx
  have hx0 : (x 0).val < 16384 := idx2_lt0 x
  have hw := oBlk_write' d (k0_off3 L 384#32) (k0_off3_inb L 3) (1024 * (L 1).val + 512 * (L 0).val + 128 * 3) 128
    (k0_off3_eq L ⟨3, by decide⟩) (m (ScTile.oLoc d))
    (ScTile.blockPay (ScTile.iTab m d) (ScTile.iLst3 m d L) (ScTile.iLst3_inb m d L hpre)) x h0 h1
  refine hw.trans ?_
  rw [ScTile.blockPay_apply, iTab_apply]
  refine gath_right m hpre d x (by omega) _ _ _ (by show (x 1).val - 128 = _; omega) ?_
  rw [iLst3_apply m d L _ (by show 1024 * (L 1).val + 512 * (L 0).val + 128 * 3 + ((x 0).val - (1024 * (L 1).val + 512 * (L 0).val + 128 * 3)) < 16384; omega)]
  congr 3
  apply Fin.ext
  show 1024 * (L 1).val + 512 * (L 0).val + 128 * 3 + ((x 0).val - (1024 * (L 1).val + 512 * (L 0).val + 128 * 3)) = (x 0).val
  omega

/-! ## The join -/

/-- A tile's eight blocks after the call are its eight blocks of the gathered array. -/
theorem blocksOut_eq (hpre : ScTile.PreOK m) (d : Dev nD) (L : grid0.Coords) :
    (ScTile.blocksOut m d L hpre : sProp 𝕄)
      = bigSep Finset.univ fun k : Fin 8 => ScTile.oLoc d ↦[blkSet L k]{fullShare} gathered m d := by
  rw [bigSep_fin_eight (fun k : Fin 8 => (ScTile.oLoc d ↦[blkSet L k]{fullShare} gathered m d : sProp 𝕄))]
  unfold ScTile.blocksOut
  rw [pointsTo_congr (ℓ := ScTile.oLoc d) (I := ScTile.oU0Set L) (f := ScTile.oU0Val m d L hpre) (g := gathered m d) (oU0_eq m hpre d L)]
  rw [pointsTo_congr (ℓ := ScTile.oLoc d) (I := ScTile.oU1Set L) (f := ScTile.oU1Val m d L hpre) (g := gathered m d) (oU1_eq m hpre d L)]
  rw [pointsTo_congr (ℓ := ScTile.oLoc d) (I := ScTile.oU2Set L) (f := ScTile.oU2Val m d L hpre) (g := gathered m d) (oU2_eq m hpre d L)]
  rw [pointsTo_congr (ℓ := ScTile.oLoc d) (I := ScTile.oU3Set L) (f := ScTile.oU3Val m d L hpre) (g := gathered m d) (oU3_eq m hpre d L)]
  rw [pointsTo_congr (ℓ := ScTile.oLoc d) (I := ScTile.oI0Set L) (f := ScTile.oI0Val m d L hpre) (g := gathered m d) (oI0_eq m hpre d L)]
  rw [pointsTo_congr (ℓ := ScTile.oLoc d) (I := ScTile.oI1Set L) (f := ScTile.oI1Val m d L hpre) (g := gathered m d) (oI1_eq m hpre d L)]
  rw [pointsTo_congr (ℓ := ScTile.oLoc d) (I := ScTile.oI2Set L) (f := ScTile.oI2Val m d L hpre) (g := gathered m d) (oI2_eq m hpre d L)]
  rw [pointsTo_congr (ℓ := ScTile.oLoc d) (I := ScTile.oI3Set L) (f := ScTile.oI3Val m d L hpre) (g := gathered m d) (oI3_eq m hpre d L)]
  rfl

/-- What a tile hands back, over plain numbers. -/
abbrev tdP2 (hpre : ScTile.PreOK m) (d : Dev nD) (c : Fin 2) (i : Fin 16) : sProp 𝕄 :=
  iprop(ScTile.inputs m d (tileShare c i) (tileShare c i) (tileShare c i) (tileShare c i) ∗ ScTile.blocksOut m d (tileL2 c i) hpre)

/-- What the thirty-two tiles hand back is the five arrays whole: the four inputs as launched, each tile's share of
    them joined back to the full share, and the gathered array, its 256 blocks joined. -/
theorem hdn2 (hpre : ScTile.PreOK m) (d : Dev nD) :
    (bigSep Finset.univ fun c : Fin 2 => bigSep Finset.univ fun i : Fin 16 => tdP2 m hpre d c i)
      ⊢ (held (T d) S5 (V1 m (gathered m) d) : sProp 𝕄) := by
  rw [held_S5, call_keeps m (gathered m) d main_arg0 (by decide), call_keeps m (gathered m) d main_arg1 (by decide),
    call_keeps m (gathered m) d main_arg2 (by decide), call_keeps m (gathered m) d main_arg3 (by decide),
    show V1 m (gathered m) d (main_v0 : DevRef τ sig) = gathered m d from Function.update_self ..]
  show _ ⊢ iprop((ScTile.uiLoc d ↦{fullShare} m (ScTile.uiLoc d)) ∗ (ScTile.iiLoc d ↦{fullShare} m (ScTile.iiLoc d))
      ∗ (ScTile.utLoc d ↦{fullShare} m (ScTile.utLoc d)) ∗ (ScTile.itLoc d ↦{fullShare} m (ScTile.itLoc d))
      ∗ ScTile.oLoc d ↦{fullShare} gathered m d)
  rw [pts_tiles (m (ScTile.uiLoc d)), pts_tiles (m (ScTile.iiLoc d)), pts_tiles (m (ScTile.utLoc d)), pts_tiles (m (ScTile.itLoc d)),
    o_blocks d (gathered m d)]
  have e : (bigSep Finset.univ fun c : Fin 2 => bigSep Finset.univ fun i : Fin 16 => tdP2 m hpre d c i)
      = iprop(((bigSep Finset.univ fun c : Fin 2 => bigSep Finset.univ fun i : Fin 16 => ScTile.uiLoc d ↦{tileShare c i} m (ScTile.uiLoc d))
          ∗ (bigSep Finset.univ fun c : Fin 2 => bigSep Finset.univ fun i : Fin 16 => ScTile.iiLoc d ↦{tileShare c i} m (ScTile.iiLoc d))
          ∗ (bigSep Finset.univ fun c : Fin 2 => bigSep Finset.univ fun i : Fin 16 => ScTile.utLoc d ↦{tileShare c i} m (ScTile.utLoc d))
          ∗ (bigSep Finset.univ fun c : Fin 2 => bigSep Finset.univ fun i : Fin 16 => ScTile.itLoc d ↦{tileShare c i} m (ScTile.itLoc d)))
        ∗ bigSep Finset.univ fun c : Fin 2 => bigSep Finset.univ fun i : Fin 16 =>
            bigSep Finset.univ fun k : Fin 8 => ScTile.oLoc d ↦[blkSet (tileL2 c i) k]{fullShare} gathered m d) := by
    simp only [blocksOut_eq, bigSep_sep']
  rw [e]
  iintro ⟨⟨Ha, Hb, Hc, Hd⟩, He⟩
  isplitl [Ha]; · iexact Ha
  isplitl [Hb]; · iexact Hb
  isplitl [Hc]; · iexact Hc
  isplitl [Hd]; · iexact Hd
  iexact He

/-- THE JOIN after the call: what the call's SparseCores hand back is the five arrays whole, the gathered array at
    the one function `gathered` of the launch memory. -/
theorem hdn (hpre : ScTile.PreOK m) (d : Dev nD) :
    (bigSep Finset.univ fun c : Fin ((K (F := F)).nCore 0) => (P m hpre).dn 0 d c)
      ⊢ (held (T d) S5 (V1 m (gathered m) d) : sProp 𝕄) := by
  refine (Entails.of_eq ?_).trans (hdn2 m hpre d)
  show (bigSep Finset.univ fun c : Fin ((K (F := F)).nCore 0) => bigSep Finset.univ fun i : Fin ((K (F := F)).nSub 0) =>
    tdP2 m hpre d (Fin.cast (nCore_zero (F := F)) c) (Fin.cast (nSub_zero (F := F)) i)) = _
  rw [← bigSep_cores (F := F) (fun c => bigSep Finset.univ fun i : Fin 16 => tdP2 m hpre d c i)]
  exact bigSep_congr fun c _ => bigSep_subs (F := F) (fun i => tdP2 m hpre d (Fin.cast (nCore_zero (F := F)) c) i)

end Cert.KernelIdeal.SplitJoin

end
-- ==== Proof.SplitValue.lean ====
/-
  The gathered array, read at an index, is the specification's concatenated lookup.

  The gather reads a row number as the unsigned value of its word and the function `gathered` clamps it into the
  table; the specification reads the word signed and clamps that.  Under the precondition every row number lies in
  [0, 99999]: a nonnegative word reads the same signed and unsigned, and neither clamp does anything, so the two name
  the same row of the same table, in the same column.
-/
import proofs.«201366_g32727650796262_cont_8to1_b_1271_35_alg».proof.Proof.Split

noncomputable section

namespace Cert.KernelIdeal.Launch

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.ValueIdx
open Cert.ShareLeaves

variable {F : FTy → Type} [FloatOps F]

local notation "𝕄" => MT nD τ sig (HIx 1) (Elt F) ℕ UU ℕ

variable (m : (ℓ : Loc nD τ sig) → Buf (Elt F) ℓ)

/-! ## The gathered array is the specification's lookup -/

/-- A word that reads nonnegative signed reads the same unsigned. -/
theorem toNat_of_toInt_nonneg (w : BitVec 32) (h0 : 0 ≤ w.toInt) : w.toInt.toNat = w.toNat := by
  have hlt : w.toNat < 2 ^ 32 := w.isLt
  have hc := BitVec.toInt_eq_toNat_cond w
  by_cases hs : 2 * w.toNat < 2 ^ 32
  · rw [if_pos hs] at hc
    omega
  · rw [if_neg hs] at hc
    omega

/-- At the ideal values, under the precondition's ranges for the two arrays of row numbers, the gathered array at
    (r, k) is the specification's concatenated lookup: the clamp of the specification and the clamp here both do
    nothing, and a nonnegative word reads the same signed and unsigned. -/
theorem gathered_apply (m : (ℓ : Loc nD τ sig) → Buf (Elt Ideal) ℓ) (d : Dev nD)
    (hu : ∀ j, 0 ≤ ((m (ScTile.uiLoc d) : IVec S16384 32) j).toInt ∧ ((m (ScTile.uiLoc d) : IVec S16384 32) j).toInt ≤ 99999)
    (hv : ∀ j, 0 ≤ ((m (ScTile.iiLoc d) : IVec S16384 32) j).toInt ∧ ((m (ScTile.iiLoc d) : IVec S16384 32) j).toInt ≤ 99999)
    (r : Fin 16384) (k : Fin 256) :
    (gathered m d : FVec Ideal S16384x256 .f32) (ix2 r k)
      = Cert.Spec.xcat (m (ScTile.uiLoc d)) (m (ScTile.iiLoc d)) (m (ScTile.utLoc d)) (m (ScTile.itLoc d)) r k := by
  have eu : uRow m d r = Cert.Spec.rowOf ((m (ScTile.uiLoc d) : IVec S16384 32) (ix1 r)) := Fin.ext (by
    show min ((m (ScTile.uiLoc d) : IVec S16384 32) (ix1 r)).toNat 99999
      = min ((m (ScTile.uiLoc d) : IVec S16384 32) (ix1 r)).toInt.toNat 99999
    rw [toNat_of_toInt_nonneg _ (hu (ix1 r)).1])
  have ev : iRow m d r = Cert.Spec.rowOf ((m (ScTile.iiLoc d) : IVec S16384 32) (ix1 r)) := Fin.ext (by
    show min ((m (ScTile.iiLoc d) : IVec S16384 32) (ix1 r)).toNat 99999
      = min ((m (ScTile.iiLoc d) : IVec S16384 32) (ix1 r)).toInt.toNat 99999
    rw [toNat_of_toInt_nonneg _ (hv (ix1 r)).1])
  unfold Cert.Spec.xcat
  by_cases h : k.val < 128
  · have hg : (gathered m d : FVec Ideal S16384x256 .f32) (ix2 r k)
        = (m (ScTile.utLoc d) : FVec Ideal S100000x128 .f32) (ix2 (uRow m d r) (⟨k.val, h⟩ : Fin 128)) := dif_pos h
    rw [hg, dif_pos h, eu]
  · have hg : (gathered m d : FVec Ideal S16384x256 .f32) (ix2 r k)
        = (m (ScTile.itLoc d) : FVec Ideal S100000x128 .f32) (ix2 (iRow m d r) (⟨k.val - 128, by have := k.isLt; omega⟩ : Fin 128)) := dif_neg h
    rw [hg, dif_neg h, ev]

end Cert.KernelIdeal.Launch

end
-- ==== Proof.PreRange.lean ====
/-
  The precondition read back, for the two integer arguments.

  The precondition is one bit: the conjunction, over all twelve arguments, of "every entry passes its test".  For the
  ten float arguments the test is finiteness; for the two arrays of row numbers it is `0 ≤ w` and `w ≤ 99999`, both
  comparisons signed.  The bit is computed as a chain of `and`s of whole-array `and`-reductions, so when it is 1 every
  link of the chain is 1, every reduction in it is 1, and hence every entry of every reduced array is 1.  Only the last
  three links concern the row numbers: the lower bound of the first array is computed just before them and carried in,
  and the upper bound of the first array and both bounds of the second are computed there.  A signed comparison that
  answers 1 is the corresponding inequality between the words read as signed integers, and the two literal bounds are
  the integers 0 and 99999.  Nothing here depends on which float instance the float arguments are read at.
-/
import proofs.«201366_g32727650796262_cont_8to1_b_1271_35_alg».proof.Pre_input_domain
import proofs.«201366_g32727650796262_cont_8to1_b_1271_35_alg».proof.Proof.Gen.Pre_input_domain
import Idealize.ShloMosaic.Lib.ReduceAll

noncomputable section

namespace Cert.PreRange

open Idealize.ShloMosaic Cert.Pre_input_domain

/-- The shape with no axes has exactly one index. -/
instance subsingleton_scalar_idx : Subsingleton S_.Idx := ⟨fun a b => funext fun d => d.elim0⟩

/-- Its one index. -/
abbrev pt : S_.Idx := fun a => a.elim0

/-- The two literal bounds, read as signed integers. -/
theorem toInt_zero : (0#32 : BitVec 32).toInt = 0 := by decide
theorem toInt_hi : (99999#32 : BitVec 32).toInt = 99999 := by decide

/-- The last three links of the chain.  If their conjunction with the carried bit `p` is 1, then `p` is 1, every entry
    of the carried lower-bound test `lo` of the first array is 1, every entry of the first array is at most 99999, and
    every entry of the second array lies in `[0, 99999]`. -/
theorem tail_ranges {F : FTy → Type} [FloatOps F] [Cert.Pre_input_domain.Facts]
    (a0 a1 : IVec S16384 32) (p : IVec S_ 1) (lo : IVec S16384 1)
    (h : fn_part3 (F := F) a0 a1 p lo pt = 1#1) :
    p pt = 1#1 ∧ (∀ j, lo j = 1#1 ∧ (a0 j).toInt ≤ 99999)
      ∧ (∀ j, 0 ≤ (a1 j).toInt ∧ (a1 j).toInt ≤ 99999) := by
  unfold fn_part3 at h
  dsimp only at h
  obtain ⟨h55, h61⟩ := IntOp.andi_eq_one.1 h
  obtain ⟨hp, h54⟩ := IntOp.andi_eq_one.1 h55
  refine ⟨hp, fun j => ?_, fun j => ?_⟩
  · obtain ⟨hlo, hle⟩ := IntOp.andi_eq_one.1 (Host.reduce_andi_all _ _ _ _ _ h54 j)
    have hle' : (a0 j).toInt ≤ (99999#32 : BitVec 32).toInt := IntOp.cmpi_sle.1 hle
    rw [toInt_hi] at hle'
    exact ⟨hlo, hle'⟩
  · obtain ⟨hge, hle⟩ := IntOp.andi_eq_one.1 (Host.reduce_andi_all _ _ _ _ _ h61 j)
    have hge' : (0#32 : BitVec 32).toInt ≤ (a1 j).toInt := IntOp.cmpi_sge.1 hge
    have hle' : (a1 j).toInt ≤ (99999#32 : BitVec 32).toInt := IntOp.cmpi_sle.1 hle
    rw [toInt_zero] at hge'
    rw [toInt_hi] at hle'
    exact ⟨hge', hle'⟩

/-- THE PRECONDITION DECODED: when the precondition's bit is 1, every entry of each of the two arrays of row numbers,
    read as a signed integer, lies in `[0, 99999]`. -/
theorem ranges {F : FTy → Type} [FloatOps F] [Cert.Pre_input_domain.Facts]
    (a0 a1 : IVec Cert.Pre_input_domain.S16384 32)
    (a2 a3 : FVec F Cert.Pre_input_domain.S100000x128 .f32)
    (a4 : FVec F Cert.Pre_input_domain.S512x256 .f32) (a5 : FVec F Cert.Pre_input_domain.S512 .f32)
    (a6 : FVec F Cert.Pre_input_domain.S256x512 .f32) (a7 : FVec F Cert.Pre_input_domain.S256 .f32)
    (a8 : FVec F Cert.Pre_input_domain.S128x256 .f32) (a9 : FVec F Cert.Pre_input_domain.S128 .f32)
    (a10 : FVec F Cert.Pre_input_domain.S1x128 .f32) (a11 : FVec F Cert.Pre_input_domain.S1 .f32)
    (h : Cert.Pre_input_domain.fn (F := F) a0 a1 a2 a3 a4 a5 a6 a7 a8 a9 a10 a11 = fun _ => 1#1) :
    (∀ j, 0 ≤ (a0 j).toInt ∧ (a0 j).toInt ≤ 99999) ∧ (∀ j, 0 ≤ (a1 j).toInt ∧ (a1 j).toInt ≤ 99999) := by
  have e := congrFun h pt
  unfold fn at e
  dsimp only at e
  unfold fn_part1 at e
  dsimp only at e
  unfold fn_part2 at e
  dsimp only at e
  obtain ⟨-, h0, h1⟩ := tail_ranges (F := F) a0 a1 _ _ e
  refine ⟨fun j => ?_, h1⟩
  obtain ⟨hge, hle⟩ := h0 j
  have hge' : (0#32 : BitVec 32).toInt ≤ (a0 j).toInt := IntOp.cmpi_sge.1 hge
  rw [toInt_zero] at hge'
  exact ⟨hge', hle⟩

end Cert.PreRange

end
-- ==== Proof.PreGlue.lean ====
/-
  The precondition, in the forms the proof uses.

  The certificate's precondition says, of the two index arrays, that every word read as a signed integer lies in
  [0, 99999].  A word in that range is its own unsigned value, below 100000: a row number of either table.
-/
import proofs.«201366_g32727650796262_cont_8to1_b_1271_35_alg».proof.Defs
import proofs.«201366_g32727650796262_cont_8to1_b_1271_35_alg».proof.Proof.Gen.Pre_input_domain
import proofs.«201366_g32727650796262_cont_8to1_b_1271_35_alg».proof.Proof.PreRange
import proofs.«201366_g32727650796262_cont_8to1_b_1271_35_alg».proof.Proof.ScTileDefs

noncomputable section

namespace Cert.KernelIdeal.PreGlue

open Cert.KernelIdeal
open Idealize.ShloMosaic Idealize.SL.Sem

/-- A word that is a non-negative signed integer at most 99999 is, unsigned, below 100000. -/
theorem toNat_lt_of_range (w : BitVec 32) (h0 : 0 ≤ w.toInt) (h1 : w.toInt ≤ 99999) : w.toNat < 100000 := by
  have hc := BitVec.toInt_eq_toNat_cond w
  have hlt := w.isLt
  split at hc <;> omega

/-- The signed ranges of the two index arrays, on every device. -/
theorem ranges_of_pre (m : (ℓ : Loc nD τ sig) → Buf (Elt Ideal) ℓ) (h : Cert.Pre_KernelIdeal m) (c : Dev nD) :
    (∀ j, 0 ≤ (m ((c.tc : Thread nD τ).loc main_arg0) j).toInt ∧ (m ((c.tc : Thread nD τ).loc main_arg0) j).toInt ≤ 99999)
      ∧ (∀ j, 0 ≤ (m ((c.tc : Thread nD τ).loc main_arg1) j).toInt ∧ (m ((c.tc : Thread nD τ).loc main_arg1) j).toInt ≤ 99999) :=
  Cert.PreRange.ranges (F := Ideal) _ _ _ _ _ _ _ _ _ _ _ _ (h c)

/-- Every index word names a row of its table. -/
theorem preOK_of_pre (m : (ℓ : Loc nD τ sig) → Buf (Elt Ideal) ℓ) (h : Cert.Pre_KernelIdeal m) : ScTile.PreOK m := fun d j =>
  ⟨toNat_lt_of_range _ ((ranges_of_pre m h d).1 j).1 ((ranges_of_pre m h d).1 j).2,
    toNat_lt_of_range _ ((ranges_of_pre m h d).2 j).1 ((ranges_of_pre m h d).2 j).2⟩

end Cert.KernelIdeal.PreGlue

end
-- ==== Proof.ValsRead.lean ====
/-
  What the pipeline's operands hold when it starts, and what the result array holds at the end.

  The pipeline reads nine arrays.  The block of gathered rows is what the SparseCore call left; the output row is an
  argument, untouched.  The other seven are written by the host operations before the pipeline, each from ONE argument:
  a weight matrix transposed (the first two then narrowed to the 16-bit format), or a bias vector laid out as a single
  row (the output bias as a 1×1 array).  No host operation reads another's result except the narrowing of a transpose,
  and none reads the gathered array, so each of these seven is a pure function of one launch array.  After the pipeline
  the one remaining host operation lays its 128×128 result out as the flat array of 16384.
-/
import proofs.«201366_g32727650796262_cont_8to1_b_1271_35_alg».proof.Proof.Vals

noncomputable section

namespace Cert.KernelIdeal.Launch

open Cert.KernelIdeal Cert.KernelIdeal.Gen
open Idealize.ShloMosaic Idealize.ShloMosaic.TcCoe Idealize.SL.Sem

variable {F : FTy → Type} [FloatOps F]

variable (m : (ℓ : Loc nD τ sig) → Buf (Elt F) ℓ)
  (X : (c : Dev nD) → Buf (Elt F) ((c : Thread nD τ).loc main_v0))
  (Y : (c : Dev nD) → Buf (Elt F) ((c : Thread nD τ).loc main_v10))

/-- An array the SparseCore call does not write holds, after it, what was launched. -/
theorem V1_of_ne (c : Dev nD) (r : Ref sig .tc) (h : r ≠ main_v0) : V1 m X c r = m ((c : Thread nD τ).loc r) :=
  call_keeps m X c r h

/-- The gathered array is still what the SparseCore call left. -/
theorem V2_main_v0 (c : Dev nD) : V2 m X c main_v0 = X c := by
  rw [hostA_keeps m X c main_v0 (by decide)]
  exact Function.update_self _ _ _

/-- The output row is the argument. -/
theorem V2_main_arg10 (c : Dev nD) : V2 m X c main_arg10 = m ((c : Thread nD τ).loc main_arg10) := by
  rw [hostA_keeps m X c main_arg10 (by decide), call_keeps m X c main_arg10 (by decide)]

/-- The first weights: the argument transposed, then narrowed. -/
theorem V2_main_v2 (c : Dev nD) :
    (V2 m X c main_v2 : FVec F S256x512 .bf16)
      = truncf .bf16 (transpose S256x512 [1, 0] (m ((c : Thread nD τ).loc main_arg4) : FVec F S512x256 .f32)
          transposes_S512x256_S256x512_1_0) bitsLt_bf16_f32 := by
  show StableHlo.after hostOpsA (V1 m X c) (Proc.devRef .tc main_v2) = _
  after_results
  rw [V1_of_ne m X c main_arg4 (by decide)]

/-- The first bias as a single row. -/
theorem V2_main_v3 (c : Dev nD) :
    (V2 m X c main_v3 : FVec F S1x512 .f32)
      = shapeCast S1x512 (m ((c : Thread nD τ).loc main_arg5) : FVec F S512 .f32) shapeCasts_S512_S1x512 := by
  show StableHlo.after hostOpsA (V1 m X c) (Proc.devRef .tc main_v3) = _
  after_results
  rw [V1_of_ne m X c main_arg5 (by decide)]
  rfl

/-- The second weights: the argument transposed, then narrowed. -/
theorem V2_main_v5 (c : Dev nD) :
    (V2 m X c main_v5 : FVec F S512x256 .bf16)
      = truncf .bf16 (transpose S512x256 [1, 0] (m ((c : Thread nD τ).loc main_arg6) : FVec F S256x512 .f32)
          transposes_S256x512_S512x256_1_0) bitsLt_bf16_f32 := by
  show StableHlo.after hostOpsA (V1 m X c) (Proc.devRef .tc main_v5) = _
  after_results
  rw [V1_of_ne m X c main_arg6 (by decide)]

/-- The second bias as a single row. -/
theorem V2_main_v6 (c : Dev nD) :
    (V2 m X c main_v6 : FVec F S1x256 .f32)
      = shapeCast S1x256 (m ((c : Thread nD τ).loc main_arg7) : FVec F S256 .f32) shapeCasts_S256_S1x256 := by
  show StableHlo.after hostOpsA (V1 m X c) (Proc.devRef .tc main_v6) = _
  after_results
  rw [V1_of_ne m X c main_arg7 (by decide)]
  rfl

/-- The third weights: the argument transposed. -/
theorem V2_main_v7 (c : Dev nD) :
    (V2 m X c main_v7 : FVec F S256x128 .f32)
      = transpose S256x128 [1, 0] (m ((c : Thread nD τ).loc main_arg8) : FVec F S128x256 .f32)
          transposes_S128x256_S256x128_1_0 := by
  show StableHlo.after hostOpsA (V1 m X c) (Proc.devRef .tc main_v7) = _
  after_results
  rw [V1_of_ne m X c main_arg8 (by decide)]

/-- The third bias as a single row. -/
theorem V2_main_v8 (c : Dev nD) :
    (V2 m X c main_v8 : FVec F S1x128 .f32)
      = shapeCast S1x128 (m ((c : Thread nD τ).loc main_arg9) : FVec F S128 .f32) shapeCasts_S128_S1x128 := by
  show StableHlo.after hostOpsA (V1 m X c) (Proc.devRef .tc main_v8) = _
  after_results
  rw [V1_of_ne m X c main_arg9 (by decide)]
  rfl

/-- The output bias as a 1×1 array. -/
theorem V2_main_v9 (c : Dev nD) :
    (V2 m X c main_v9 : FVec F S1x1 .f32)
      = shapeCast S1x1 (m ((c : Thread nD τ).loc main_arg11) : FVec F S1 .f32) shapeCasts_S1_S1x1 := by
  show StableHlo.after hostOpsA (V1 m X c) (Proc.devRef .tc main_v9) = _
  after_results
  rw [V1_of_ne m X c main_arg11 (by decide)]
  rfl

/-- The pipeline's result is what the pipeline left. -/
theorem V3_main_v10 (c : Dev nD) : V3 m X Y c main_v10 = Y c := Function.update_self _ _ _

/-- The result array: the pipeline's 128×128 result laid out flat. -/
theorem V4_main_v11 (c : Dev nD) :
    (V4 m X Y c main_v11 : FVec F S16384 .f32)
      = shapeCast S16384 (Y c : FVec F S128x128 .f32) shapeCasts_S128x128_S16384 := by
  show StableHlo.after hostOpsB (V3 m X Y c) (Proc.devRef .tc main_v11) = _
  after_results
  rw [V3_main_v10 m X Y c]
  rfl

end Cert.KernelIdeal.Launch

end
-- ==== Proof.TcValue.lean ====
/-
  The result array after the dense stack's region, read at an index, as a function of the launch memory.

  The region finds eight of its nine operands whole in their buffers at every grid point — each window's block is its
  whole array, so reading the block through the window reads the array — and the ninth, the gathered rows, in blocks
  of 4096 rows: entry `(i, k)` of point `t`'s block is entry `(4096 t + i, k)` of the array.  The eight whole arrays
  are what the host operations before the region wrote: each a transposed (and, twice, narrowed) weight matrix or a
  bias laid out as one row, of ONE launch array.  So row `32 t + a` of the result is row `a` of what one grid point
  computes from block `t` of the gathered rows and the launch's weights and biases.
-/
import proofs.«201366_g32727650796262_cont_8to1_b_1271_35_alg».proof.Proof.TcRegion
import proofs.«201366_g32727650796262_cont_8to1_b_1271_35_alg».proof.Proof.ValsRead

set_option maxRecDepth 16384

noncomputable section

namespace Cert.KernelIdeal.TcRegion

open Cert.KernelIdeal Cert.KernelIdeal.Gen Cert.KernelIdeal.Launch
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F] {Ix : Type} [DecidableEq Ix] {U : Type} [URA U] {Lvl : Type} [Preorder Lvl]

local notation "𝕄" => MT nD τ sig Ix (Elt F) ℕ U Lvl

variable (Vin : Dev nD → Valuation τ sig (Elt F))

/-! ## The windows whose block is the whole array -/

theorem index_1 : ∀ t : Fin cfg1.N, (cfg1.win 1).index t (0 : Fin 2) = 0 ∧ (cfg1.win 1).index t (1 : Fin 2) = 0 :=
  (by decide +kernel : ∀ t : Fin grid1.N, win1_1.index t (0 : Fin 2) = 0 ∧ win1_1.index t (1 : Fin 2) = 0)

theorem iblk_1 (c : Dev nD) (t : Fin cfg1.N) :
    iblk Vin c 1 t = (Vin c (Proc.devRef .tc main_v2) : Vec F S256x512 .bf16) := by
  funext y
  show Vin c (Proc.devRef .tc main_v2) (((cfg1.win 1).blk t).view.emb y) = Vin c (Proc.devRef .tc main_v2) y
  congr 1
  funext a
  apply Fin.ext
  match a with
  | ⟨0, _⟩ =>
    show win1_1.index t (0 : Fin 2) * 256 + 1 * (y (0 : Fin 2)).val = (y (0 : Fin 2)).val
    rw [(index_1 t).1]; omega
  | ⟨1, _⟩ =>
    show win1_1.index t (1 : Fin 2) * 512 + 1 * (y (1 : Fin 2)).val = (y (1 : Fin 2)).val
    rw [(index_1 t).2]; omega

theorem index_2 : ∀ t : Fin cfg1.N, (cfg1.win 2).index t (0 : Fin 2) = 0 ∧ (cfg1.win 2).index t (1 : Fin 2) = 0 :=
  (by decide +kernel : ∀ t : Fin grid1.N, win1_2.index t (0 : Fin 2) = 0 ∧ win1_2.index t (1 : Fin 2) = 0)

theorem iblk_2 (c : Dev nD) (t : Fin cfg1.N) :
    iblk Vin c 2 t = (Vin c (Proc.devRef .tc main_v3) : Vec F S1x512 .f32) := by
  funext y
  show Vin c (Proc.devRef .tc main_v3) (((cfg1.win 2).blk t).view.emb y) = Vin c (Proc.devRef .tc main_v3) y
  congr 1
  funext a
  apply Fin.ext
  match a with
  | ⟨0, _⟩ =>
    show win1_2.index t (0 : Fin 2) * 1 + 1 * (y (0 : Fin 2)).val = (y (0 : Fin 2)).val
    rw [(index_2 t).1]; omega
  | ⟨1, _⟩ =>
    show win1_2.index t (1 : Fin 2) * 512 + 1 * (y (1 : Fin 2)).val = (y (1 : Fin 2)).val
    rw [(index_2 t).2]; omega

theorem index_3 : ∀ t : Fin cfg1.N, (cfg1.win 3).index t (0 : Fin 2) = 0 ∧ (cfg1.win 3).index t (1 : Fin 2) = 0 :=
  (by decide +kernel : ∀ t : Fin grid1.N, win1_3.index t (0 : Fin 2) = 0 ∧ win1_3.index t (1 : Fin 2) = 0)

theorem iblk_3 (c : Dev nD) (t : Fin cfg1.N) :
    iblk Vin c 3 t = (Vin c (Proc.devRef .tc main_v5) : Vec F S512x256 .bf16) := by
  funext y
  show Vin c (Proc.devRef .tc main_v5) (((cfg1.win 3).blk t).view.emb y) = Vin c (Proc.devRef .tc main_v5) y
  congr 1
  funext a
  apply Fin.ext
  match a with
  | ⟨0, _⟩ =>
    show win1_3.index t (0 : Fin 2) * 512 + 1 * (y (0 : Fin 2)).val = (y (0 : Fin 2)).val
    rw [(index_3 t).1]; omega
  | ⟨1, _⟩ =>
    show win1_3.index t (1 : Fin 2) * 256 + 1 * (y (1 : Fin 2)).val = (y (1 : Fin 2)).val
    rw [(index_3 t).2]; omega

theorem index_4 : ∀ t : Fin cfg1.N, (cfg1.win 4).index t (0 : Fin 2) = 0 ∧ (cfg1.win 4).index t (1 : Fin 2) = 0 :=
  (by decide +kernel : ∀ t : Fin grid1.N, win1_4.index t (0 : Fin 2) = 0 ∧ win1_4.index t (1 : Fin 2) = 0)

theorem iblk_4 (c : Dev nD) (t : Fin cfg1.N) :
    iblk Vin c 4 t = (Vin c (Proc.devRef .tc main_v6) : Vec F S1x256 .f32) := by
  funext y
  show Vin c (Proc.devRef .tc main_v6) (((cfg1.win 4).blk t).view.emb y) = Vin c (Proc.devRef .tc main_v6) y
  congr 1
  funext a
  apply Fin.ext
  match a with
  | ⟨0, _⟩ =>
    show win1_4.index t (0 : Fin 2) * 1 + 1 * (y (0 : Fin 2)).val = (y (0 : Fin 2)).val
    rw [(index_4 t).1]; omega
  | ⟨1, _⟩ =>
    show win1_4.index t (1 : Fin 2) * 256 + 1 * (y (1 : Fin 2)).val = (y (1 : Fin 2)).val
    rw [(index_4 t).2]; omega

theorem index_5 : ∀ t : Fin cfg1.N, (cfg1.win 5).index t (0 : Fin 2) = 0 ∧ (cfg1.win 5).index t (1 : Fin 2) = 0 :=
  (by decide +kernel : ∀ t : Fin grid1.N, win1_5.index t (0 : Fin 2) = 0 ∧ win1_5.index t (1 : Fin 2) = 0)

theorem iblk_5 (c : Dev nD) (t : Fin cfg1.N) :
    iblk Vin c 5 t = (Vin c (Proc.devRef .tc main_v7) : Vec F S256x128 .f32) := by
  funext y
  show Vin c (Proc.devRef .tc main_v7) (((cfg1.win 5).blk t).view.emb y) = Vin c (Proc.devRef .tc main_v7) y
  congr 1
  funext a
  apply Fin.ext
  match a with
  | ⟨0, _⟩ =>
    show win1_5.index t (0 : Fin 2) * 256 + 1 * (y (0 : Fin 2)).val = (y (0 : Fin 2)).val
    rw [(index_5 t).1]; omega
  | ⟨1, _⟩ =>
    show win1_5.index t (1 : Fin 2) * 128 + 1 * (y (1 : Fin 2)).val = (y (1 : Fin 2)).val
    rw [(index_5 t).2]; omega

theorem index_6 : ∀ t : Fin cfg1.N, (cfg1.win 6).index t (0 : Fin 2) = 0 ∧ (cfg1.win 6).index t (1 : Fin 2) = 0 :=
  (by decide +kernel : ∀ t : Fin grid1.N, win1_6.index t (0 : Fin 2) = 0 ∧ win1_6.index t (1 : Fin 2) = 0)

theorem iblk_6 (c : Dev nD) (t : Fin cfg1.N) :
    iblk Vin c 6 t = (Vin c (Proc.devRef .tc main_v8) : Vec F S1x128 .f32) := by
  funext y
  show Vin c (Proc.devRef .tc main_v8) (((cfg1.win 6).blk t).view.emb y) = Vin c (Proc.devRef .tc main_v8) y
  congr 1
  funext a
  apply Fin.ext
  match a with
  | ⟨0, _⟩ =>
    show win1_6.index t (0 : Fin 2) * 1 + 1 * (y (0 : Fin 2)).val = (y (0 : Fin 2)).val
    rw [(index_6 t).1]; omega
  | ⟨1, _⟩ =>
    show win1_6.index t (1 : Fin 2) * 128 + 1 * (y (1 : Fin 2)).val = (y (1 : Fin 2)).val
    rw [(index_6 t).2]; omega

theorem index_7 : ∀ t : Fin cfg1.N, (cfg1.win 7).index t (0 : Fin 2) = 0 ∧ (cfg1.win 7).index t (1 : Fin 2) = 0 :=
  (by decide +kernel : ∀ t : Fin grid1.N, win1_7.index t (0 : Fin 2) = 0 ∧ win1_7.index t (1 : Fin 2) = 0)

theorem iblk_7 (c : Dev nD) (t : Fin cfg1.N) :
    iblk Vin c 7 t = (Vin c (Proc.devRef .tc main_arg10) : Vec F S1x128 .f32) := by
  funext y
  show Vin c (Proc.devRef .tc main_arg10) (((cfg1.win 7).blk t).view.emb y) = Vin c (Proc.devRef .tc main_arg10) y
  congr 1
  funext a
  apply Fin.ext
  match a with
  | ⟨0, _⟩ =>
    show win1_7.index t (0 : Fin 2) * 1 + 1 * (y (0 : Fin 2)).val = (y (0 : Fin 2)).val
    rw [(index_7 t).1]; omega
  | ⟨1, _⟩ =>
    show win1_7.index t (1 : Fin 2) * 128 + 1 * (y (1 : Fin 2)).val = (y (1 : Fin 2)).val
    rw [(index_7 t).2]; omega

theorem index_8 : ∀ t : Fin cfg1.N, (cfg1.win 8).index t (0 : Fin 2) = 0 ∧ (cfg1.win 8).index t (1 : Fin 2) = 0 :=
  (by decide +kernel : ∀ t : Fin grid1.N, win1_8.index t (0 : Fin 2) = 0 ∧ win1_8.index t (1 : Fin 2) = 0)

theorem iblk_8 (c : Dev nD) (t : Fin cfg1.N) :
    iblk Vin c 8 t = (Vin c (Proc.devRef .tc main_v9) : Vec F S1x1 .f32) := by
  funext y
  show Vin c (Proc.devRef .tc main_v9) (((cfg1.win 8).blk t).view.emb y) = Vin c (Proc.devRef .tc main_v9) y
  congr 1
  funext a
  apply Fin.ext
  match a with
  | ⟨0, _⟩ =>
    show win1_8.index t (0 : Fin 2) * 1 + 1 * (y (0 : Fin 2)).val = (y (0 : Fin 2)).val
    rw [(index_8 t).1]; omega
  | ⟨1, _⟩ =>
    show win1_8.index t (1 : Fin 2) * 1 + 1 * (y (1 : Fin 2)).val = (y (1 : Fin 2)).val
    rw [(index_8 t).2]; omega

/-! ## The window over the gathered rows -/

/-- Point `t` reads the block of rows `[4096 t, 4096 t + 4096)`, all 256 columns. -/
theorem index_0 : ∀ t : Fin cfg1.N, (cfg1.win 0).index t (0 : Fin 2) = t.val ∧ (cfg1.win 0).index t (1 : Fin 2) = 0 :=
  (by decide +kernel : ∀ t : Fin grid1.N, win1_0.index t (0 : Fin 2) = t.val ∧ win1_0.index t (1 : Fin 2) = 0)

theorem iblk_0 (c : Dev nD) (t : Fin cfg1.N) (i : Fin 4096) (k : Fin 256) (h : 4096 * t.val + i.val < 16384) :
    iblk Vin c 0 t (ix2 i k) = (Vin c (Proc.devRef .tc main_v0) : Vec F S16384x256 .f32) (ix2 ⟨4096 * t.val + i.val, h⟩ k) := by
  show Vin c (Proc.devRef .tc main_v0) (((cfg1.win 0).blk t).view.emb (ix2 i k)) = Vin c (Proc.devRef .tc main_v0) (ix2 ⟨4096 * t.val + i.val, h⟩ k)
  congr 1
  funext a
  apply Fin.ext
  match a with
  | ⟨0, _⟩ =>
    show win1_0.index t (0 : Fin 2) * 4096 + 1 * i.val = 4096 * t.val + i.val
    rw [(index_0 t).1]; omega
  | ⟨1, _⟩ =>
    show win1_0.index t (1 : Fin 2) * 256 + 1 * k.val = k.val
    rw [(index_0 t).2]; omega

/-! ## A row of the result -/

/-- Row `p = 32 t + a` of the result array is row `a` of the block point `t` computes. -/
theorem OUT_row (c : Dev nD) (t : Fin cfg1.N) (a : Fin 32) (q p : Fin 128) (hp : p.val = 32 * t.val + a.val) :
    OUT Vin c (ix2 p q) = outBlock Vin c t (ix2 a q) :=
  outArr_at Vin c t (ix2 a q) (ix2 p q) (by show p.val = t.val * 32 + a.val; omega) rfl

/-! ## From the launch memory -/

variable (m : (ℓ : Loc nD τ sig) → Buf (Elt F) ℓ)
  (X : (c : Dev nD) → Buf (Elt F) ((c : Thread nD τ).loc main_v0))

/-- A grid point by its number. -/
def pt (t : Fin 4) : Fin cfg1.N := ⟨t.val, by show t.val < grid1.N; rw [N_1]; exact t.isLt⟩

/-- Block `t` of the gathered rows, as the region reads it. -/
def xb (c : Dev nD) (t : Fin 4) : Vec F S4096x256 .f32 := iblk (V2 m X) c 0 (pt t)

/-- It is rows `[4096 t, 4096 t + 4096)` of the gathered array. -/
theorem xb_apply (c : Dev nD) (t : Fin 4) (i : Fin 4096) (k : Fin 256) :
    xb m X c t (ix2 i k) = X c (ix2 (⟨4096 * t.val + i.val, by omega⟩ : Fin 16384) k) := by
  unfold xb
  rw [iblk_0 (V2 m X) c (pt t) i k (by show 4096 * t.val + i.val < 16384; omega)]
  exact congrFun (V2_main_v0 m X c) _

/-- What point `t` computes, from block `t` of the gathered rows and the launch's weights and biases. -/
theorem outBlock_V2 (c : Dev nD) (t : Fin 4) :
    outBlock (V2 m X) c (pt t)
      = k1_pay1
          (k1_pay2 (xb m X c t)
            (truncf .bf16 (transpose S256x512 [1, 0] (m ((c : Thread nD τ).loc main_arg4) : FVec F S512x256 .f32) transposes_S512x256_S256x512_1_0) bitsLt_bf16_f32)
            (shapeCast S1x512 (m ((c : Thread nD τ).loc main_arg5) : FVec F S512 .f32) shapeCasts_S512_S1x512)
            (truncf .bf16 (transpose S512x256 [1, 0] (m ((c : Thread nD τ).loc main_arg6) : FVec F S256x512 .f32) transposes_S256x512_S512x256_1_0) bitsLt_bf16_f32)
            (shapeCast S1x256 (m ((c : Thread nD τ).loc main_arg7) : FVec F S256 .f32) shapeCasts_S256_S1x256)
            (transpose S256x128 [1, 0] (m ((c : Thread nD τ).loc main_arg8) : FVec F S128x256 .f32) transposes_S128x256_S256x128_1_0)
            (shapeCast S1x128 (m ((c : Thread nD τ).loc main_arg9) : FVec F S128 .f32) shapeCasts_S128_S1x128)
            (m ((c : Thread nD τ).loc main_arg10) : FVec F S1x128 .f32))
          (shapeCast S1x1 (m ((c : Thread nD τ).loc main_arg11) : FVec F S1 .f32) shapeCasts_S1_S1x1) := by
  unfold outBlock outBlk xb
  rw [iblk_1, iblk_2, iblk_3, iblk_4, iblk_5, iblk_6, iblk_7, iblk_8]
  rw [← V2_main_v2 m X c, ← V2_main_v3 m X c, ← V2_main_v5 m X c, ← V2_main_v6 m X c, ← V2_main_v7 m X c, ← V2_main_v8 m X c,
    ← V2_main_arg10 m X c, ← V2_main_v9 m X c]

/-- THE RESULT AT AN INDEX: row `32 t + a`, column `q`. -/
theorem OUT_at (c : Dev nD) (t : Fin 4) (a : Fin 32) (q : Fin 128) :
    OUT (V2 m X) c (ix2 (⟨32 * t.val + a.val, by omega⟩ : Fin 128) q)
      = k1_pay1
          (k1_pay2 (xb m X c t)
            (truncf .bf16 (transpose S256x512 [1, 0] (m ((c : Thread nD τ).loc main_arg4) : FVec F S512x256 .f32) transposes_S512x256_S256x512_1_0) bitsLt_bf16_f32)
            (shapeCast S1x512 (m ((c : Thread nD τ).loc main_arg5) : FVec F S512 .f32) shapeCasts_S512_S1x512)
            (truncf .bf16 (transpose S512x256 [1, 0] (m ((c : Thread nD τ).loc main_arg6) : FVec F S256x512 .f32) transposes_S256x512_S512x256_1_0) bitsLt_bf16_f32)
            (shapeCast S1x256 (m ((c : Thread nD τ).loc main_arg7) : FVec F S256 .f32) shapeCasts_S256_S1x256)
            (transpose S256x128 [1, 0] (m ((c : Thread nD τ).loc main_arg8) : FVec F S128x256 .f32) transposes_S128x256_S256x128_1_0)
            (shapeCast S1x128 (m ((c : Thread nD τ).loc main_arg9) : FVec F S128 .f32) shapeCasts_S128_S1x128)
            (m ((c : Thread nD τ).loc main_arg10) : FVec F S1x128 .f32))
          (shapeCast S1x1 (m ((c : Thread nD τ).loc main_arg11) : FVec F S1 .f32) shapeCasts_S1_S1x1) (ix2 a q) :=
  (OUT_row (V2 m X) c (pt t) a q _ rfl).trans (congrFun (outBlock_V2 m X c t) (ix2 a q))

end Cert.KernelIdeal.TcRegion

end
-- ==== Proof.LibDotRows.lean ====
/-
  A plain two-dimensional contraction read at an index.

  For dimension numbers that contract the left operand's columns with the right operand's rows and have
  no batch axis — an M×K array times a K×N array — the sum over the contraction index that a matrix
  product denotes on the extended reals is the familiar row-by-column sum: entry (r, c) of the product is
  the sum over k < K of left (r, k) · right (k, c).  Both the kernel-side product into a zero accumulator
  and the host-side product follow.
-/
import Idealize.ShloMosaic.Lib.ValueIdx
import Idealize.ShloMosaic.PureOps.Ideal.Laws

noncomputable section

namespace Idealize.ShloMosaic.DotRows

open Idealize.ShloMosaic Idealize.ShloMosaic.ValueIdx

/-- The contraction sum of a plain M×K by K×N product at entry `j` is the sum over `k < K` of the left
    operand at (row of `j`, `k`) times the right operand at (`k`, column of `j`). -/
theorem contr_sum {M K N : Nat} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (lhs : (⟨2, ![M, K]⟩ : Shape).Idx → EReal) (rhs : (⟨2, ![K, N]⟩ : Shape).Idx → EReal)
    (j : (⟨2, ![M, N]⟩ : Shape).Idx) :
    ∑ k : d.contr.Idx, lhs (d.lhsIdx j k) * rhs (d.rhsIdx j k)
      = ∑ k : Fin K, lhs (ix2 (j 0) k) * rhs (ix2 k (j 1)) := by
  obtain ⟨lc, rc, ln, rn, lb, rb, wf⟩ := d
  dsimp only at hlc hrc hln hrn hlb hrb
  subst hlc hrc hln hrn hlb hrb
  rw [← Equiv.sum_comp (contrEquiv1 (DotDims.mk [1] [0] [0] [1] [] [] wf) K rfl rfl).symm]
  refine Finset.sum_congr rfl fun k _ => ?_
  have hk := contrEquiv1_symm_val (DotDims.mk [1] [0] [0] [1] [] [] wf) K rfl rfl k
  have el : (DotDims.mk [1] [0] [0] [1] [] [] wf).lhsIdx j ((contrEquiv1 (DotDims.mk [1] [0] [0] [1] [] [] wf) K rfl rfl).symm k)
      = ix2 (j 0) k := funext fun a => Fin.ext (by
    match a with
    | ⟨0, _⟩ =>
      show ((DotDims.mk [1] [0] [0] [1] [] [] wf).lhsIdx j _ 0).val = (j 0).val
      unfold DotDims.lhsIdx
      rw [dif_neg (show ¬ (0 : Fin 2) ∈ ([] : List (Fin 2)) from List.not_mem_nil),
        dif_pos (show (0 : Fin 2) ∈ ([0] : List (Fin 2)) from List.mem_singleton.mpr rfl)]
      rfl
    | ⟨1, _⟩ => exact ((DotDims.mk [1] [0] [0] [1] [] [] wf).lhsIdx_val_of_single rfl j _).trans hk)
  have er : (DotDims.mk [1] [0] [0] [1] [] [] wf).rhsIdx j ((contrEquiv1 (DotDims.mk [1] [0] [0] [1] [] [] wf) K rfl rfl).symm k)
      = ix2 k (j 1) := funext fun a => Fin.ext (by
    match a with
    | ⟨0, _⟩ => exact ((DotDims.mk [1] [0] [0] [1] [] [] wf).rhsIdx_val_of_single rfl j _).trans hk
    | ⟨1, _⟩ =>
      show ((DotDims.mk [1] [0] [0] [1] [] [] wf).rhsIdx j _ 1).val = (j 1).val
      unfold DotDims.rhsIdx
      rw [dif_neg (show ¬ (1 : Fin 2) ∈ ([] : List (Fin 2)) from List.not_mem_nil),
        dif_pos (show (1 : Fin 2) ∈ ([1] : List (Fin 2)) from List.mem_singleton.mpr rfl)]
      rfl)
  exact congrArg₂ (fun a b => lhs a * rhs b) el er

/-- A kernel-side matrix product into the zero accumulator, at the ideal values, is the row-by-column sum. -/
theorem matmul_zero_apply {M K N : Nat} {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (lhs : FVec Ideal ⟨2, ![M, K]⟩ φ₁) (rhs : FVec Ideal ⟨2, ![K, N]⟩ φ₂) (j : (⟨2, ![M, N]⟩ : Shape).Idx) :
    matmul d prec lhs rhs (constant ⟨2, ![M, N]⟩ .f32 0x00000000#32) j
      = ∑ k : Fin K, lhs (ix2 (j 0) k) * rhs (ix2 k (j 1)) :=
  (Ideal.matmul_constant_zero_apply d prec lhs rhs j).trans (contr_sum d hlc hrc hln hrn hlb hrb lhs rhs j)

/-- A host-side matrix product, at the ideal values, is the same row-by-column sum. -/
theorem dotGeneral_apply {M K N : Nat} {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (lhs : FVec Ideal ⟨2, ![M, K]⟩ φ₁) (rhs : FVec Ideal ⟨2, ![K, N]⟩ φ₂) (j : (⟨2, ![M, N]⟩ : Shape).Idx) :
    Host.dotGeneral d prec lhs rhs j = ∑ k : Fin K, lhs (ix2 (j 0) k) * rhs (ix2 k (j 1)) := by
  simp only [Host.dotGeneral]
  exact (Ideal.dotGeneral_apply d prec _ lhs rhs j).trans (contr_sum d hlc hrc hln hrn hlb hrb lhs rhs j)

/-- The same two facts at an index given by its two coordinates. -/
theorem matmul_zero_ix2 {M K N : Nat} {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q)
      = ∑ k : Fin K, lhs (ix2 p k) * rhs (ix2 k q) :=
  matmul_zero_apply d hlc hrc hln hrn hlb hrb prec lhs rhs (ix2 p q)

theorem dotGeneral_ix2 {M K N : Nat} {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (lhs : FVec Ideal ⟨2, ![M, K]⟩ φ₁) (rhs : FVec Ideal ⟨2, ![K, N]⟩ φ₂) (p : Fin M) (q : Fin N) :
    Host.dotGeneral d prec lhs rhs (ix2 p q) = ∑ k : Fin K, lhs (ix2 p k) * rhs (ix2 k q) :=
  dotGeneral_apply d hlc hrc hln hrn hlb hrb prec lhs rhs (ix2 p q)

end Idealize.ShloMosaic.DotRows

end
-- ==== Proof.KernelValue.lean ====
/-
  The dense kernel's arithmetic, read at one entry of its output block.

  The body takes a block of 4096 concatenated rows (256 wide), the three weight matrices already transposed (and the
  first two narrowed to the 16-bit format, which changes nothing on the extended reals), the three bias vectors laid out
  as single rows, the output row `Wo` and the output bias as a 1×1 array.  It computes three times
  "rows times transposed weights, plus the bias row repeated down the block, then the maximum with zero", contracts the
  128-wide result against `Wo` along the width of BOTH, which gives one number per row, 4096 in a single row, adds
  nothing yet, and lays these 4096 numbers out as 32 rows of 128; the output bias is added to every entry last.

  Read at entry (a, b) of the 32×128 result this is: take row 128·a + b of the block (the layout change keeps the
  row-major position), pass it through the three layers of the specification with the ORIGINAL weights (the transposed
  matrix at (k, j) is the original at (j, k); the bias row at j is the bias at j), sum its products with `Wo`, add the bias.
  Each matrix product into a zero accumulator is the plain sum over the contraction index, so no property of the
  extended reals beyond commutativity of one product is used, and nothing needs to be finite.

  The stages are named as the body computes them (`hid1`, `hid2`, `hid3`, `outc`), the generated payload terms are these
  stages composed, by unfolding, and each stage is read at an entry over variables.
-/
import proofs.«201366_g32727650796262_cont_8to1_b_1271_35_alg».proof.Proof.Gen.KernelIdeal.Skeleton
import proofs.«201366_g32727650796262_cont_8to1_b_1271_35_alg».proof.Proof.Spec
import proofs.«201366_g32727650796262_cont_8to1_b_1271_35_alg».proof.Proof.LibDotRows
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KValue

open Idealize.ShloMosaic Idealize.ShloMosaic.ValueIdx Cert.KernelIdeal Cert.KernelIdeal.Gen

/-! ## Two contractions read at an entry, for any sizes -/

/-- The contraction sum of an M×K array against an N×K array along the second axis of BOTH (no batch axis): at entry
    `j` it is the sum over `k < K` of the left operand at (row of `j`, `k`) times the right operand at (column of `j`, `k`). -/
theorem contr_sum_rows {M K N : Nat} (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (lhs : (⟨2, ![M, K]⟩ : Shape).Idx → EReal) (rhs : (⟨2, ![N, K]⟩ : Shape).Idx → EReal)
    (j : (⟨2, ![M, N]⟩ : Shape).Idx) :
    ∑ k : d.contr.Idx, lhs (d.lhsIdx j k) * rhs (d.rhsIdx j k)
      = ∑ k : Fin K, lhs (ix2 (j 0) k) * rhs (ix2 (j 1) k) := by
  obtain ⟨lc, rc, ln, rn, lb, rb, wf⟩ := d
  dsimp only at hlc hrc hln hrn hlb hrb
  subst hlc hrc hln hrn hlb hrb
  rw [← Equiv.sum_comp (contrEquiv1 (DotDims.mk [1] [1] [0] [0] [] [] wf) K rfl rfl).symm]
  refine Finset.sum_congr rfl fun k _ => ?_
  have hk := contrEquiv1_symm_val (DotDims.mk [1] [1] [0] [0] [] [] wf) K rfl rfl k
  have el : (DotDims.mk [1] [1] [0] [0] [] [] wf).lhsIdx j ((contrEquiv1 (DotDims.mk [1] [1] [0] [0] [] [] wf) K rfl rfl).symm k)
      = ix2 (j 0) k := funext fun a => Fin.ext (by
    match a with
    | ⟨0, _⟩ =>
      show ((DotDims.mk [1] [1] [0] [0] [] [] wf).lhsIdx j _ 0).val = (j 0).val
      unfold DotDims.lhsIdx
      rw [dif_neg (show ¬ (0 : Fin 2) ∈ ([] : List (Fin 2)) from List.not_mem_nil),
        dif_pos (show (0 : Fin 2) ∈ ([0] : List (Fin 2)) from List.mem_singleton.mpr rfl)]
      rfl
    | ⟨1, _⟩ => exact ((DotDims.mk [1] [1] [0] [0] [] [] wf).lhsIdx_val_of_single rfl j _).trans hk)
  have er : (DotDims.mk [1] [1] [0] [0] [] [] wf).rhsIdx j ((contrEquiv1 (DotDims.mk [1] [1] [0] [0] [] [] wf) K rfl rfl).symm k)
      = ix2 (j 1) k := funext fun a => Fin.ext (by
    match a with
    | ⟨0, _⟩ =>
      show ((DotDims.mk [1] [1] [0] [0] [] [] wf).rhsIdx j _ 0).val = (j 1).val
      unfold DotDims.rhsIdx
      rw [dif_neg (show ¬ (0 : Fin 2) ∈ ([] : List (Fin 2)) from List.not_mem_nil),
        dif_pos (show (0 : Fin 2) ∈ ([0] : List (Fin 2)) from List.mem_singleton.mpr rfl)]
      rfl
    | ⟨1, _⟩ => exact ((DotDims.mk [1] [1] [0] [0] [] [] wf).rhsIdx_val_of_single rfl j _).trans hk)
  exact congrArg₂ (fun a b => lhs a * rhs b) el er

/-- The kernel-side product of that form into the zero accumulator, at the ideal values, at entry (p, q). -/
theorem matmul_zero_rows_ix2 {M K N : Nat} {φ₁ φ₂ : FTy} (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision)
    (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q)
      = ∑ k : Fin K, lhs (ix2 p k) * rhs (ix2 q k) :=
  (Ideal.matmul_constant_zero_apply d prec lhs rhs (ix2 p q)).trans
    (contr_sum_rows d hlc hrc hln hrn hlb hrb lhs rhs (ix2 p q))

/-- ONE LAYER at entry (p, q) of a block.  The block's rows times the transposed weights, into the zero accumulator,
    plus the bias row repeated down the block, then the maximum with the repeated zero: when row `p` of the input block
    is `xr`, the transposed weights at (k, q) are `W` at (q, k) and the bias row at q is `b` at q, the entry is the
    specification's layer of `xr` at `q`. -/
theorem layer_apply {M K N : Nat} {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (x : FVec Ideal ⟨2, ![M, K]⟩ φ₁) (Wt : FVec Ideal ⟨2, ![K, N]⟩ φ₂) (brow : FVec Ideal ⟨2, ![1, N]⟩ .f32)
    (hbc : (⟨2, ![1, N]⟩ : Shape).Broadcasts ⟨2, ![M, N]⟩)
    (W : (⟨2, ![N, K]⟩ : Shape).Idx → EReal) (b : (⟨1, ![N]⟩ : Shape).Idx → EReal) (xr : Fin K → EReal)
    (p : Fin M) (q : Fin N)
    (hx : ∀ k, x (ix2 p k) = xr k) (hW : ∀ k, Wt (ix2 k q) = W (ix2 q k)) (hb : brow (ix2 (0 : Fin 1) q) = b (ix1 q)) :
    maximumf (addf (matmul d none x Wt (constant ⟨2, ![M, N]⟩ .f32 0x00000000#32)) (broadcastTo ⟨2, ![M, N]⟩ brow hbc))
        (broadcast ⟨2, ![M, N]⟩ (Scalar.ofBits (F := Ideal) .f32 0x00000000#32)) (ix2 p q)
      = Cert.Spec.layer (Ideal.ofBits .f32 0x00000000#32) W b xr q := by
  show max (matmul d none x Wt (constant ⟨2, ![M, N]⟩ .f32 0x00000000#32) (ix2 p q)
        + broadcastTo ⟨2, ![M, N]⟩ brow hbc (ix2 p q)) (Ideal.ofBits .f32 0x00000000#32) = _
  rw [DotRows.matmul_zero_ix2 d hlc hrc hln hrn hlb hrb none x Wt p q, broadcastTo_1b_ab_apply brow hbc p q, hb]
  unfold Cert.Spec.layer
  exact congrArg (fun s => max (s + b (ix1 q)) (Ideal.ofBits .f32 0x00000000#32))
    (Finset.sum_congr rfl fun k _ => by rw [hx k, hW k])

/-! ## The body's stages, as it computes them -/

/-- The first hidden block: from the loaded block of rows, the loaded 256×512 weights (16-bit) and the loaded bias row. -/
def hid1 (v0 : FVec Ideal S4096x256 .f32) (v3 : FVec Ideal S256x512 .bf16) (v6 : FVec Ideal S1x512 .f32) :
    FVec Ideal S4096x512 .f32 :=
  maximumf
    (addf
      (matmul dot_S4096x256_S256x512_S4096x512_1_0_0_1_n_n none
        (truncf .bf16 (shapeCast S4096x256 v0 shapeCasts_S4096x256_S4096x256) bitsLt_bf16_f32)
        (shapeCast S256x512 v3 shapeCasts_S256x512_S256x512) (constant S4096x512 .f32 0x00000000#32))
      (broadcastTo S4096x512 (shapeCast S1x512 v6 shapeCasts_S1x512_S1x512) broadcasts_S1x512_S4096x512))
    (broadcast S4096x512 (Scalar.ofBits (F := Ideal) .f32 0x00000000#32))

/-- The second hidden block: from the first (narrowed to 16 bits), the loaded 512×256 weights (16-bit) and bias row. -/
def hid2 (y1 : FVec Ideal S4096x512 .f32) (v13 : FVec Ideal S512x256 .bf16) (v16 : FVec Ideal S1x256 .f32) :
    FVec Ideal S4096x256 .f32 :=
  maximumf
    (addf
      (matmul dot_S4096x512_S512x256_S4096x256_1_0_0_1_n_n none
        (truncf .bf16 y1 bitsLt_bf16_f32)
        (shapeCast S512x256 v13 shapeCasts_S512x256_S512x256) (constant S4096x256 .f32 0x00000000#32))
      (broadcastTo S4096x256 (shapeCast S1x256 v16 shapeCasts_S1x256_S1x256) broadcasts_S1x256_S4096x256))
    (broadcast S4096x256 (Scalar.ofBits (F := Ideal) .f32 0x00000000#32))

/-- The third hidden block: from the second, the loaded 256×128 weights and bias row. -/
def hid3 (y2 : FVec Ideal S4096x256 .f32) (v22 : FVec Ideal S256x128 .f32) (v25 : FVec Ideal S1x128 .f32) :
    FVec Ideal S4096x128 .f32 :=
  maximumf
    (addf
      (matmul dot_S4096x256_S256x128_S4096x128_1_0_0_1_n_n none y2
        (shapeCast S256x128 v22 shapeCasts_S256x128_S256x128) (constant S4096x128 .f32 0x00000000#32))
      (broadcastTo S4096x128 (shapeCast S1x128 v25 shapeCasts_S1x128_S1x128) broadcasts_S1x128_S4096x128))
    (broadcast S4096x128 (Scalar.ofBits (F := Ideal) .f32 0x00000000#32))

/-- The output block before the bias: the output row against the third hidden block, one number per row, laid out 32×128. -/
def outc (v31 : FVec Ideal S1x128 .f32) (y3 : FVec Ideal S4096x128 .f32) : FVec Ideal S32x128 .f32 :=
  shapeCast S32x128
    (matmul dot_S1x128_S4096x128_S1x4096_1_1_0_0_n_n none v31 y3 (constant S1x4096 .f32 0x00000000#32))
    shapeCasts_S1x4096_S32x128

/-- The generated payload of the body's arithmetic is these four stages composed. -/
theorem pay2_eq (v0 : FVec Ideal S4096x256 .f32) (v3 : FVec Ideal S256x512 .bf16) (v6 : FVec Ideal S1x512 .f32)
    (v13 : FVec Ideal S512x256 .bf16) (v16 : FVec Ideal S1x256 .f32) (v22 : FVec Ideal S256x128 .f32)
    (v25 : FVec Ideal S1x128 .f32) (v31 : FVec Ideal S1x128 .f32) :
    k1_pay2 (F := Ideal) v0 v3 v6 v13 v16 v22 v25 v31 = outc v31 (hid3 (hid2 (hid1 v0 v3 v6) v13 v16) v22 v25) := rfl

/-- The generated payload of the store adds the one entry of the 1×1 bias to every entry. -/
theorem pay1_eq (v33 : FVec Ideal S32x128 .f32) (v34 : FVec Ideal S1x1 .f32) (i : S32x128.Idx) :
    k1_pay1 (F := Ideal) v33 v34 i = v33 i + extractAt ![0, 0] v34 inpos_S1x1_p0_0 := rfl

/-! ## Each stage at an entry, over the ORIGINAL weights and biases -/

theorem hid1_apply (x0 : FVec Ideal S4096x256 .f32) (W1 : FVec Ideal S512x256 .f32) (b1 : FVec Ideal S512 .f32)
    (p : Fin 4096) (q : Fin 512) :
    hid1 x0 (truncf .bf16 (transpose S256x512 [1, 0] W1 transposes_S512x256_S256x512_1_0) bitsLt_bf16_f32)
        (shapeCast S1x512 b1 shapeCasts_S512_S1x512) (ix2 p q)
      = Cert.Spec.layer (Ideal.ofBits .f32 0x00000000#32) W1 b1 (fun k => x0 (ix2 p k)) q :=
  layer_apply dot_S4096x256_S256x512_S4096x512_1_0_0_1_n_n rfl rfl rfl rfl rfl rfl
    (truncf .bf16 (shapeCast S4096x256 x0 shapeCasts_S4096x256_S4096x256) bitsLt_bf16_f32)
    (shapeCast S256x512 (truncf .bf16 (transpose S256x512 [1, 0] W1 transposes_S512x256_S256x512_1_0) bitsLt_bf16_f32)
      shapeCasts_S256x512_S256x512)
    (shapeCast S1x512 (shapeCast S1x512 b1 shapeCasts_S512_S1x512) shapeCasts_S1x512_S1x512)
    broadcasts_S1x512_S4096x512 W1 b1 (fun k => x0 (ix2 p k)) p q
    (fun k => congrFun (shapeCast_self x0 shapeCasts_S4096x256_S4096x256) (ix2 p k))
    (fun k => (congrFun (shapeCast_self _ shapeCasts_S256x512_S256x512) (ix2 k q)).trans
      (transpose_ix2_apply W1 transposes_S512x256_S256x512_1_0 k q))
    ((congrFun (shapeCast_self _ shapeCasts_S1x512_S1x512) (ix2 (0 : Fin 1) q)).trans
      (shapeCast_a_1a_apply b1 shapeCasts_S512_S1x512 0 q))

theorem hid2_apply (y1 : FVec Ideal S4096x512 .f32) (W2 : FVec Ideal S256x512 .f32) (b2 : FVec Ideal S256 .f32)
    (p : Fin 4096) (q : Fin 256) :
    hid2 y1 (truncf .bf16 (transpose S512x256 [1, 0] W2 transposes_S256x512_S512x256_1_0) bitsLt_bf16_f32)
        (shapeCast S1x256 b2 shapeCasts_S256_S1x256) (ix2 p q)
      = Cert.Spec.layer (Ideal.ofBits .f32 0x00000000#32) W2 b2 (fun k => y1 (ix2 p k)) q :=
  layer_apply dot_S4096x512_S512x256_S4096x256_1_0_0_1_n_n rfl rfl rfl rfl rfl rfl
    (truncf .bf16 y1 bitsLt_bf16_f32)
    (shapeCast S512x256 (truncf .bf16 (transpose S512x256 [1, 0] W2 transposes_S256x512_S512x256_1_0) bitsLt_bf16_f32)
      shapeCasts_S512x256_S512x256)
    (shapeCast S1x256 (shapeCast S1x256 b2 shapeCasts_S256_S1x256) shapeCasts_S1x256_S1x256)
    broadcasts_S1x256_S4096x256 W2 b2 (fun k => y1 (ix2 p k)) p q
    (fun _ => rfl)
    (fun k => (congrFun (shapeCast_self _ shapeCasts_S512x256_S512x256) (ix2 k q)).trans
      (transpose_ix2_apply W2 transposes_S256x512_S512x256_1_0 k q))
    ((congrFun (shapeCast_self _ shapeCasts_S1x256_S1x256) (ix2 (0 : Fin 1) q)).trans
      (shapeCast_a_1a_apply b2 shapeCasts_S256_S1x256 0 q))

theorem hid3_apply (y2 : FVec Ideal S4096x256 .f32) (W3 : FVec Ideal S128x256 .f32) (b3 : FVec Ideal S128 .f32)
    (p : Fin 4096) (q : Fin 128) :
    hid3 y2 (transpose S256x128 [1, 0] W3 transposes_S128x256_S256x128_1_0)
        (shapeCast S1x128 b3 shapeCasts_S128_S1x128) (ix2 p q)
      = Cert.Spec.layer (Ideal.ofBits .f32 0x00000000#32) W3 b3 (fun k => y2 (ix2 p k)) q :=
  layer_apply dot_S4096x256_S256x128_S4096x128_1_0_0_1_n_n rfl rfl rfl rfl rfl rfl
    y2
    (shapeCast S256x128 (transpose S256x128 [1, 0] W3 transposes_S128x256_S256x128_1_0) shapeCasts_S256x128_S256x128)
    (shapeCast S1x128 (shapeCast S1x128 b3 shapeCasts_S128_S1x128) shapeCasts_S1x128_S1x128)
    broadcasts_S1x128_S4096x128 W3 b3 (fun k => y2 (ix2 p k)) p q
    (fun _ => rfl)
    (fun k => (congrFun (shapeCast_self _ shapeCasts_S256x128_S256x128) (ix2 k q)).trans
      (transpose_ix2_apply W3 transposes_S128x256_S256x128_1_0 k q))
    ((congrFun (shapeCast_self _ shapeCasts_S1x128_S1x128) (ix2 (0 : Fin 1) q)).trans
      (shapeCast_a_1a_apply b3 shapeCasts_S128_S1x128 0 q))

/-- The three layers stacked, at entry (p, q) of the third hidden block: the specification's three layers of row `p`. -/
theorem stack_apply (x0 : FVec Ideal S4096x256 .f32) (W1 : FVec Ideal S512x256 .f32) (b1 : FVec Ideal S512 .f32)
    (W2 : FVec Ideal S256x512 .f32) (b2 : FVec Ideal S256 .f32) (W3 : FVec Ideal S128x256 .f32) (b3 : FVec Ideal S128 .f32)
    (p : Fin 4096) (q : Fin 128) :
    hid3
        (hid2
          (hid1 x0 (truncf .bf16 (transpose S256x512 [1, 0] W1 transposes_S512x256_S256x512_1_0) bitsLt_bf16_f32)
            (shapeCast S1x512 b1 shapeCasts_S512_S1x512))
          (truncf .bf16 (transpose S512x256 [1, 0] W2 transposes_S256x512_S512x256_1_0) bitsLt_bf16_f32)
          (shapeCast S1x256 b2 shapeCasts_S256_S1x256))
        (transpose S256x128 [1, 0] W3 transposes_S128x256_S256x128_1_0)
        (shapeCast S1x128 b3 shapeCasts_S128_S1x128) (ix2 p q)
      = Cert.Spec.layer (Ideal.ofBits .f32 0x00000000#32) W3 b3
          (Cert.Spec.layer (Ideal.ofBits .f32 0x00000000#32) W2 b2
            (Cert.Spec.layer (Ideal.ofBits .f32 0x00000000#32) W1 b1 (fun k => x0 (ix2 p k)))) q :=
  (hid3_apply _ W3 b3 p q).trans
    (congrArg (fun xr => Cert.Spec.layer (Ideal.ofBits .f32 0x00000000#32) W3 b3 xr q)
      (funext fun k2 => (hid2_apply _ W2 b2 p k2).trans
        (congrArg (fun xr => Cert.Spec.layer (Ideal.ofBits .f32 0x00000000#32) W2 b2 xr k2)
          (funext fun k1 => hid1_apply x0 W1 b1 p k1))))

/-- The output block before the bias, at entry (a, b): the layout change keeps the row-major position, so this is row
    128·a + b of the third hidden block against the output row; the two factors are swapped to the specification's order. -/
theorem outc_apply (Wo : FVec Ideal S1x128 .f32) (y3 : FVec Ideal S4096x128 .f32) (a : Fin 32) (b : Fin 128) :
    outc Wo y3 (ix2 a b)
      = ∑ k : Fin 128, y3 (ix2 (⟨128 * a.val + b.val, by omega⟩ : Fin 4096) k) * Wo (ix2 (0 : Fin 1) k) :=
  (shapeCast_apply
      (matmul dot_S1x128_S4096x128_S1x4096_1_1_0_0_n_n none Wo y3 (constant S1x4096 .f32 0x00000000#32))
      shapeCasts_S1x4096_S32x128 (ix2 a b) (ix2 (0 : Fin 1) (⟨128 * a.val + b.val, by omega⟩ : Fin 4096)) (by
        rw [Shape.rowMajor_val_two, Shape.rowMajor_val_two]
        show 0 * 4096 + (128 * a.val + b.val) = a.val * 128 + b.val
        omega)).trans
    ((matmul_zero_rows_ix2 dot_S1x128_S4096x128_S1x4096_1_1_0_0_n_n rfl rfl rfl rfl rfl rfl none Wo y3
        (0 : Fin 1) (⟨128 * a.val + b.val, by omega⟩ : Fin 4096)).trans
      (Finset.sum_congr rfl fun k _ => mul_comm _ _))

/-- The one entry of the output bias laid out 1×1 is the bias. -/
theorem bias_apply (bo : FVec Ideal S1 .f32) :
    extractAt ![0, 0] (shapeCast S1x1 bo shapeCasts_S1_S1x1) inpos_S1x1_p0_0 = bo (ix1 (0 : Fin 1)) := by
  have e : ((fun a => ⟨(![0, 0] : Fin 2 → Nat) a, inpos_S1x1_p0_0 a⟩) : S1x1.Idx) = ix2 (0 : Fin 1) (0 : Fin 1) :=
    funext fun a => Fin.ext (by match a with | ⟨0, _⟩ => rfl | ⟨1, _⟩ => rfl)
  unfold extractAt
  rw [e]
  exact shapeCast_a_1a_apply bo shapeCasts_S1_S1x1 0 0

/-! ## The kernel's store, at an entry -/

/-- THE VALUE THE BODY STORES at entry (a, b) of its 32×128 output block, in terms of the block of rows it loaded and the
    ORIGINAL weights and biases (the operands of the call being the transposed / narrowed / re-laid ones the program
    computes before it): the specification's result for row 128·a + b of the block. -/
theorem pay_apply (x0 : Vec Ideal S4096x256 .f32) (W1 : FVec Ideal S512x256 .f32) (b1 : FVec Ideal S512 .f32)
    (W2 : FVec Ideal S256x512 .f32) (b2 : FVec Ideal S256 .f32) (W3 : FVec Ideal S128x256 .f32) (b3 : FVec Ideal S128 .f32)
    (Wo : FVec Ideal S1x128 .f32) (bo : FVec Ideal S1 .f32) (a : Fin 32) (b : Fin 128) :
    k1_pay1 (F := Ideal)
        (k1_pay2 (F := Ideal) x0
          (truncf .bf16 (transpose S256x512 [1, 0] W1 transposes_S512x256_S256x512_1_0) bitsLt_bf16_f32)
          (shapeCast S1x512 b1 shapeCasts_S512_S1x512)
          (truncf .bf16 (transpose S512x256 [1, 0] W2 transposes_S256x512_S512x256_1_0) bitsLt_bf16_f32)
          (shapeCast S1x256 b2 shapeCasts_S256_S1x256)
          (transpose S256x128 [1, 0] W3 transposes_S128x256_S256x128_1_0)
          (shapeCast S1x128 b3 shapeCasts_S128_S1x128)
          Wo)
        (shapeCast S1x1 bo shapeCasts_S1_S1x1) (ix2 a b)
      = (∑ k : Fin 128,
            Cert.Spec.layer (Ideal.ofBits .f32 0x00000000#32) W3 b3
              (Cert.Spec.layer (Ideal.ofBits .f32 0x00000000#32) W2 b2
                (Cert.Spec.layer (Ideal.ofBits .f32 0x00000000#32) W1 b1
                  (fun k => x0 (ix2 (⟨128 * a.val + b.val, by omega⟩ : Fin 4096) k)))) k
              * Wo (ix2 (0 : Fin 1) k))
          + bo (ix1 (0 : Fin 1)) :=
  (pay1_eq _ _ (ix2 a b)).trans
    (congrArg₂ (· + ·)
      ((congrFun (pay2_eq x0 _ _ _ _ _ _ Wo) (ix2 a b)).trans
        ((outc_apply Wo _ a b).trans
          (Finset.sum_congr rfl fun k _ =>
            congrArg (· * Wo (ix2 (0 : Fin 1) k))
              (stack_apply x0 W1 b1 W2 b2 W3 b3 (⟨128 * a.val + b.val, by omega⟩ : Fin 4096) k))))
      (bias_apply bo))

/-! ## Which batch row an entry is -/

/-- Entry (a, b) of grid point `t`'s block is batch row 4096·t + 128·a + b: a row of the batch, -/
theorem block_row_lt (t : Fin 4) (a : Fin 32) (b : Fin 128) : 4096 * t.val + (128 * a.val + b.val) < 16384 := by omega

/-- and the same row counted through the 128×128 output array, whose row 32·t + a and column b lie at flat position
    128·(32·t + a) + b. -/
theorem block_row_eq (t : Fin 4) (a : Fin 32) (b : Fin 128) :
    4096 * t.val + (128 * a.val + b.val) = 128 * (32 * t.val + a.val) + b.val := by omega

/-- Row 32·t + a is a row of the 128×128 output array. -/
theorem out_row_lt (t : Fin 4) (a : Fin 32) : 32 * t.val + a.val < 128 := by omega

/-- Conversely every batch row is entry (a, b) of exactly the block `t` with `t = r / 4096`, `a = r % 4096 / 128`,
    `b = r % 128`. -/
theorem row_split (r : Fin 16384) :
    ∃ (t : Fin 4) (a : Fin 32) (b : Fin 128), r.val = 4096 * t.val + (128 * a.val + b.val) :=
  ⟨⟨r.val / 4096, by omega⟩, ⟨r.val % 4096 / 128, by omega⟩, ⟨r.val % 128, by omega⟩, by
    show r.val = 4096 * (r.val / 4096) + (128 * (r.val % 4096 / 128) + r.val % 128)
    omega⟩

/-- Every entry (p, q) of the 128×128 output array is entry (a, b) of the block `t` with `t = p / 32`, `a = p % 32`, `b = q`. -/
theorem out_split (p : Fin 128) : ∃ (t : Fin 4) (a : Fin 32), p.val = 32 * t.val + a.val :=
  ⟨⟨p.val / 32, by omega⟩, ⟨p.val % 32, by omega⟩, by
    show p.val = 32 * (p.val / 32) + p.val % 32
    omega⟩

end Cert.KernelIdeal.KValue

end
-- ==== Proof.FinalValue.lean ====
/-
  The result array is the specification.

  Grid point `t` of the dense kernel works on rows [4096·t, 4096·t + 4096) of the gathered array and writes rows
  [32·t, 32·t + 32) of a 128×128 array; entry (a, q) of that block is the specification's result for row 128·a + q of the
  block of rows, that is, for batch row 4096·t + 128·a + q.  The final layout change reads the 128×128 array in row-major
  order, so its entry r is the 128×128 array at (r / 128, r % 128), and 128·(32·t + a) + q = 4096·t + 128·a + q: the
  flat array at r is the specification at batch row r.

  The gather reads a row number as the unsigned value of its word where the specification reads it signed and clamps it
  into the table; on a word in [0, 99999] the two agree.
-/
import proofs.«201366_g32727650796262_cont_8to1_b_1271_35_alg».proof.Proof.KernelValue
import proofs.«201366_g32727650796262_cont_8to1_b_1271_35_alg».proof.Proof.Spec

noncomputable section

namespace Cert.KernelIdeal.KValue

open Idealize.ShloMosaic Idealize.ShloMosaic.ValueIdx Cert.KernelIdeal Cert.KernelIdeal.Gen

/-- Block `t` of an array of 16384 rows: its rows [4096·t, 4096·t + 4096). -/
def blockOf (xg : FVec Ideal S16384x256 .f32) (t : Fin 4) : FVec Ideal S4096x256 .f32 :=
  fun y => xg (ix2 (⟨4096 * t.val + (y 0).val, by have := idx2_lt0 y; omega⟩ : Fin 16384) (⟨(y 1).val, idx2_lt1 y⟩ : Fin 256))

/-- Row `i` of block `t` is row 4096·t + i. -/
theorem blockOf_apply (xg : FVec Ideal S16384x256 .f32) (t : Fin 4) (i : Fin 4096) (k : Fin 256) :
    blockOf xg t (ix2 i k) = xg (ix2 (⟨4096 * t.val + i.val, by omega⟩ : Fin 16384) k) := rfl

/-- The flat layout of a 128×128 array at `r` reads entry (p, q) when r = 128·p + q. -/
theorem flat_apply (Yv : FVec Ideal S128x128 .f32) (r : Fin 16384) (p q : Fin 128) (h : r.val = 128 * p.val + q.val) :
    shapeCast S16384 Yv shapeCasts_S128x128_S16384 (ix1 r) = Yv (ix2 p q) :=
  shapeCast_apply Yv shapeCasts_S128x128_S16384 (ix1 r) (ix2 p q) (by
    rw [Shape.rowMajor_val_two, Shape.rowMajor_val_one]
    show p.val * 128 + q.val = r.val
    omega)

/-- THE RESULT ARRAY IS THE SPECIFICATION, for any family `xb` of blocks of rows that agrees with the gathered array
    `xg` row by row, when `xg` is the specification's concatenated lookup and each block of the 128×128 array `Yv` is
    what the kernel body stores for its block of rows. -/
theorem final_eq_G_of_blocks (u v : IVec S16384 32) (utab itab : FVec Ideal S100000x128 .f32)
    (W1 : FVec Ideal S512x256 .f32) (b1 : FVec Ideal S512 .f32)
    (W2 : FVec Ideal S256x512 .f32) (b2 : FVec Ideal S256 .f32) (W3 : FVec Ideal S128x256 .f32) (b3 : FVec Ideal S128 .f32)
    (Wo : FVec Ideal S1x128 .f32) (bo : FVec Ideal S1 .f32)
    (xg : FVec Ideal S16384x256 .f32) (xb : Fin 4 → FVec Ideal S4096x256 .f32) (Yv : FVec Ideal S128x128 .f32)
    (hx : ∀ (r : Fin 16384) (k : Fin 256), xg (ix2 r k) = Cert.Spec.xcat u v utab itab r k)
    (hxb : ∀ (t : Fin 4) (i : Fin 4096) (k : Fin 256),
      xb t (ix2 i k) = xg (ix2 (⟨4096 * t.val + i.val, by omega⟩ : Fin 16384) k))
    (hY : ∀ (t : Fin 4) (a : Fin 32) (q : Fin 128),
      Yv (ix2 (⟨32 * t.val + a.val, out_row_lt t a⟩ : Fin 128) q)
        = k1_pay1 (F := Ideal)
            (k1_pay2 (F := Ideal) (xb t)
              (truncf .bf16 (transpose S256x512 [1, 0] W1 transposes_S512x256_S256x512_1_0) bitsLt_bf16_f32)
              (shapeCast S1x512 b1 shapeCasts_S512_S1x512)
              (truncf .bf16 (transpose S512x256 [1, 0] W2 transposes_S256x512_S512x256_1_0) bitsLt_bf16_f32)
              (shapeCast S1x256 b2 shapeCasts_S256_S1x256)
              (transpose S256x128 [1, 0] W3 transposes_S128x256_S256x128_1_0)
              (shapeCast S1x128 b3 shapeCasts_S128_S1x128)
              Wo)
            (shapeCast S1x1 bo shapeCasts_S1_S1x1) (ix2 a q)) :
    shapeCast S16384 Yv shapeCasts_S128x128_S16384
      = Cert.Spec.G (Ideal.ofBits .f32 0x00000000#32) u v utab itab W1 b1 W2 b2 W3 b3 Wo bo := by
  funext j
  obtain ⟨r, rfl⟩ : ∃ r : Fin 16384, j = ix1 r := ⟨j 0, eq_ix1 j⟩
  obtain ⟨t, a, q, hr⟩ := row_split r
  have hrow : (fun k => xb t (ix2 (⟨128 * a.val + q.val, by omega⟩ : Fin 4096) k)) = Cert.Spec.xcat u v utab itab r :=
    funext fun k => by
      rw [hxb t ⟨128 * a.val + q.val, by omega⟩ k, hx]
      exact congrArg (fun r' => Cert.Spec.xcat u v utab itab r' k) (Fin.ext hr.symm)
  rw [flat_apply Yv r ⟨32 * t.val + a.val, out_row_lt t a⟩ q (by rw [hr]; exact block_row_eq t a q), hY t a q,
    pay_apply (xb t) W1 b1 W2 b2 W3 b3 Wo bo a q, hrow]
  rfl

/-- The same with the blocks cut out of the gathered array itself. -/
theorem final_eq_G (u v : IVec S16384 32) (utab itab : FVec Ideal S100000x128 .f32)
    (W1 : FVec Ideal S512x256 .f32) (b1 : FVec Ideal S512 .f32)
    (W2 : FVec Ideal S256x512 .f32) (b2 : FVec Ideal S256 .f32) (W3 : FVec Ideal S128x256 .f32) (b3 : FVec Ideal S128 .f32)
    (Wo : FVec Ideal S1x128 .f32) (bo : FVec Ideal S1 .f32)
    (xg : FVec Ideal S16384x256 .f32) (Yv : FVec Ideal S128x128 .f32)
    (hx : ∀ (r : Fin 16384) (k : Fin 256), xg (ix2 r k) = Cert.Spec.xcat u v utab itab r k)
    (hY : ∀ (t : Fin 4) (a : Fin 32) (q : Fin 128),
      Yv (ix2 (⟨32 * t.val + a.val, out_row_lt t a⟩ : Fin 128) q)
        = k1_pay1 (F := Ideal)
            (k1_pay2 (F := Ideal) (blockOf xg t)
              (truncf .bf16 (transpose S256x512 [1, 0] W1 transposes_S512x256_S256x512_1_0) bitsLt_bf16_f32)
              (shapeCast S1x512 b1 shapeCasts_S512_S1x512)
              (truncf .bf16 (transpose S512x256 [1, 0] W2 transposes_S256x512_S512x256_1_0) bitsLt_bf16_f32)
              (shapeCast S1x256 b2 shapeCasts_S256_S1x256)
              (transpose S256x128 [1, 0] W3 transposes_S128x256_S256x128_1_0)
              (shapeCast S1x128 b3 shapeCasts_S128_S1x128)
              Wo)
            (shapeCast S1x1 bo shapeCasts_S1_S1x1) (ix2 a q)) :
    shapeCast S16384 Yv shapeCasts_S128x128_S16384
      = Cert.Spec.G (Ideal.ofBits .f32 0x00000000#32) u v utab itab W1 b1 W2 b2 W3 b3 Wo bo :=
  final_eq_G_of_blocks u v utab itab W1 b1 W2 b2 W3 b3 Wo bo xg (blockOf xg) Yv hx (fun t i k => blockOf_apply xg t i k) hY

/-- A word in [0, 99999] read signed and clamped into the table is the word read unsigned. -/
theorem rowOf_of_toNat (w : BitVec 32) (h0 : 0 ≤ w.toInt) (h1 : w.toInt ≤ 99999) : (Cert.Spec.rowOf w).val = w.toNat := by
  show min w.toInt.toNat 99999 = w.toNat
  have hlt : w.toNat < 2 ^ 32 := w.isLt
  have hc := BitVec.toInt_eq_toNat_cond w
  by_cases hs : 2 * w.toNat < 2 ^ 32
  · rw [if_pos hs] at hc
    omega
  · rw [if_neg hs] at hc
    exfalso
    omega

end Cert.KernelIdeal.KValue

end
-- ==== Proof.RefOps.lean ====
/-
  The reference program as a line of operations.

  The reference is a straight line of array operations: two table lookups (each: the row numbers made non-negative by
  adding the table's height to a negative one, the rows fetched, and a row whose number falls outside the table
  replaced by a fill value), the two fetched blocks laid side by side, three layers "product with the transposed
  weights, plus the bias, maximum with zero", and a last product with the single output row plus its bias, flattened
  to one number per batch row.  Here the stages are named as functions of plain arrays (`look`, `cat`, `layer1` …
  `score`, and their composition `whole`), and the program is written out operation by operation, the called helper
  functions opened at their calls, and shown to be exactly that line.
-/
import proofs.«201366_g32727650796262_cont_8to1_b_1271_35_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages, as functions of plain arrays -/

/-- The row numbers one lookup fetches, as a column: a negative number has the table's height 100000 added (numbering
    from the end), any other is kept. -/
def lookIdx (i : IVec S16384 32) : IVec S16384x1 32 :=
  broadcastInDim S16384x1 ![0] bcast_S16384_S16384x1_0
    (select (cmpi .slt i (broadcastInDim S16384 ![] bcast_S_S16384 (constantI S_ 32 0#32)))
      (addi i (broadcastInDim S16384 ![] bcast_S_S16384 (constantI S_ 32 100000#32))) i)

/-- Which batch rows have their row number inside the table: `0 ≤ n` and `n ≤ 99999`, and-reduced over the column's
    unit axis from `true`. -/
def lookOk (n : IVec S16384x1 32) : IVec S16384 1 :=
  Host.reduce IntOp.andi
    (andi (cmpi .sge n (broadcastInDim S16384x1 ![] bcast_S_S16384x1 (constantI S_ 32 0#32)))
      (cmpi .sle n (broadcastInDim S16384x1 ![0, 1] bcast_S1x1_S16384x1_0_1
        (broadcastInDim S1x1 ![1] bcast_S1_S1x1_1 (constantI S1 32 99999#32)))))
    (constantI S_ 1 1#1) reducesTo_S16384x1_S16384_d1 h_S_

/-- One lookup: the fetched rows where the row number is inside the table, the fill value elsewhere. -/
def look (x : FVec F S100000x128 .f32) (i : IVec S16384 32) : FVec F S16384x128 .f32 :=
  select (broadcastInDim S16384x128 ![0] bcast_S16384_S16384x128_0 (lookOk (lookIdx i)))
    (Host.gather gather_S100000x128_S16384x1_S16384x128_1_0_n_n_0_1_1128 x (lookIdx i))
    (broadcastInDim S16384x128 ![] bcast_S_S16384x128 (constant S_ .f32 0x7FC00000#32))

/-- The two fetched blocks side by side: columns `[0, 128)` and `[128, 256)`. -/
def cat (a b : FVec F S16384x128 .f32) : FVec F S16384x256 .f32 :=
  concatenate S16384x256 1 [⟨S16384x128, a⟩, ⟨S16384x128, b⟩] concatenates_S16384x128_S16384x128_S16384x256_d1

/-- The first layer: the product with the transposed weights, plus the bias along every row, maximum with zero. -/
def layer1 (x : FVec F S16384x256 .f32) (W : FVec F S512x256 .f32) (b : FVec F S512 .f32) : FVec F S16384x512 .f32 :=
  maximumf
    (addf (Host.dotGeneral dot_S16384x256_S256x512_S16384x512_1_0_0_1_n_n none x
        (transpose S256x512 [1, 0] W transposes_S512x256_S256x512_1_0))
      (broadcastInDim S16384x512 ![0, 1] bcast_S1x512_S16384x512_0_1 (broadcastInDim S1x512 ![1] bcast_S512_S1x512_1 b)))
    (broadcastInDim S16384x512 ![] bcast_S_S16384x512 (constant S_ .f32 0x00000000#32))

/-- The second layer, of the same form. -/
def layer2 (x : FVec F S16384x512 .f32) (W : FVec F S256x512 .f32) (b : FVec F S256 .f32) : FVec F S16384x256 .f32 :=
  maximumf
    (addf (Host.dotGeneral dot_S16384x512_S512x256_S16384x256_1_0_0_1_n_n none x
        (transpose S512x256 [1, 0] W transposes_S256x512_S512x256_1_0))
      (broadcastInDim S16384x256 ![0, 1] bcast_S1x256_S16384x256_0_1 (broadcastInDim S1x256 ![1] bcast_S256_S1x256_1 b)))
    (broadcastInDim S16384x256 ![] bcast_S_S16384x256 (constant S_ .f32 0x00000000#32))

/-- The third layer, of the same form. -/
def layer3 (x : FVec F S16384x256 .f32) (W : FVec F S128x256 .f32) (b : FVec F S128 .f32) : FVec F S16384x128 .f32 :=
  maximumf
    (addf (Host.dotGeneral dot_S16384x256_S256x128_S16384x128_1_0_0_1_n_n none x
        (transpose S256x128 [1, 0] W transposes_S128x256_S256x128_1_0))
      (broadcastInDim S16384x128 ![0, 1] bcast_S1x128_S16384x128_0_1 (broadcastInDim S1x128 ![1] bcast_S128_S1x128_1 b)))
    (broadcastInDim S16384x128 ![] bcast_S_S16384x128 (constant S_ .f32 0x00000000#32))

/-- The output: the product with the transposed single output row, plus the output bias, as a column. -/
def scoreCol (x : FVec F S16384x128 .f32) (Wo : FVec F S1x128 .f32) (bo : FVec F S1 .f32) : FVec F S16384x1 .f32 :=
  addf (Host.dotGeneral dot_S16384x128_S128x1_S16384x1_1_0_0_1_n_n none x
      (transpose S128x1 [1, 0] Wo transposes_S1x128_S128x1_1_0))
    (broadcastInDim S16384x1 ![0, 1] bcast_S1x1_S16384x1_0_1 (broadcastInDim S1x1 ![1] bcast_S1_S1x1_1 bo))

/-- The column flattened to one number per batch row. -/
def score (x : FVec F S16384x128 .f32) (Wo : FVec F S1x128 .f32) (bo : FVec F S1 .f32) : FVec F S16384 .f32 :=
  shapeCast S16384 (scoreCol x Wo bo) shapeCasts_S16384x1_S16384

/-- The whole reference as one function of the twelve argument arrays. -/
def whole (u v : IVec S16384 32) (utab itab : FVec F S100000x128 .f32)
    (W1 : FVec F S512x256 .f32) (b1 : FVec F S512 .f32) (W2 : FVec F S256x512 .f32) (b2 : FVec F S256 .f32)
    (W3 : FVec F S128x256 .f32) (b3 : FVec F S128 .f32) (Wo : FVec F S1x128 .f32) (bo : FVec F S1 .f32) :
    FVec F S16384 .f32 :=
  score (layer3 (layer2 (layer1 (cat (look utab u) (look itab v)) W1 b1) W2 b2) W3 b3) Wo bo

/-! ## The program as a line of operations -/

/-- The first lookup's twenty-three operations, over the user table and the first call's buffers: the zero and the
    height broadcast, the sign test, the sum, the choice between them, the column of row numbers, the two bounds
    broadcast and tested, their conjunction and its reduction, the fetch, the mask and the fill value broadcast, the
    final choice. -/
abbrev opsU : List (HloOp τ sig (Elt F)) :=
  [ TRef.nullary main_call0.c (constantI S_ 32 0#32),
    TRef.unary main_call0.c main_call0.v0 (broadcastInDim S16384 ![] bcast_S_S16384),
    TRef.binary (.of main_arg0) main_call0.v0 main_call0.v1 (cmpi .slt),
    TRef.nullary main_call0.c_0 (constantI S_ 32 100000#32),
    TRef.unary main_call0.c_0 main_call0.v2 (broadcastInDim S16384 ![] bcast_S_S16384),
    TRef.binary (.of main_arg0) main_call0.v2 main_call0.v3 addi,
    TRef.ternary main_call0.v1 main_call0.v3 (.of main_arg0) main_call0.call0.v0 select,
    TRef.unary main_call0.call0.v0 main_call0.v5 (broadcastInDim S16384x1 ![0] bcast_S16384_S16384x1_0),
    TRef.nullary main_call0.c_1 (constantI S1 32 99999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg2) main_call0.v5 main_call0.v13 (fun x i => Host.gather gather_S100000x128_S16384x1_S16384x128_1_0_n_n_0_1_1128 x i),
    TRef.unary main_call0.v12 main_call0.v14 (broadcastInDim S16384x128 ![0] bcast_S16384_S16384x128_0),
    TRef.nullary main_call0.cst (constant S_ .f32 0x7FC00000#32),
    TRef.unary main_call0.cst main_call0.v15 (broadcastInDim S16384x128 ![] bcast_S_S16384x128),
    TRef.ternary main_call0.v14 main_call0.v13 main_call0.v15 main_call0.v16 select ]

/-- The second lookup's twenty-three, over the item table and the second call's buffers. -/
abbrev opsI : List (HloOp τ sig (Elt F)) :=
  [ TRef.nullary main_call1.c (constantI S_ 32 0#32),
    TRef.unary main_call1.c main_call1.v0 (broadcastInDim S16384 ![] bcast_S_S16384),
    TRef.binary (.of main_arg1) main_call1.v0 main_call1.v1 (cmpi .slt),
    TRef.nullary main_call1.c_0 (constantI S_ 32 100000#32),
    TRef.unary main_call1.c_0 main_call1.v2 (broadcastInDim S16384 ![] bcast_S_S16384),
    TRef.binary (.of main_arg1) main_call1.v2 main_call1.v3 addi,
    TRef.ternary main_call1.v1 main_call1.v3 (.of main_arg1) main_call1.call0.v0 select,
    TRef.unary main_call1.call0.v0 main_call1.v5 (broadcastInDim S16384x1 ![0] bcast_S16384_S16384x1_0),
    TRef.nullary main_call1.c_1 (constantI S1 32 99999#32),
    TRef.nullary main_call1.c_2 (constantI S_ 32 0#32),
    TRef.unary main_call1.c_2 main_call1.v6 (broadcastInDim S16384x1 ![] bcast_S_S16384x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S16384x1 ![0, 1] bcast_S1x1_S16384x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x1_S16384_d1 h_S_),
    TRef.binary (.of main_arg3) main_call1.v5 main_call1.v13 (fun x i => Host.gather gather_S100000x128_S16384x1_S16384x128_1_0_n_n_0_1_1128 x i),
    TRef.unary main_call1.v12 main_call1.v14 (broadcastInDim S16384x128 ![0] bcast_S16384_S16384x128_0),
    TRef.nullary main_call1.cst (constant S_ .f32 0x7FC00000#32),
    TRef.unary main_call1.cst main_call1.v15 (broadcastInDim S16384x128 ![] bcast_S_S16384x128),
    TRef.ternary main_call1.v14 main_call1.v13 main_call1.v15 main_call1.v16 select ]

/-- The remaining thirty-one: the side-by-side block; per layer the transpose, the product, the bias broadcast twice
    and added, then the three of the maximum with zero (the zero, its broadcast, the maximum) into that call's
    buffers; the output product with its bias likewise, and the flattening. -/
abbrev opsT : List (HloOp τ sig (Elt F)) :=
  [ binary main_v0 main_v1 main_v2 ((fun a b => concatenate S16384x256 1 [⟨S16384x128, a⟩, ⟨S16384x128, b⟩] concatenates_S16384x128_S16384x128_S16384x256_d1) : (⟨S16384x128, .f32⟩ : BufTy).Contents (Elt F) → (⟨S16384x128, .f32⟩ : BufTy).Contents (Elt F) → (⟨S16384x256, .f32⟩ : BufTy).Contents (Elt F)),
    unary main_arg4 main_v3 ((transpose S256x512 [1, 0] · transposes_S512x256_S256x512_1_0) : (⟨S512x256, .f32⟩ : BufTy).Contents (Elt F) → (⟨S256x512, .f32⟩ : BufTy).Contents (Elt F)),
    binary main_v2 main_v3 main_v4 ((fun l r => Host.dotGeneral dot_S16384x256_S256x512_S16384x512_1_0_0_1_n_n none l r) : (⟨S16384x256, .f32⟩ : BufTy).Contents (Elt F) → (⟨S256x512, .f32⟩ : BufTy).Contents (Elt F) → (⟨S16384x512, .f32⟩ : BufTy).Contents (Elt F)),
    unary main_arg5 main_v5 (broadcastInDim S1x512 ![1] bcast_S512_S1x512_1 : (⟨S512, .f32⟩ : BufTy).Contents (Elt F) → (⟨S1x512, .f32⟩ : BufTy).Contents (Elt F)),
    unary main_v5 main_v6 (broadcastInDim S16384x512 ![0, 1] bcast_S1x512_S16384x512_0_1 : (⟨S1x512, .f32⟩ : BufTy).Contents (Elt F) → (⟨S16384x512, .f32⟩ : BufTy).Contents (Elt F)),
    binary main_v4 main_v6 main_v7 (addf : (⟨S16384x512, .f32⟩ : BufTy).Contents (Elt F) → (⟨S16384x512, .f32⟩ : BufTy).Contents (Elt F) → (⟨S16384x512, .f32⟩ : BufTy).Contents (Elt F)),
    TRef.nullary main_call2.cst (constant S_ .f32 0x00000000#32),
    TRef.unary main_call2.cst main_call2.v0 (broadcastInDim S16384x512 ![] bcast_S_S16384x512),
    TRef.binary (.of main_v7) main_call2.v0 main_call2.v1 maximumf,
    unary main_arg6 main_v9 ((transpose S512x256 [1, 0] · transposes_S256x512_S512x256_1_0) : (⟨S256x512, .f32⟩ : BufTy).Contents (Elt F) → (⟨S512x256, .f32⟩ : BufTy).Contents (Elt F)),
    binary main_v8 main_v9 main_v10 ((fun l r => Host.dotGeneral dot_S16384x512_S512x256_S16384x256_1_0_0_1_n_n none l r) : (⟨S16384x512, .f32⟩ : BufTy).Contents (Elt F) → (⟨S512x256, .f32⟩ : BufTy).Contents (Elt F) → (⟨S16384x256, .f32⟩ : BufTy).Contents (Elt F)),
    unary main_arg7 main_v11 (broadcastInDim S1x256 ![1] bcast_S256_S1x256_1 : (⟨S256, .f32⟩ : BufTy).Contents (Elt F) → (⟨S1x256, .f32⟩ : BufTy).Contents (Elt F)),
    unary main_v11 main_v12 (broadcastInDim S16384x256 ![0, 1] bcast_S1x256_S16384x256_0_1 : (⟨S1x256, .f32⟩ : BufTy).Contents (Elt F) → (⟨S16384x256, .f32⟩ : BufTy).Contents (Elt F)),
    binary main_v10 main_v12 main_v13 (addf : (⟨S16384x256, .f32⟩ : BufTy).Contents (Elt F) → (⟨S16384x256, .f32⟩ : BufTy).Contents (Elt F) → (⟨S16384x256, .f32⟩ : BufTy).Contents (Elt F)),
    TRef.nullary main_call3.cst (constant S_ .f32 0x00000000#32),
    TRef.unary main_call3.cst main_call3.v0 (broadcastInDim S16384x256 ![] bcast_S_S16384x256),
    TRef.binary (.of main_v13) main_call3.v0 main_call3.v1 maximumf,
    unary main_arg8 main_v15 ((transpose S256x128 [1, 0] · transposes_S128x256_S256x128_1_0) : (⟨S128x256, .f32⟩ : BufTy).Contents (Elt F) → (⟨S256x128, .f32⟩ : BufTy).Contents (Elt F)),
    binary main_v14 main_v15 main_v16 ((fun l r => Host.dotGeneral dot_S16384x256_S256x128_S16384x128_1_0_0_1_n_n none l r) : (⟨S16384x256, .f32⟩ : BufTy).Contents (Elt F) → (⟨S256x128, .f32⟩ : BufTy).Contents (Elt F) → (⟨S16384x128, .f32⟩ : BufTy).Contents (Elt F)),
    unary main_arg9 main_v17 (broadcastInDim S1x128 ![1] bcast_S128_S1x128_1 : (⟨S128, .f32⟩ : BufTy).Contents (Elt F) → (⟨S1x128, .f32⟩ : BufTy).Contents (Elt F)),
    unary main_v17 main_v18 (broadcastInDim S16384x128 ![0, 1] bcast_S1x128_S16384x128_0_1 : (⟨S1x128, .f32⟩ : BufTy).Contents (Elt F) → (⟨S16384x128, .f32⟩ : BufTy).Contents (Elt F)),
    binary main_v16 main_v18 main_v19 (addf : (⟨S16384x128, .f32⟩ : BufTy).Contents (Elt F) → (⟨S16384x128, .f32⟩ : BufTy).Contents (Elt F) → (⟨S16384x128, .f32⟩ : BufTy).Contents (Elt F)),
    TRef.nullary main_call4.cst (constant S_ .f32 0x00000000#32),
    TRef.unary main_call4.cst main_call4.v0 (broadcastInDim S16384x128 ![] bcast_S_S16384x128),
    TRef.binary (.of main_v19) main_call4.v0 main_call4.v1 maximumf,
    unary main_arg10 main_v21 ((transpose S128x1 [1, 0] · transposes_S1x128_S128x1_1_0) : (⟨S1x128, .f32⟩ : BufTy).Contents (Elt F) → (⟨S128x1, .f32⟩ : BufTy).Contents (Elt F)),
    binary main_v20 main_v21 main_v22 ((fun l r => Host.dotGeneral dot_S16384x128_S128x1_S16384x1_1_0_0_1_n_n none l r) : (⟨S16384x128, .f32⟩ : BufTy).Contents (Elt F) → (⟨S128x1, .f32⟩ : BufTy).Contents (Elt F) → (⟨S16384x1, .f32⟩ : BufTy).Contents (Elt F)),
    unary main_arg11 main_v23 (broadcastInDim S1x1 ![1] bcast_S1_S1x1_1 : (⟨S1, .f32⟩ : BufTy).Contents (Elt F) → (⟨S1x1, .f32⟩ : BufTy).Contents (Elt F)),
    unary main_v23 main_v24 (broadcastInDim S16384x1 ![0, 1] bcast_S1x1_S16384x1_0_1 : (⟨S1x1, .f32⟩ : BufTy).Contents (Elt F) → (⟨S16384x1, .f32⟩ : BufTy).Contents (Elt F)),
    binary main_v22 main_v24 main_v25 (addf : (⟨S16384x1, .f32⟩ : BufTy).Contents (Elt F) → (⟨S16384x1, .f32⟩ : BufTy).Contents (Elt F) → (⟨S16384x1, .f32⟩ : BufTy).Contents (Elt F)),
    reshape main_v25 main_v26 rfl shapeCasts_S16384x1_S16384 ]

/-- The reference's 77 operations in order, each call opened at its place: the three stretches above, one after the
    other. -/
abbrev ops : List (HloOp τ sig (Elt F)) :=
  [ TRef.nullary main_call0.c (constantI S_ 32 0#32),
    TRef.unary main_call0.c main_call0.v0 (broadcastInDim S16384 ![] bcast_S_S16384),
    TRef.binary (.of main_arg0) main_call0.v0 main_call0.v1 (cmpi .slt),
    TRef.nullary main_call0.c_0 (constantI S_ 32 100000#32),
    TRef.unary main_call0.c_0 main_call0.v2 (broadcastInDim S16384 ![] bcast_S_S16384),
    TRef.binary (.of main_arg0) main_call0.v2 main_call0.v3 addi,
    TRef.ternary main_call0.v1 main_call0.v3 (.of main_arg0) main_call0.call0.v0 select,
    TRef.unary main_call0.call0.v0 main_call0.v5 (broadcastInDim S16384x1 ![0] bcast_S16384_S16384x1_0),
    TRef.nullary main_call0.c_1 (constantI S1 32 99999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg2) main_call0.v5 main_call0.v13 (fun x i => Host.gather gather_S100000x128_S16384x1_S16384x128_1_0_n_n_0_1_1128 x i),
    TRef.unary main_call0.v12 main_call0.v14 (broadcastInDim S16384x128 ![0] bcast_S16384_S16384x128_0),
    TRef.nullary main_call0.cst (constant S_ .f32 0x7FC00000#32),
    TRef.unary main_call0.cst main_call0.v15 (broadcastInDim S16384x128 ![] bcast_S_S16384x128),
    TRef.ternary main_call0.v14 main_call0.v13 main_call0.v15 main_call0.v16 select,
    TRef.nullary main_call1.c (constantI S_ 32 0#32),
    TRef.unary main_call1.c main_call1.v0 (broadcastInDim S16384 ![] bcast_S_S16384),
    TRef.binary (.of main_arg1) main_call1.v0 main_call1.v1 (cmpi .slt),
    TRef.nullary main_call1.c_0 (constantI S_ 32 100000#32),
    TRef.unary main_call1.c_0 main_call1.v2 (broadcastInDim S16384 ![] bcast_S_S16384),
    TRef.binary (.of main_arg1) main_call1.v2 main_call1.v3 addi,
    TRef.ternary main_call1.v1 main_call1.v3 (.of main_arg1) main_call1.call0.v0 select,
    TRef.unary main_call1.call0.v0 main_call1.v5 (broadcastInDim S16384x1 ![0] bcast_S16384_S16384x1_0),
    TRef.nullary main_call1.c_1 (constantI S1 32 99999#32),
    TRef.nullary main_call1.c_2 (constantI S_ 32 0#32),
    TRef.unary main_call1.c_2 main_call1.v6 (broadcastInDim S16384x1 ![] bcast_S_S16384x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S16384x1 ![0, 1] bcast_S1x1_S16384x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x1_S16384_d1 h_S_),
    TRef.binary (.of main_arg3) main_call1.v5 main_call1.v13 (fun x i => Host.gather gather_S100000x128_S16384x1_S16384x128_1_0_n_n_0_1_1128 x i),
    TRef.unary main_call1.v12 main_call1.v14 (broadcastInDim S16384x128 ![0] bcast_S16384_S16384x128_0),
    TRef.nullary main_call1.cst (constant S_ .f32 0x7FC00000#32),
    TRef.unary main_call1.cst main_call1.v15 (broadcastInDim S16384x128 ![] bcast_S_S16384x128),
    TRef.ternary main_call1.v14 main_call1.v13 main_call1.v15 main_call1.v16 select,
    binary main_v0 main_v1 main_v2 ((fun a b => concatenate S16384x256 1 [⟨S16384x128, a⟩, ⟨S16384x128, b⟩] concatenates_S16384x128_S16384x128_S16384x256_d1) : (⟨S16384x128, .f32⟩ : BufTy).Contents (Elt F) → (⟨S16384x128, .f32⟩ : BufTy).Contents (Elt F) → (⟨S16384x256, .f32⟩ : BufTy).Contents (Elt F)),
    unary main_arg4 main_v3 ((transpose S256x512 [1, 0] · transposes_S512x256_S256x512_1_0) : (⟨S512x256, .f32⟩ : BufTy).Contents (Elt F) → (⟨S256x512, .f32⟩ : BufTy).Contents (Elt F)),
    binary main_v2 main_v3 main_v4 ((fun l r => Host.dotGeneral dot_S16384x256_S256x512_S16384x512_1_0_0_1_n_n none l r) : (⟨S16384x256, .f32⟩ : BufTy).Contents (Elt F) → (⟨S256x512, .f32⟩ : BufTy).Contents (Elt F) → (⟨S16384x512, .f32⟩ : BufTy).Contents (Elt F)),
    unary main_arg5 main_v5 (broadcastInDim S1x512 ![1] bcast_S512_S1x512_1 : (⟨S512, .f32⟩ : BufTy).Contents (Elt F) → (⟨S1x512, .f32⟩ : BufTy).Contents (Elt F)),
    unary main_v5 main_v6 (broadcastInDim S16384x512 ![0, 1] bcast_S1x512_S16384x512_0_1 : (⟨S1x512, .f32⟩ : BufTy).Contents (Elt F) → (⟨S16384x512, .f32⟩ : BufTy).Contents (Elt F)),
    binary main_v4 main_v6 main_v7 (addf : (⟨S16384x512, .f32⟩ : BufTy).Contents (Elt F) → (⟨S16384x512, .f32⟩ : BufTy).Contents (Elt F) → (⟨S16384x512, .f32⟩ : BufTy).Contents (Elt F)),
    TRef.nullary main_call2.cst (constant S_ .f32 0x00000000#32),
    TRef.unary main_call2.cst main_call2.v0 (broadcastInDim S16384x512 ![] bcast_S_S16384x512),
    TRef.binary (.of main_v7) main_call2.v0 main_call2.v1 maximumf,
    unary main_arg6 main_v9 ((transpose S512x256 [1, 0] · transposes_S256x512_S512x256_1_0) : (⟨S256x512, .f32⟩ : BufTy).Contents (Elt F) → (⟨S512x256, .f32⟩ : BufTy).Contents (Elt F)),
    binary main_v8 main_v9 main_v10 ((fun l r => Host.dotGeneral dot_S16384x512_S512x256_S16384x256_1_0_0_1_n_n none l r) : (⟨S16384x512, .f32⟩ : BufTy).Contents (Elt F) → (⟨S512x256, .f32⟩ : BufTy).Contents (Elt F) → (⟨S16384x256, .f32⟩ : BufTy).Contents (Elt F)),
    unary main_arg7 main_v11 (broadcastInDim S1x256 ![1] bcast_S256_S1x256_1 : (⟨S256, .f32⟩ : BufTy).Contents (Elt F) → (⟨S1x256, .f32⟩ : BufTy).Contents (Elt F)),
    unary main_v11 main_v12 (broadcastInDim S16384x256 ![0, 1] bcast_S1x256_S16384x256_0_1 : (⟨S1x256, .f32⟩ : BufTy).Contents (Elt F) → (⟨S16384x256, .f32⟩ : BufTy).Contents (Elt F)),
    binary main_v10 main_v12 main_v13 (addf : (⟨S16384x256, .f32⟩ : BufTy).Contents (Elt F) → (⟨S16384x256, .f32⟩ : BufTy).Contents (Elt F) → (⟨S16384x256, .f32⟩ : BufTy).Contents (Elt F)),
    TRef.nullary main_call3.cst (constant S_ .f32 0x00000000#32),
    TRef.unary main_call3.cst main_call3.v0 (broadcastInDim S16384x256 ![] bcast_S_S16384x256),
    TRef.binary (.of main_v13) main_call3.v0 main_call3.v1 maximumf,
    unary main_arg8 main_v15 ((transpose S256x128 [1, 0] · transposes_S128x256_S256x128_1_0) : (⟨S128x256, .f32⟩ : BufTy).Contents (Elt F) → (⟨S256x128, .f32⟩ : BufTy).Contents (Elt F)),
    binary main_v14 main_v15 main_v16 ((fun l r => Host.dotGeneral dot_S16384x256_S256x128_S16384x128_1_0_0_1_n_n none l r) : (⟨S16384x256, .f32⟩ : BufTy).Contents (Elt F) → (⟨S256x128, .f32⟩ : BufTy).Contents (Elt F) → (⟨S16384x128, .f32⟩ : BufTy).Contents (Elt F)),
    unary main_arg9 main_v17 (broadcastInDim S1x128 ![1] bcast_S128_S1x128_1 : (⟨S128, .f32⟩ : BufTy).Contents (Elt F) → (⟨S1x128, .f32⟩ : BufTy).Contents (Elt F)),
    unary main_v17 main_v18 (broadcastInDim S16384x128 ![0, 1] bcast_S1x128_S16384x128_0_1 : (⟨S1x128, .f32⟩ : BufTy).Contents (Elt F) → (⟨S16384x128, .f32⟩ : BufTy).Contents (Elt F)),
    binary main_v16 main_v18 main_v19 (addf : (⟨S16384x128, .f32⟩ : BufTy).Contents (Elt F) → (⟨S16384x128, .f32⟩ : BufTy).Contents (Elt F) → (⟨S16384x128, .f32⟩ : BufTy).Contents (Elt F)),
    TRef.nullary main_call4.cst (constant S_ .f32 0x00000000#32),
    TRef.unary main_call4.cst main_call4.v0 (broadcastInDim S16384x128 ![] bcast_S_S16384x128),
    TRef.binary (.of main_v19) main_call4.v0 main_call4.v1 maximumf,
    unary main_arg10 main_v21 ((transpose S128x1 [1, 0] · transposes_S1x128_S128x1_1_0) : (⟨S1x128, .f32⟩ : BufTy).Contents (Elt F) → (⟨S128x1, .f32⟩ : BufTy).Contents (Elt F)),
    binary main_v20 main_v21 main_v22 ((fun l r => Host.dotGeneral dot_S16384x128_S128x1_S16384x1_1_0_0_1_n_n none l r) : (⟨S16384x128, .f32⟩ : BufTy).Contents (Elt F) → (⟨S128x1, .f32⟩ : BufTy).Contents (Elt F) → (⟨S16384x1, .f32⟩ : BufTy).Contents (Elt F)),
    unary main_arg11 main_v23 (broadcastInDim S1x1 ![1] bcast_S1_S1x1_1 : (⟨S1, .f32⟩ : BufTy).Contents (Elt F) → (⟨S1x1, .f32⟩ : BufTy).Contents (Elt F)),
    unary main_v23 main_v24 (broadcastInDim S16384x1 ![0, 1] bcast_S1x1_S16384x1_0_1 : (⟨S1x1, .f32⟩ : BufTy).Contents (Elt F) → (⟨S16384x1, .f32⟩ : BufTy).Contents (Elt F)),
    binary main_v22 main_v24 main_v25 (addf : (⟨S16384x1, .f32⟩ : BufTy).Contents (Elt F) → (⟨S16384x1, .f32⟩ : BufTy).Contents (Elt F) → (⟨S16384x1, .f32⟩ : BufTy).Contents (Elt F)),
    reshape main_v25 main_v26 rfl shapeCasts_S16384x1_S16384 ]

theorem ops_split : (ops : List (HloOp τ sig (Elt F))) = opsU ++ opsI ++ opsT := rfl

/-- The program is that straight line: with the helper functions' definitions opened at their calls, sequencing
    grafts each continuation onto the single operation before it, and both sides are one chain of single operations. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches buffers of the program only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub .., binary_bufs_sub .., unary_bufs_sub ..,
    binary_bufs_sub .., unary_bufs_sub .., unary_bufs_sub .., binary_bufs_sub .., nullary_bufs_sub .., unary_bufs_sub ..,
    binary_bufs_sub .., unary_bufs_sub .., binary_bufs_sub .., unary_bufs_sub .., unary_bufs_sub .., binary_bufs_sub ..,
    nullary_bufs_sub .., unary_bufs_sub .., binary_bufs_sub .., unary_bufs_sub .., binary_bufs_sub .., unary_bufs_sub ..,
    unary_bufs_sub .., binary_bufs_sub .., nullary_bufs_sub .., unary_bufs_sub .., binary_bufs_sub .., unary_bufs_sub ..,
    binary_bufs_sub .., unary_bufs_sub .., unary_bufs_sub .., binary_bufs_sub .., reshape_bufs_sub ..⟩

end Cert.ReferenceIdeal.RefRun

end
-- ==== Proof.RefRun.lean ====
/-
  The reference program's run.

  The line of operations is run: every execution ends with each buffer holding what the operations, applied in order,
  leave in it.  Read at the result buffer that is the stages' composition `whole` of the twelve argument arrays — the
  line is read in its three stretches, each stretch's own result at its stage's value and the buffers it does not write
  passed over —, and read at an argument buffer it is the argument itself, since no operation writes one.
-/
import proofs.«201366_g32727650796262_cont_8to1_b_1271_35_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The result array on device `c`, from the launch memory `m`: `whole` of the twelve argument arrays there. -/
def res (m : (ℓ : Loc nD τ sig) → Buf (Elt F) ℓ) (c : Dev nD) : Buf (Elt F) ((c.tc : Thread nD τ).loc main_v26) :=
  whole (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10)) (m ((c.tc : Thread nD τ).loc main_arg11))

/-! ## What the buffers hold after the line -/

/-- Two stretches run one after the other leave what the second leaves from what the first left. -/
theorem after_append {τ : Topo} {sig : RefSig} {Val : EltTy → Type} (l₁ l₂ : List (HloOp τ sig Val)) :
    ∀ V : Valuation τ sig Val, after (l₁ ++ l₂) V = after l₂ (after l₁ V) := by
  induction l₁ with
  | nil => intro V; rfl
  | cons op l ih => intro V; exact ih (op.result V)

attribute [local irreducible] Host.reduce Host.gather in
/-- The first lookup's stretch leaves `look` of the user table and the user row numbers in its result buffer. -/
theorem opsU_out (V : Valuation τ sig (Elt F)) :
    after opsU V (main_v0 : DevRef τ sig) = look (V (main_arg2 : DevRef τ sig)) (V (main_arg0 : DevRef τ sig)) := by
  after_results_simp
  rfl

/-- … and passes over the buffers read later. -/
theorem opsU_keep (V : Valuation τ sig (Elt F)) :
    after opsU V (main_arg1 : DevRef τ sig) = V (main_arg1 : DevRef τ sig)
      ∧ after opsU V (main_arg3 : DevRef τ sig) = V (main_arg3 : DevRef τ sig)
      ∧ after opsU V (main_arg4 : DevRef τ sig) = V (main_arg4 : DevRef τ sig)
      ∧ after opsU V (main_arg5 : DevRef τ sig) = V (main_arg5 : DevRef τ sig)
      ∧ after opsU V (main_arg6 : DevRef τ sig) = V (main_arg6 : DevRef τ sig)
      ∧ after opsU V (main_arg7 : DevRef τ sig) = V (main_arg7 : DevRef τ sig)
      ∧ after opsU V (main_arg8 : DevRef τ sig) = V (main_arg8 : DevRef τ sig)
      ∧ after opsU V (main_arg9 : DevRef τ sig) = V (main_arg9 : DevRef τ sig)
      ∧ after opsU V (main_arg10 : DevRef τ sig) = V (main_arg10 : DevRef τ sig)
      ∧ after opsU V (main_arg11 : DevRef τ sig) = V (main_arg11 : DevRef τ sig) := by
  refine ⟨?_, ?_, ?_, ?_, ?_, ?_, ?_, ?_, ?_, ?_⟩ <;> after_results_simp

attribute [local irreducible] Host.reduce Host.gather in
/-- The second lookup's stretch leaves `look` of the item table and the item row numbers in its result buffer. -/
theorem opsI_out (V : Valuation τ sig (Elt F)) :
    after opsI V (main_v1 : DevRef τ sig) = look (V (main_arg3 : DevRef τ sig)) (V (main_arg1 : DevRef τ sig)) := by
  after_results_simp
  rfl

/-- … and passes over the first lookup's result and the buffers read later. -/
theorem opsI_keep (V : Valuation τ sig (Elt F)) :
    after opsI V (main_v0 : DevRef τ sig) = V (main_v0 : DevRef τ sig)
      ∧ after opsI V (main_arg4 : DevRef τ sig) = V (main_arg4 : DevRef τ sig)
      ∧ after opsI V (main_arg5 : DevRef τ sig) = V (main_arg5 : DevRef τ sig)
      ∧ after opsI V (main_arg6 : DevRef τ sig) = V (main_arg6 : DevRef τ sig)
      ∧ after opsI V (main_arg7 : DevRef τ sig) = V (main_arg7 : DevRef τ sig)
      ∧ after opsI V (main_arg8 : DevRef τ sig) = V (main_arg8 : DevRef τ sig)
      ∧ after opsI V (main_arg9 : DevRef τ sig) = V (main_arg9 : DevRef τ sig)
      ∧ after opsI V (main_arg10 : DevRef τ sig) = V (main_arg10 : DevRef τ sig)
      ∧ after opsI V (main_arg11 : DevRef τ sig) = V (main_arg11 : DevRef τ sig) := by
  refine ⟨?_, ?_, ?_, ?_, ?_, ?_, ?_, ?_, ?_⟩ <;> after_results_simp

/-- The last stretch leaves in the result buffer the layers and the output product applied to the two looked-up
    blocks laid side by side. -/
theorem opsT_out (W : Valuation τ sig (Elt F)) :
    after opsT W (main_v26 : DevRef τ sig)
      = score (layer3 (layer2 (layer1 (cat (W (main_v0 : DevRef τ sig)) (W (main_v1 : DevRef τ sig)))
          (W (main_arg4 : DevRef τ sig)) (W (main_arg5 : DevRef τ sig))) (W (main_arg6 : DevRef τ sig)) (W (main_arg7 : DevRef τ sig)))
          (W (main_arg8 : DevRef τ sig)) (W (main_arg9 : DevRef τ sig))) (W (main_arg10 : DevRef τ sig)) (W (main_arg11 : DevRef τ sig)) := by
  after_results_simp
  rfl

/-- The result buffer after the whole line holds `whole` of the argument buffers' contents. -/
theorem out_eq (V : Valuation τ sig (Elt F)) :
    after ops V (main_v26 : DevRef τ sig)
      = whole (V (main_arg0 : DevRef τ sig)) (V (main_arg1 : DevRef τ sig)) (V (main_arg2 : DevRef τ sig)) (V (main_arg3 : DevRef τ sig))
          (V (main_arg4 : DevRef τ sig)) (V (main_arg5 : DevRef τ sig)) (V (main_arg6 : DevRef τ sig)) (V (main_arg7 : DevRef τ sig))
          (V (main_arg8 : DevRef τ sig)) (V (main_arg9 : DevRef τ sig)) (V (main_arg10 : DevRef τ sig)) (V (main_arg11 : DevRef τ sig)) := by
  rw [ops_split, after_append, after_append, opsT_out]
  obtain ⟨k0, k4, k5, k6, k7, k8, k9, k10, k11⟩ := opsI_keep (after opsU V)
  obtain ⟨j1, j3, j4, j5, j6, j7, j8, j9, j10, j11⟩ := opsU_keep V
  rw [k0, k4, k5, k6, k7, k8, k9, k10, k11, opsI_out, opsU_out, j1, j3, j4, j5, j6, j7, j8, j9, j10, j11]
  rfl

/-! No operation writes an argument buffer. -/

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

theorem arg8_eq (V : Valuation τ sig (Elt F)) :
    after ops V (main_arg8 : DevRef τ sig) = V (main_arg8 : DevRef τ sig) := by
  after_results_simp

theorem arg9_eq (V : Valuation τ sig (Elt F)) :
    after ops V (main_arg9 : DevRef τ sig) = V (main_arg9 : DevRef τ sig) := by
  after_results_simp

theorem arg10_eq (V : Valuation τ sig (Elt F)) :
    after ops V (main_arg10 : DevRef τ sig) = V (main_arg10 : DevRef τ sig) := by
  after_results_simp

theorem arg11_eq (V : Valuation τ sig (Elt F)) :
    after ops V (main_arg11 : DevRef τ sig) = V (main_arg11 : DevRef τ sig) := by
  after_results_simp

/-! ## The run -/

/-- On every device, from any memory with zero counters: every weakly fair execution of the reference terminates with
    the result array at `res` and the twelve argument arrays unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v26) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c main_v26).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _)⟩)
    (run_seq scopedRefs_eq scopedSems_eq defs main (fun _ => ops) main_eq (fun _ => ops_sub) m ρ)

end Cert.ReferenceIdeal.RefRun

end
-- ==== Proof.LibGatherRows.lean ====
/-
  A row gather read at an index.

  Taking rows `x[idx]` of a table `x : [N, C]` at a column of integer row numbers `idx : [R, 1]` is a gather
  (`Host.gather`) whose offset axes are `[1]`, collapsed slice axes `[0]`, start index map `[0]`, index vector axis 1
  and slice sizes `[1, C]`.  Result element `(e, k)` is the table at row `idx[e, 0]` — the start index read as a signed
  integer and clamped into `[0, N − 1]`, as the gather clamps every start index so that the slice fits — and at the
  same column `k`: the whole row passes through.  When the start index is already a row number (`0 ≤ idx[e, 0] < N`)
  the clamp does nothing (`gather_rows_apply_of_lt`).
-/
import Idealize.ShloMosaic.Lib.ValueIdx

namespace Cert.LibGatherRows

open Idealize.ShloMosaic Idealize.ShloMosaic.ValueIdx

variable {α : Type}

/-- The dimension numbers of a row gather, for a table `[N, C]`, start indices `[R, 1]` and result `[R, C]`; their
    conditions `wf` are decided on a program's literal shapes. -/
abbrev rowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: the table at the row `idx[e, 0]`, read signed and clamped into `[0, N − 1]`, and
    at the column `k`.  On the row axis the operand coordinate is the clamped start (the axis is collapsed, so it has no
    offset); on the column axis it is the result's own column (the axis is not in the start index map, so its start
    is `0`, and it is the one offset axis). -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (k : Fin C) :
    Host.gather (rowsDims N R C wf) x idx (ix2 e k)
      = x (ix2 ⟨min (idx (ix2 e 0)).toInt.toNat (N - 1), by omega⟩ k) := by
  unfold Host.gather
  congr 1
  funext a
  refine Fin.ext ?_
  match a with
  | ⟨0, _⟩ =>
    show (rowsDims N R C wf).start (ix2 e k) idx 0 + (rowsDims N R C wf).batchCoord (ix2 e k) 0
      + (rowsDims N R C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    have hsi : (rowsDims N R C wf).siIdx (ix2 e k) ⟨List.idxOf (0 : Fin 2) (rowsDims N R C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowsDims N R C wf).start (ix2 e k) idx 1 + (rowsDims N R C wf).batchCoord (ix2 e k) 1
      + (rowsDims N R C wf).offCoord (ix2 e k) 1 = k.val
    rw [GatherDims.batchCoord_eq_zero _ _ _ List.not_mem_nil]
    have hs : (rowsDims N R C wf).start (ix2 e k) idx 1 = 0 := by
      unfold GatherDims.start
      rw [dif_neg (show (1 : Fin 2) ∉ [(0 : Fin 2)] by decide)]
    rw [hs]
    simp only [Nat.add_zero, Nat.zero_add]
    rfl

/-- The row gather at `(e, k)` when the start index `idx[e, 0]` is a row number, `0 ≤ idx[e, 0] < N`: the clamp is
    the identity and the result is the table at that row and column `k`. -/
theorem gather_rows_apply_of_lt {N R C w : Nat}
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (k : Fin C)
    (h0 : 0 ≤ (idx (ix2 e 0)).toInt) (hlt : (idx (ix2 e 0)).toInt < N) :
    Host.gather (rowsDims N R C wf) x idx (ix2 e k) = x (ix2 ⟨(idx (ix2 e 0)).toInt.toNat, by omega⟩ k) := by
  rw [gather_rows_apply (by omega) wf x idx e k]
  congr 2
  refine Fin.ext ?_
  show min (idx (ix2 e 0)).toInt.toNat (N - 1) = (idx (ix2 e 0)).toInt.toNat
  omega

end Cert.LibGatherRows
-- ==== Proof.RefValueLook.lean ====
/-
  The table lookups read at an index.

  A lookup's row numbers pass three tests before a row is fetched: a negative number would have the table's height
  added, and a number outside `[0, 99999]` would have its row replaced by a fill value.  When every row number of the
  batch already lies in `[0, 99999]` none of the three does anything: the sign test is false, so the number is kept; both
  bounds hold, so their conjunction, reduced over the unit axis from `true`, is `true` in every batch row; the final choice
  therefore takes the fetched row, and the fetch reads the table at exactly that row and at the same column.  Laid side
  by side, the two lookups are the specification's concatenated row.
-/
import proofs.«201366_g32727650796262_cont_8to1_b_1271_35_alg».proof.Proof.RefOps
import proofs.«201366_g32727650796262_cont_8to1_b_1271_35_alg».proof.Proof.Spec
import proofs.«201366_g32727650796262_cont_8to1_b_1271_35_alg».proof.Proof.LibGatherRows
import Idealize.ShloMosaic.Lib.Pipeline.Value

noncomputable section

namespace Cert.ReferenceIdeal.RefValue

open Cert.ReferenceIdeal Cert.ReferenceIdeal.Gen Cert.ReferenceIdeal.RefRun Idealize.ShloMosaic Idealize.ShloMosaic.ValueIdx

/-! ## Signed comparisons of a word known to lie in `[0, 99999]` -/

/-- A word that reads as a non-negative integer is not below zero. -/
theorem cmpi_slt_zero (w : BitVec 32) (h : 0 ≤ w.toInt) : IntOp.cmpi .slt w 0#32 = 0#1 := by
  show BitVec.ofBool (decide (w.toInt < (0#32 : BitVec 32).toInt)) = 0#1
  have h0 : (0#32 : BitVec 32).toInt = 0 := by decide
  rw [h0, decide_eq_false (by omega)]
  rfl

/-- … and is at least zero. -/
theorem cmpi_sge_zero (w : BitVec 32) (h : 0 ≤ w.toInt) : IntOp.cmpi .sge w 0#32 = 1#1 := by
  show BitVec.ofBool (decide ((0#32 : BitVec 32).toInt ≤ w.toInt)) = 1#1
  have h0 : (0#32 : BitVec 32).toInt = 0 := by decide
  rw [h0, decide_eq_true h]
  rfl

/-- A word that reads as an integer at most 99999 is at most the word 99999. -/
theorem cmpi_sle_top (w : BitVec 32) (h : w.toInt ≤ 99999) : IntOp.cmpi .sle w 99999#32 = 1#1 := by
  show BitVec.ofBool (decide (w.toInt ≤ (99999#32 : BitVec 32).toInt)) = 1#1
  have h0 : (99999#32 : BitVec 32).toInt = 99999 := by decide
  rw [h0, decide_eq_true h]
  rfl

/-! ## A conjunction reduced over an array of ones -/

/-- The and-reduction, from `true`, of an array whose every bit is set, is set at every result index: each step of
    the fold is `true and true`. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  have key : ∀ (l : List (Fin s.numel)) (a : BitVec 1), a = 1#1 →
      l.foldl (fun r n => IntOp.andi r (x (s.rowMajor.symm n))) a = 1#1 := by
    intro l
    induction l with
    | nil => intro a ha; exact ha
    | cons n l ih =>
      intro a ha
      refine ih _ ?_
      show IntOp.andi a (x (s.rowMajor.symm n)) = 1#1
      rw [ha, hx]
      rfl
  unfold Host.reduce
  exact key _ _ (hi _)

/-! ## One lookup -/

/-- The column of row numbers at batch row `e` is the row number itself when it is not negative. -/
theorem lookIdx_apply (i : IVec S16384 32) (e : Fin 16384) (h0 : 0 ≤ (i (ix1 e)).toInt) :
    lookIdx i (ix2 e (0 : Fin 1)) = i (ix1 e) := by
  unfold lookIdx
  refine (broadcastInDim_apply _ _ _ (ix2 e (0 : Fin 1)) (ix1 e) (fun a => match a with | ⟨0, _⟩ => rfl)).trans ?_
  show Scalar.select (IntOp.cmpi .slt (i (ix1 e)) 0#32) _ (i (ix1 e)) = i (ix1 e)
  rw [cmpi_slt_zero _ h0, select_zero]

/-- With every row number of the column inside the table, the reduced test is `true` in every batch row. -/
theorem lookOk_one (n : IVec S16384x1 32) (hn : ∀ q, 0 ≤ (n q).toInt ∧ (n q).toInt ≤ 99999) (j : S16384.Idx) :
    lookOk n j = 1#1 := by
  unfold lookOk
  refine reduce_andi_ones _ _ _ _ (fun q => ?_) (fun _ => rfl) j
  show IntOp.andi (IntOp.cmpi .sge (n q) 0#32) (IntOp.cmpi .sle (n q) 99999#32) = 1#1
  rw [cmpi_sge_zero _ (hn q).1, cmpi_sle_top _ (hn q).2]
  rfl

/-- One lookup at batch row `e` and column `k`, all row numbers inside the table: the table at that row number and
    the same column. -/
theorem look_apply (x : FVec Ideal S100000x128 .f32) (i : IVec S16384 32)
    (hi : ∀ q, 0 ≤ (i q).toInt ∧ (i q).toInt ≤ 99999) (e : Fin 16384) (k : Fin 128) :
    look x i (ix2 e k) = x (ix2 (Cert.Spec.rowOf (i (ix1 e))) k) := by
  have hidx : ∀ e' : Fin 16384, lookIdx i (ix2 e' (0 : Fin 1)) = i (ix1 e') := fun e' => lookIdx_apply i e' (hi _).1
  have hn : ∀ q, 0 ≤ (lookIdx i q).toInt ∧ (lookIdx i q).toInt ≤ 99999 := by
    intro q
    obtain ⟨e', z, rfl⟩ : ∃ (e' : Fin 16384) (z : Fin 1), q = ix2 e' z := ⟨q 0, q 1, eq_ix2 q⟩
    obtain rfl : z = 0 := Subsingleton.elim _ _
    rw [hidx]
    exact hi _
  have hm : broadcastInDim S16384x128 ![0] bcast_S16384_S16384x128_0 (lookOk (lookIdx i)) (ix2 e k) = 1#1 :=
    (broadcastInDim_apply _ _ _ (ix2 e k) (ix1 e) (fun a => match a with | ⟨0, _⟩ => rfl)).trans (lookOk_one _ hn _)
  unfold look
  rw [select_apply, hm, select_one]
  have h0 : 0 ≤ (lookIdx i (ix2 e (0 : Fin 1))).toInt := (hn _).1
  have hlt : (lookIdx i (ix2 e (0 : Fin 1))).toInt < 100000 := by have := (hn (ix2 e (0 : Fin 1))).2; omega
  refine (Cert.LibGatherRows.gather_rows_apply_of_lt (N := 100000) (R := 16384) (C := 128)
    gather_S100000x128_S16384x1_S16384x128_1_0_n_n_0_1_1128_wf x (lookIdx i) e k h0 hlt).trans ?_
  refine congrArg x (congrArg (fun r : Fin 100000 => ix2 r k) (Fin.ext ?_))
  show (lookIdx i (ix2 e (0 : Fin 1))).toInt.toNat = (Cert.Spec.rowOf (i (ix1 e))).val
  rw [hidx e, Cert.Spec.rowOf_val_of_lt _ (hi _).1 (by have := (hi (ix1 e)).2; omega)]

/-! ## The two lookups side by side -/

/-- A column in the left half reads the first block. -/
theorem cat_apply_left (a b : FVec Ideal S16384x128 .f32) (e : Fin 16384) (k : Fin 256) (h : k.val < 128) :
    cat a b (ix2 e k) = a (ix2 e ⟨k.val, h⟩) := by
  unfold cat
  exact concatenate_pair_apply_left 1 a b _ (ix2 e k) rfl (ix2 e ⟨k.val, h⟩)
    (fun c => match c with | ⟨0, _⟩ => rfl | ⟨1, _⟩ => rfl)

/-- A column in the right half reads the second block, 128 columns to the left. -/
theorem cat_apply_right (a b : FVec Ideal S16384x128 .f32) (e : Fin 16384) (k : Fin 256) (h : ¬ k.val < 128) :
    cat a b (ix2 e k) = b (ix2 e ⟨k.val - 128, by omega⟩) := by
  unfold cat
  exact concatenate_pair_apply_right 1 a b _ (ix2 e k) rfl rfl (ix2 e ⟨k.val - 128, by omega⟩)
    (fun c hc => match c, hc with | ⟨0, _⟩, _ => rfl | ⟨1, _⟩, hc => absurd rfl hc)
    (by show (k.val - 128) + 128 = k.val; omega)

/-- The side-by-side block of the two lookups is the specification's concatenated row. -/
theorem cat_look_apply (u v : IVec S16384 32) (utab itab : FVec Ideal S100000x128 .f32)
    (hu : ∀ q, 0 ≤ (u q).toInt ∧ (u q).toInt ≤ 99999) (hv : ∀ q, 0 ≤ (v q).toInt ∧ (v q).toInt ≤ 99999)
    (r : Fin 16384) (k : Fin 256) :
    cat (look utab u) (look itab v) (ix2 r k) = Cert.Spec.xcat u v utab itab r k := by
  unfold Cert.Spec.xcat
  by_cases h : k.val < 128
  · rw [dif_pos h, cat_apply_left _ _ r k h, look_apply utab u hu]
  · rw [dif_neg h, cat_apply_right _ _ r k h, look_apply itab v hv]

end Cert.ReferenceIdeal.RefValue

end
-- ==== Proof.RefValueDense.lean ====
/-
  The layers read at an index.

  A layer is the product of its input with the transposed weight matrix, plus the bias copied along every row, and the
  maximum with zero.  At row `r` and column `j`: the product is the sum over `k` of the input at `(r, k)` times the
  transposed weights at `(k, j)`, which is the weight matrix at `(j, k)`; the bias, made a one-row matrix and then
  copied to every row, reads `b[j]`; the zero, copied everywhere, reads the value of the literal `0.0`.  That is the
  specification's layer applied to row `r` of the input.  The output product is the same with one column and no
  maximum, and the flattening reads the column at `(r, 0)`.
-/
import proofs.«201366_g32727650796262_cont_8to1_b_1271_35_alg».proof.Proof.RefOps
import proofs.«201366_g32727650796262_cont_8to1_b_1271_35_alg».proof.Proof.Spec
import proofs.«201366_g32727650796262_cont_8to1_b_1271_35_alg».proof.Proof.LibDotRows
import Idealize.ShloMosaic.Lib.Pipeline.Value
import Idealize.ShloMosaic.Lib.ValueLayout

noncomputable section

namespace Cert.ReferenceIdeal.RefValue

open Cert.ReferenceIdeal Cert.ReferenceIdeal.Gen Cert.ReferenceIdeal.RefRun Idealize.ShloMosaic Idealize.ShloMosaic.ValueIdx

/-- A bias `[N]` made a one-row matrix `[1, N]` and copied to every row of `[R, N]` reads `b[j]` at `(r, j)`. -/
theorem bias_apply {α : Type} {R N : Nat}
    (hb1 : (⟨1, ![N]⟩ : Shape).BroadcastsInDim ⟨2, ![1, N]⟩ (![1] : Fin 1 → Fin 2))
    (hb2 : (⟨2, ![1, N]⟩ : Shape).BroadcastsInDim ⟨2, ![R, N]⟩ (![0, 1] : Fin 2 → Fin 2))
    (b : (⟨1, ![N]⟩ : Shape).Idx → α) (r : Fin R) (j : Fin N) :
    broadcastInDim ⟨2, ![R, N]⟩ (![0, 1] : Fin 2 → Fin 2) hb2
      (broadcastInDim ⟨2, ![1, N]⟩ (![1] : Fin 1 → Fin 2) hb1 b) (ix2 r j) = b (ix1 j) := by
  have hj := j.isLt
  refine (broadcastInDim_apply _ hb2 _ (ix2 r j) (ix2 (0 : Fin 1) j) ?_).trans
    (broadcastInDim_apply _ hb1 b (ix2 (0 : Fin 1) j) (ix1 j) ?_)
  · intro a
    match a with
    | ⟨0, _⟩ => rfl
    | ⟨1, _⟩ =>
      show j.val = if N = 1 then 0 else j.val
      split <;> omega
  · intro a
    match a with
    | ⟨0, _⟩ =>
      show j.val = if N = 1 then 0 else j.val
      split <;> omega

/-- The product with the transposed weights plus the bias along every row, at `(r, j)`: the sum over `k` of the input
    at `(r, k)` times the weights at `(j, k)`, plus `b[j]`. -/
theorem affine_apply {R K N : Nat} (d : DotDims ⟨2, ![R, K]⟩ ⟨2, ![K, N]⟩ ⟨2, ![R, N]⟩)
    (hlc : d.lhsContracting = [1]) (hrc : d.rhsContracting = [0])
    (hln : d.lhsNonContracting = [0]) (hrn : d.rhsNonContracting = [1])
    (hlb : d.lhsBatch = []) (hrb : d.rhsBatch = [])
    (ht : (⟨2, ![N, K]⟩ : Shape).Transposes [1, 0] ⟨2, ![K, N]⟩)
    (hb1 : (⟨1, ![N]⟩ : Shape).BroadcastsInDim ⟨2, ![1, N]⟩ (![1] : Fin 1 → Fin 2))
    (hb2 : (⟨2, ![1, N]⟩ : Shape).BroadcastsInDim ⟨2, ![R, N]⟩ (![0, 1] : Fin 2 → Fin 2))
    (x : FVec Ideal ⟨2, ![R, K]⟩ .f32) (W : FVec Ideal ⟨2, ![N, K]⟩ .f32) (b : FVec Ideal ⟨1, ![N]⟩ .f32)
    (r : Fin R) (j : Fin N) :
    addf (Host.dotGeneral d none x (transpose ⟨2, ![K, N]⟩ [1, 0] W ht))
        (broadcastInDim ⟨2, ![R, N]⟩ (![0, 1] : Fin 2 → Fin 2) hb2
          (broadcastInDim ⟨2, ![1, N]⟩ (![1] : Fin 1 → Fin 2) hb1 b)) (ix2 r j)
      = ∑ k : Fin K, x (ix2 r k) * W (ix2 j k) + b (ix1 j) := by
  rw [addf_apply, bias_apply hb1 hb2 b r j,
    Idealize.ShloMosaic.DotRows.dotGeneral_ix2 d hlc hrc hln hrn hlb hrb none x _ r j]
  refine congrArg (· + b (ix1 j)) (Finset.sum_congr rfl fun k _ => ?_)
  rw [transpose_ix2_apply]

/-- The zero copied everywhere reads the value of the literal `0.0`. -/
theorem zeros_apply {t : Shape} (h : S_.BroadcastsInDim t (![] : Fin 0 → Fin t.rank)) (i : t.Idx) :
    broadcastInDim t ![] h (constant (F := Ideal) S_ .f32 0x00000000#32) i = Ideal.ofBits .f32 0x00000000#32 := rfl

/-- The first layer at `(r, j)` is the specification's layer applied to row `r` of the input. -/
theorem layer1_apply (x : FVec Ideal S16384x256 .f32) (W : FVec Ideal S512x256 .f32) (b : FVec Ideal S512 .f32)
    (r : Fin 16384) (j : Fin 512) :
    layer1 x W b (ix2 r j) = Cert.Spec.layer (Ideal.ofBits .f32 0x00000000#32) W b (fun k => x (ix2 r k)) j := by
  unfold layer1 Cert.Spec.layer
  rw [maximumf_apply, zeros_apply,
    affine_apply dot_S16384x256_S256x512_S16384x512_1_0_0_1_n_n rfl rfl rfl rfl rfl rfl _ _ _ x W b r j]

/-- The second layer likewise. -/
theorem layer2_apply (x : FVec Ideal S16384x512 .f32) (W : FVec Ideal S256x512 .f32) (b : FVec Ideal S256 .f32)
    (r : Fin 16384) (j : Fin 256) :
    layer2 x W b (ix2 r j) = Cert.Spec.layer (Ideal.ofBits .f32 0x00000000#32) W b (fun k => x (ix2 r k)) j := by
  unfold layer2 Cert.Spec.layer
  rw [maximumf_apply, zeros_apply,
    affine_apply dot_S16384x512_S512x256_S16384x256_1_0_0_1_n_n rfl rfl rfl rfl rfl rfl _ _ _ x W b r j]

/-- The third layer likewise. -/
theorem layer3_apply (x : FVec Ideal S16384x256 .f32) (W : FVec Ideal S128x256 .f32) (b : FVec Ideal S128 .f32)
    (r : Fin 16384) (j : Fin 128) :
    layer3 x W b (ix2 r j) = Cert.Spec.layer (Ideal.ofBits .f32 0x00000000#32) W b (fun k => x (ix2 r k)) j := by
  unfold layer3 Cert.Spec.layer
  rw [maximumf_apply, zeros_apply,
    affine_apply dot_S16384x256_S256x128_S16384x128_1_0_0_1_n_n rfl rfl rfl rfl rfl rfl _ _ _ x W b r j]

/-- The output at batch row `r`: the inner product of row `r` of the input with the single output row, plus the
    output bias. -/
theorem score_apply (x : FVec Ideal S16384x128 .f32) (Wo : FVec Ideal S1x128 .f32) (bo : FVec Ideal S1 .f32)
    (r : Fin 16384) :
    score x Wo bo (ix1 r) = ∑ k : Fin 128, x (ix2 r k) * Wo (ix2 (0 : Fin 1) k) + bo (ix1 (0 : Fin 1)) := by
  unfold score
  refine (shapeCast_apply _ _ (ix1 r) (ix2 r (0 : Fin 1)) ?_).trans ?_
  · rw [Shape.rowMajor_val_two, Shape.rowMajor_val_one]
    show r.val * 1 + 0 = r.val
    omega
  · unfold scoreCol
    exact affine_apply dot_S16384x128_S128x1_S16384x1_1_0_0_1_n_n rfl rfl rfl rfl rfl rfl _ _ _ x Wo bo r 0

end Cert.ReferenceIdeal.RefValue

end
-- ==== Proof.RefValue.lean ====
/-
  The reference's result is the specification.

  With every row number inside its table, the reference's composed stages, read at batch row `r`, are the
  specification's `out` at `r`: the output product reads row `r` of the third layer; each layer at row `r` is the
  specification's layer applied to row `r` of the layer before; and row `r` of the side-by-side lookups is the
  specification's concatenated row.  Nothing is rearranged: every sum has the same terms in the same order on both
  sides.
-/
import proofs.«201366_g32727650796262_cont_8to1_b_1271_35_alg».proof.Proof.RefRun
import proofs.«201366_g32727650796262_cont_8to1_b_1271_35_alg».proof.Proof.RefValueLook
import proofs.«201366_g32727650796262_cont_8to1_b_1271_35_alg».proof.Proof.RefValueDense

noncomputable section

namespace Cert.ReferenceIdeal.RefValue

open Cert.ReferenceIdeal Cert.ReferenceIdeal.Gen Cert.ReferenceIdeal.RefRun Idealize.ShloMosaic Idealize.ShloMosaic.ValueIdx
  Idealize.ShloMosaic.TcCoe Idealize.SL.Sem

/-- The composed stages are the specification's result array. -/
theorem whole_eq_G (u v : IVec S16384 32) (utab itab : FVec Ideal S100000x128 .f32)
    (W1 : FVec Ideal S512x256 .f32) (b1 : FVec Ideal S512 .f32) (W2 : FVec Ideal S256x512 .f32) (b2 : FVec Ideal S256 .f32)
    (W3 : FVec Ideal S128x256 .f32) (b3 : FVec Ideal S128 .f32) (Wo : FVec Ideal S1x128 .f32) (bo : FVec Ideal S1 .f32)
    (hu : ∀ q, 0 ≤ (u q).toInt ∧ (u q).toInt ≤ 99999) (hv : ∀ q, 0 ≤ (v q).toInt ∧ (v q).toInt ≤ 99999) :
    whole u v utab itab W1 b1 W2 b2 W3 b3 Wo bo
      = Cert.Spec.G (Ideal.ofBits .f32 0x00000000#32) u v utab itab W1 b1 W2 b2 W3 b3 Wo bo := by
  funext j
  obtain ⟨r, rfl⟩ : ∃ r : Fin 16384, j = ix1 r := ⟨j 0, eq_ix1 j⟩
  have e0 : (fun k => cat (look utab u) (look itab v) (ix2 r k)) = Cert.Spec.xcat u v utab itab r :=
    funext fun k => cat_look_apply u v utab itab hu hv r k
  have e1 : (fun k => layer1 (cat (look utab u) (look itab v)) W1 b1 (ix2 r k))
      = Cert.Spec.layer (Ideal.ofBits .f32 0x00000000#32) W1 b1 (Cert.Spec.xcat u v utab itab r) :=
    funext fun k => by rw [layer1_apply, e0]
  have e2 : (fun k => layer2 (layer1 (cat (look utab u) (look itab v)) W1 b1) W2 b2 (ix2 r k))
      = Cert.Spec.layer (Ideal.ofBits .f32 0x00000000#32) W2 b2 (Cert.Spec.layer (Ideal.ofBits .f32 0x00000000#32) W1 b1 (Cert.Spec.xcat u v utab itab r)) :=
    funext fun k => by rw [layer2_apply, e1]
  have e3 : (fun k => layer3 (layer2 (layer1 (cat (look utab u) (look itab v)) W1 b1) W2 b2) W3 b3 (ix2 r k))
      = Cert.Spec.layer (Ideal.ofBits .f32 0x00000000#32) W3 b3 (Cert.Spec.layer (Ideal.ofBits .f32 0x00000000#32) W2 b2
          (Cert.Spec.layer (Ideal.ofBits .f32 0x00000000#32) W1 b1 (Cert.Spec.xcat u v utab itab r))) :=
    funext fun k => by rw [layer3_apply, e2]
  show whole u v utab itab W1 b1 W2 b2 W3 b3 Wo bo (ix1 r)
    = Cert.Spec.out (Ideal.ofBits .f32 0x00000000#32) u v utab itab W1 b1 W2 b2 W3 b3 Wo bo r
  unfold whole Cert.Spec.out
  rw [score_apply]
  exact congrArg (fun f : Fin 128 → EReal => ∑ k : Fin 128, f k * Wo (ix2 (0 : Fin 1) k) + bo (ix1 (0 : Fin 1))) e3

/-- On device `c`, with both arrays of row numbers inside their tables, the reference's result array is the
    specification's, of the twelve argument arrays. -/
theorem res_eq_G (m : (ℓ : Loc nD τ sig) → Buf (Elt Ideal) ℓ) (c : Dev nD)
    (hu : ∀ j, 0 ≤ (m ((c.tc : Thread nD τ).loc main_arg0) j).toInt ∧ (m ((c.tc : Thread nD τ).loc main_arg0) j).toInt ≤ 99999)
    (hv : ∀ j, 0 ≤ (m ((c.tc : Thread nD τ).loc main_arg1) j).toInt ∧ (m ((c.tc : Thread nD τ).loc main_arg1) j).toInt ≤ 99999) :
    RefRun.res m c = Cert.Spec.G (Ideal.ofBits .f32 0x00000000#32) (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg8)) (m ((c.tc : Thread nD τ).loc main_arg9))
      (m ((c.tc : Thread nD τ).loc main_arg10)) (m ((c.tc : Thread nD τ).loc main_arg11)) :=
  whole_eq_G _ _ _ _ _ _ _ _ _ _ _ _ hu hv

end Cert.ReferenceIdeal.RefValue

end
-- ==== Proof.ClaimsI.lean ====
/-
  The claims about the idealized kernel: its frame, and its agreement with the idealized reference.

  The kernel's run ends with every argument array as launched and the result buffer at the reshape of the pipeline's
  output array.  Block by block that array is the body's arithmetic of the gathered rows, the gathered rows are the two
  table lookups side by side, and so the result is the specification's function of the arguments; the reference's run
  ends at the same function of its own arguments, which agree with the kernel's.
-/
import proofs.«201366_g32727650796262_cont_8to1_b_1271_35_alg».proof.Defs
import proofs.«201366_g32727650796262_cont_8to1_b_1271_35_alg».proof.Proof.KRun
import proofs.«201366_g32727650796262_cont_8to1_b_1271_35_alg».proof.Proof.ScTile
import proofs.«201366_g32727650796262_cont_8to1_b_1271_35_alg».proof.Proof.SplitJoin
import proofs.«201366_g32727650796262_cont_8to1_b_1271_35_alg».proof.Proof.SplitValue
import proofs.«201366_g32727650796262_cont_8to1_b_1271_35_alg».proof.Proof.PreGlue
import proofs.«201366_g32727650796262_cont_8to1_b_1271_35_alg».proof.Proof.TcValue
import proofs.«201366_g32727650796262_cont_8to1_b_1271_35_alg».proof.Proof.FinalValue
import proofs.«201366_g32727650796262_cont_8to1_b_1271_35_alg».proof.Proof.RefValue
import proofs.«201366_g32727650796262_cont_8to1_b_1271_35_alg».proof.Proof.Gen.KernelIdeal
import proofs.«201366_g32727650796262_cont_8to1_b_1271_35_alg».proof.Proof.Gen.ReferenceIdeal
import proofs.«201366_g32727650796262_cont_8to1_b_1271_35_alg».proof.Proof.Gen.Pre_input_domain

noncomputable section

namespace Cert.Proof.KernelIdealClaims

open Cert.KernelIdeal Cert.KernelIdeal.Gen Cert.KernelIdeal.Launch
open Idealize.ShloMosaic Idealize.ShloMosaic.TcCoe Idealize.SL.Sem

variable (m : (ℓ : Loc nD τ sig) → Buf (Elt Ideal) ℓ)

/-- The specification's function of device c's argument arrays. -/
abbrev Gof (c : Dev nD) : Buf (Elt Ideal) ((c.tc : Thread nD τ).loc main_v11) :=
  Cert.Spec.G (Ideal.ofBits .f32 0x00000000#32) (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9))
    (m ((c.tc : Thread nD τ).loc main_arg10)) (m ((c.tc : Thread nD τ).loc main_arg11))

/-- The tile body's specification, at every tile. -/
theorem body (hpre : ScTile.PreOK m) : TileBody m hpre :=
  fun d L q O W hO => ScTile.tile_body m d L facts hpre q q q q O W hO

/-- The idealized kernel's run under the certificate's precondition. -/
theorem run (ρ : Dev nD → PrngReg) (h : Cert.Pre_KernelIdeal m) :
    θ_run (Cert.KernelIdeal.defs (F := Ideal)) (Cert.KernelIdeal.threads (F := Ideal)) ⟨m, fun _ => 0, ρ⟩ (QC m (gathered m) (result m)) :=
  kernel_run m ρ (Cert.KernelIdeal.PreGlue.preOK_of_pre m h) (body m _) (hst m _) (Cert.KernelIdeal.SplitJoin.hdn m _)

/-- The result buffer's last contents are the specification's function of the arguments. -/
theorem result_eq_G (h : Cert.Pre_KernelIdeal m) (c : Dev nD) :
    V4 m (gathered m) (result m) c main_v11 = Gof m c := by
  have hr := Cert.KernelIdeal.PreGlue.ranges_of_pre m h c
  refine (V4_main_v11 m (gathered m) (result m) c).trans ?_
  exact Cert.KernelIdeal.KValue.final_eq_G_of_blocks _ _ _ _ _ _ _ _ _ _ _ _ (gathered m c) (TcRegion.xb m (gathered m) c) (result m c)
    (fun r k => gathered_apply m c hr.1 hr.2 r k) (TcRegion.xb_apply m (gathered m) c) (TcRegion.OUT_at m (gathered m) c)

/-- The idealized kernel's frame. -/
theorem frame_ki : Cert.frame_KernelIdeal := fun m ρ h =>
  (θ_run Cert.KernelIdeal.defs _ _).mono (fun r hr c => QC_args m _ _ r hr c) (run m ρ h)

/-- The idealized kernel and the idealized reference end with equal results. -/
theorem algebraic : Cert.algebraic_KernelIdeal_ReferenceIdeal := by
  intro m g m' g' hpre hagree
  refine ⟨fun c => Gof m c, ?_, ?_⟩
  · exact (θ_run Cert.KernelIdeal.defs _ _).mono
      (fun r hr c => ⟨(QC_result m _ _ r hr c).trans (result_eq_G m hpre c), QC_args m _ _ r hr c⟩) (run m g hpre)
  · refine (θ_run Cert.ReferenceIdeal.defs _ _).mono (fun r hr' c => ⟨(hr' c).1.trans ?_, (hr' c).2⟩)
      (Cert.ReferenceIdeal.RefRun.run (F := Ideal) m' g')
    have hr := Cert.KernelIdeal.PreGlue.ranges_of_pre m hpre c
    have ha := hagree c
    rw [Cert.ReferenceIdeal.RefValue.res_eq_G m' c (by rw [ha.1]; exact hr.1) (by rw [ha.2.1]; exact hr.2)]
    rw [ha.1, ha.2.1, ha.2.2.1, ha.2.2.2.1, ha.2.2.2.2.1, ha.2.2.2.2.2.1, ha.2.2.2.2.2.2.1, ha.2.2.2.2.2.2.2.1, ha.2.2.2.2.2.2.2.2.1, ha.2.2.2.2.2.2.2.2.2.1, ha.2.2.2.2.2.2.2.2.2.2.1, ha.2.2.2.2.2.2.2.2.2.2.2]

end Cert.Proof.KernelIdealClaims

end
-- ==== Proof.BSetup.lean ====
/-
  The program as the launch theorem sees it, and the ghost state of its proof.

  @main starts the gather on the two SparseCores' thirty-two tiles, waits for it, and then runs host operations and
  one TensorCore pipeline.  Three protocols meet in one proof, each with its own component of the ghost state: the
  launch handshakes between the TensorCore, the sequencers and the tiles (rounds indexed by the call), the tiles' own
  local copies (each waited for by the tile that issued it: plain counters, no schedule), and the TensorCore
  pipeline's staging cells (rounds with no index).
-/
import proofs.«201366_g32727650796262_cont_8to1_b_1271_35_alg».proof.Proof.Gen.Kernel.Launch
import Idealize.ShloMosaic.Lib.SparseCore.Launch
import Idealize.ShloMosaic.Lib.Transfers
import Idealize.ShloMosaic.Lib.Pipeline.Kit
import Idealize.ShloMosaic.Lib.Pipeline.Regions

noncomputable section

namespace Cert.Kernel.Launch

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.Sem
open Idealize.ShloMosaic.Rounds

variable {F : FTy → Type}

/-! ## The program -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: handshake rounds, pipeline rounds, transfer counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds: the left factor. -/
def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
/-- The pipeline's rounds: the middle factor. The counters are found by instance in the right. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

example : CountersIn UU := inferInstance

/-! ## The arrays the SparseCore call touches -/

abbrev uLoc (d : Dev nD) : Loc nD τ sig := (SparseCore.T d).loc main_arg0
abbrev vLoc (d : Dev nD) : Loc nD τ sig := (SparseCore.T d).loc main_arg1
abbrev utLoc (d : Dev nD) : Loc nD τ sig := (SparseCore.T d).loc main_arg2
abbrev itLoc (d : Dev nD) : Loc nD τ sig := (SparseCore.T d).loc main_arg3
abbrev xLoc (d : Dev nD) : Loc nD τ sig := (SparseCore.T d).loc main_v0

end Cert.Kernel.Launch

end
-- ==== Proof.BMainTail.lean ====
/-
  @main, read as the launch theorems want it.

  After the SparseCore call @main is a straight line on the TensorCore: nine host operations that lay the weights out
  for the kernel (three transposes, two of them followed by a change of float format; four reshapes of the biases to
  row form), the TensorCore pipeline, and the reshape of its `[128, 128]` result to `[16384]`.  None of it calls
  back into the SparseCore, so that line is a program of the pipeline's own signature, lifted.
-/
import proofs.«201366_g32727650796262_cont_8to1_b_1271_35_alg».proof.Proof.BSetup
import Idealize.ShloMosaic.Lib.StableHlo.Run

noncomputable section

namespace Cert.Kernel.Launch

open Cert.Kernel Cert.Kernel.Gen
open Idealize.ShloMosaic Idealize.SL.Sem

variable {F : FTy → Type} [FloatOps F]

/-- The host operations between the gather and the pipeline. -/
abbrev hostOpsA : List (HloOp τ sig (Elt F)) := [
  StableHlo.unary main_arg4 main_v1 ((transpose S256x512 [1, 0] · transposes_S512x256_S256x512_1_0) : (⟨S512x256, .f32⟩ : BufTy).Contents (Elt F) → (⟨S256x512, .f32⟩ : BufTy).Contents (Elt F)),
  StableHlo.unary main_v1 main_v2 ((truncf .bf16 · bitsLt_bf16_f32) : (⟨S256x512, .f32⟩ : BufTy).Contents (Elt F) → (⟨S256x512, .bf16⟩ : BufTy).Contents (Elt F)),
  StableHlo.reshape main_arg5 main_v3 rfl shapeCasts_S512_S1x512,
  StableHlo.unary main_arg6 main_v4 ((transpose S512x256 [1, 0] · transposes_S256x512_S512x256_1_0) : (⟨S256x512, .f32⟩ : BufTy).Contents (Elt F) → (⟨S512x256, .f32⟩ : BufTy).Contents (Elt F)),
  StableHlo.unary main_v4 main_v5 ((truncf .bf16 · bitsLt_bf16_f32) : (⟨S512x256, .f32⟩ : BufTy).Contents (Elt F) → (⟨S512x256, .bf16⟩ : BufTy).Contents (Elt F)),
  StableHlo.reshape main_arg7 main_v6 rfl shapeCasts_S256_S1x256,
  StableHlo.unary main_arg8 main_v7 ((transpose S256x128 [1, 0] · transposes_S128x256_S256x128_1_0) : (⟨S128x256, .f32⟩ : BufTy).Contents (Elt F) → (⟨S256x128, .f32⟩ : BufTy).Contents (Elt F)),
  StableHlo.reshape main_arg9 main_v8 rfl shapeCasts_S128_S1x128,
  StableHlo.reshape main_arg11 main_v9 rfl shapeCasts_S1_S1x1]

/-- The host operation after the pipeline. -/
abbrev hostOpsB : List (HloOp τ sig (Elt F)) := [
  StableHlo.reshape main_v10 main_v11 rfl shapeCasts_S128x128_S16384]

/-- @main after the SparseCore call, in the pipeline's signature: host line, region, host line. -/
def tail : Prog (TpuEff nD τ sig (Elt F) (ΛP (F := F)) .tc) PUnit :=
  StableHlo.seq hostOpsA >>= fun _ =>
    .op (.customCall (Pipeline.entry 0) ()) fun _ => StableHlo.seq hostOpsB >>= fun _ => .ret ⟨⟩

/-- @main is the SparseCore call followed by that line, lifted. -/
theorem main_eq (d : Dev nD) :
    main (F := F) d = ((K (F := F)).run d 0 >>= fun _ => SparseCore.liftProg (Q := 1) (tail (F := F))) := by
  simp only [main, tail, hostOpsA, hostOpsB, StableHlo.seq, Prog.lift, bind_assoc, pure_bind, Prog.bind_assoc, Prog.bind_op, Prog.bind_ret]
  rfl

end Cert.Kernel.Launch

end
-- ==== Proof.BVals.lean ====
/-
  What the TensorCore's unscoped buffers hold between the items of @main.

  Five moments: at the launch (`V0`); after the SparseCore call, which changes the gathered array `main_v0` alone
  (`V1`, at contents `X`); after the nine host operations (`V2`); after the pipeline, which changes its result
  `main_v10` alone (`V3`, at contents `Y`); after the last reshape (`V4`).  No item writes an argument array: each
  reaches the end as launched.  The result `main_v11` ends at the reshape of `Y`.
-/
import proofs.«201366_g32727650796262_cont_8to1_b_1271_35_alg».proof.Proof.BMainTail
import Idealize.ShloMosaic.Lib.Pipeline.Frame

noncomputable section

namespace Cert.Kernel.Launch

open Cert.Kernel Cert.Kernel.Gen
open Idealize.ShloMosaic Idealize.ShloMosaic.TcCoe Idealize.SL.Sem

variable {F : FTy → Type} [FloatOps F]

variable (m : (ℓ : Loc nD τ sig) → Buf (Elt F) ℓ)
  (X : (c : Dev nD) → Buf (Elt F) ((c : Thread nD τ).loc main_v0))
  (Y : (c : Dev nD) → Buf (Elt F) ((c : Thread nD τ).loc main_v10))

/-- At the launch. -/
abbrev V0 (c : Dev nD) : Valuation τ sig (Elt F) := fun b => m (c, b)
/-- After the SparseCore call: the gathered array at `X`. -/
abbrev V1 (c : Dev nD) : Valuation τ sig (Elt F) := Function.update (V0 m c) main_v0 (X c)
/-- After the host operations that lay the weights out. -/
abbrev V2 (c : Dev nD) : Valuation τ sig (Elt F) := StableHlo.after hostOpsA (V1 m X c)
/-- After the pipeline: its result at `Y`. -/
abbrev V3 (c : Dev nD) : Valuation τ sig (Elt F) := Function.update (V2 m X c) main_v10 (Y c)
/-- After the last reshape. -/
abbrev V4 (c : Dev nD) : Valuation τ sig (Elt F) := StableHlo.after hostOpsB (V3 m X Y c)

/-! ## The host lines touch TensorCore buffers only, allocate nothing, and write these -/

theorem hostOpsA_sub : (hostOpsA : List (HloOp τ sig (Elt F))).Forall fun op => op.bufs ⊆ StableHlo.tcRefs τ sig := by
  simp only [List.Forall, StableHlo.unary_bufs_sub, StableHlo.reshape_bufs_sub, and_self]
theorem hostOpsB_sub : (hostOpsB : List (HloOp τ sig (Elt F))).Forall fun op => op.bufs ⊆ StableHlo.tcRefs τ sig := by
  simp only [List.Forall, StableHlo.unary_bufs_sub, StableHlo.reshape_bufs_sub, and_self]
theorem hostOpsA_fresh : (hostOpsA : List (HloOp τ sig (Elt F))).Forall fun op => op.fresh = ∅ := by
  simp only [List.Forall]; repeat' constructor
theorem hostOpsB_fresh : (hostOpsB : List (HloOp τ sig (Elt F))).Forall fun op => op.fresh = ∅ := by
  simp only [List.Forall]; repeat' constructor

abbrev hostOpsA_W : List (Ref sig .tc) := [main_v1, main_v2, main_v3, main_v4, main_v5, main_v6, main_v7, main_v8, main_v9]
abbrev hostOpsB_W : List (Ref sig .tc) := [main_v11]
theorem hostOpsA_writes : (hostOpsA : List (HloOp τ sig (Elt F))).Forall fun op => op.writes ⊆ (hostOpsA_W.map (Proc.devRef (τ := τ) .tc)).toFinset := by
  simp only [List.Forall, StableHlo.unary_writes, StableHlo.reshape_writes, Finset.singleton_subset_iff, List.mem_toFinset]
  refine ⟨?_, ?_, ?_, ?_, ?_, ?_, ?_, ?_, ?_⟩ <;> exact List.mem_map_of_mem (by decide)
theorem hostOpsB_writes : (hostOpsB : List (HloOp τ sig (Elt F))).Forall fun op => op.writes ⊆ (hostOpsB_W.map (Proc.devRef (τ := τ) .tc)).toFinset := by
  simp only [List.Forall, StableHlo.unary_writes, StableHlo.reshape_writes, Finset.singleton_subset_iff, List.mem_toFinset]
  exact List.mem_map_of_mem (by decide)

/-! ## What each item leaves alone

The SparseCore call and the pipeline each change one array; a host line changes the arrays its operations write. -/

/-- The SparseCore call changes `main_v0` alone. -/
theorem call_keeps (c : Dev nD) (r : Ref sig .tc) (h : r ≠ main_v0) : V1 m X c r = V0 m c r :=
  Function.update_of_ne (fun e => h (Proc.devRef_injective _ e)) _ _
/-- The first host line changes only the nine arrays it writes. -/
theorem hostA_keeps (c : Dev nD) (r : Ref sig .tc) (h : r ∉ hostOpsA_W) : V2 m X c r = V1 m X c r :=
  StableHlo.after_of_writes_sub hostOpsA _ hostOpsA_writes h
/-- The pipeline changes `main_v10` alone. -/
theorem pipeline_keeps (c : Dev nD) (r : Ref sig .tc) (h : r ≠ main_v10) : V3 m X Y c r = V2 m X c r :=
  Function.update_of_ne (fun e => h (Proc.devRef_injective _ e)) _ _
/-- The last host line changes `main_v11` alone. -/
theorem hostB_keeps (c : Dev nD) (r : Ref sig .tc) (h : r ∉ hostOpsB_W) : V4 m X Y c r = V3 m X Y c r :=
  StableHlo.after_of_writes_sub hostOpsB _ hostOpsB_writes h

/-! ## No item writes an argument -/

/-- `main_arg0` reaches the end as launched. -/
theorem V4_main_arg0 (c : Dev nD) : V4 m X Y c main_arg0 = m ((c : Thread nD τ).loc main_arg0) := by
  rw [hostB_keeps m X Y c main_arg0 (by decide), pipeline_keeps m X Y c main_arg0 (by decide), hostA_keeps m X c main_arg0 (by decide), call_keeps m X c main_arg0 (by decide)]
/-- `main_arg1` reaches the end as launched. -/
theorem V4_main_arg1 (c : Dev nD) : V4 m X Y c main_arg1 = m ((c : Thread nD τ).loc main_arg1) := by
  rw [hostB_keeps m X Y c main_arg1 (by decide), pipeline_keeps m X Y c main_arg1 (by decide), hostA_keeps m X c main_arg1 (by decide), call_keeps m X c main_arg1 (by decide)]
/-- `main_arg2` reaches the end as launched. -/
theorem V4_main_arg2 (c : Dev nD) : V4 m X Y c main_arg2 = m ((c : Thread nD τ).loc main_arg2) := by
  rw [hostB_keeps m X Y c main_arg2 (by decide), pipeline_keeps m X Y c main_arg2 (by decide), hostA_keeps m X c main_arg2 (by decide), call_keeps m X c main_arg2 (by decide)]
/-- `main_arg3` reaches the end as launched. -/
theorem V4_main_arg3 (c : Dev nD) : V4 m X Y c main_arg3 = m ((c : Thread nD τ).loc main_arg3) := by
  rw [hostB_keeps m X Y c main_arg3 (by decide), pipeline_keeps m X Y c main_arg3 (by decide), hostA_keeps m X c main_arg3 (by decide), call_keeps m X c main_arg3 (by decide)]
/-- `main_arg4` reaches the end as launched. -/
theorem V4_main_arg4 (c : Dev nD) : V4 m X Y c main_arg4 = m ((c : Thread nD τ).loc main_arg4) := by
  rw [hostB_keeps m X Y c main_arg4 (by decide), pipeline_keeps m X Y c main_arg4 (by decide), hostA_keeps m X c main_arg4 (by decide), call_keeps m X c main_arg4 (by decide)]
/-- `main_arg5` reaches the end as launched. -/
theorem V4_main_arg5 (c : Dev nD) : V4 m X Y c main_arg5 = m ((c : Thread nD τ).loc main_arg5) := by
  rw [hostB_keeps m X Y c main_arg5 (by decide), pipeline_keeps m X Y c main_arg5 (by decide), hostA_keeps m X c main_arg5 (by decide), call_keeps m X c main_arg5 (by decide)]
/-- `main_arg6` reaches the end as launched. -/
theorem V4_main_arg6 (c : Dev nD) : V4 m X Y c main_arg6 = m ((c : Thread nD τ).loc main_arg6) := by
  rw [hostB_keeps m X Y c main_arg6 (by decide), pipeline_keeps m X Y c main_arg6 (by decide), hostA_keeps m X c main_arg6 (by decide), call_keeps m X c main_arg6 (by decide)]
/-- `main_arg7` reaches the end as launched. -/
theorem V4_main_arg7 (c : Dev nD) : V4 m X Y c main_arg7 = m ((c : Thread nD τ).loc main_arg7) := by
  rw [hostB_keeps m X Y c main_arg7 (by decide), pipeline_keeps m X Y c main_arg7 (by decide), hostA_keeps m X c main_arg7 (by decide), call_keeps m X c main_arg7 (by decide)]
/-- `main_arg8` reaches the end as launched. -/
theorem V4_main_arg8 (c : Dev nD) : V4 m X Y c main_arg8 = m ((c : Thread nD τ).loc main_arg8) := by
  rw [hostB_keeps m X Y c main_arg8 (by decide), pipeline_keeps m X Y c main_arg8 (by decide), hostA_keeps m X c main_arg8 (by decide), call_keeps m X c main_arg8 (by decide)]
/-- `main_arg9` reaches the end as launched. -/
theorem V4_main_arg9 (c : Dev nD) : V4 m X Y c main_arg9 = m ((c : Thread nD τ).loc main_arg9) := by
  rw [hostB_keeps m X Y c main_arg9 (by decide), pipeline_keeps m X Y c main_arg9 (by decide), hostA_keeps m X c main_arg9 (by decide), call_keeps m X c main_arg9 (by decide)]
/-- `main_arg10` reaches the end as launched. -/
theorem V4_main_arg10 (c : Dev nD) : V4 m X Y c main_arg10 = m ((c : Thread nD τ).loc main_arg10) := by
  rw [hostB_keeps m X Y c main_arg10 (by decide), pipeline_keeps m X Y c main_arg10 (by decide), hostA_keeps m X c main_arg10 (by decide), call_keeps m X c main_arg10 (by decide)]
/-- `main_arg11` reaches the end as launched. -/
theorem V4_main_arg11 (c : Dev nD) : V4 m X Y c main_arg11 = m ((c : Thread nD τ).loc main_arg11) := by
  rw [hostB_keeps m X Y c main_arg11 (by decide), pipeline_keeps m X Y c main_arg11 (by decide), hostA_keeps m X c main_arg11 (by decide), call_keeps m X c main_arg11 (by decide)]

end Cert.Kernel.Launch

end
-- ==== Proof.BMain.lean ====
/-
  @main on the TensorCore.

  The TensorCore holds every unscoped buffer whole.  At the SparseCore call it hands over the five arrays the call
  touches — the two index arrays, the two tables, the gathered array — split among the SparseCores, and takes them
  back with the gathered array filled in.  The rest of @main is a straight line of the pipeline's own signature:
  it runs as a list of segments (host line, pipeline region, host line), each from the buffers' contents the one
  before it left.  The TensorCore owes nothing after its one call, so the region's waits meet no outstanding debt.
-/
import proofs.«201366_g32727650796262_cont_8to1_b_1271_35_alg».proof.Proof.BVals
import Idealize.ShloMosaic.Lib.SparseCore.Launch
import Idealize.ShloMosaic.Lib.Pipeline.Regions
import Idealize.ShloMosaic.Lib.Tactic

noncomputable section

namespace Cert.Kernel.Launch

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr)
open Idealize.ShloMosaic.Pipeline (Dat Seg HostSeg RegionSeg ucRefs)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)
  (X : (c : Dev nD) → Buf (Elt F) ((c : Thread nD τ).loc main_v0))
  (Y : (c : Dev nD) → Buf (Elt F) ((c : Thread nD τ).loc main_v10))

/-- The prefetched tables' admissible contents: the pipeline has no table. -/
abbrev admP : (p : Fin 1) → (pcfgs (F := F) p).Adm := fun p => (cfgs p).toPCfg_adm

/-- The five arrays the SparseCore call touches. -/
abbrev S5 : Finset (DevRef τ sig) :=
  {(main_arg0 : DevRef τ sig), (main_arg1 : DevRef τ sig), (main_arg2 : DevRef τ sig), (main_arg3 : DevRef τ sig), (main_v0 : DevRef τ sig)}

theorem S5_sub : (S5 : Finset (DevRef τ sig)) ⊆ ucRefs τ sig := by decide

/-- The launch's unscoped buffers are the unscoped set held at the launch contents. -/
theorem launch_held (d : Dev nD) :
    (unscopedBufs d (fun b => m ((SparseCore.T d).loc b)) : sProp 𝕄) ⊢ held (SparseCore.T d) (ucRefs τ sig) (V0 m d) := by
  rw [← Pipeline.unscopedBufs_held (Ix := HIx 1) (Name := ℕ) (U := UU) (Lvl := ℕ) d (V0 m d)]

/-- What the SparseCore call leaves alone is held at the new contents as it was at the old. -/
theorem rest_after_call (d : Dev nD) :
    (held (SparseCore.T d) (ucRefs τ sig \ S5) (V0 m d) : sProp 𝕄) = held (SparseCore.T d) (ucRefs τ sig \ S5) (V1 m X d) :=
  held_congr (SparseCore.T d) fun b hb => by
    have hne : b ≠ (main_v0 : DevRef τ sig) := fun e => (Finset.mem_sdiff.mp hb).2 (by rw [e]; decide)
    exact (Function.update_of_ne hne _ _).symm

/-- The five arrays back from the call and the rest make the unscoped set whole again. -/
theorem held_after_call (d : Dev nD) :
    iprop((held (SparseCore.T d) S5 (V1 m X d) : sProp 𝕄) ∗ held (SparseCore.T d) (ucRefs τ sig \ S5) (V0 m d))
      ⊢ held (SparseCore.T d) (ucRefs τ sig) (V1 m X d) := by
  rw [rest_after_call, ← held_sub_split (SparseCore.T d) S5_sub (V1 m X d)]

/-- The TensorCore's handshake state after its one call, but for what it owes. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

/-- After its one call the TensorCore owes nothing. -/
theorem tcSt_one_eq (d : Dev nD) :
    ((K (F := F)).tcSt EH d 1 : sProp 𝕄)
      = iprop((∃ W, ⌜(K (F := F)).WBelow (SparseCore.T d) W (8 * 1)⌝ ∗ owes (SparseCore.T d) (0 : CellTallies nD τ sig (HIx 1)) W) ∗ tcRest (F := F) d) := by
  unfold SparseCore.Cfg.tcSt tcRest
  rw [(K (F := F)).Otc_end d le_rfl]

section Main

variable (P : (K (F := F)).Pay (nD := nD) (Val := Elt F) (Name := ℕ) (U := UU))
  (pdats : Waits sig (HIx 1) → (p : Fin 1) → (c : Dev nD) → Dat τ (Elt F) (HIx 1) ℕ UU ℕ (cfgs p) c)
  (R : (W : Waits sig (HIx 1)) → RegionSeg (pcfgs (F := F)) admP (pdats W) (none : HIx 1) defs₀ 𝒱₀ (K (F := F)).L (K (F := F)).lev 0)

/-- @main after the call as segments, at the wait set the TensorCore carries: the host line from the buffers as the
    call left them, the pipeline's region, the last reshape from the buffers as the region left them; the TensorCore's
    empty debt rides along. -/
def segs (W : Waits sig (HIx 1)) :
    List (Seg (pcfgs (F := F)) admP (pdats W) (none : HIx 1) defs₀ 𝒱₀ (K (F := F)).L (K (F := F)).lev) :=
  [.host (HostSeg.ofOps _ _ _ _ _ (ucRefs τ sig) hostOpsA
      (fun op h => Pipeline.sub_ucRefs op ((List.forall_iff_forall_mem.mp hostOpsA_sub) op h))
      (fun op h => (List.forall_iff_forall_mem.mp hostOpsA_fresh) op h) (V1 m X)
      (fun c => (owes (SparseCore.T c) (0 : CellTallies nD τ sig (HIx 1)) W : sProp 𝕄))),
   .region (R W),
   .host (HostSeg.ofOps _ _ _ _ _ (ucRefs τ sig) hostOpsB
      (fun op h => Pipeline.sub_ucRefs op ((List.forall_iff_forall_mem.mp hostOpsB_sub) op h))
      (fun op h => (List.forall_iff_forall_mem.mp hostOpsB_fresh) op h) (V3 m X Y)
      (fun c => (iprop(∃ W', ⌜∀ p ∈ W', p ∈ W ∨ p.2 = none⌝ ∗ owes (SparseCore.T c) (0 : CellTallies nD τ sig (HIx 1)) W') : sProp 𝕄)))]

theorem tail_eq (W : Waits sig (HIx 1)) : (tail (F := F)) = Seg.run (segs m X Y pdats R W) := rfl

theorem hmain
    (hst : ∀ d : Dev nD, (held (T d) S5 (V0 m d) : sProp 𝕄) ⊢ bigSep Finset.univ fun c : Fin ((K (F := F)).nCore 0) => P.st 0 d c)
    (hdn : ∀ d : Dev nD, (bigSep Finset.univ fun c : Fin ((K (F := F)).nCore 0) => P.dn 0 d c) ⊢ (held (T d) S5 (V1 m X d) : sProp 𝕄))
    (hpre : ∀ W (c : Dev nD), iprop((held (T c) (ucRefs τ sig) (V2 m X c) : sProp 𝕄) ∗ owes (T c) (0 : CellTallies nD τ sig (HIx 1)) W) ⊢ (R W).pre c)
    (hpost : ∀ W (c : Dev nD), (R W).post c ⊢ iprop((held (T c) (ucRefs τ sig) (V3 m X Y c) : sProp 𝕄)
        ∗ ∃ W', ⌜∀ p ∈ W', p ∈ W ∨ p.2 = none⌝ ∗ owes (T c) (0 : CellTallies nD τ sig (HIx 1)) W'))
    (κ : GSem nD τ sig → ℕ) (d : Dev nD) :
    iprop((K (F := F)).ctx EH P κ ∗ (K (F := F)).tcSt EH d 0 ∗ (K (F := F)).tcRes m ρ d
        ∗ Pipeline.ghostOn (pcfgs (F := F)) admP EP {0} d)
      ⊢ wp frame (wpE ((K (F := F)).defs (D (F := F))) 𝒱 (T d) none) Set.univ (main d)
          fun _ => iprop((K (F := F)).tcSt EH d 1 ∗ (held (T d) (ucRefs τ sig) (V4 m X Y d) : sProp 𝕄)) := by
  rw [main_eq, wp_bind]
  unfold SparseCore.Cfg.tcRes
  iintro ⟨#Hctx, Hst, ⟨Hbd, Hub, Hsems, Hprng⟩, Hg⟩
  ihave Hheld := (launch_held m d) $$ Hub
  ihave Hsp := (Entails.of_eq (held_sub_split (T d) S5_sub (V0 m d))) $$ Hheld
  icases Hsp with ⟨H5, Hrest⟩
  iapply ((K (F := F)).wp_run (D (F := F)) 𝒱 (EH := EH) (P := P) κ d 0) $$ [Hst H5 Hbd Hrest Hg]
  isplitr; · iexact Hctx
  isplitl [Hst]; · iexact Hst
  isplitl [H5]; · iapply (hst d); iexact H5
  iintro ⟨Hst, Hdn⟩
  ihave H5 := (hdn d) $$ Hdn
  ihave Hh1 := (held_after_call m X d) $$ [H5 Hrest]
  · isplitl [H5] <;> iassumption
  ihave Hst' := (Entails.of_eq (show ((K (F := F)).tcSt EH d ((0 : Fin 1).val + 1) : sProp 𝕄) = _ from tcSt_one_eq (F := F) d)) $$ Hst
  icases Hst' with ⟨⟨%W, %hW, HO⟩, Hrs⟩
  iapply ((K (F := F)).wp_liftProg (D (F := F)) 𝒱 (T d) Set.univ none (tail (F := F)) _)
  rw [tail_eq m X Y pdats R W]
  iapply (Pipeline.wp_segs (pcfgs (F := F)) admP (pdats W) (none : HIx 1) cellOf_inj EP defs₀ 𝒱₀ (K (F := F)).L (K (F := F)).lev d
    (segs m X Y pdats R W) {0}
    (fun c => iprop((held (T c) (ucRefs τ sig) (V1 m X c) : sProp 𝕄) ∗ owes (T c) (0 : CellTallies nD τ sig (HIx 1)) W))
    (fun c => iprop((held (T c) (ucRefs τ sig) (V4 m X Y c) : sProp 𝕄) ∗ ∃ W', ⌜∀ p ∈ W', p ∈ W ∨ p.2 = none⌝ ∗ owes (T c) (0 : CellTallies nD τ sig (HIx 1)) W'))
    (by rw [show Seg.pipes (segs m X Y pdats R W) = [(0 : Fin 1)] from rfl]; exact List.nodup_singleton _)
    (fun p _ => Finset.mem_singleton.mpr (Subsingleton.elim p 0))
    ⟨fun c => .rfl, fun c => hpre W c, fun c => hpost W c, fun c => .rfl⟩) $$ [Hbd Hg Hh1 HO Hrs]
  isplitl [Hrs]
  · iintro ⟨Hbd, Hh4, %W', %hW', HO'⟩
    rw [tcSt_one_eq (F := F) d]
    isplitr [Hh4]
    · isplitr [Hrs]
      · iexists W'
        isplitr
        · ipureintro
          exact fun p hp => (hW' p hp).elim (hW p) fun h => by rw [h]; exact Nat.zero_le _
        · iexact HO'
      · iexact Hrs
    · iexact Hh4
  isplitl [Hbd]; · iexact Hbd
  isplitl [Hh1 HO]
  · isplitl [Hh1] <;> iassumption
  isplitr [Hg]
  · iapply (SparseCore.Cfg.ctx_levAts κ); iexact Hctx
  · iexact Hg

end Main

end Cert.Kernel.Launch

end
-- ==== Proof.BScSetup.lean ====
/-
  The launch-side names for the SparseCore gather kernel, and how a vector subcore's own storage opens.

  The kernel runs once on each vector subcore (tile) of the 2 × 16 grid. Every semaphore it uses is the
  tile's own and every copy it starts is local to the tile and awaited by the tile itself; no thread signals
  another. So no schedule is stated: the ghost state need only hold a copy of the exclusive counters that
  the local transfers' invariants are built from, beside whatever the handshakes of the launch use. The
  statements here are therefore over ANY ghost-state type `U` that contains such a copy (`CountersIn U`);
  `UU`, the handshakes' rounds beside the counters, is the smallest one that serves a launch.

  A tile owns ten DMA semaphores (two for the two synchronous index copies, four for the gathers into the
  four row buffers, four for the stores out of them) and three scratch buffers (the two index lists of 512
  words and the four row buffers of 128 × 128 words as one array). `ownSems0_V` and `ownBufs_V` name
  them inside the tile's scoped storage: the ten counters at zero and the rest, the three buffers at some
  contents and the rest.
-/
import proofs.«201366_g32727650796262_cont_8to1_b_1271_35_alg».proof.Kernel
import proofs.«201366_g32727650796262_cont_8to1_b_1271_35_alg».proof.Proof.Gen.Kernel
import Idealize.ShloMosaic.Lib.SparseCore.Launch
import Idealize.ShloMosaic.Lib.SparseCore.Ops
import Idealize.ShloMosaic.Lib.SparseCore.Stream
import Idealize.ShloMosaic.Lib.Pipeline.Kit
import Idealize.ShloMosaic.Lib.Tactic

noncomputable section

namespace Cert.Kernel.ScSetup

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The smallest ghost state that serves a launch: the handshakes' rounds beside the transfers' counters -/

abbrev UH : Type := URounds (GSem nD τ sig) ℕ
abbrev UU : Type := UH × Counters
abbrev EH : Emb UH (MT nD τ sig (HIx 1) (Elt F) ℕ UU ℕ) := embL

/-! ## The tile at a grid point -/

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl

/-- The grid point of core `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-! ## A tile's own semaphores and buffers, over any ghost state -/

variable {U : Type} [URA U]

local notation "𝕄" => MT nD τ sig (HIx 1) (Elt F) ℕ U ℕ

abbrev cell_scoped0 (d : Dev nD) (c : Fin τ.nSC) (i : Fin τ.nSub) : GSem nD τ sig := (V d c i, .dma cc0_scoped0.sem)
abbrev cell_scoped1 (d : Dev nD) (c : Fin τ.nSC) (i : Fin τ.nSub) : GSem nD τ sig := (V d c i, .dma cc0_scoped1.sem)
abbrev cell_scratch3 (d : Dev nD) (c : Fin τ.nSC) (i : Fin τ.nSub) : GSem nD τ sig := (V d c i, .dma cc0_scratch3.sem)
abbrev cell_scratch4 (d : Dev nD) (c : Fin τ.nSC) (i : Fin τ.nSub) : GSem nD τ sig := (V d c i, .dma cc0_scratch4.sem)
abbrev cell_scratch5 (d : Dev nD) (c : Fin τ.nSC) (i : Fin τ.nSub) : GSem nD τ sig := (V d c i, .dma cc0_scratch5.sem)
abbrev cell_scratch6 (d : Dev nD) (c : Fin τ.nSC) (i : Fin τ.nSub) : GSem nD τ sig := (V d c i, .dma cc0_scratch6.sem)
abbrev cell_scratch7 (d : Dev nD) (c : Fin τ.nSC) (i : Fin τ.nSub) : GSem nD τ sig := (V d c i, .dma cc0_scratch7.sem)
abbrev cell_scratch8 (d : Dev nD) (c : Fin τ.nSC) (i : Fin τ.nSub) : GSem nD τ sig := (V d c i, .dma cc0_scratch8.sem)
abbrev cell_scratch9 (d : Dev nD) (c : Fin τ.nSC) (i : Fin τ.nSub) : GSem nD τ sig := (V d c i, .dma cc0_scratch9.sem)
abbrev cell_scratch10 (d : Dev nD) (c : Fin τ.nSC) (i : Fin τ.nSub) : GSem nD τ sig := (V d c i, .dma cc0_scratch10.sem)

theorem cell_ne (d : Dev nD) (c : Fin τ.nSC) (i : Fin τ.nSub) {a b : DmaSem sig} (h : a ≠ b) :
    ((V d c i, SemLoc.dma a) : GSem nD τ sig) ≠ (V d c i, SemLoc.dma b) :=
  fun e => h (SemLoc.dma.inj (Prod.mk.inj e).2)

/-- The cells left once the ten the kernel uses are set aside. -/
abbrev restCells (d : Dev nD) (c : Fin τ.nSC) (i : Fin τ.nSub) : Finset (GSem nD τ sig) :=
  (((((((((((ownCells (V d c i)).erase (cell_scoped0 d c i)).erase (cell_scoped1 d c i)).erase (cell_scratch3 d c i)).erase (cell_scratch4 d c i)).erase (cell_scratch5 d c i)).erase (cell_scratch6 d c i)).erase (cell_scratch7 d c i)).erase (cell_scratch8 d c i)).erase (cell_scratch9 d c i)).erase (cell_scratch10 d c i))

/-- A tile's own counters at zero are the ten the kernel uses, at zero, and the rest. -/
theorem ownSems0_V (d : Dev nD) (c : Fin τ.nSC) (i : Fin τ.nSub) :
    (ownSems0 (V d c i) : sProp 𝕄)
      = iprop(semVal (cell_scoped0 d c i) 0 ∗ semVal (cell_scoped1 d c i) 0 ∗ semVal (cell_scratch3 d c i) 0 ∗ semVal (cell_scratch4 d c i) 0 ∗ semVal (cell_scratch5 d c i) 0 ∗ semVal (cell_scratch6 d c i) 0 ∗ semVal (cell_scratch7 d c i) 0 ∗ semVal (cell_scratch8 d c i) 0 ∗ semVal (cell_scratch9 d c i) 0 ∗ semVal (cell_scratch10 d c i) 0
          ∗ bigSep (restCells d c i) fun g => semVal g 0) := by
  unfold SparseCore.Cfg.ownSems0
  rw [
    SparseCore.bigSep_erase' ((mem_ownCells (g := cell_scoped0 d c i)).mpr ⟨rfl, by show (SemLoc.dma cc0_scoped0.sem : SemLoc sig).isScoped .scVector = true; decide⟩),
    SparseCore.bigSep_erase' (Finset.mem_erase.mpr ⟨cell_ne d c i (show cc0_scoped1.sem ≠ cc0_scoped0.sem by decide), (mem_ownCells (g := cell_scoped1 d c i)).mpr ⟨rfl, by show (SemLoc.dma cc0_scoped1.sem : SemLoc sig).isScoped .scVector = true; decide⟩⟩),
    SparseCore.bigSep_erase' (Finset.mem_erase.mpr ⟨cell_ne d c i (show cc0_scratch3.sem ≠ cc0_scoped1.sem by decide), Finset.mem_erase.mpr ⟨cell_ne d c i (show cc0_scratch3.sem ≠ cc0_scoped0.sem by decide), (mem_ownCells (g := cell_scratch3 d c i)).mpr ⟨rfl, by show (SemLoc.dma cc0_scratch3.sem : SemLoc sig).isScoped .scVector = true; decide⟩⟩⟩),
    SparseCore.bigSep_erase' (Finset.mem_erase.mpr ⟨cell_ne d c i (show cc0_scratch4.sem ≠ cc0_scratch3.sem by decide), Finset.mem_erase.mpr ⟨cell_ne d c i (show cc0_scratch4.sem ≠ cc0_scoped1.sem by decide), Finset.mem_erase.mpr ⟨cell_ne d c i (show cc0_scratch4.sem ≠ cc0_scoped0.sem by decide), (mem_ownCells (g := cell_scratch4 d c i)).mpr ⟨rfl, by show (SemLoc.dma cc0_scratch4.sem : SemLoc sig).isScoped .scVector = true; decide⟩⟩⟩⟩),
    SparseCore.bigSep_erase' (Finset.mem_erase.mpr ⟨cell_ne d c i (show cc0_scratch5.sem ≠ cc0_scratch4.sem by decide), Finset.mem_erase.mpr ⟨cell_ne d c i (show cc0_scratch5.sem ≠ cc0_scratch3.sem by decide), Finset.mem_erase.mpr ⟨cell_ne d c i (show cc0_scratch5.sem ≠ cc0_scoped1.sem by decide), Finset.mem_erase.mpr ⟨cell_ne d c i (show cc0_scratch5.sem ≠ cc0_scoped0.sem by decide), (mem_ownCells (g := cell_scratch5 d c i)).mpr ⟨rfl, by show (SemLoc.dma cc0_scratch5.sem : SemLoc sig).isScoped .scVector = true; decide⟩⟩⟩⟩⟩),
    SparseCore.bigSep_erase' (Finset.mem_erase.mpr ⟨cell_ne d c i (show cc0_scratch6.sem ≠ cc0_scratch5.sem by decide), Finset.mem_erase.mpr ⟨cell_ne d c i (show cc0_scratch6.sem ≠ cc0_scratch4.sem by decide), Finset.mem_erase.mpr ⟨cell_ne d c i (show cc0_scratch6.sem ≠ cc0_scratch3.sem by decide), Finset.mem_erase.mpr ⟨cell_ne d c i (show cc0_scratch6.sem ≠ cc0_scoped1.sem by decide), Finset.mem_erase.mpr ⟨cell_ne d c i (show cc0_scratch6.sem ≠ cc0_scoped0.sem by decide), (mem_ownCells (g := cell_scratch6 d c i)).mpr ⟨rfl, by show (SemLoc.dma cc0_scratch6.sem : SemLoc sig).isScoped .scVector = true; decide⟩⟩⟩⟩⟩⟩),
    SparseCore.bigSep_erase' (Finset.mem_erase.mpr ⟨cell_ne d c i (show cc0_scratch7.sem ≠ cc0_scratch6.sem by decide), Finset.mem_erase.mpr ⟨cell_ne d c i (show cc0_scratch7.sem ≠ cc0_scratch5.sem by decide), Finset.mem_erase.mpr ⟨cell_ne d c i (show cc0_scratch7.sem ≠ cc0_scratch4.sem by decide), Finset.mem_erase.mpr ⟨cell_ne d c i (show cc0_scratch7.sem ≠ cc0_scratch3.sem by decide), Finset.mem_erase.mpr ⟨cell_ne d c i (show cc0_scratch7.sem ≠ cc0_scoped1.sem by decide), Finset.mem_erase.mpr ⟨cell_ne d c i (show cc0_scratch7.sem ≠ cc0_scoped0.sem by decide), (mem_ownCells (g := cell_scratch7 d c i)).mpr ⟨rfl, by show (SemLoc.dma cc0_scratch7.sem : SemLoc sig).isScoped .scVector = true; decide⟩⟩⟩⟩⟩⟩⟩),
    SparseCore.bigSep_erase' (Finset.mem_erase.mpr ⟨cell_ne d c i (show cc0_scratch8.sem ≠ cc0_scratch7.sem by decide), Finset.mem_erase.mpr ⟨cell_ne d c i (show cc0_scratch8.sem ≠ cc0_scratch6.sem by decide), Finset.mem_erase.mpr ⟨cell_ne d c i (show cc0_scratch8.sem ≠ cc0_scratch5.sem by decide), Finset.mem_erase.mpr ⟨cell_ne d c i (show cc0_scratch8.sem ≠ cc0_scratch4.sem by decide), Finset.mem_erase.mpr ⟨cell_ne d c i (show cc0_scratch8.sem ≠ cc0_scratch3.sem by decide), Finset.mem_erase.mpr ⟨cell_ne d c i (show cc0_scratch8.sem ≠ cc0_scoped1.sem by decide), Finset.mem_erase.mpr ⟨cell_ne d c i (show cc0_scratch8.sem ≠ cc0_scoped0.sem by decide), (mem_ownCells (g := cell_scratch8 d c i)).mpr ⟨rfl, by show (SemLoc.dma cc0_scratch8.sem : SemLoc sig).isScoped .scVector = true; decide⟩⟩⟩⟩⟩⟩⟩⟩),
    SparseCore.bigSep_erase' (Finset.mem_erase.mpr ⟨cell_ne d c i (show cc0_scratch9.sem ≠ cc0_scratch8.sem by decide), Finset.mem_erase.mpr ⟨cell_ne d c i (show cc0_scratch9.sem ≠ cc0_scratch7.sem by decide), Finset.mem_erase.mpr ⟨cell_ne d c i (show cc0_scratch9.sem ≠ cc0_scratch6.sem by decide), Finset.mem_erase.mpr ⟨cell_ne d c i (show cc0_scratch9.sem ≠ cc0_scratch5.sem by decide), Finset.mem_erase.mpr ⟨cell_ne d c i (show cc0_scratch9.sem ≠ cc0_scratch4.sem by decide), Finset.mem_erase.mpr ⟨cell_ne d c i (show cc0_scratch9.sem ≠ cc0_scratch3.sem by decide), Finset.mem_erase.mpr ⟨cell_ne d c i (show cc0_scratch9.sem ≠ cc0_scoped1.sem by decide), Finset.mem_erase.mpr ⟨cell_ne d c i (show cc0_scratch9.sem ≠ cc0_scoped0.sem by decide), (mem_ownCells (g := cell_scratch9 d c i)).mpr ⟨rfl, by show (SemLoc.dma cc0_scratch9.sem : SemLoc sig).isScoped .scVector = true; decide⟩⟩⟩⟩⟩⟩⟩⟩⟩),
    SparseCore.bigSep_erase' (Finset.mem_erase.mpr ⟨cell_ne d c i (show cc0_scratch10.sem ≠ cc0_scratch9.sem by decide), Finset.mem_erase.mpr ⟨cell_ne d c i (show cc0_scratch10.sem ≠ cc0_scratch8.sem by decide), Finset.mem_erase.mpr ⟨cell_ne d c i (show cc0_scratch10.sem ≠ cc0_scratch7.sem by decide), Finset.mem_erase.mpr ⟨cell_ne d c i (show cc0_scratch10.sem ≠ cc0_scratch6.sem by decide), Finset.mem_erase.mpr ⟨cell_ne d c i (show cc0_scratch10.sem ≠ cc0_scratch5.sem by decide), Finset.mem_erase.mpr ⟨cell_ne d c i (show cc0_scratch10.sem ≠ cc0_scratch4.sem by decide), Finset.mem_erase.mpr ⟨cell_ne d c i (show cc0_scratch10.sem ≠ cc0_scratch3.sem by decide), Finset.mem_erase.mpr ⟨cell_ne d c i (show cc0_scratch10.sem ≠ cc0_scoped1.sem by decide), Finset.mem_erase.mpr ⟨cell_ne d c i (show cc0_scratch10.sem ≠ cc0_scoped0.sem by decide), (mem_ownCells (g := cell_scratch10 d c i)).mpr ⟨rfl, by show (SemLoc.dma cc0_scratch10.sem : SemLoc sig).isScoped .scVector = true; decide⟩⟩⟩⟩⟩⟩⟩⟩⟩⟩)]

/-- The buffers left once the three scratches are set aside. -/
abbrev restRefs (c : Fin τ.nSC) (i : Fin τ.nSub) : Finset (DevRef τ sig) :=
  (((ownRefs (τ := τ) (.scVector c i)).erase ((Proc.scVector c i).devRef cc0_scratch0)).erase ((Proc.scVector c i).devRef cc0_scratch1)).erase
    ((Proc.scVector c i).devRef cc0_scratch2)

/-- A tile's own buffers are the two index lists and the row buffers, each at some contents, and the rest. -/
theorem ownBufs_V (d : Dev nD) (c : Fin τ.nSC) (i : Fin τ.nSub) :
    (ownBufs (V d c i) : sProp 𝕄)
      = iprop((∃ f, (V d c i).loc cc0_scratch0 ↦{fullShare} f) ∗ (∃ f, (V d c i).loc cc0_scratch1 ↦{fullShare} f)
          ∗ (∃ f, (V d c i).loc cc0_scratch2 ↦{fullShare} f)
          ∗ bigSep (restRefs c i) fun b => iprop(∃ f, ((d, b) : Loc nD τ sig) ↦{fullShare} f)) := by
  unfold SparseCore.Cfg.ownBufs
  refine (SparseCore.bigSep_erase' (SparseCore.Cfg.mem_ownRefs_of_owner (p := Proc.scVector c i)
    (b := (Proc.scVector c i).devRef cc0_scratch0) rfl)).trans ?_
  rw [SparseCore.bigSep_erase' (Finset.mem_erase.mpr ⟨fun e => absurd (Proc.devRef_injective _ e) (show (cc0_scratch1 : Ref sig .scVector) ≠ cc0_scratch0 by decide),
      SparseCore.Cfg.mem_ownRefs_of_owner (p := Proc.scVector c i) (b := (Proc.scVector c i).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
        SparseCore.Cfg.mem_ownRefs_of_owner (p := Proc.scVector c i) (b := (Proc.scVector c i).devRef cc0_scratch2) rfl⟩⟩)]

end Cert.Kernel.ScSetup

end
-- ==== Proof.BScTileDefs.lean ====
/-
  The gather kernel on one vector subcore (tile): the names its obligation is stated over.

  The tile at grid point (core, subcore) works on the 512 batch rows `[base, base + 512)`,
  `base = 1024 · subcore + 512 · core`. It reads its 512 words of the user and of the item index array, and for each
  of the four chunks of 128 words writes two blocks of the output: rows `[base + 128 j, base + 128 j + 128)`,
  columns `[0, 128)` from the user table and columns `[128, 256)` from the item table. Row `ρ` of a block is the
  table's row whose number is word `ρ` of the chunk (`blockPay`, read at an index by `blockPay_apply`).

  What the tile is handed and hands back is stated here so that the launch can deal it out: a read share of each of
  the four input arrays, whole, at the launch contents (`inputs`), and full ownership of the eight output blocks,
  each held on exactly the elements of the slice the program addresses it by (`blocksIn`, `blocksOut`). Every word
  of either index array must name a row of its table (`PreOK`): the gathers are served entry by entry, and an entry
  out of range would never be served.
-/
import proofs.«201366_g32727650796262_cont_8to1_b_1271_35_alg».proof.Proof.BScSetup
import Idealize.ShloMosaic.Lib.ValueIdx

noncomputable section

namespace Cert.Kernel.ScTile

open Cert.Kernel Cert.Kernel.Gen Cert.Kernel.ScSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable {U : Type} [URA U] [CountersIn U]

local notation "𝕄" => MT nD τ sig (HIx 1) (Elt F) ℕ U ℕ

local notation "uiV" => (Memref.whole Cert.Kernel.main_arg0_scv : Memref Cert.Kernel.sig Kind.scVector Space.hbm Cert.Kernel.S16384 EltTy.i32)
local notation "iiV" => (Memref.whole Cert.Kernel.main_arg1_scv : Memref Cert.Kernel.sig Kind.scVector Space.hbm Cert.Kernel.S16384 EltTy.i32)
local notation "utV" => (Memref.whole Cert.Kernel.main_arg2_scv : Memref Cert.Kernel.sig Kind.scVector Space.hbm Cert.Kernel.S100000x128 EltTy.f32)
local notation "itV" => (Memref.whole Cert.Kernel.main_arg3_scv : Memref Cert.Kernel.sig Kind.scVector Space.hbm Cert.Kernel.S100000x128 EltTy.f32)
local notation "oV" => (Memref.whole Cert.Kernel.main_v0_scv : Memref Cert.Kernel.sig Kind.scVector Space.hbm Cert.Kernel.S16384x256 EltTy.f32)
local notation "usV" => (Memref.whole Cert.Kernel.cc0_scratch0 : Memref Cert.Kernel.sig Kind.scVector Space.vmem Cert.Kernel.S512 EltTy.i32)
local notation "isV" => (Memref.whole Cert.Kernel.cc0_scratch1 : Memref Cert.Kernel.sig Kind.scVector Space.vmem Cert.Kernel.S512 EltTy.i32)
local notation "bV" => (Memref.whole Cert.Kernel.cc0_scratch2 : Memref Cert.Kernel.sig Kind.scVector Space.vmem Cert.Kernel.S4x128x128 EltTy.f32)

/-! ## The launch memory and the arrays -/

variable (m : (ℓ : Loc nD τ sig) → Buf (Elt F) ℓ)

abbrev uiLoc (d : Dev nD) : Loc nD τ sig := (SparseCore.T d).loc main_arg0
abbrev iiLoc (d : Dev nD) : Loc nD τ sig := (SparseCore.T d).loc main_arg1
abbrev utLoc (d : Dev nD) : Loc nD τ sig := (SparseCore.T d).loc main_arg2
abbrev itLoc (d : Dev nD) : Loc nD τ sig := (SparseCore.T d).loc main_arg3
abbrev oLoc (d : Dev nD) : Loc nD τ sig := (SparseCore.T d).loc main_v0

/-- What the proof asks of the launch memory: every word of either index array names a row of its table. -/
def PreOK : Prop := ∀ (d : Dev nD) (j : S16384.Idx), (m (uiLoc d) j).toNat < 100000 ∧ (m (iiLoc d) j).toNat < 100000

/-! ## The tile's views, spelt as the program slices them -/

section Views

variable (L : grid0.Coords)

/-- The tile's 512 words of the user and of the item index array: words `[base, base + 512)`. -/
abbrev uiS : Memref sig .scVector .hbm S512 .i32 := (uiV).slice (Rect.unit (s := S16384) (k0_off1 L) S512.size (k0_off1_inb L)) (fun _ => rfl)
abbrev iiS : Memref sig .scVector .hbm S512 .i32 := (iiV).slice (Rect.unit (s := S16384) (k0_off1 L) S512.size (k0_off1_inb L)) (fun _ => rfl)
/-- The two tables, whole, as the gathers address them. -/
abbrev utS : Memref sig .scVector .hbm S100000x128 .f32 := (utV).slice (Rect.unit (s := S100000x128) ![0, 0] S100000x128.size inb_S100000x128_S100000x128_0_0) (fun _ => rfl)
abbrev itS : Memref sig .scVector .hbm S100000x128 .f32 := (itV).slice (Rect.unit (s := S100000x128) ![0, 0] S100000x128.size inb_S100000x128_S100000x128_0_0) (fun _ => rfl)
/-- Chunk 0 (words `[0, 128)`) of a 512-word index list. -/
abbrev chunk0 : Rect S512 := Rect.unit (s := S512) ![0] S128.size inb_S512_S128_0
abbrev usC0 : Memref sig .scVector .vmem S128 .i32 := (usV).slice chunk0 (fun _ => rfl)
abbrev isC0 : Memref sig .scVector .vmem S128 .i32 := (isV).slice chunk0 (fun _ => rfl)
/-- Row buffer 0: plane 0 of the `[4, 128, 128]` scratch, squeezed. -/
abbrev buf0 : Memref sig .scVector .vmem S128x128 .f32 :=
  ((bV).slice (Rect.unit (s := S4x128x128) ![0, 0, 0] S1x128x128.size inb_S4x128x128_S1x128x128_0_0_0) (fun _ => rfl)).squeeze S128x128 squeezes_S1x128x128_S128x128
/-- Output block (user half, chunk 0): rows `[base + 0, base + 128)`, columns `[0, 128)`. -/
abbrev oU0 : Memref sig .scVector .hbm S128x128 .f32 := (oV).slice (Rect.unit (s := S16384x256) (k0_off2 L 0#32) S128x128.size (k0_off2_inb L 0)) (fun _ => rfl)
/-- Output block (item half, chunk 0): the same rows, columns `[128, 256)`. -/
abbrev oI0 : Memref sig .scVector .hbm S128x128 .f32 := (oV).slice (Rect.unit (s := S16384x256) (k0_off3 L 0#32) S128x128.size (k0_off3_inb L 0)) (fun _ => rfl)
/-- Chunk 1 (words `[128, 256)`) of a 512-word index list. -/
abbrev chunk1 : Rect S512 := Rect.unit (s := S512) ![128] S128.size inb_S512_S128_128
abbrev usC1 : Memref sig .scVector .vmem S128 .i32 := (usV).slice chunk1 (fun _ => rfl)
abbrev isC1 : Memref sig .scVector .vmem S128 .i32 := (isV).slice chunk1 (fun _ => rfl)
/-- Row buffer 1: plane 1 of the `[4, 128, 128]` scratch, squeezed. -/
abbrev buf1 : Memref sig .scVector .vmem S128x128 .f32 :=
  ((bV).slice (Rect.unit (s := S4x128x128) ![1, 0, 0] S1x128x128.size inb_S4x128x128_S1x128x128_1_0_0) (fun _ => rfl)).squeeze S128x128 squeezes_S1x128x128_S128x128
/-- Output block (user half, chunk 1): rows `[base + 128, base + 256)`, columns `[0, 128)`. -/
abbrev oU1 : Memref sig .scVector .hbm S128x128 .f32 := (oV).slice (Rect.unit (s := S16384x256) (k0_off2 L 128#32) S128x128.size (k0_off2_inb L 1)) (fun _ => rfl)
/-- Output block (item half, chunk 1): the same rows, columns `[128, 256)`. -/
abbrev oI1 : Memref sig .scVector .hbm S128x128 .f32 := (oV).slice (Rect.unit (s := S16384x256) (k0_off3 L 128#32) S128x128.size (k0_off3_inb L 1)) (fun _ => rfl)
/-- Chunk 2 (words `[256, 384)`) of a 512-word index list. -/
abbrev chunk2 : Rect S512 := Rect.unit (s := S512) ![256] S128.size inb_S512_S128_256
abbrev usC2 : Memref sig .scVector .vmem S128 .i32 := (usV).slice chunk2 (fun _ => rfl)
abbrev isC2 : Memref sig .scVector .vmem S128 .i32 := (isV).slice chunk2 (fun _ => rfl)
/-- Row buffer 2: plane 2 of the `[4, 128, 128]` scratch, squeezed. -/
abbrev buf2 : Memref sig .scVector .vmem S128x128 .f32 :=
  ((bV).slice (Rect.unit (s := S4x128x128) ![2, 0, 0] S1x128x128.size inb_S4x128x128_S1x128x128_2_0_0) (fun _ => rfl)).squeeze S128x128 squeezes_S1x128x128_S128x128
/-- Output block (user half, chunk 2): rows `[base + 256, base + 384)`, columns `[0, 128)`. -/
abbrev oU2 : Memref sig .scVector .hbm S128x128 .f32 := (oV).slice (Rect.unit (s := S16384x256) (k0_off2 L 256#32) S128x128.size (k0_off2_inb L 2)) (fun _ => rfl)
/-- Output block (item half, chunk 2): the same rows, columns `[128, 256)`. -/
abbrev oI2 : Memref sig .scVector .hbm S128x128 .f32 := (oV).slice (Rect.unit (s := S16384x256) (k0_off3 L 256#32) S128x128.size (k0_off3_inb L 2)) (fun _ => rfl)
/-- Chunk 3 (words `[384, 512)`) of a 512-word index list. -/
abbrev chunk3 : Rect S512 := Rect.unit (s := S512) ![384] S128.size inb_S512_S128_384
abbrev usC3 : Memref sig .scVector .vmem S128 .i32 := (usV).slice chunk3 (fun _ => rfl)
abbrev isC3 : Memref sig .scVector .vmem S128 .i32 := (isV).slice chunk3 (fun _ => rfl)
/-- Row buffer 3: plane 3 of the `[4, 128, 128]` scratch, squeezed. -/
abbrev buf3 : Memref sig .scVector .vmem S128x128 .f32 :=
  ((bV).slice (Rect.unit (s := S4x128x128) ![3, 0, 0] S1x128x128.size inb_S4x128x128_S1x128x128_3_0_0) (fun _ => rfl)).squeeze S128x128 squeezes_S1x128x128_S128x128
/-- Output block (user half, chunk 3): rows `[base + 384, base + 512)`, columns `[0, 128)`. -/
abbrev oU3 : Memref sig .scVector .hbm S128x128 .f32 := (oV).slice (Rect.unit (s := S16384x256) (k0_off2 L 384#32) S128x128.size (k0_off2_inb L 3)) (fun _ => rfl)
/-- Output block (item half, chunk 3): the same rows, columns `[128, 256)`. -/
abbrev oI3 : Memref sig .scVector .hbm S128x128 .f32 := (oV).slice (Rect.unit (s := S16384x256) (k0_off3 L 384#32) S128x128.size (k0_off3_inb L 3)) (fun _ => rfl)

end Views

/-! ## What the tile leaves in its output blocks -/

section Payload

variable (d : Dev nD) (L : grid0.Coords)

/-- The offset lists as launched: chunk `j` of the tile's 512 words of the user (item) index array. -/
abbrev uLst0 : S128.Idx → Elt F .i32 := ((uiS L).slice chunk0 (fun _ => rfl)).view.read (Elt F) (m (uiLoc d))
abbrev iLst0 : S128.Idx → Elt F .i32 := ((iiS L).slice chunk0 (fun _ => rfl)).view.read (Elt F) (m (iiLoc d))
abbrev uLst1 : S128.Idx → Elt F .i32 := ((uiS L).slice chunk1 (fun _ => rfl)).view.read (Elt F) (m (uiLoc d))
abbrev iLst1 : S128.Idx → Elt F .i32 := ((iiS L).slice chunk1 (fun _ => rfl)).view.read (Elt F) (m (iiLoc d))
abbrev uLst2 : S128.Idx → Elt F .i32 := ((uiS L).slice chunk2 (fun _ => rfl)).view.read (Elt F) (m (uiLoc d))
abbrev iLst2 : S128.Idx → Elt F .i32 := ((iiS L).slice chunk2 (fun _ => rfl)).view.read (Elt F) (m (iiLoc d))
abbrev uLst3 : S128.Idx → Elt F .i32 := ((uiS L).slice chunk3 (fun _ => rfl)).view.read (Elt F) (m (uiLoc d))
abbrev iLst3 : S128.Idx → Elt F .i32 := ((iiS L).slice chunk3 (fun _ => rfl)).view.read (Elt F) (m (iiLoc d))

/-- The tables as launched. -/
abbrev uTab : S100000x128.Idx → Elt F .f32 := (utS).view.read (Elt F) (m (utLoc d))
abbrev iTab : S100000x128.Idx → Elt F .f32 := (itS).view.read (Elt F) (m (itLoc d))

/-- A gathered block: row `ρ` of the block is the table's row named by word `ρ` of the list. -/
abbrev blockPay (tab : S100000x128.Idx → Elt F .f32) (lst : S128.Idx → Elt F .i32)
    (hin : ∀ x, (lst x).toNat < S100000x128.size gathers_S100000x128_S128x128.axis) : S128x128.Idx → Elt F .f32 :=
  SparseCore.gatherPayload gathers_S100000x128_S128x128 tab (SparseCore.rows lst (rfl : S128.numel = S128x128.size gathers_S100000x128_S128x128.axis') hin)

end Payload

/-! ## A gathered block read at an index -/

section PayApply

open Idealize.ShloMosaic.ValueIdx

/-- Row `ρ`, column `κ` of a gathered block is the table at the row that word `ρ` of the list names, column `κ`. -/
theorem blockPay_apply (tab : S100000x128.Idx → Elt F .f32) (lst : S128.Idx → Elt F .i32)
    (hin : ∀ x, (lst x).toNat < S100000x128.size gathers_S100000x128_S128x128.axis) (ρ κ : Fin 128) :
    blockPay tab lst hin (ix2 ρ κ) = tab (ix2 ⟨(lst (ix1 ρ)).toNat, hin (ix1 ρ)⟩ κ) := by
  show tab (gathers_S100000x128_S128x128.idx _ (ix2 ρ κ)) = _
  congr 1
  funext b
  match b with
  | ⟨0, _⟩ =>
    apply Fin.ext
    show (lst (S128.rowMajor.symm _)).toNat = (lst (ix1 ρ)).toNat
    congr 2
    apply S128.rowMajor.injective
    rw [Equiv.apply_symm_apply]
    apply Fin.ext
    rw [Shape.rowMajor_val_one]
    rfl
  | ⟨1, _⟩ => rfl

end PayApply

/-! ## The offsets are in range -/

section InRange

variable (d : Dev nD) (L : grid0.Coords)

theorem uLst0_inb (hpre : PreOK m) : ∀ x, (uLst0 m d L x).toNat < S100000x128.size gathers_S100000x128_S128x128.axis := by
  intro x
  have e : uLst0 m d L x = m (uiLoc d) (((uiS L).slice chunk0 (fun _ => rfl)).view.emb x) := (View.read_apply _ _).trans (cast_eq _ _)
  rw [e]; exact (hpre d _).1
theorem iLst0_inb (hpre : PreOK m) : ∀ x, (iLst0 m d L x).toNat < S100000x128.size gathers_S100000x128_S128x128.axis := by
  intro x
  have e : iLst0 m d L x = m (iiLoc d) (((iiS L).slice chunk0 (fun _ => rfl)).view.emb x) := (View.read_apply _ _).trans (cast_eq _ _)
  rw [e]; exact (hpre d _).2

theorem uLst1_inb (hpre : PreOK m) : ∀ x, (uLst1 m d L x).toNat < S100000x128.size gathers_S100000x128_S128x128.axis := by
  intro x
  have e : uLst1 m d L x = m (uiLoc d) (((uiS L).slice chunk1 (fun _ => rfl)).view.emb x) := (View.read_apply _ _).trans (cast_eq _ _)
  rw [e]; exact (hpre d _).1
theorem iLst1_inb (hpre : PreOK m) : ∀ x, (iLst1 m d L x).toNat < S100000x128.size gathers_S100000x128_S128x128.axis := by
  intro x
  have e : iLst1 m d L x = m (iiLoc d) (((iiS L).slice chunk1 (fun _ => rfl)).view.emb x) := (View.read_apply _ _).trans (cast_eq _ _)
  rw [e]; exact (hpre d _).2

theorem uLst2_inb (hpre : PreOK m) : ∀ x, (uLst2 m d L x).toNat < S100000x128.size gathers_S100000x128_S128x128.axis := by
  intro x
  have e : uLst2 m d L x = m (uiLoc d) (((uiS L).slice chunk2 (fun _ => rfl)).view.emb x) := (View.read_apply _ _).trans (cast_eq _ _)
  rw [e]; exact (hpre d _).1
theorem iLst2_inb (hpre : PreOK m) : ∀ x, (iLst2 m d L x).toNat < S100000x128.size gathers_S100000x128_S128x128.axis := by
  intro x
  have e : iLst2 m d L x = m (iiLoc d) (((iiS L).slice chunk2 (fun _ => rfl)).view.emb x) := (View.read_apply _ _).trans (cast_eq _ _)
  rw [e]; exact (hpre d _).2

theorem uLst3_inb (hpre : PreOK m) : ∀ x, (uLst3 m d L x).toNat < S100000x128.size gathers_S100000x128_S128x128.axis := by
  intro x
  have e : uLst3 m d L x = m (uiLoc d) (((uiS L).slice chunk3 (fun _ => rfl)).view.emb x) := (View.read_apply _ _).trans (cast_eq _ _)
  rw [e]; exact (hpre d _).1
theorem iLst3_inb (hpre : PreOK m) : ∀ x, (iLst3 m d L x).toNat < S100000x128.size gathers_S100000x128_S128x128.axis := by
  intro x
  have e : iLst3 m d L x = m (iiLoc d) (((iiS L).slice chunk3 (fun _ => rfl)).view.emb x) := (View.read_apply _ _).trans (cast_eq _ _)
  rw [e]; exact (hpre d _).2

end InRange

/-! ## What the two synchronous copies leave in the index scratches -/

section Scratch

variable (d : Dev nD) (L : grid0.Coords)

/-- The tile's 512 words of the user (item) index array, as the index scratch holds them after its copy. -/
abbrev usW : S512.Idx → Elt F .i32 := (uiS L).view.read (Elt F) (m (uiLoc d))
abbrev isW : S512.Idx → Elt F .i32 := (iiS L).view.read (Elt F) (m (iiLoc d))

end Scratch

/-! ## The tile's obligation -/

abbrev oU0Set (L : grid0.Coords) : Finset S16384x256.Idx := (oU0 L).view.set
abbrev oU1Set (L : grid0.Coords) : Finset S16384x256.Idx := (oU1 L).view.set
abbrev oU2Set (L : grid0.Coords) : Finset S16384x256.Idx := (oU2 L).view.set
abbrev oU3Set (L : grid0.Coords) : Finset S16384x256.Idx := (oU3 L).view.set
abbrev oI0Set (L : grid0.Coords) : Finset S16384x256.Idx := (oI0 L).view.set
abbrev oI1Set (L : grid0.Coords) : Finset S16384x256.Idx := (oI1 L).view.set
abbrev oI2Set (L : grid0.Coords) : Finset S16384x256.Idx := (oI2 L).view.set
abbrev oI3Set (L : grid0.Coords) : Finset S16384x256.Idx := (oI3 L).view.set

section Tile

variable (d : Dev nD) (L : grid0.Coords)

/-- Block (user half, chunk 0) after the tile: the launch contents of the output with the gathered block written on the block's elements. -/
abbrev oU0Val (hpre : PreOK m) : Buf (Elt F) (oLoc d) :=
  (oU0 L).view.write (Elt F) (m (oLoc d)) (blockPay (uTab m d) (uLst0 m d L) (uLst0_inb m d L hpre)) Finset.univ
/-- Block (user half, chunk 1) after the tile: the launch contents of the output with the gathered block written on the block's elements. -/
abbrev oU1Val (hpre : PreOK m) : Buf (Elt F) (oLoc d) :=
  (oU1 L).view.write (Elt F) (m (oLoc d)) (blockPay (uTab m d) (uLst1 m d L) (uLst1_inb m d L hpre)) Finset.univ
/-- Block (user half, chunk 2) after the tile: the launch contents of the output with the gathered block written on the block's elements. -/
abbrev oU2Val (hpre : PreOK m) : Buf (Elt F) (oLoc d) :=
  (oU2 L).view.write (Elt F) (m (oLoc d)) (blockPay (uTab m d) (uLst2 m d L) (uLst2_inb m d L hpre)) Finset.univ
/-- Block (user half, chunk 3) after the tile: the launch contents of the output with the gathered block written on the block's elements. -/
abbrev oU3Val (hpre : PreOK m) : Buf (Elt F) (oLoc d) :=
  (oU3 L).view.write (Elt F) (m (oLoc d)) (blockPay (uTab m d) (uLst3 m d L) (uLst3_inb m d L hpre)) Finset.univ
/-- Block (item half, chunk 0) after the tile: the launch contents of the output with the gathered block written on the block's elements. -/
abbrev oI0Val (hpre : PreOK m) : Buf (Elt F) (oLoc d) :=
  (oI0 L).view.write (Elt F) (m (oLoc d)) (blockPay (iTab m d) (iLst0 m d L) (iLst0_inb m d L hpre)) Finset.univ
/-- Block (item half, chunk 1) after the tile: the launch contents of the output with the gathered block written on the block's elements. -/
abbrev oI1Val (hpre : PreOK m) : Buf (Elt F) (oLoc d) :=
  (oI1 L).view.write (Elt F) (m (oLoc d)) (blockPay (iTab m d) (iLst1 m d L) (iLst1_inb m d L hpre)) Finset.univ
/-- Block (item half, chunk 2) after the tile: the launch contents of the output with the gathered block written on the block's elements. -/
abbrev oI2Val (hpre : PreOK m) : Buf (Elt F) (oLoc d) :=
  (oI2 L).view.write (Elt F) (m (oLoc d)) (blockPay (iTab m d) (iLst2 m d L) (iLst2_inb m d L hpre)) Finset.univ
/-- Block (item half, chunk 3) after the tile: the launch contents of the output with the gathered block written on the block's elements. -/
abbrev oI3Val (hpre : PreOK m) : Buf (Elt F) (oLoc d) :=
  (oI3 L).view.write (Elt F) (m (oLoc d)) (blockPay (iTab m d) (iLst3 m d L) (iLst3_inb m d L hpre)) Finset.univ

/-- The read shares of the four input arrays, whole, at the launch contents. -/
abbrev inputs (qui qii qut qit : PosShare TreeShare) : sProp 𝕄 :=
  iprop((uiLoc d ↦{qui} m (uiLoc d)) ∗ (iiLoc d ↦{qii} m (iiLoc d)) ∗ (utLoc d ↦{qut} m (utLoc d)) ∗ (itLoc d ↦{qit} m (itLoc d)))

/-- The tile's eight output blocks as launched. -/
abbrev blocksIn : sProp 𝕄 :=
  iprop((oLoc d ↦[oU0Set L]{fullShare} m (oLoc d))
          ∗ (oLoc d ↦[oU1Set L]{fullShare} m (oLoc d))
          ∗ (oLoc d ↦[oU2Set L]{fullShare} m (oLoc d))
          ∗ (oLoc d ↦[oU3Set L]{fullShare} m (oLoc d))
          ∗ (oLoc d ↦[oI0Set L]{fullShare} m (oLoc d))
          ∗ (oLoc d ↦[oI1Set L]{fullShare} m (oLoc d))
          ∗ (oLoc d ↦[oI2Set L]{fullShare} m (oLoc d))
          ∗ (oLoc d ↦[oI3Set L]{fullShare} m (oLoc d)))

/-- The tile's eight output blocks, each at the gathered rows. -/
abbrev blocksOut (hpre : PreOK m) : sProp 𝕄 :=
  iprop((oLoc d ↦[oU0Set L]{fullShare} oU0Val m d L hpre)
          ∗ (oLoc d ↦[oU1Set L]{fullShare} oU1Val m d L hpre)
          ∗ (oLoc d ↦[oU2Set L]{fullShare} oU2Val m d L hpre)
          ∗ (oLoc d ↦[oU3Set L]{fullShare} oU3Val m d L hpre)
          ∗ (oLoc d ↦[oI0Set L]{fullShare} oI0Val m d L hpre)
          ∗ (oLoc d ↦[oI1Set L]{fullShare} oI1Val m d L hpre)
          ∗ (oLoc d ↦[oI2Set L]{fullShare} oI2Val m d L hpre)
          ∗ (oLoc d ↦[oI3Set L]{fullShare} oI3Val m d L hpre))

end Tile

end Cert.Kernel.ScTile

end
-- ==== Proof.BSplit.lean ====
/-
  The SparseCore call's operands, dealt to the thirty-two tiles and gathered back.

  The call takes five arrays from the TensorCore: the two arrays of row numbers and the two tables, which it only
  reads, and the array of gathered rows, which it fills.  Each of the thirty-two tiles (two SparseCores, sixteen vector
  subcores each) reads all four inputs, so each gets a read share of every one of them: the full share halved once for
  the SparseCore and four more times for the subcore.  A tile writes eight blocks of the gathered array — for each of
  its four groups of 128 batch rows the left half of the columns (from the user table) and the right half (from the item
  table) — and the 256 blocks of all tiles are pairwise disjoint and cover the array: the tile at (core c, subcore s)
  owns rows [1024·s + 512·c, +512).  So the array's ownership splits into the blocks' and joins back from them.

  What comes back in a block is the table row each batch row names; all blocks together are ONE function of the launch
  memory, `gathered`: at (r, k) the user table's row `u[r]` at column k when k < 128, the item table's row `v[r]` at
  column k − 128 otherwise (the row number read unsigned and clamped into the table, so that the function is total; under
  the precondition no clamp happens).  Ownership of a set of elements depends only on the contents on that set, so each
  block may be restated at `gathered` and the blocks joined into the whole array at `gathered`.
-/
import proofs.«201366_g32727650796262_cont_8to1_b_1271_35_alg».proof.Proof.BMain
import proofs.«201366_g32727650796262_cont_8to1_b_1271_35_alg».proof.Proof.BScTileDefs
import proofs.«201366_g32727650796262_cont_8to1_b_1271_35_alg».proof.Proof.SplitShares
import proofs.«201366_g32727650796262_cont_8to1_b_1271_35_alg».proof.Proof.Spec

noncomputable section

namespace Cert.Kernel.Launch

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.ValueIdx
open Cert.ShareLeaves

variable {F : FTy → Type} [FloatOps F]

local notation "𝕄" => MT nD τ sig (HIx 1) (Elt F) ℕ UU ℕ

variable (m : (ℓ : Loc nD τ sig) → Buf (Elt F) ℓ)

/-! ## The gathered array as one function of the launch memory -/

/-- Row `r` of the user (item) index array, read unsigned and clamped into the table. -/
def uRow (d : Dev nD) (r : Fin 16384) : Fin 100000 :=
  ⟨min ((m (ScTile.uiLoc d) : IVec S16384 32) (ix1 r)).toNat 99999, by omega⟩
def iRow (d : Dev nD) (r : Fin 16384) : Fin 100000 :=
  ⟨min ((m (ScTile.iiLoc d) : IVec S16384 32) (ix1 r)).toNat 99999, by omega⟩

/-- The gathered array: the user table's row in the left half of the columns, the item table's in the right half. -/
def gathered (d : Dev nD) : Buf (Elt F) ((d : Thread nD τ).loc main_v0) :=
  ((fun j : S16384x256.Idx =>
      if h : (j 1).val < 128 then
        (m (ScTile.utLoc d) : FVec F S100000x128 .f32) (ix2 (uRow m d ⟨(j 0).val, idx2_lt0 j⟩) (⟨(j 1).val, h⟩ : Fin 128))
      else
        (m (ScTile.itLoc d) : FVec F S100000x128 .f32)
          (ix2 (iRow m d ⟨(j 0).val, idx2_lt0 j⟩) (⟨(j 1).val - 128, by have := idx2_lt1 j; omega⟩ : Fin 128))) :
    FVec F S16384x256 .f32)

/-! ## What the handshakes carry -/

/-- The tile at SparseCore `c`, vector subcore `i`, as a point of the kernel's grid. -/
abbrev tileL (c : Fin ((K (F := F)).nCore 0)) (i : Fin ((K (F := F)).nSub 0)) : grid0.Coords :=
  ScSetup.coordsV (Fin.cast (show (K (F := F)).nCore 0 = grid0.bound 0 from rfl) c)
    (Fin.cast (show (K (F := F)).nSub 0 = grid0.bound 1 from rfl) i)

/-- A tile's read share: the full share halved once for its SparseCore, four times for its subcore. -/
def tileShare (c : Fin 2) (i : Fin 16) : PosShare TreeShare := leaf 4 (leaf 1 fullShare c) i

abbrev tileQ (c : Fin ((K (F := F)).nCore 0)) (i : Fin ((K (F := F)).nSub 0)) : PosShare TreeShare :=
  tileShare (Fin.cast (nCore_zero (F := F)) c) (Fin.cast (nSub_zero (F := F)) i)

/-- What a tile is handed: its share of the four inputs and its eight blocks as launched. -/
abbrev goP (d : Dev nD) (c : Fin ((K (F := F)).nCore 0)) (i : Fin ((K (F := F)).nSub 0)) : sProp 𝕄 :=
  iprop(ScTile.inputs m d (tileQ (F := F) c i) (tileQ (F := F) c i) (tileQ (F := F) c i) (tileQ (F := F) c i)
    ∗ ScTile.blocksIn m d (tileL (F := F) c i))

/-- What a tile hands back: the same shares and its eight blocks at the gathered rows. -/
abbrev tdP (hpre : ScTile.PreOK m) (d : Dev nD) (c : Fin ((K (F := F)).nCore 0)) (i : Fin ((K (F := F)).nSub 0)) : sProp 𝕄 :=
  iprop(ScTile.inputs m d (tileQ (F := F) c i) (tileQ (F := F) c i) (tileQ (F := F) c i) (tileQ (F := F) c i)
    ∗ ScTile.blocksOut m d (tileL (F := F) c i) hpre)

/-- The one call: a SparseCore's sequencer is handed exactly what its sixteen tiles are, and hands back what they do. -/
def P (hpre : ScTile.PreOK m) : (K (F := F)).Pay (nD := nD) (Val := Elt F) (Name := ℕ) (U := UU) where
  st := fun q d c => match q with | 0 => bigSep Finset.univ fun i : Fin ((K (F := F)).nSub 0) => goP m d c i
  dn := fun q d c => match q with | 0 => bigSep Finset.univ fun i : Fin ((K (F := F)).nSub 0) => tdP m hpre d c i
  go := fun q d c i => match q with | 0 => goP m d c i
  td := fun q d c i => match q with | 0 => tdP m hpre d c i
  x := fun _ _ => iprop(emp)

instance P_storable (hpre : ScTile.PreOK m) : (P (F := F) m hpre).IsStorable where
  st q d c := match q with
    | 0 => (inferInstance : BI.Storable (upEmb : UEmb _ 𝕄) (bigSep Finset.univ fun i : Fin ((K (F := F)).nSub 0) => goP m d c i))
  dn q d c := match q with
    | 0 => (inferInstance : BI.Storable (upEmb : UEmb _ 𝕄) (bigSep Finset.univ fun i : Fin ((K (F := F)).nSub 0) => tdP m hpre d c i))
  go q d c i := match q with
    | 0 => (inferInstance : BI.Storable (upEmb : UEmb _ 𝕄) (goP m d c i))
  td q d c i := match q with
    | 0 => (inferInstance : BI.Storable (upEmb : UEmb _ 𝕄) (tdP m hpre d c i))

theorem P_x (hpre : ScTile.PreOK m) : (P (F := F) m hpre).x = fun _ _ => iprop(emp) := rfl
theorem P_held (hpre : ScTile.PreOK m) : (P (F := F) m hpre).held = ∅ := rfl

/-- The sequencer's hand is its tiles' hands, both ways. -/
theorem vecSplit (hpre : ScTile.PreOK m) : (K (F := F)).VecSplit' (P m hpre) 0 := by
  intro d c
  show (bigSep Finset.univ fun i : Fin ((K (F := F)).nSub 0) => goP m d c i)
    ⊢ |={Set.univ}=> iprop((bigSep Finset.univ fun i : Fin ((K (F := F)).nSub 0) => goP m d c i)
        ∗ ((bigSep Finset.univ fun i : Fin ((K (F := F)).nSub 0) => tdP m hpre d c i)
            -∗ bigSep Finset.univ fun i : Fin ((K (F := F)).nSub 0) => tdP m hpre d c i))
  iintro H
  imodintro
  isplitl [H]; · iexact H
  iintro H'
  iexact H'

local notation "oV" => (Memref.whole Cert.Kernel.main_v0_scv : Memref Cert.Kernel.sig Kind.scVector Space.hbm Cert.Kernel.S16384x256 EltTy.f32)

/-- The elements of the 128×128 block of the gathered array at offsets `off`. -/
theorem mem_slice (off : Fin 2 → Nat) (inb : ∀ a, off a + S128x128.size a ≤ S16384x256.size a) (x : S16384x256.Idx) :
    x ∈ ((oV).slice (Rect.unit (s := S16384x256) off S128x128.size inb) (fun _ => rfl)).view.set
      ↔ (off 0 ≤ (x 0).val ∧ (x 0).val < off 0 + 128) ∧ (off 1 ≤ (x 1).val ∧ (x 1).val < off 1 + 128) := by
  show x ∈ ((View.whole main_v0_scv).slice (Rect.unit (s := S16384x256) off S128x128.size inb)).set ↔ _
  rw [View.set_slice_whole, Rect.mem_set_unit]
  exact ⟨fun h => ⟨h 0, h 1⟩, fun h a => match a with | ⟨0, _⟩ => h.1 | ⟨1, _⟩ => h.2⟩

theorem mem_oU0 (L : grid0.Coords) (x : S16384x256.Idx) :
    x ∈ ScTile.oU0Set L
      ↔ (1024 * (L 1).val + 512 * (L 0).val + 128 * 0 ≤ (x 0).val ∧ (x 0).val < 1024 * (L 1).val + 512 * (L 0).val + 128 * 0 + 128)
        ∧ (0 ≤ (x 1).val ∧ (x 1).val < 0 + 128) := by
  show x ∈ ((oV).slice (Rect.unit (s := S16384x256) (k0_off2 L 0#32) S128x128.size (k0_off2_inb L 0)) (fun _ => rfl)).view.set ↔ _
  rw [mem_slice, show k0_off2 L 0#32 = ![1024 * (L 1).val + 512 * (L 0).val + 128 * 0, 0] from k0_off2_eq L ⟨0, by decide⟩]
  exact Iff.rfl
theorem mem_oU1 (L : grid0.Coords) (x : S16384x256.Idx) :
    x ∈ ScTile.oU1Set L
      ↔ (1024 * (L 1).val + 512 * (L 0).val + 128 * 1 ≤ (x 0).val ∧ (x 0).val < 1024 * (L 1).val + 512 * (L 0).val + 128 * 1 + 128)
        ∧ (0 ≤ (x 1).val ∧ (x 1).val < 0 + 128) := by
  show x ∈ ((oV).slice (Rect.unit (s := S16384x256) (k0_off2 L 128#32) S128x128.size (k0_off2_inb L 1)) (fun _ => rfl)).view.set ↔ _
  rw [mem_slice, show k0_off2 L 128#32 = ![1024 * (L 1).val + 512 * (L 0).val + 128 * 1, 0] from k0_off2_eq L ⟨1, by decide⟩]
  exact Iff.rfl
theorem mem_oU2 (L : grid0.Coords) (x : S16384x256.Idx) :
    x ∈ ScTile.oU2Set L
      ↔ (1024 * (L 1).val + 512 * (L 0).val + 128 * 2 ≤ (x 0).val ∧ (x 0).val < 1024 * (L 1).val + 512 * (L 0).val + 128 * 2 + 128)
        ∧ (0 ≤ (x 1).val ∧ (x 1).val < 0 + 128) := by
  show x ∈ ((oV).slice (Rect.unit (s := S16384x256) (k0_off2 L 256#32) S128x128.size (k0_off2_inb L 2)) (fun _ => rfl)).view.set ↔ _
  rw [mem_slice, show k0_off2 L 256#32 = ![1024 * (L 1).val + 512 * (L 0).val + 128 * 2, 0] from k0_off2_eq L ⟨2, by decide⟩]
  exact Iff.rfl
theorem mem_oU3 (L : grid0.Coords) (x : S16384x256.Idx) :
    x ∈ ScTile.oU3Set L
      ↔ (1024 * (L 1).val + 512 * (L 0).val + 128 * 3 ≤ (x 0).val ∧ (x 0).val < 1024 * (L 1).val + 512 * (L 0).val + 128 * 3 + 128)
        ∧ (0 ≤ (x 1).val ∧ (x 1).val < 0 + 128) := by
  show x ∈ ((oV).slice (Rect.unit (s := S16384x256) (k0_off2 L 384#32) S128x128.size (k0_off2_inb L 3)) (fun _ => rfl)).view.set ↔ _
  rw [mem_slice, show k0_off2 L 384#32 = ![1024 * (L 1).val + 512 * (L 0).val + 128 * 3, 0] from k0_off2_eq L ⟨3, by decide⟩]
  exact Iff.rfl
theorem mem_oI0 (L : grid0.Coords) (x : S16384x256.Idx) :
    x ∈ ScTile.oI0Set L
      ↔ (1024 * (L 1).val + 512 * (L 0).val + 128 * 0 ≤ (x 0).val ∧ (x 0).val < 1024 * (L 1).val + 512 * (L 0).val + 128 * 0 + 128)
        ∧ (128 ≤ (x 1).val ∧ (x 1).val < 128 + 128) := by
  show x ∈ ((oV).slice (Rect.unit (s := S16384x256) (k0_off3 L 0#32) S128x128.size (k0_off3_inb L 0)) (fun _ => rfl)).view.set ↔ _
  rw [mem_slice, show k0_off3 L 0#32 = ![1024 * (L 1).val + 512 * (L 0).val + 128 * 0, 128] from k0_off3_eq L ⟨0, by decide⟩]
  exact Iff.rfl
theorem mem_oI1 (L : grid0.Coords) (x : S16384x256.Idx) :
    x ∈ ScTile.oI1Set L
      ↔ (1024 * (L 1).val + 512 * (L 0).val + 128 * 1 ≤ (x 0).val ∧ (x 0).val < 1024 * (L 1).val + 512 * (L 0).val + 128 * 1 + 128)
        ∧ (128 ≤ (x 1).val ∧ (x 1).val < 128 + 128) := by
  show x ∈ ((oV).slice (Rect.unit (s := S16384x256) (k0_off3 L 128#32) S128x128.size (k0_off3_inb L 1)) (fun _ => rfl)).view.set ↔ _
  rw [mem_slice, show k0_off3 L 128#32 = ![1024 * (L 1).val + 512 * (L 0).val + 128 * 1, 128] from k0_off3_eq L ⟨1, by decide⟩]
  exact Iff.rfl
theorem mem_oI2 (L : grid0.Coords) (x : S16384x256.Idx) :
    x ∈ ScTile.oI2Set L
      ↔ (1024 * (L 1).val + 512 * (L 0).val + 128 * 2 ≤ (x 0).val ∧ (x 0).val < 1024 * (L 1).val + 512 * (L 0).val + 128 * 2 + 128)
        ∧ (128 ≤ (x 1).val ∧ (x 1).val < 128 + 128) := by
  show x ∈ ((oV).slice (Rect.unit (s := S16384x256) (k0_off3 L 256#32) S128x128.size (k0_off3_inb L 2)) (fun _ => rfl)).view.set ↔ _
  rw [mem_slice, show k0_off3 L 256#32 = ![1024 * (L 1).val + 512 * (L 0).val + 128 * 2, 128] from k0_off3_eq L ⟨2, by decide⟩]
  exact Iff.rfl
theorem mem_oI3 (L : grid0.Coords) (x : S16384x256.Idx) :
    x ∈ ScTile.oI3Set L
      ↔ (1024 * (L 1).val + 512 * (L 0).val + 128 * 3 ≤ (x 0).val ∧ (x 0).val < 1024 * (L 1).val + 512 * (L 0).val + 128 * 3 + 128)
        ∧ (128 ≤ (x 1).val ∧ (x 1).val < 128 + 128) := by
  show x ∈ ((oV).slice (Rect.unit (s := S16384x256) (k0_off3 L 384#32) S128x128.size (k0_off3_inb L 3)) (fun _ => rfl)).view.set ↔ _
  rw [mem_slice, show k0_off3 L 384#32 = ![1024 * (L 1).val + 512 * (L 0).val + 128 * 3, 128] from k0_off3_eq L ⟨3, by decide⟩]
  exact Iff.rfl

/-- A tile's eight blocks, numbered as it is handed them: the four row groups' left halves, then their right halves. -/
def blkSet (L : grid0.Coords) : Fin 8 → Finset S16384x256.Idx
  | ⟨0, _⟩ => ScTile.oU0Set L | ⟨1, _⟩ => ScTile.oU1Set L | ⟨2, _⟩ => ScTile.oU2Set L | ⟨3, _⟩ => ScTile.oU3Set L
  | ⟨4, _⟩ => ScTile.oI0Set L | ⟨5, _⟩ => ScTile.oI1Set L | ⟨6, _⟩ => ScTile.oI2Set L | ⟨7, _⟩ => ScTile.oI3Set L
  | ⟨n + 8, h⟩ => absurd h (by omega)

/-- Block `k` of the tile at `L`: rows [1024·L₁ + 512·L₀ + 128·(k mod 4), +128), columns [128·(k div 4), +128). -/
theorem mem_blkSet (L : grid0.Coords) (k : Fin 8) (x : S16384x256.Idx) :
    x ∈ blkSet L k
      ↔ (1024 * (L 1).val + 512 * (L 0).val + 128 * (k.val % 4) ≤ (x 0).val ∧ (x 0).val < 1024 * (L 1).val + 512 * (L 0).val + 128 * (k.val % 4) + 128)
        ∧ (128 * (k.val / 4) ≤ (x 1).val ∧ (x 1).val < 128 * (k.val / 4) + 128) := by
  obtain ⟨k, hk⟩ := k
  interval_cases k
  · refine (mem_oU0 L x).trans ?_
    simp only [Fin.val_mk]
  · refine (mem_oU1 L x).trans ?_
    simp only [Fin.val_mk]
  · refine (mem_oU2 L x).trans ?_
    simp only [Fin.val_mk]
  · refine (mem_oU3 L x).trans ?_
    simp only [Fin.val_mk]
  · refine (mem_oI0 L x).trans ?_
    simp only [Fin.val_mk]
  · refine (mem_oI1 L x).trans ?_
    simp only [Fin.val_mk]
  · refine (mem_oI2 L x).trans ?_
    simp only [Fin.val_mk]
  · refine (mem_oI3 L x).trans ?_
    simp only [Fin.val_mk]

/-- The tile at SparseCore `c`, subcore `i`, over plain numbers. -/
abbrev tileL2 (c : Fin 2) (i : Fin 16) : grid0.Coords :=
  ScSetup.coordsV (Fin.cast ScSetup.bound_zero.symm c) (Fin.cast ScSetup.bound_one.symm i)

/-- The 256 blocks: tile (c, i), block k. -/
abbrev blkT (t : Fin 2 × (Fin 16 × Fin 8)) : Finset S16384x256.Idx := blkSet (tileL2 t.1 t.2.1) t.2.2

theorem mem_blkT (t : Fin 2 × (Fin 16 × Fin 8)) (x : S16384x256.Idx) :
    x ∈ blkT t
      ↔ (1024 * t.2.1.val + 512 * t.1.val + 128 * (t.2.2.val % 4) ≤ (x 0).val
          ∧ (x 0).val < 1024 * t.2.1.val + 512 * t.1.val + 128 * (t.2.2.val % 4) + 128)
        ∧ (128 * (t.2.2.val / 4) ≤ (x 1).val ∧ (x 1).val < 128 * (t.2.2.val / 4) + 128) :=
  mem_blkSet (tileL2 t.1 t.2.1) t.2.2 x

/-- Different blocks share no element. -/
theorem blkT_disjoint : ∀ t ∈ (Finset.univ : Finset (Fin 2 × (Fin 16 × Fin 8))), ∀ t' ∈ (Finset.univ : Finset (Fin 2 × (Fin 16 × Fin 8))),
    t ≠ t' → Disjoint (blkT t) (blkT t') := by
  intro t _ t' _ hne
  refine Finset.disjoint_left.mpr fun x hx hx' => hne ?_
  have h := (mem_blkT t x).mp hx
  have h' := (mem_blkT t' x).mp hx'
  obtain ⟨c, i, k⟩ := t
  obtain ⟨c', i', k'⟩ := t'
  have hc := c.isLt; have hc' := c'.isLt; have hi := i.isLt; have hi' := i'.isLt; have hk := k.isLt; have hk' := k'.isLt
  dsimp only at h h'
  exact Prod.ext (Fin.ext (by dsimp only; omega)) (Prod.ext (Fin.ext (by dsimp only; omega)) (Fin.ext (by dsimp only; omega)))

/-- Every element lies in a block. -/
theorem blkT_cover : (Finset.univ : Finset (Fin 2 × (Fin 16 × Fin 8))).biUnion blkT = Finset.univ := by
  refine Finset.eq_univ_of_forall fun x => Finset.mem_biUnion.mpr ?_
  have h0 : (x 0).val < 16384 := idx2_lt0 x
  have h1 : (x 1).val < 256 := idx2_lt1 x
  refine ⟨(⟨(x 0).val % 1024 / 512, by omega⟩, (⟨(x 0).val / 1024, by omega⟩, ⟨4 * ((x 1).val / 128) + (x 0).val % 512 / 128, by omega⟩)),
    Finset.mem_univ _, ?_⟩
  rw [mem_blkT]
  dsimp only
  omega

/-- The gathered array whole is its 256 blocks, tile by tile. -/
theorem o_blocks (d : Dev nD) (f : Buf (Elt F) (ScTile.oLoc d)) :
    (ScTile.oLoc d ↦{fullShare} f : sProp 𝕄)
      = bigSep Finset.univ fun c : Fin 2 => bigSep Finset.univ fun i : Fin 16 =>
          bigSep Finset.univ fun k : Fin 8 => ScTile.oLoc d ↦[blkSet (tileL2 c i) k]{fullShare} f := by
  rw [← blkT_cover, pointsTo_biUnion Finset.univ (ℓ := ScTile.oLoc d) blkT blkT_disjoint, BI.bigSep_univ_prod]
  refine bigSep_congr fun c _ => ?_
  rw [BI.bigSep_univ_prod]

/-- Eight in a row. -/
theorem bigSep_fin_eight (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- A tile's eight blocks as launched, as one conjunction over the block number. -/
theorem blocksIn_eq (d : Dev nD) (L : grid0.Coords) :
    (ScTile.blocksIn m d L : sProp 𝕄) = bigSep Finset.univ fun k : Fin 8 => ScTile.oLoc d ↦[blkSet L k]{fullShare} m (ScTile.oLoc d) :=
  (bigSep_fin_eight (fun k : Fin 8 => (ScTile.oLoc d ↦[blkSet L k]{fullShare} m (ScTile.oLoc d) : sProp 𝕄))).symm

/-! ## The split -/

/-- The five arrays the call takes, one by one. -/
theorem held_S5 (d : Dev nD) (W : Valuation τ sig (Elt F)) :
    (held (T d) S5 W : sProp 𝕄)
      = iprop((ScTile.uiLoc d ↦{fullShare} W (main_arg0 : DevRef τ sig)) ∗ (ScTile.iiLoc d ↦{fullShare} W (main_arg1 : DevRef τ sig))
          ∗ (ScTile.utLoc d ↦{fullShare} W (main_arg2 : DevRef τ sig)) ∗ (ScTile.itLoc d ↦{fullShare} W (main_arg3 : DevRef τ sig))
          ∗ ScTile.oLoc d ↦{fullShare} W (main_v0 : DevRef τ sig)) := by
  unfold held S5
  rw [SparseCore.bigSep_insert' (by decide), SparseCore.bigSep_insert' (by decide), SparseCore.bigSep_insert' (by decide),
    SparseCore.bigSep_insert' (by decide), bigSep_singleton]

/-- An array read by every tile: its full share is the thirty-two tiles' shares. -/
theorem pts_tiles {ℓ : Loc nD τ sig} (f : Buf (Elt F) ℓ) :
    (ℓ ↦{fullShare} f : sProp 𝕄)
      = bigSep Finset.univ fun c : Fin 2 => bigSep Finset.univ fun i : Fin 16 => ℓ ↦{tileShare c i} f := by
  rw [pointsTo_leaves Finset.univ f 1 fullShare]
  refine bigSep_congr fun c _ => ?_
  exact pointsTo_leaves Finset.univ f 4 (leaf 1 fullShare c)

/-- What a tile is handed, over plain numbers. -/
abbrev goP2 (d : Dev nD) (c : Fin 2) (i : Fin 16) : sProp 𝕄 :=
  iprop(ScTile.inputs m d (tileShare c i) (tileShare c i) (tileShare c i) (tileShare c i) ∗ ScTile.blocksIn m d (tileL2 c i))

/-- A conjunction over the call's SparseCores (subcores) is one over the numbers below 2 (below 16). -/
theorem bigSep_cores (Φ : Fin 2 → sProp 𝕄) :
    (bigSep Finset.univ fun c : Fin ((K (F := F)).nCore 0) => Φ (Fin.cast (nCore_zero (F := F)) c)) = bigSep Finset.univ Φ :=
  bigSep_congr fun _ _ => congrArg Φ (Fin.ext rfl)
theorem bigSep_subs (Φ : Fin 16 → sProp 𝕄) :
    (bigSep Finset.univ fun i : Fin ((K (F := F)).nSub 0) => Φ (Fin.cast (nSub_zero (F := F)) i)) = bigSep Finset.univ Φ :=
  bigSep_congr fun _ _ => congrArg Φ (Fin.ext rfl)

/-- The five arrays as launched are what the thirty-two tiles are handed. -/
theorem hst2 (d : Dev nD) :
    (held (T d) S5 (V0 m d) : sProp 𝕄) ⊢ bigSep Finset.univ fun c : Fin 2 => bigSep Finset.univ fun i : Fin 16 => goP2 m d c i := by
  rw [held_S5]
  show iprop((ScTile.uiLoc d ↦{fullShare} m (ScTile.uiLoc d)) ∗ (ScTile.iiLoc d ↦{fullShare} m (ScTile.iiLoc d))
      ∗ (ScTile.utLoc d ↦{fullShare} m (ScTile.utLoc d)) ∗ (ScTile.itLoc d ↦{fullShare} m (ScTile.itLoc d))
      ∗ ScTile.oLoc d ↦{fullShare} m (ScTile.oLoc d)) ⊢ _
  rw [pts_tiles (m (ScTile.uiLoc d)), pts_tiles (m (ScTile.iiLoc d)), pts_tiles (m (ScTile.utLoc d)), pts_tiles (m (ScTile.itLoc d)),
    o_blocks d (m (ScTile.oLoc d))]
  have e : (bigSep Finset.univ fun c : Fin 2 => bigSep Finset.univ fun i : Fin 16 => goP2 m d c i)
      = iprop(((bigSep Finset.univ fun c : Fin 2 => bigSep Finset.univ fun i : Fin 16 => ScTile.uiLoc d ↦{tileShare c i} m (ScTile.uiLoc d))
          ∗ (bigSep Finset.univ fun c : Fin 2 => bigSep Finset.univ fun i : Fin 16 => ScTile.iiLoc d ↦{tileShare c i} m (ScTile.iiLoc d))
          ∗ (bigSep Finset.univ fun c : Fin 2 => bigSep Finset.univ fun i : Fin 16 => ScTile.utLoc d ↦{tileShare c i} m (ScTile.utLoc d))
          ∗ (bigSep Finset.univ fun c : Fin 2 => bigSep Finset.univ fun i : Fin 16 => ScTile.itLoc d ↦{tileShare c i} m (ScTile.itLoc d)))
        ∗ bigSep Finset.univ fun c : Fin 2 => bigSep Finset.univ fun i : Fin 16 =>
            bigSep Finset.univ fun k : Fin 8 => ScTile.oLoc d ↦[blkSet (tileL2 c i) k]{fullShare} m (ScTile.oLoc d)) := by
    simp only [blocksIn_eq, bigSep_sep']
  rw [e]
  iintro ⟨Ha, Hb, Hc, Hd, He⟩
  isplitr [He]
  · isplitl [Ha]; · iexact Ha
    isplitl [Hb]; · iexact Hb
    isplitl [Hc]; · iexact Hc
    iexact Hd
  · iexact He

theorem hst (hpre : ScTile.PreOK m) (d : Dev nD) :
    (held (T d) S5 (V0 m d) : sProp 𝕄) ⊢ bigSep Finset.univ fun c : Fin ((K (F := F)).nCore 0) => (P m hpre).st 0 d c := by
  refine (hst2 m d).trans (Entails.of_eq ?_)
  show _ = bigSep Finset.univ fun c : Fin ((K (F := F)).nCore 0) => bigSep Finset.univ fun i : Fin ((K (F := F)).nSub 0) =>
    goP2 m d (Fin.cast (nCore_zero (F := F)) c) (Fin.cast (nSub_zero (F := F)) i)
  rw [← bigSep_cores (F := F) (fun c => bigSep Finset.univ fun i : Fin 16 => goP2 m d c i)]
  exact bigSep_congr fun c _ => (bigSep_subs (F := F) (fun i => goP2 m d (Fin.cast (nCore_zero (F := F)) c) i)).symm

end Cert.Kernel.Launch

end
-- ==== Proof.BTileObl.lean ====
/-
  One tile's task, as the launch consumes it.

  A tile of the call is handed a share of the four input arrays and its eight blocks of the gathered array, runs the
  kernel's body at its own grid point, and hands the same shares back with the blocks filled in.  The body's
  specification is stated once, at a symbolic tile; here it is wrapped into the launch theorem's obligation: the body
  table's row for a vector subcore inside the grid is the kernel's function at that subcore's coordinates.
-/
import proofs.«201366_g32727650796262_cont_8to1_b_1271_35_alg».proof.Proof.BSplit

noncomputable section

namespace Cert.Kernel.Launch

open Cert.Kernel Cert.Kernel.Gen
open Cert.Kernel.ScSetup (cV jV coordsV)

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "uiV" => (Memref.whole Cert.Kernel.main_arg0_scv : Memref Cert.Kernel.sig Kind.scVector Space.hbm Cert.Kernel.S16384 EltTy.i32)
local notation "iiV" => (Memref.whole Cert.Kernel.main_arg1_scv : Memref Cert.Kernel.sig Kind.scVector Space.hbm Cert.Kernel.S16384 EltTy.i32)
local notation "utV" => (Memref.whole Cert.Kernel.main_arg2_scv : Memref Cert.Kernel.sig Kind.scVector Space.hbm Cert.Kernel.S100000x128 EltTy.f32)
local notation "itV" => (Memref.whole Cert.Kernel.main_arg3_scv : Memref Cert.Kernel.sig Kind.scVector Space.hbm Cert.Kernel.S100000x128 EltTy.f32)
local notation "oV" => (Memref.whole Cert.Kernel.main_v0_scv : Memref Cert.Kernel.sig Kind.scVector Space.hbm Cert.Kernel.S16384x256 EltTy.f32)
local notation "usV" => (Memref.whole Cert.Kernel.cc0_scratch0 : Memref Cert.Kernel.sig Kind.scVector Space.vmem Cert.Kernel.S512 EltTy.i32)
local notation "isV" => (Memref.whole Cert.Kernel.cc0_scratch1 : Memref Cert.Kernel.sig Kind.scVector Space.vmem Cert.Kernel.S512 EltTy.i32)
local notation "bV" => (Memref.whole Cert.Kernel.cc0_scratch2 : Memref Cert.Kernel.sig Kind.scVector Space.vmem Cert.Kernel.S4x128x128 EltTy.f32)

variable (m : (ℓ : Loc nD τ sig) → Buf (Elt F) ℓ)

/-- The body's specification at every tile, device and share: from a share of the inputs and the tile's blocks at their
    launch contents to the same share and the blocks filled in; every wait it records is at the kernels' own index. -/
def TileBody (hpre : ScTile.PreOK m) : Prop :=
  ∀ (d : Dev nD) (L : grid0.Coords) (q : PosShare TreeShare) (O : CellTallies nD τ sig (HIx 1)) (W : Waits sig (HIx 1)), (∀ g, O g none = 0) →
    iprop(levAts (K (F := F)).L (K (F := F)).lev ∗ emp
        ∗ (ScTile.inputs m d q q q q ∗ ScTile.blocksIn m d L)
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc0__gather_tec_body L uiV (Memref.isWhole_whole _) iiV (Memref.isWhole_whole _) utV (Memref.isWhole_whole _) itV (Memref.isWhole_whole _)
            oV (Memref.isWhole_whole _) usV (Memref.isWhole_whole _) isV (Memref.isWhole_whole _) bV (Memref.isWhole_whole _)
            cc0_scratch3 cc0_scratch4 cc0_scratch5 cc0_scratch6 cc0_scratch7 cc0_scratch8 cc0_scratch9 cc0_scratch10 cc0_scoped0 cc0_scoped1)
          fun _ => iprop((ScTile.inputs m d q q q q ∗ ScTile.blocksOut m d L hpre)
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄)

/-- The body table's row for a vector subcore is the kernel's function at that subcore's grid point, when the grid
    holds it. -/
theorem defs₀_vector (c : Fin τ.nSC) (s : Fin τ.nSub) :
    defs₀ (F := F) (.scVector c s) 0 ()
      = SparseCore.onTile hcore0 hsub0 (fun c s => cc0__gather_tec_body (coordsV c s)
          uiV (Memref.isWhole_whole _) iiV (Memref.isWhole_whole _) utV (Memref.isWhole_whole _) itV (Memref.isWhole_whole _)
          oV (Memref.isWhole_whole _) usV (Memref.isWhole_whole _) isV (Memref.isWhole_whole _) bV (Memref.isWhole_whole _)
          cc0_scratch3 cc0_scratch4 cc0_scratch5 cc0_scratch6 cc0_scratch7 cc0_scratch8 cc0_scratch9 cc0_scratch10 cc0_scoped0 cc0_scoped1) ⟨⟩ c s := rfl

omit [FloatOps F] in
/-- A wait recorded at the kernels' own index is one the call's obligation allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The tile's obligation of the launch theorem, from the body's specification. -/
theorem tileObl (hpre : ScTile.PreOK m) (hb : TileBody m hpre) :
    (K (F := F)).TileObl (D (F := F)) 𝒱 (P m hpre) v₀ 0 := by
  intro d c i O W hO _ _
  simp only [show (P m hpre).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (hb d (coordsV ⟨_, hci.1⟩ ⟨_, hci.2⟩) (tileQ c i) O W hO).trans (wp_mono frame _ _ fun _ => obl_post)

end Cert.Kernel.Launch

end
-- ==== Proof.BTcBody.lean ====
/-
  One grid point of the dense stack, as a statement about buffers.

  At a grid point the dense stack reads nine buffers whole — a block of 4096 concatenated embedding rows, the three
  weight matrices with their bias rows, the output row and the output bias — and writes ONE buffer whole: the
  block of 32 x 128 results.  What it writes is a function of what it read and of nothing else (`outBlk`): the three
  layers and the final inner product applied to the 4096 rows, laid out as 32 rows of 128.  The nine buffers it read
  are left as they were, and whatever the result buffer held before is forgotten.
-/
import proofs.«201366_g32727650796262_cont_8to1_b_1271_35_alg».proof.Proof.Gen.Kernel.Launch
import proofs.«201366_g32727650796262_cont_8to1_b_1271_35_alg».proof.Proof.Gen.Kernel.Skeleton
import Idealize.ShloMosaic.Lib.Pipeline.FrameBody
import Idealize.ShloMosaic.Lib.Pipeline.Value
import Idealize.ShloMosaic.Lib.ValueIdx
import Idealize.ShloMosaic.Lib.Tactic

set_option maxRecDepth 16384

noncomputable section

namespace Cert.Kernel.TcRegion

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F] {Ix : Type} [DecidableEq Ix] {U : Type} [URA U] {Lvl : Type} [Preorder Lvl]

local notation "𝕄" => MT nD τ sig Ix (Elt F) ℕ U Lvl

/-- The 32 x 128 block of results of one grid point, from the contents of the nine buffers read there: the rows
    `x0`, the layers' weights and biases `x1 … x6`, the output row `x7` and the output bias `x8`. -/
def outBlk (x0 : Vec F S4096x256 .f32) (x1 : Vec F S256x512 .bf16) (x2 : Vec F S1x512 .f32) (x3 : Vec F S512x256 .bf16) (x4 : Vec F S1x256 .f32) (x5 : Vec F S256x128 .f32) (x6 : Vec F S1x128 .f32) (x7 : Vec F S1x128 .f32) (x8 : Vec F S1x1 .f32) : Vec F S32x128 .f32 :=
  k1_pay1 (k1_pay2 x0 x1 x2 x3 x4 x5 x6 x7) x8

/-- The offsets of a rectangle that starts at the origin of a matrix. -/
theorem zeros2 : (![0, 0] : Fin 2 → Nat) = fun _ => 0 := by funext a; fin_cases a <;> rfl

set_option maxHeartbeats 1000000 in
/-- One grid point.  From the nine input buffers held whole at contents `x0 … x8` and the result buffer held whole at
    anything, the body runs to its continuation with the inputs as they were and the result buffer at
    `outBlk x0 … x8`: every load is of a whole buffer (a rectangle from the origin of the buffer's own extents reads
    the contents), and the one store covers the result buffer, so what the buffer reads afterwards is the stored
    value, whatever it held. -/
theorem sound_kernel (𝒱₀ : Variants) (c : Dev nD) (E : Set ℕ) (i : grid1.Coords) (arg1 : Memref sig .tc .vmem S4096x256 .f32) (harg1 : arg1.IsWhole) (arg2 : Memref sig .tc .vmem S256x512 .bf16) (harg2 : arg2.IsWhole) (arg3 : Memref sig .tc .vmem S1x512 .f32) (harg3 : arg3.IsWhole) (arg4 : Memref sig .tc .vmem S512x256 .bf16) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1 .f32) (harg9 : arg9.IsWhole) (arg10 : Memref sig .tc .vmem S32x128 .f32) (harg10 : arg10.IsWhole)
    (x0 : Vec F S4096x256 .f32) (x1 : Vec F S256x512 .bf16) (x2 : Vec F S1x512 .f32) (x3 : Vec F S512x256 .bf16) (x4 : Vec F S1x256 .f32) (x5 : Vec F S256x128 .f32) (x6 : Vec F S1x128 .f32) (x7 : Vec F S1x128 .f32) (x8 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (outBlk x0 x1 x2 x3 x4 x5 x6 x7 x8)) -∗ K ⟨⟩))
      ⊢ wp frame (wpE (defs₀ (F := F)) 𝒱₀ c none) E (cc1__mlp_body i arg1 harg1 arg2 harg2 arg3 harg3 arg4 harg4 arg5 harg5 arg6 harg6 arg7 harg7 arg8 harg8 arg9 harg9 arg10 harg10) K := by
  simp only [cc1__mlp_body_eq_skeleton]; unfold cc1__mlp_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  -- the result buffer after the one covering store reads as the stored value
  rw [View.read_writes_eq_canon _ _ _ (fun y => ⟨_, List.mem_singleton_self _, View.mem_set_unit_zero (S := S32x128) zeros2 inb_S32x128_S32x128_0_0 y⟩)]
  rw [View.canon_unit_zero (S := S32x128) zeros2]
  sl_unfold_run_names
  -- each whole-buffer load reads the buffer's contents
  simp only [View.readAt_eq_ld]
  rw [View.ld_unit_zero (S := S4096x256) zeros2, View.ld_unit_zero (S := S256x512) zeros2, View.ld_unit_zero (S := S1x512) zeros2,
    View.ld_unit_zero (S := S512x256) zeros2, View.ld_unit_zero (S := S1x256) zeros2, View.ld_unit_zero (S := S256x128) zeros2,
    View.ld_unit_zero (S := S1x128) zeros2, View.ld_unit_zero (S := S1x128) zeros2, View.ld_unit_zero (S := S1x1) zeros2]
  rfl

end Cert.Kernel.TcRegion

end
-- ==== Proof.BTcRegion.lean ====
/-
  The dense stack's kernel call as one region of the program.

  The call runs a grid of four points.  Point `t` fetches rows `[4096 t, 4096 t + 4096)` of the concatenated
  embeddings and (at the first point only; afterwards they stay where they are) the eight parameter arrays whole,
  computes the block of 4096 results laid out as 32 x 128, and writes it back to rows `[32 t, 32 t + 32)` of the
  128 x 128 result array.  The four blocks tile the result array, so after the region row `p` of the result is row
  `p mod 32` of the block of point `p / 32` (`OUT`), and no other array has changed.
-/
import proofs.«201366_g32727650796262_cont_8to1_b_1271_35_alg».proof.Proof.BTcBody
import proofs.«201366_g32727650796262_cont_8to1_b_1271_35_alg».proof.Proof.Gen.Kernel.Points
import Idealize.ShloMosaic.Lib.Pipeline.RegionsLoop
import Idealize.ShloMosaic.Lib.ValueIdx

set_option maxRecDepth 16384

noncomputable section

namespace Cert.Kernel.TcRegion

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F] {Ix : Type} [DecidableEq Ix] {U : Type} [URA U] {Lvl : Type} [Preorder Lvl]

local notation "𝕄" => MT nD τ sig Ix (Elt F) ℕ U Lvl

variable (Vin : Dev nD → Valuation τ sig (Elt F)) (W : Waits sig Ix)

/-! ## The blocks -/

/-- Window `w`'s block at grid point `t`, read off the window's array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (Vin c (Pipeline.arrRef spec1 w))

/-- The block of results grid point `t` computes: `outBlk` of rows `[4096 t, 4096 t + 4096)` of the concatenated
    embeddings and of the eight parameter arrays, each read whole. -/
def outBlock (c : Dev nD) (t : Fin cfg1.N) : Vec F S32x128 .f32 :=
  outBlk (iblk Vin c 0 t) (iblk Vin c 1 t) (iblk Vin c 2 t) (iblk Vin c 3 t) (iblk Vin c 4 t) (iblk Vin c 5 t) (iblk Vin c 6 t) (iblk Vin c 7 t) (iblk Vin c 8 t)

/-- The grid point whose block holds row `p` of the result: blocks are 32 rows. -/
def ptOf (p : Fin 128) : Fin cfg1.N := ⟨p.val / 32, by show _ < grid1.N; rw [N_1]; omega⟩

/-- The result array after the region, as one function of the index: row `p = 32 t + a` is row `a` of the block
    grid point `t` computes. -/
def outArr (c : Dev nD) : Vec F S128x128 .f32 :=
  fun i => outBlock Vin c (ptOf (i 0)) (ix2 ⟨(i 0).val % 32, Nat.mod_lt _ (by decide)⟩ (i 1))

/-- The same, as the contents of the result's buffer. -/
def OUT (c : Dev nD) : Buf (Elt F) ((c : Thread nD τ).loc main_v10) := outArr Vin c

theorem OUT_apply (c : Dev nD) (p q : Fin 128) :
    OUT Vin c (ix2 p q) = outBlock Vin c (ptOf p) (ix2 ⟨p.val % 32, Nat.mod_lt _ (by decide)⟩ q) := rfl

/-! ## The proof data -/

/-- The pipeline's data on core `c`: the arrays as the region finds them; after the body at point `t` every input's
    buffer still at its block and the result's at `outBlock`; between points nothing but the core's scoped buffers
    that stage no window; nothing owed; every array held whole; and the waits the core has recorded, the
    pipeline's own apart, stay within the set `W` it entered with. -/
def dat1 (c : Dev nD) : Dat τ (Elt F) Ix ℕ U Lvl cfg1 c where
  A w := Vin c (Pipeline.arrRef spec1 w)
  after w t := match w with
    | ⟨0, _⟩ => iblk Vin c 0 t
    | ⟨1, _⟩ => iblk Vin c 1 t
    | ⟨2, _⟩ => iblk Vin c 2 t
    | ⟨3, _⟩ => iblk Vin c 3 t
    | ⟨4, _⟩ => iblk Vin c 4 t
    | ⟨5, _⟩ => iblk Vin c 5 t
    | ⟨6, _⟩ => iblk Vin c 6 t
    | ⟨7, _⟩ => iblk Vin c 7 t
    | ⟨8, _⟩ => iblk Vin c 8 t
    | ⟨9, _⟩ => outBlock Vin c t
  Φ _ := Pipeline.scopedRest spec1 c
  q _ := fullShare
  owed _ := 0
  recorded _ := (↑W : Set (SemLoc sig × Ix))

/-- No pipeline of the program has a prefetched table. -/
abbrev adm : (p : Fin 1) → (pcfgs (F := F) p).Adm := fun p => (cfgs p).toPCfg_adm

/-- The proof data of every pipeline of the program (there is one). -/
def pdats (p : Fin 1) (c : Dev nD) : Dat τ (Elt F) Ix ℕ U Lvl (cfgs p) c := dat1 Vin W c

theorem A_eq (c : Dev nD) (w : Fin cfg1.W) :
    (dat1 (U := U) (Lvl := Lvl) Vin W c).A w = Vin c (Pipeline.arrRef spec1 w) := by dsimp only [dat1]

theorem after_0 (c : Dev nD) (t : Fin cfg1.N) : (dat1 (U := U) (Lvl := Lvl) Vin W c).after 0 t = iblk Vin c 0 t := by dsimp only [dat1]
theorem after_1 (c : Dev nD) (t : Fin cfg1.N) : (dat1 (U := U) (Lvl := Lvl) Vin W c).after 1 t = iblk Vin c 1 t := by dsimp only [dat1]
theorem after_2 (c : Dev nD) (t : Fin cfg1.N) : (dat1 (U := U) (Lvl := Lvl) Vin W c).after 2 t = iblk Vin c 2 t := by dsimp only [dat1]
theorem after_3 (c : Dev nD) (t : Fin cfg1.N) : (dat1 (U := U) (Lvl := Lvl) Vin W c).after 3 t = iblk Vin c 3 t := by dsimp only [dat1]
theorem after_4 (c : Dev nD) (t : Fin cfg1.N) : (dat1 (U := U) (Lvl := Lvl) Vin W c).after 4 t = iblk Vin c 4 t := by dsimp only [dat1]
theorem after_5 (c : Dev nD) (t : Fin cfg1.N) : (dat1 (U := U) (Lvl := Lvl) Vin W c).after 5 t = iblk Vin c 5 t := by dsimp only [dat1]
theorem after_6 (c : Dev nD) (t : Fin cfg1.N) : (dat1 (U := U) (Lvl := Lvl) Vin W c).after 6 t = iblk Vin c 6 t := by dsimp only [dat1]
theorem after_7 (c : Dev nD) (t : Fin cfg1.N) : (dat1 (U := U) (Lvl := Lvl) Vin W c).after 7 t = iblk Vin c 7 t := by dsimp only [dat1]
theorem after_8 (c : Dev nD) (t : Fin cfg1.N) : (dat1 (U := U) (Lvl := Lvl) Vin W c).after 8 t = iblk Vin c 8 t := by dsimp only [dat1]
theorem after_9 (c : Dev nD) (t : Fin cfg1.N) : (dat1 (U := U) (Lvl := Lvl) Vin W c).after 9 t = outBlock Vin c t := by dsimp only [dat1]

/-! ## What the body finds in an input's buffer

An input's buffer holds the input's block at every point, fetched there or not: a point that does not fetch it has
the block index of the point before, and the body left the block in place. -/

theorem before_0 (c : Dev nD) (t : Fin cfg1.N) (d) : (dat1 (U := U) (Lvl := Lvl) Vin W c).before 0 t d = iblk Vin c 0 t := by
  have hkeep : ∀ t, (cfg1.win 0).cut (cfg1.grid.coords t) ((dat1 (U := U) (Lvl := Lvl) Vin W c).after 0 t) = (dat1 (U := U) (Lvl := Lvl) Vin W c).blockOf 0 t := fun t => by
    rw [after_0]; unfold Dat.blockOf iblk; rw [A_eq]; try rfl
  rw [(dat1 (U := U) (Lvl := Lvl) Vin W c).before_in_eq_fetched 0 rfl (fun _ => rfl) (fun _ _ _ => rfl) hkeep t d]
  unfold Dat.fetched Dat.blockOf iblk; rw [A_eq]; try rfl
theorem before_1 (c : Dev nD) (t : Fin cfg1.N) (d) : (dat1 (U := U) (Lvl := Lvl) Vin W c).before 1 t d = iblk Vin c 1 t := by
  have hkeep : ∀ t, (cfg1.win 1).cut (cfg1.grid.coords t) ((dat1 (U := U) (Lvl := Lvl) Vin W c).after 1 t) = (dat1 (U := U) (Lvl := Lvl) Vin W c).blockOf 1 t := fun t => by
    rw [after_1]; unfold Dat.blockOf iblk; rw [A_eq]; try rfl
  rw [(dat1 (U := U) (Lvl := Lvl) Vin W c).before_in_eq_fetched 1 rfl (fun _ => rfl) (fun _ _ _ => rfl) hkeep t d]
  unfold Dat.fetched Dat.blockOf iblk; rw [A_eq]; try rfl
theorem before_2 (c : Dev nD) (t : Fin cfg1.N) (d) : (dat1 (U := U) (Lvl := Lvl) Vin W c).before 2 t d = iblk Vin c 2 t := by
  have hkeep : ∀ t, (cfg1.win 2).cut (cfg1.grid.coords t) ((dat1 (U := U) (Lvl := Lvl) Vin W c).after 2 t) = (dat1 (U := U) (Lvl := Lvl) Vin W c).blockOf 2 t := fun t => by
    rw [after_2]; unfold Dat.blockOf iblk; rw [A_eq]; try rfl
  rw [(dat1 (U := U) (Lvl := Lvl) Vin W c).before_in_eq_fetched 2 rfl (fun _ => rfl) (fun _ _ _ => rfl) hkeep t d]
  unfold Dat.fetched Dat.blockOf iblk; rw [A_eq]; try rfl
theorem before_3 (c : Dev nD) (t : Fin cfg1.N) (d) : (dat1 (U := U) (Lvl := Lvl) Vin W c).before 3 t d = iblk Vin c 3 t := by
  have hkeep : ∀ t, (cfg1.win 3).cut (cfg1.grid.coords t) ((dat1 (U := U) (Lvl := Lvl) Vin W c).after 3 t) = (dat1 (U := U) (Lvl := Lvl) Vin W c).blockOf 3 t := fun t => by
    rw [after_3]; unfold Dat.blockOf iblk; rw [A_eq]; try rfl
  rw [(dat1 (U := U) (Lvl := Lvl) Vin W c).before_in_eq_fetched 3 rfl (fun _ => rfl) (fun _ _ _ => rfl) hkeep t d]
  unfold Dat.fetched Dat.blockOf iblk; rw [A_eq]; try rfl
theorem before_4 (c : Dev nD) (t : Fin cfg1.N) (d) : (dat1 (U := U) (Lvl := Lvl) Vin W c).before 4 t d = iblk Vin c 4 t := by
  have hkeep : ∀ t, (cfg1.win 4).cut (cfg1.grid.coords t) ((dat1 (U := U) (Lvl := Lvl) Vin W c).after 4 t) = (dat1 (U := U) (Lvl := Lvl) Vin W c).blockOf 4 t := fun t => by
    rw [after_4]; unfold Dat.blockOf iblk; rw [A_eq]; try rfl
  rw [(dat1 (U := U) (Lvl := Lvl) Vin W c).before_in_eq_fetched 4 rfl (fun _ => rfl) (fun _ _ _ => rfl) hkeep t d]
  unfold Dat.fetched Dat.blockOf iblk; rw [A_eq]; try rfl
theorem before_5 (c : Dev nD) (t : Fin cfg1.N) (d) : (dat1 (U := U) (Lvl := Lvl) Vin W c).before 5 t d = iblk Vin c 5 t := by
  have hkeep : ∀ t, (cfg1.win 5).cut (cfg1.grid.coords t) ((dat1 (U := U) (Lvl := Lvl) Vin W c).after 5 t) = (dat1 (U := U) (Lvl := Lvl) Vin W c).blockOf 5 t := fun t => by
    rw [after_5]; unfold Dat.blockOf iblk; rw [A_eq]; try rfl
  rw [(dat1 (U := U) (Lvl := Lvl) Vin W c).before_in_eq_fetched 5 rfl (fun _ => rfl) (fun _ _ _ => rfl) hkeep t d]
  unfold Dat.fetched Dat.blockOf iblk; rw [A_eq]; try rfl
theorem before_6 (c : Dev nD) (t : Fin cfg1.N) (d) : (dat1 (U := U) (Lvl := Lvl) Vin W c).before 6 t d = iblk Vin c 6 t := by
  have hkeep : ∀ t, (cfg1.win 6).cut (cfg1.grid.coords t) ((dat1 (U := U) (Lvl := Lvl) Vin W c).after 6 t) = (dat1 (U := U) (Lvl := Lvl) Vin W c).blockOf 6 t := fun t => by
    rw [after_6]; unfold Dat.blockOf iblk; rw [A_eq]; try rfl
  rw [(dat1 (U := U) (Lvl := Lvl) Vin W c).before_in_eq_fetched 6 rfl (fun _ => rfl) (fun _ _ _ => rfl) hkeep t d]
  unfold Dat.fetched Dat.blockOf iblk; rw [A_eq]; try rfl
theorem before_7 (c : Dev nD) (t : Fin cfg1.N) (d) : (dat1 (U := U) (Lvl := Lvl) Vin W c).before 7 t d = iblk Vin c 7 t := by
  have hkeep : ∀ t, (cfg1.win 7).cut (cfg1.grid.coords t) ((dat1 (U := U) (Lvl := Lvl) Vin W c).after 7 t) = (dat1 (U := U) (Lvl := Lvl) Vin W c).blockOf 7 t := fun t => by
    rw [after_7]; unfold Dat.blockOf iblk; rw [A_eq]; try rfl
  rw [(dat1 (U := U) (Lvl := Lvl) Vin W c).before_in_eq_fetched 7 rfl (fun _ => rfl) (fun _ _ _ => rfl) hkeep t d]
  unfold Dat.fetched Dat.blockOf iblk; rw [A_eq]; try rfl
theorem before_8 (c : Dev nD) (t : Fin cfg1.N) (d) : (dat1 (U := U) (Lvl := Lvl) Vin W c).before 8 t d = iblk Vin c 8 t := by
  have hkeep : ∀ t, (cfg1.win 8).cut (cfg1.grid.coords t) ((dat1 (U := U) (Lvl := Lvl) Vin W c).after 8 t) = (dat1 (U := U) (Lvl := Lvl) Vin W c).blockOf 8 t := fun t => by
    rw [after_8]; unfold Dat.blockOf iblk; rw [A_eq]; try rfl
  rw [(dat1 (U := U) (Lvl := Lvl) Vin W c).before_in_eq_fetched 8 rfl (fun _ => rfl) (fun _ _ _ => rfl) hkeep t d]
  unfold Dat.fetched Dat.blockOf iblk; rw [A_eq]; try rfl

/-! ## The body obligation -/

/-- What the body is called with at point `t`, -/
def bodyPre (ι : Ix) (c : Dev nD) (t : Fin cfg1.N) : sProp 𝕄 :=
  iprop((dat1 (U := U) (Lvl := Lvl) Vin W c).Φ t.castSucc ∗ (dat1 (U := U) (Lvl := Lvl) Vin W c).owesAt ι t.castSucc
    ∗ (∃ d, owns (c : Thread nD τ) (st1_0 t) fullShare ((dat1 (U := U) (Lvl := Lvl) Vin W c).before 0 t d))
    ∗ (∃ d, owns (c : Thread nD τ) (st1_1 t) fullShare ((dat1 (U := U) (Lvl := Lvl) Vin W c).before 1 t d))
    ∗ (∃ d, owns (c : Thread nD τ) (st1_2 t) fullShare ((dat1 (U := U) (Lvl := Lvl) Vin W c).before 2 t d))
    ∗ (∃ d, owns (c : Thread nD τ) (st1_3 t) fullShare ((dat1 (U := U) (Lvl := Lvl) Vin W c).before 3 t d))
    ∗ (∃ d, owns (c : Thread nD τ) (st1_4 t) fullShare ((dat1 (U := U) (Lvl := Lvl) Vin W c).before 4 t d))
    ∗ (∃ d, owns (c : Thread nD τ) (st1_5 t) fullShare ((dat1 (U := U) (Lvl := Lvl) Vin W c).before 5 t d))
    ∗ (∃ d, owns (c : Thread nD τ) (st1_6 t) fullShare ((dat1 (U := U) (Lvl := Lvl) Vin W c).before 6 t d))
    ∗ (∃ d, owns (c : Thread nD τ) (st1_7 t) fullShare ((dat1 (U := U) (Lvl := Lvl) Vin W c).before 7 t d))
    ∗ (∃ d, owns (c : Thread nD τ) (st1_8 t) fullShare ((dat1 (U := U) (Lvl := Lvl) Vin W c).before 8 t d))
    ∗ (∃ d, owns (c : Thread nD τ) (st1_9 t) fullShare ((dat1 (U := U) (Lvl := Lvl) Vin W c).before 9 t d)))

/-- and what it returns. -/
def bodyPost (ι : Ix) (c : Dev nD) (t : Fin cfg1.N) : sProp 𝕄 :=
  iprop((dat1 (U := U) (Lvl := Lvl) Vin W c).Φ t.succ ∗ (dat1 (U := U) (Lvl := Lvl) Vin W c).owesAt ι t.succ
    ∗ owns (c : Thread nD τ) (st1_0 t) fullShare ((dat1 (U := U) (Lvl := Lvl) Vin W c).after 0 t)
    ∗ owns (c : Thread nD τ) (st1_1 t) fullShare ((dat1 (U := U) (Lvl := Lvl) Vin W c).after 1 t)
    ∗ owns (c : Thread nD τ) (st1_2 t) fullShare ((dat1 (U := U) (Lvl := Lvl) Vin W c).after 2 t)
    ∗ owns (c : Thread nD τ) (st1_3 t) fullShare ((dat1 (U := U) (Lvl := Lvl) Vin W c).after 3 t)
    ∗ owns (c : Thread nD τ) (st1_4 t) fullShare ((dat1 (U := U) (Lvl := Lvl) Vin W c).after 4 t)
    ∗ owns (c : Thread nD τ) (st1_5 t) fullShare ((dat1 (U := U) (Lvl := Lvl) Vin W c).after 5 t)
    ∗ owns (c : Thread nD τ) (st1_6 t) fullShare ((dat1 (U := U) (Lvl := Lvl) Vin W c).after 6 t)
    ∗ owns (c : Thread nD τ) (st1_7 t) fullShare ((dat1 (U := U) (Lvl := Lvl) Vin W c).after 7 t)
    ∗ owns (c : Thread nD τ) (st1_8 t) fullShare ((dat1 (U := U) (Lvl := Lvl) Vin W c).after 8 t)
    ∗ owns (c : Thread nD τ) (st1_9 t) fullShare ((dat1 (U := U) (Lvl := Lvl) Vin W c).after 9 t))

theorem sound_body (𝒱₀ : Variants) (ι : Ix) (c : Dev nD) (t : Fin cfg1.N) :
    (bodyPre Vin W ι c t : sProp 𝕄) ⊢ wp frame (wpE (defs₀ (F := F)) 𝒱₀ c none) Set.univ (bodyAt1 t) (fun _ => (bodyPost Vin W ι c t : sProp 𝕄)) := by
  unfold bodyPre bodyPost bodyAt1
  simp only [before_0, before_1, before_2, before_3, before_4, before_5, before_6, before_7, before_8]
  rw [show (dat1 (U := U) (Lvl := Lvl) Vin W c).Φ t.succ = (dat1 (U := U) (Lvl := Lvl) Vin W c).Φ t.castSucc from rfl,
    show (dat1 (U := U) (Lvl := Lvl) Vin W c).owesAt ι t.succ = (dat1 (U := U) (Lvl := Lvl) Vin W c).owesAt ι t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel 𝒱₀ c Set.univ (grid1.coords t) _ _ _ _ _ _ _ _ _ _ _ _ _ _ _ _ _ _ _ _ (iblk Vin c 0 t) (iblk Vin c 1 t) (iblk Vin c 2 t) (iblk Vin c 3 t) (iblk Vin c 4 t) (iblk Vin c 5 t) (iblk Vin c 6 t) (iblk Vin c 7 t) (iblk Vin c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation (𝒱₀ : Variants) (ι : Ix) (c : Dev nD) :
    BodyObligation (dat1 (F := F) (U := U) (Lvl := Lvl) Vin W c) (defs₀ (F := F)) 𝒱₀ ι Set.univ := fun t => by
  rw [bigSep_W1, bigSep_W1]
  exact sound_body Vin W 𝒱₀ ι c t

/-! ## The result array after the region -/

/-- Grid point `t` writes the block of rows `[32 t, 32 t + 32)`, all 128 columns: the block index of the result's
    window is `(t, 0)`. -/
theorem index9 : ∀ t : Fin cfg1.N, (cfg1.win 9).index t (0 : Fin 2) = t.val ∧ (cfg1.win 9).index t (1 : Fin 2) = 0 :=
  (by decide +kernel : ∀ t : Fin grid1.N, win1_9.index t (0 : Fin 2) = t.val ∧ win1_9.index t (1 : Fin 2) = 0)

/-- The result array at an index whose row is `32 t + a`: row `a` of point `t`'s block. -/
theorem outArr_at (c : Dev nD) (t : Fin cfg1.N) (y : S32x128.Idx) (j : S128x128.Idx)
    (h0 : (j (0 : Fin 2)).val = t.val * 32 + (y (0 : Fin 2)).val) (h1 : (j (1 : Fin 2)).val = (y (1 : Fin 2)).val) :
    outArr Vin c j = outBlock Vin c t y := by
  have hy : (y (0 : Fin 2)).val < 32 := (y (0 : Fin 2)).isLt
  have ht : ptOf (j (0 : Fin 2)) = t := Fin.ext (by show (j (0 : Fin 2)).val / 32 = t.val; omega)
  show outBlock Vin c (ptOf (j 0)) (ix2 ⟨(j 0).val % 32, _⟩ (j 1)) = _
  rw [ht]
  congr 1
  funext a
  match a with
  | ⟨0, _⟩ => exact Fin.ext (by show (j (0 : Fin 2)).val % 32 = (y (0 : Fin 2)).val; omega)
  | ⟨1, _⟩ => exact Fin.ext h1

/-- What point `t` writes back is block `t` of `OUT`: row `a` of the block sits at row `32 t + a` of the array, whose
    quotient by 32 is `t` and whose remainder is `a`. -/
theorem flushed9 (c : Dev nD) (t : Fin cfg1.N) :
    (dat1 (U := U) (Lvl := Lvl) Vin W c).flushed 9 t = ((cfg1.win 9).blk t).view.read (Elt F) (OUT Vin c) := by
  funext y
  show (dat1 (U := U) (Lvl := Lvl) Vin W c).after 9 t y = OUT Vin c (((cfg1.win 9).blk t).view.emb y)
  rw [after_9]
  have h0 : ((((cfg1.win 9).blk t).view.emb y) (0 : Fin 2) : Nat) = t.val * 32 + (y (0 : Fin 2)).val := by
    show win1_9.index t (0 : Fin 2) * 32 + 1 * (y (0 : Fin 2)).val = _
    rw [(index9 t).1]; omega
  have h1 : ((((cfg1.win 9).blk t).view.emb y) (1 : Fin 2) : Nat) = (y (1 : Fin 2)).val := by
    show win1_9.index t (1 : Fin 2) * 128 + 1 * (y (1 : Fin 2)).val = _
    rw [(index9 t).2]; omega
  exact (outArr_at Vin c t y _ h0 h1).symm

/-- Every row of the result lies in the block of the point `row / 32`. -/
theorem cover9 (c : Dev nD) (i : ((cfg1.win 9).arr.view.loc (c.tc : Thread nD τ)).2.ty.Idx) :
    ∃ t : Fin cfg1.N, (cfg1.win 9).flush t = true ∧ i ∈ ((cfg1.win 9).blk t).view.set := by
  refine ⟨ptOf (i (0 : Fin 2)), flush1_9 _, ?_⟩
  have hi0 : (i (0 : Fin 2)).val < 128 := (i (0 : Fin 2)).isLt
  have hi1 : (i (1 : Fin 2)).val < 128 := (i (1 : Fin 2)).isLt
  rw [View.set_slice_whole, Rect.mem_set_unit]
  intro a
  match a with
  | ⟨0, _⟩ =>
    show win1_9.index (ptOf (i (0 : Fin 2))) (0 : Fin 2) * 32 ≤ (i (0 : Fin 2)).val
      ∧ (i (0 : Fin 2)).val < win1_9.index (ptOf (i (0 : Fin 2))) (0 : Fin 2) * 32 + 32
    rw [(index9 _).1]
    show (i (0 : Fin 2)).val / 32 * 32 ≤ (i (0 : Fin 2)).val ∧ (i (0 : Fin 2)).val < (i (0 : Fin 2)).val / 32 * 32 + 32
    omega
  | ⟨1, _⟩ =>
    show win1_9.index (ptOf (i (0 : Fin 2))) (1 : Fin 2) * 128 ≤ (i (1 : Fin 2)).val
      ∧ (i (1 : Fin 2)).val < win1_9.index (ptOf (i (0 : Fin 2))) (1 : Fin 2) * 128 + 128
    rw [(index9 _).2]
    omega

/-- So the result array ends the region at `OUT`. -/
theorem final9 (c : Dev nD) : (dat1 (U := U) (Lvl := Lvl) Vin W c).arrAt 9 cfg1.N = OUT Vin c :=
  (dat1 (U := U) (Lvl := Lvl) Vin W c).arrAt_eq_of_cover 9 (OUT Vin c) (fun t _ => flushed9 Vin W c t) (cover9 c)

/-! ## The region's record -/

/-- The unscoped buffers after the region: as the region found them, but for the result array, which holds `OUT`. -/
abbrev Vout (c : Dev nD) : Valuation τ sig (Elt F) := Function.update (Vin c) (Proc.devRef .tc main_v10) (OUT Vin c)

theorem Vout_main_v10 (c : Dev nD) : Vout Vin c (Proc.devRef .tc main_v10) = OUT Vin c := Function.update_self ..

theorem Vout_of_ne (c : Dev nD) (b : Ref sig .tc) (h : b ≠ main_v10) : Vout Vin c (Proc.devRef .tc b) = Vin c (Proc.devRef .tc b) :=
  Function.update_of_ne (StableHlo.devRef_ne_of_ne h) ..

/-- Every array of the pipeline ends the region at what `Vout` says: an input as it was, the result at `OUT`. -/
theorem arrAt_Vout (c : Dev nD) : ∀ w : Fin cfg1.W,
    (dat1 (U := U) (Lvl := Lvl) Vin W c).arrAt w cfg1.N = Vout Vin c (Proc.devRef .tc (Pipeline.arrRef spec1 w))
  | ⟨0, _⟩ => ((dat1 (U := U) (Lvl := Lvl) Vin W c).arrAt_in 0 rfl _).trans ((A_eq Vin W c 0).trans (Vout_of_ne Vin c _ (by decide)).symm)
  | ⟨1, _⟩ => ((dat1 (U := U) (Lvl := Lvl) Vin W c).arrAt_in 1 rfl _).trans ((A_eq Vin W c 1).trans (Vout_of_ne Vin c _ (by decide)).symm)
  | ⟨2, _⟩ => ((dat1 (U := U) (Lvl := Lvl) Vin W c).arrAt_in 2 rfl _).trans ((A_eq Vin W c 2).trans (Vout_of_ne Vin c _ (by decide)).symm)
  | ⟨3, _⟩ => ((dat1 (U := U) (Lvl := Lvl) Vin W c).arrAt_in 3 rfl _).trans ((A_eq Vin W c 3).trans (Vout_of_ne Vin c _ (by decide)).symm)
  | ⟨4, _⟩ => ((dat1 (U := U) (Lvl := Lvl) Vin W c).arrAt_in 4 rfl _).trans ((A_eq Vin W c 4).trans (Vout_of_ne Vin c _ (by decide)).symm)
  | ⟨5, _⟩ => ((dat1 (U := U) (Lvl := Lvl) Vin W c).arrAt_in 5 rfl _).trans ((A_eq Vin W c 5).trans (Vout_of_ne Vin c _ (by decide)).symm)
  | ⟨6, _⟩ => ((dat1 (U := U) (Lvl := Lvl) Vin W c).arrAt_in 6 rfl _).trans ((A_eq Vin W c 6).trans (Vout_of_ne Vin c _ (by decide)).symm)
  | ⟨7, _⟩ => ((dat1 (U := U) (Lvl := Lvl) Vin W c).arrAt_in 7 rfl _).trans ((A_eq Vin W c 7).trans (Vout_of_ne Vin c _ (by decide)).symm)
  | ⟨8, _⟩ => ((dat1 (U := U) (Lvl := Lvl) Vin W c).arrAt_in 8 rfl _).trans ((A_eq Vin W c 8).trans (Vout_of_ne Vin c _ (by decide)).symm)
  | ⟨9, _⟩ => (final9 Vin W c).trans (Vout_main_v10 Vin c).symm

/-- A buffer that is no array of the pipeline is not the result array. -/
theorem Vout_rest (c : Dev nD) (b : Ref sig .tc) (hb : b ∉ Finset.univ.image (Pipeline.arrRef spec1)) :
    Vout Vin c (Proc.devRef .tc b) = Vin c (Proc.devRef .tc b) :=
  Vout_of_ne Vin c b fun e => hb (Finset.mem_image.mpr ⟨9, Finset.mem_univ _, e.symm⟩)

set_option backward.isDefEq.respectTransparency.types false in
/-- THE REGION.  Entered with every unscoped buffer held whole at `Vin c` and the core owing nothing, having
    recorded the waits `W`; left with every unscoped buffer at `Vout Vin c` — the result array at `OUT`, the others
    untouched — and the core still owing nothing, every wait it has recorded since being one of the pipeline's own,
    at the index `ι`.  The pipeline's arrays are split out of the unscoped buffers at entry and put back at exit; the
    others go round the region; the kernel has no semaphore of its own and reads no prefetched table. -/
def R (ι : Ix) (𝒱₀ : Variants) (L : GSem nD τ sig → Finset Ix) (lv : GSem nD τ sig → Ix → Lvl) :
    Pipeline.RegionSeg (Name := ℕ) (U := U) (pcfgs (F := F)) adm (pdats (U := U) (Lvl := Lvl) Vin W) ι defs₀ 𝒱₀ L lv 0 where
  win := launch1.win.to₀
  block_pos := launch1.block_pos
  stage_whole := launch1.stage_whole
  K := PEmpty
  osem k := k.elim
  ho := Pipeline.OwnSemFacts.none _
  hbody c := (body_obligation Vin W 𝒱₀ ι c).loose
  hwaits := Pipeline.hwaits_of_owed_zero _ _ _ _ L lv 0 fun _ _ => rfl
  pre c := iprop(StableHlo.held (c : Thread nD τ) (Pipeline.ucRefs τ sig) (Vin c) ∗ owes (c : Thread nD τ) (0 : CellTallies nD τ sig Ix) W)
  post c := iprop(StableHlo.held (c : Thread nD τ) (Pipeline.ucRefs τ sig) (Vout Vin c)
    ∗ ∃ W', ⌜∀ p ∈ W', p ∈ W ∨ p.2 = ι⌝ ∗ owes (c : Thread nD τ) (0 : CellTallies nD τ sig Ix) W')
  X c := iprop(emp)
  Y c := iprop(emp)
  Z c := Pipeline.unscopedRest (Ix := Ix) (Name := ℕ) (U := U) (Lvl := Lvl) spec1 c (fun b => Vin c (Proc.devRef .tc b))
  hentry c := by
    rw [Pipeline.ownSems0_none]
    have hsplit := Pipeline.arrays_of_unscopedBufs (p := 0) (pcfgs (F := F)) adm (pdats (U := U) (Lvl := Lvl) Vin W) launch1.win launch1.arr_whole c
      ((pdats (U := U) (Lvl := Lvl) Vin W 0 c).share_full fun _ => rfl) (fun b => Vin c (Proc.devRef .tc b)) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun _ h => Or.inl h
      iexact HO
    isplitr; · iempintro
    iexact Hrest
  hin c := by
    rw [show (pdats (U := U) (Lvl := Lvl) Vin W 0 c).Φ 0 = Pipeline.scopedRest spec1 c from rfl]
    iintro ⟨-, -, Hr⟩
    iexact Hr
  hout c := by
    rw [Pipeline.ownSems0_none, show (pdats (U := U) (Lvl := Lvl) Vin W 0 c).Φ (Fin.last _) = Pipeline.scopedRest spec1 c from rfl]
    iintro Hr
    isplitr; · iempintro
    isplitr; · iempintro
    iexact Hr
  hexit c := by
    have hjoin := Pipeline.unscopedBufs_of_arrays (p := 0) (pcfgs (F := F)) adm (Ix := Ix) (Name := ℕ) (U := U) (Lvl := Lvl)
      launch1.win launch1.arr_whole c (pdats Vin W) ((pdats (U := U) (Lvl := Lvl) Vin W 0 c).share_full fun _ => rfl)
      (fun b => Vin c (Proc.devRef .tc b)) (fun b => Vout Vin c (Proc.devRef .tc b)) ((pdats (U := U) (Lvl := Lvl) Vin W 0 c).arrAt · cfg1.N)
      (arrAt_Vout Vin W c) (Vout_rest Vin c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W', %hW', HO⟩
    iexists W'; isplitr
    · ipureintro
      intro p hp
      rcases hW' (Finset.mem_coe.mpr hp) with h | ⟨w, s, rfl⟩
      · exact Or.inl (Finset.mem_coe.mp h)
      · exact Or.inr rfl
    iexact HO

/-- What the region is entered from, -/
theorem R_pre (ι : Ix) (𝒱₀ : Variants) (L : GSem nD τ sig → Finset Ix) (lv : GSem nD τ sig → Ix → Lvl) (c : Dev nD) :
    (R (U := U) Vin W ι 𝒱₀ L lv).pre c
      = iprop(StableHlo.held (c : Thread nD τ) (Pipeline.ucRefs τ sig) (Vin c) ∗ owes (c : Thread nD τ) (0 : CellTallies nD τ sig Ix) W) := rfl

/-- and what it leaves. -/
theorem R_post (ι : Ix) (𝒱₀ : Variants) (L : GSem nD τ sig → Finset Ix) (lv : GSem nD τ sig → Ix → Lvl) (c : Dev nD) :
    (R (U := U) Vin W ι 𝒱₀ L lv).post c
      = iprop(StableHlo.held (c : Thread nD τ) (Pipeline.ucRefs τ sig) (Vout Vin c)
          ∗ ∃ W', ⌜∀ p ∈ W', p ∈ W ∨ p.2 = ι⌝ ∗ owes (c : Thread nD τ) (0 : CellTallies nD τ sig Ix) W') := rfl

end Cert.Kernel.TcRegion

end
-- ==== Proof.BRunMain.lean ====
/-
  The launch: the ghost state dealt, the final memory read, the program's run.
-/
import proofs.«201366_g32727650796262_cont_8to1_b_1271_35_alg».proof.Proof.BMain
import Idealize.ShloMosaic.Adequacy

noncomputable section

namespace Cert.Kernel.Launch

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (Dat Seg HostSeg RegionSeg ucRefs)
open Idealize.ShloMosaic.Tactic

variable {F : FTy → Type} [FloatOps F]

local notation "𝕄" => MT nD τ sig (HIx 1) (Elt F) ℕ UU ℕ

/-! ## The launch element -/

/-- The launch element: the handshakes' cells and tokens, the pipeline's staging cells and tokens, the counters' unit. -/
def u₀ : UU :=
  (initOf (K (F := F)).hsCells (K (F := F)).hsToks,
    (initOf (Pipeline.cells (nD := nD) (τ := τ) cfgs cellOf_inj) (Pipeline.launchToks (nD := nD) (τ := τ) cfgs cellOf_inj), 1))

omit [FloatOps F] in
/-- The element splits into the handshakes' part and the pipeline's. -/
theorem ownU_split (a : UH) (b : UP) (c : Counters) :
    (ownU ((a, (b, c)) : UU) : sProp 𝕄) ⊢ iprop(BI.own (EH a) ∗ BI.own (EP b)) := by
  have h1 : (ownU ((a, (b, c)) : UU) : sProp 𝕄) ⊢ iprop(BI.own (EH a) ∗ BI.own ((uEmb (nD := nD) (sig := sig) (Ix := HIx 1) (Val := Elt F) (Name := ℕ) (U := UU) (Lvl := ℕ)).toEmb ((1, (b, c)) : UU))) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op (b, c))))
  have h2 : (BI.own ((uEmb (nD := nD) (sig := sig) (Ix := HIx 1) (Val := Elt F) (Name := ℕ) (U := UU) (Lvl := ℕ)).toEmb ((1, (b, c)) : UU)) : sProp 𝕄)
      ⊢ iprop(BI.own (EP b) ∗ BI.own ((uEmb (nD := nD) (sig := sig) (Ix := HIx 1) (Val := Elt F) (Name := ℕ) (U := UU) (Lvl := ℕ)).toEmb ((1, (1, c)) : UU))) :=
    BI.own_op_elim ((uEmb (nD := nD) (sig := sig) (Ix := HIx 1) (Val := Elt F) (Name := ℕ) (U := UU) (Lvl := ℕ)).toEmb.op_of_mem
      (Prod.mk_mem_op (URA.mem_op_one (1 : UH)) (Prod.mk_mem_op (URA.mem_op_one b) (URA.mem_one_op c))))
  iintro H
  ihave H1 := h1 $$ H
  icases H1 with ⟨HH, HR⟩
  ihave H2 := h2 $$ HR
  icases H2 with ⟨HP, -⟩
  isplitl [HH]; · iexact HH
  iexact HP

/-! ## What the launch deals -/

omit [FloatOps F] in
/-- One TensorCore's share of the pipeline's ghost state: its staging cells' launch states and its transfers' tokens. -/
theorem ghostOn_eq (d : Dev nD) :
    (Pipeline.ghostOn (pcfgs (F := F)) admP EP {0} d : sProp 𝕄)
      = iprop((bigSep Finset.univ fun p : Fin 1 => Pipeline.cellsGhost cfgs (EP (F := F)) p d)
          ∗ bigSep Finset.univ fun p : Fin 1 => Pipeline.toksInit cfgs (EP (F := F)) p d) := by
  unfold Pipeline.ghostOn Pipeline.PerCore.ghostOn
  rw [show ({0} : Finset (Fin 1)) = Finset.univ from rfl, bigSep_sep']

section Launch

variable (P : (K (F := F)).Pay (nD := nD) (Val := Elt F) (Name := ℕ) (U := UU))

/-- From the launch element: the handshakes' library, each TensorCore's share of the pipeline's ghost state (its
    staging cells not yet under invariants: host operations precede the region), nothing for the kernels. -/
theorem hu₀ (hx : ∀ q thr, P.x q thr = iprop(emp)) :
    (ownU (u₀ (F := F)) : sProp 𝕄)
      ⊢ |={Set.univ}=> iprop(BI.own (EH (initOf (K (F := F)).hsCells (K (F := F)).hsToks))
          ∗ (bigSep Finset.univ fun d : Dev nD => Pipeline.ghostOn (pcfgs (F := F)) admP EP {0} d)
          ∗ bigSep Finset.univ fun thr : Thread nD τ => bigSep Finset.univ fun q : Fin 1 => P.x q thr) := by
  unfold u₀
  iintro Hu
  ihave H := (ownU_split (F := F) _ _ _) $$ Hu
  icases H with ⟨HH, HP⟩
  imod (Pipeline.fund_ghost (nD := nD) (τ := τ) (cfgs) (EP (F := F)) cellOf_inj) $$ HP with ⟨Hg, Ht⟩
  imodintro
  isplitl [HH]; · iexact HH
  isplitl [Hg Ht]
  · rw [show (bigSep Finset.univ fun d : Dev nD => Pipeline.ghostOn (pcfgs (F := F)) admP EP {0} d)
        = bigSep Finset.univ fun d : Dev nD => iprop((bigSep Finset.univ fun p : Fin 1 => Pipeline.cellsGhost cfgs (EP (F := F)) p d)
            ∗ bigSep Finset.univ fun p : Fin 1 => Pipeline.toksInit cfgs (EP (F := F)) p d) from
          bigSep_congr fun d _ => ghostOn_eq (F := F) d, bigSep_sep']
    isplitl [Hg] <;> iassumption
  · rw [show (bigSep Finset.univ fun thr : Thread nD τ => bigSep Finset.univ fun q : Fin 1 => P.x q thr) = bigSep Finset.univ fun _ : Thread nD τ => (iprop(emp) : sProp 𝕄) from
      bigSep_congr fun thr _ => by rw [bigSep_univ_of_subsingleton (0 : Fin 1), hx],
      show (bigSep Finset.univ fun _ : Thread nD τ => (iprop(emp) : sProp 𝕄)) = iprop(emp) from BI.bigSep_emp_const _]
    iempintro

end Launch

/-! ## The final memory read, and the run -/

section Run

variable (m : (ℓ : Loc nD τ sig) → Buf (Elt F) ℓ) (ρ : Dev nD → PrngReg)
  (X : (c : Dev nD) → Buf (Elt F) ((c : Thread nD τ).loc main_v0))
  (Y : (c : Dev nD) → Buf (Elt F) ((c : Thread nD τ).loc main_v10))

/-- What a final state holds on device d: every unscoped TensorCore buffer at the last valuation. -/
def fq (d : Dev nD) (s' : Phys nD τ sig (Elt F)) : Prop :=
  ∀ b ∈ ucRefs τ sig, s'.mem.mem ((d, b) : Loc nD τ sig) = V4 m X Y d b

/-- The same of a final memory, on every device. -/
def QC : PUnit × MemSt nD τ sig (Elt F) → Prop :=
  fun r => ∀ (c : Dev nD), ∀ b ∈ ucRefs τ sig, r.2.mem ((c, b) : Loc nD τ sig) = V4 m X Y c b

/-- The TensorCore's last thread state holds the buffers whole: the final memory agrees with them. -/
theorem hfin (d : Dev nD) (s' : Phys nD τ sig (Elt F)) :
    iprop((held (SparseCore.T d) (ucRefs τ sig) (V4 m X Y d) : sProp 𝕄) ∗ SI s') ⊢ (⌜fq m X Y d s'⌝ : sProp 𝕄) := by
  unfold held
  iintro ⟨Hh, HSI⟩
  ihave Hr := (pointsTo_read_all (ucRefs τ sig) (fun b => ((d, b) : Loc nD τ sig)) (V4 m X Y d) s') $$ [Hh HSI]
  · isplitl [Hh] <;> iassumption
  icases Hr with ⟨%h, -⟩
  ipureintro
  exact h

variable (P : (K (F := F)).Pay (nD := nD) (Val := Elt F) (Name := ℕ) (U := UU)) [P.IsStorable]
  (pdats : Waits sig (HIx 1) → (p : Fin 1) → (c : Dev nD) → Dat τ (Elt F) (HIx 1) ℕ UU ℕ (cfgs p) c)
  (R : (W : Waits sig (HIx 1)) → RegionSeg (pcfgs (F := F)) admP (pdats W) (none : HIx 1) defs₀ 𝒱₀ (K (F := F)).L (K (F := F)).lev 0)

/-- The program's run: from the tile's obligation, the split of the call's operands, and the pipeline's region
    record, every weakly fair execution of all thirty-five threads ends, at the last valuation. -/
theorem run_main [∀ e, Nonempty (Elt F e)]
    (hx : ∀ q thr, P.x q thr = iprop(emp)) (hheld : P.held = ∅)
    (htile : (K (F := F)).TileObl (D (F := F)) 𝒱 P v₀ 0) (hvec : (K (F := F)).VecSplit' P 0)
    (hst : ∀ d : Dev nD, (held (T d) S5 (V0 m d) : sProp 𝕄) ⊢ bigSep Finset.univ fun c : Fin ((K (F := F)).nCore 0) => P.st 0 d c)
    (hdn : ∀ d : Dev nD, (bigSep Finset.univ fun c : Fin ((K (F := F)).nCore 0) => P.dn 0 d c) ⊢ (held (T d) S5 (V1 m X d) : sProp 𝕄))
    (hpre : ∀ W (c : Dev nD), iprop((held (T c) (ucRefs τ sig) (V2 m X c) : sProp 𝕄) ∗ owes (T c) (0 : CellTallies nD τ sig (HIx 1)) W) ⊢ (R W).pre c)
    (hpost : ∀ W (c : Dev nD), (R W).post c ⊢ iprop((held (T c) (ucRefs τ sig) (V3 m X Y c) : sProp 𝕄)
        ∗ ∃ W', ⌜∀ p ∈ W', p ∈ W ∨ p.2 = none⌝ ∗ owes (T c) (0 : CellTallies nD τ sig (HIx 1)) W')) :
    θ_run (Cert.Kernel.defs (F := F)) (Cert.Kernel.threads (F := F)) ⟨m, fun _ => 0, ρ⟩ (QC m X Y) :=
  SparseCore.Cfg.θ_run_sc (K := K (F := F)) (D := D (F := F)) (𝒱 := 𝒱) (EH := EH) (P := P) facts v₀
    (fun q hq => match q with | 0 => nomatch hq)
    (fun q _ => match q with | 0 => htile)
    (fun q _ => match q with | 0 => SparseCore.Cfg.VecSplit.of_plain hvec)
    m ρ main (fun d => Pipeline.ghostOn (pcfgs (F := F)) admP EP {0} d) (fun d => (held (T d) (ucRefs τ sig) (V4 m X Y d) : sProp 𝕄))
    (u₀ (F := F)) (sep_elim_left.trans (hu₀ P hx)) (hmain m ρ X Y P pdats R hst hdn hpre hpost)
    (fq m X Y) (hfin m X Y) (QC m X Y) (fun _ h c => h c) hheld

end Run

end Cert.Kernel.Launch

end
-- ==== Proof.BPost.lean ====
/-
  From the run's post to the claims' posts: every argument array ends as launched, and the result ends at the last
  valuation's contents of the result buffer.
-/
import proofs.«201366_g32727650796262_cont_8to1_b_1271_35_alg».proof.Proof.BRunMain

noncomputable section

namespace Cert.Kernel.Launch

open Cert.Kernel Cert.Kernel.Gen
open Idealize.ShloMosaic Idealize.ShloMosaic.TcCoe Idealize.SL.Sem
open Idealize.ShloMosaic.Pipeline (ucRefs)

variable {F : FTy → Type} [FloatOps F]

variable (m : (ℓ : Loc nD τ sig) → Buf (Elt F) ℓ)
  (X : (c : Dev nD) → Buf (Elt F) ((c : Thread nD τ).loc main_v0))
  (Y : (c : Dev nD) → Buf (Elt F) ((c : Thread nD τ).loc main_v10))

omit [FloatOps F] in
/-- A TensorCore reference in HBM is an unscoped buffer. -/
theorem mem_ucRefs (r : Ref sig .tc) (h : (Proc.devRef (τ := τ) .tc r).isScoped = false) : (r : DevRef τ sig) ∈ ucRefs τ sig :=
  Finset.mem_filter.mpr ⟨StableHlo.devRef_mem_tcRefs r, by rw [h]; decide⟩

/-- The argument arrays end as launched. -/
theorem QC_args (r : PUnit × MemSt nD τ sig (Elt F)) (h : QC m X Y r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  ⟨(h c main_arg0 (mem_ucRefs main_arg0 rfl)).trans (V4_main_arg0 m X Y c),
    (h c main_arg1 (mem_ucRefs main_arg1 rfl)).trans (V4_main_arg1 m X Y c),
    (h c main_arg2 (mem_ucRefs main_arg2 rfl)).trans (V4_main_arg2 m X Y c),
    (h c main_arg3 (mem_ucRefs main_arg3 rfl)).trans (V4_main_arg3 m X Y c),
    (h c main_arg4 (mem_ucRefs main_arg4 rfl)).trans (V4_main_arg4 m X Y c),
    (h c main_arg5 (mem_ucRefs main_arg5 rfl)).trans (V4_main_arg5 m X Y c),
    (h c main_arg6 (mem_ucRefs main_arg6 rfl)).trans (V4_main_arg6 m X Y c),
    (h c main_arg7 (mem_ucRefs main_arg7 rfl)).trans (V4_main_arg7 m X Y c),
    (h c main_arg8 (mem_ucRefs main_arg8 rfl)).trans (V4_main_arg8 m X Y c),
    (h c main_arg9 (mem_ucRefs main_arg9 rfl)).trans (V4_main_arg9 m X Y c),
    (h c main_arg10 (mem_ucRefs main_arg10 rfl)).trans (V4_main_arg10 m X Y c),
    (h c main_arg11 (mem_ucRefs main_arg11 rfl)).trans (V4_main_arg11 m X Y c)⟩

/-- The result ends at the last valuation's contents. -/
theorem QC_result (r : PUnit × MemSt nD τ sig (Elt F)) (h : QC m X Y r) (c : Dev nD) :
    r.2.mem ((c.tc : Thread nD τ).loc main_v11) = V4 m X Y c main_v11 :=
  h c main_v11 (mem_ucRefs main_v11 rfl)

end Cert.Kernel.Launch

end
-- ==== Proof.BKRun.lean ====
/-
  The kernel's run, assembled: the tiles' gather, @main's host lines, the pipeline's region.
-/
import proofs.«201366_g32727650796262_cont_8to1_b_1271_35_alg».proof.Proof.BTileObl
import proofs.«201366_g32727650796262_cont_8to1_b_1271_35_alg».proof.Proof.BTcRegion
import proofs.«201366_g32727650796262_cont_8to1_b_1271_35_alg».proof.Proof.BPost

noncomputable section

namespace Cert.Kernel.Launch

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.Sem
open Idealize.ShloMosaic.StableHlo (held)
open Idealize.ShloMosaic.Pipeline (ucRefs)

variable {F : FTy → Type} [FloatOps F]

local notation "𝕄" => MT nD τ sig (HIx 1) (Elt F) ℕ UU ℕ

variable (m : (ℓ : Loc nD τ sig) → Buf (Elt F) ℓ) (ρ : Dev nD → PrngReg)

/-- The pipeline's result array, from the buffers as the host line leaves them after the gather. -/
abbrev result (c : Dev nD) : Buf (Elt F) ((c : Thread nD τ).loc main_v10) := TcRegion.OUT (V2 m (gathered m)) c

/-- The kernel's run, from the tile body's specification and the split and join of the call's operands. -/
theorem kernel_run [∀ e, Nonempty (Elt F e)] (hpre : ScTile.PreOK m) (hb : TileBody m hpre)
    (hst : ∀ d : Dev nD, (held (T d) S5 (V0 m d) : sProp 𝕄) ⊢ bigSep Finset.univ fun c : Fin ((K (F := F)).nCore 0) => (P m hpre).st 0 d c)
    (hdn : ∀ d : Dev nD, (bigSep Finset.univ fun c : Fin ((K (F := F)).nCore 0) => (P m hpre).dn 0 d c) ⊢ (held (T d) S5 (V1 m (gathered m) d) : sProp 𝕄)) :
    θ_run (Cert.Kernel.defs (F := F)) (Cert.Kernel.threads (F := F)) ⟨m, fun _ => 0, ρ⟩ (QC m (gathered m) (result m)) :=
  run_main m ρ (gathered m) (result m) (P m hpre)
    (fun W => TcRegion.pdats (V2 m (gathered m)) W)
    (fun W => TcRegion.R (V2 m (gathered m)) W (none : HIx 1) 𝒱₀ (K (F := F)).L (K (F := F)).lev)
    (fun _ _ => rfl) (P_held m hpre) (tileObl m hpre hb) (vecSplit m hpre) hst hdn
    (fun W c => Entails.of_eq (TcRegion.R_pre (V2 m (gathered m)) W (none : HIx 1) 𝒱₀ (K (F := F)).L (K (F := F)).lev c).symm)
    (fun W c => Entails.of_eq (TcRegion.R_post (V2 m (gathered m)) W (none : HIx 1) 𝒱₀ (K (F := F)).L (K (F := F)).lev c))

end Cert.Kernel.Launch

end
-- ==== Proof.BScTile.lean ====
/-
  The gather kernel's body on one vector subcore (tile), once, at a symbolic grid point.

  WHAT THE BODY DOES. The tile at grid point (core, subcore) owns the 512 batch rows `[base, base + 512)`,
  `base = 1024 · subcore + 512 · core`. Two synchronous copies, each awaited at once, bring its 512 words of the
  user and of the item index array from HBM into its two index scratches. Then eight tasks `t = 0 … 7` go through four
  row buffers `b = t mod 4` (the planes of one `[4, 128, 128]` scratch): task `t` gathers the 128 table rows named
  by chunk `t mod 4` of an index scratch (the user table and scratch for `t < 4`, the item ones for `t ≥ 4`) into
  buffer `b`, and stores buffer `b` to the block of the output at rows `[base + 128 (t mod 4), + 128)` and columns
  `[0, 128)` (user) or `[128, 256)` (item).

  THE PROTOCOL. Every semaphore the body uses is the tile's own, every copy it starts is local to the tile and is
  awaited by the tile itself: no thread signals another. So no schedule is stated. Beside whatever the launch's
  handshakes use, the ghost state holds only a copy of the exclusive counters from which each local transfer's
  invariant is built (in flight, landed with what it delivers, closed), and what the tile owes changes only by recording
  its own waits; the statement is therefore over ANY ghost state containing such a copy. With `g_b` the gather and
  `s_b` the store semaphore of buffer `b`, the order is:
      the four user gathers are issued, chunk `b` into buffer `b` on `g_b`;
      for `b = 0 … 3`:  wait `g_b`;  store buffer `b` to user block `b` on `s_b`;  wait `s_b`;
                        issue the item gather of chunk `b` into buffer `b` on `g_b`;
      for `b = 0 … 3`:  wait `g_b`;  store buffer `b` to item block `b` on `s_b`;
      wait `s_0`, `s_1`, `s_2`, `s_3`.
  On each semaphore at most one transfer is in flight at a time. Between a transfer's issue and its wait neither its
  source nor its destination is touched: a buffer is gathered into only after the store out of it has been awaited,
  and stored from only after the gather into it has been awaited; an output block is written by one store only. The
  index scratches are written once, by the two synchronous copies, and only read afterwards, as the gathers' offset
  lists. Up to four gathers read one table at the same time, each through its own chunk of one index scratch: the tile's
  read share of a table is quartered and one quarter lent to each gather until its wait, and the three scratches are
  held as their four chunks and four planes, each lent whole to the one transfer that uses it. Different tiles write
  disjoint row ranges of the output and only read the tables and the index arrays: a tile is handed a read share of
  each input array and full ownership of exactly its eight output blocks, and hands the same back.

  WHY EVERY WAIT RETURNS. A gather is served entry by entry, and an offset that names no row would leave it unserved
  and its wait without return. What a gather reads as its offsets is what the synchronous copy landed in the scratch,
  the tile's slice of the index array as launched; every such word is below 100000 by `PreOK`.

  WHAT IS LEFT. Each store's payload is what its buffer reads after the gather's write, that is the gather's payload:
  row `ρ` of the block is the table's row named by word `ρ` of the chunk (`blockPay`, `blockPay_apply`). The inputs
  are unchanged, the scratches hold some contents, every semaphore is back at zero.
-/
import proofs.«201366_g32727650796262_cont_8to1_b_1271_35_alg».proof.Proof.BScTileDefs
import proofs.«201366_g32727650796262_cont_8to1_b_1271_35_alg».proof.Proof.Gen.Kernel.Skeleton
import Idealize.ShloMosaic.Lib.Pipeline.Value

noncomputable section

namespace Cert.Kernel.ScTile

open Cert.Kernel Cert.Kernel.Gen Cert.Kernel.ScSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable {U : Type} [URA U] [CountersIn U]

local notation "𝕄" => MT nD τ sig (HIx 1) (Elt F) ℕ U ℕ

local notation "uiV" => (Memref.whole Cert.Kernel.main_arg0_scv : Memref Cert.Kernel.sig Kind.scVector Space.hbm Cert.Kernel.S16384 EltTy.i32)
local notation "iiV" => (Memref.whole Cert.Kernel.main_arg1_scv : Memref Cert.Kernel.sig Kind.scVector Space.hbm Cert.Kernel.S16384 EltTy.i32)
local notation "utV" => (Memref.whole Cert.Kernel.main_arg2_scv : Memref Cert.Kernel.sig Kind.scVector Space.hbm Cert.Kernel.S100000x128 EltTy.f32)
local notation "itV" => (Memref.whole Cert.Kernel.main_arg3_scv : Memref Cert.Kernel.sig Kind.scVector Space.hbm Cert.Kernel.S100000x128 EltTy.f32)
local notation "oV" => (Memref.whole Cert.Kernel.main_v0_scv : Memref Cert.Kernel.sig Kind.scVector Space.hbm Cert.Kernel.S16384x256 EltTy.f32)
local notation "usV" => (Memref.whole Cert.Kernel.cc0_scratch0 : Memref Cert.Kernel.sig Kind.scVector Space.vmem Cert.Kernel.S512 EltTy.i32)
local notation "isV" => (Memref.whole Cert.Kernel.cc0_scratch1 : Memref Cert.Kernel.sig Kind.scVector Space.vmem Cert.Kernel.S512 EltTy.i32)
local notation "bV" => (Memref.whole Cert.Kernel.cc0_scratch2 : Memref Cert.Kernel.sig Kind.scVector Space.vmem Cert.Kernel.S4x128x128 EltTy.f32)

/-! ## Splitting a points-to four ways: along the share, and along disjoint element sets -/

section Split

variable {ℓ : Loc nD τ sig} {q : PosShare TreeShare}

/-- A share is its four quarters. -/
theorem share4_split {I : Finset (Idx ℓ)} {f : Buf (Elt F) ℓ} :
    (ℓ ↦[I]{q} f : sProp 𝕄) ⊢ iprop((ℓ ↦[I]{q.left.left} f) ∗ (ℓ ↦[I]{q.left.right} f) ∗ (ℓ ↦[I]{q.right.left} f) ∗ (ℓ ↦[I]{q.right.right} f)) := by
  iintro H
  ihave H := (pointsTo_share (PosShare.mem_left_op_right q)).1 $$ H
  icases H with ⟨Hl, Hr⟩
  ihave Hl := (pointsTo_share (PosShare.mem_left_op_right q.left)).1 $$ Hl
  ihave Hr := (pointsTo_share (PosShare.mem_left_op_right q.right)).1 $$ Hr
  icases Hl with ⟨Hll, Hlr⟩
  icases Hr with ⟨Hrl, Hrr⟩
  isplitl [Hll]; · iexact Hll
  isplitl [Hlr]; · iexact Hlr
  isplitl [Hrl]; · iexact Hrl
  iexact Hrr

/-- and the quarters are the share again. -/
theorem share4_join {I : Finset (Idx ℓ)} {f : Buf (Elt F) ℓ} :
    iprop((ℓ ↦[I]{q.left.left} f) ∗ (ℓ ↦[I]{q.left.right} f) ∗ (ℓ ↦[I]{q.right.left} f) ∗ (ℓ ↦[I]{q.right.right} f)) ⊢ (ℓ ↦[I]{q} f : sProp 𝕄) := by
  iintro ⟨Hll, Hlr, Hrl, Hrr⟩
  ihave Hl := (pointsTo_share (PosShare.mem_left_op_right q.left)).2 $$ [Hll Hlr]
  · isplitl [Hll]; · iexact Hll
    iexact Hlr
  ihave Hr := (pointsTo_share (PosShare.mem_left_op_right q.right)).2 $$ [Hrl Hrr]
  · isplitl [Hrl]; · iexact Hrl
    iexact Hrr
  iapply (pointsTo_share (PosShare.mem_left_op_right q)).2
  isplitl [Hl]; · iexact Hl
  iexact Hr

/-- What is left of a buffer once four sets are carved out of it. -/
abbrev rest4 (A0 A1 A2 A3 : Finset (Idx ℓ)) : Finset (Idx ℓ) := (((Finset.univ \ A0) \ A1) \ A2) \ A3

/-- Four pairwise disjoint element sets carved out of a buffer held whole. -/
theorem carve4 {f : Buf (Elt F) ℓ} (A0 A1 A2 A3 : Finset (Idx ℓ))
    (h10 : Disjoint A1 A0) (h20 : Disjoint A2 A0) (h30 : Disjoint A3 A0) (h21 : Disjoint A2 A1) (h31 : Disjoint A3 A1) (h32 : Disjoint A3 A2) :
    (ℓ ↦{q} f : sProp 𝕄) ⊢ iprop((ℓ ↦[A0]{q} f) ∗ (ℓ ↦[A1]{q} f) ∗ (ℓ ↦[A2]{q} f) ∗ (ℓ ↦[A3]{q} f) ∗ (ℓ ↦[rest4 A0 A1 A2 A3]{q} f)) := by
  have s0 : A0 ⊆ Finset.univ := Finset.subset_univ _
  have s1 : A1 ⊆ Finset.univ \ A0 := Finset.subset_sdiff.mpr ⟨Finset.subset_univ _, h10⟩
  have s2 : A2 ⊆ (Finset.univ \ A0) \ A1 := Finset.subset_sdiff.mpr ⟨Finset.subset_sdiff.mpr ⟨Finset.subset_univ _, h20⟩, h21⟩
  have s3 : A3 ⊆ ((Finset.univ \ A0) \ A1) \ A2 :=
    Finset.subset_sdiff.mpr ⟨Finset.subset_sdiff.mpr ⟨Finset.subset_sdiff.mpr ⟨Finset.subset_univ _, h30⟩, h31⟩, h32⟩
  iintro H
  ihave H := (pointsTo_split_subset s0).1 $$ H
  icases H with ⟨H0, H⟩
  ihave H := (pointsTo_split_subset s1).1 $$ H
  icases H with ⟨H1, H⟩
  ihave H := (pointsTo_split_subset s2).1 $$ H
  icases H with ⟨H2, H⟩
  ihave H := (pointsTo_split_subset s3).1 $$ H
  icases H with ⟨H3, H⟩
  isplitl [H0]; · iexact H0
  isplitl [H1]; · iexact H1
  isplitl [H2]; · iexact H2
  isplitl [H3]; · iexact H3
  iexact H

/-- The four sets, each at contents of its own, and the rest are the buffer whole again, at some contents. -/
theorem join4 {f0 f1 f2 f3 fr : Buf (Elt F) ℓ} (A0 A1 A2 A3 : Finset (Idx ℓ))
    (h10 : Disjoint A1 A0) (h20 : Disjoint A2 A0) (h30 : Disjoint A3 A0) (h21 : Disjoint A2 A1) (h31 : Disjoint A3 A1) (h32 : Disjoint A3 A2) :
    iprop((ℓ ↦[A0]{q} f0) ∗ (ℓ ↦[A1]{q} f1) ∗ (ℓ ↦[A2]{q} f2) ∗ (ℓ ↦[A3]{q} f3) ∗ (ℓ ↦[rest4 A0 A1 A2 A3]{q} fr)) ⊢ (iprop(∃ g, ℓ ↦{q} g) : sProp 𝕄) := by
  have s0 : A0 ⊆ Finset.univ := Finset.subset_univ _
  have s1 : A1 ⊆ Finset.univ \ A0 := Finset.subset_sdiff.mpr ⟨Finset.subset_univ _, h10⟩
  have s2 : A2 ⊆ (Finset.univ \ A0) \ A1 := Finset.subset_sdiff.mpr ⟨Finset.subset_sdiff.mpr ⟨Finset.subset_univ _, h20⟩, h21⟩
  have s3 : A3 ⊆ ((Finset.univ \ A0) \ A1) \ A2 :=
    Finset.subset_sdiff.mpr ⟨Finset.subset_sdiff.mpr ⟨Finset.subset_sdiff.mpr ⟨Finset.subset_univ _, h30⟩, h31⟩, h32⟩
  iintro ⟨H0, H1, H2, H3, H⟩
  ihave H := (pointsTo_join_subset s3) $$ [H3 H]
  · isplitl [H3]; · iexact H3
    iexact H
  ihave H := (pointsTo_join_subset s2) $$ [H2 H]
  · isplitl [H2]; · iexact H2
    iexact H
  ihave H := (pointsTo_join_subset s1) $$ [H1 H]
  · isplitl [H1]; · iexact H1
    iexact H
  ihave H := (pointsTo_join_subset s0) $$ [H0 H]
  · isplitl [H0]; · iexact H0
    iexact H
  iexists _; iexact H

end Split

/-! ## The element sets of the planes, the chunks and the tables -/

section Geometry

/-- A plane of the row-buffer scratch, squeezed, has the plane's elements. -/
theorem set_plane (o : Fin 3 → Nat) (inb : ∀ a, o a + S1x128x128.size a ≤ S4x128x128.size a) :
    ((((bV).slice (Rect.unit (s := S4x128x128) o S1x128x128.size inb) (fun _ => rfl)).squeeze S128x128 squeezes_S1x128x128_S128x128).view.set
      : Finset S4x128x128.Idx) = (Rect.unit (s := S4x128x128) o S1x128x128.size inb).set := by
  show (((View.whole cc0_scratch2).slice (Rect.unit (s := S4x128x128) o S1x128x128.size inb)).reshape S128x128 squeezes_S1x128x128_S128x128.numel_eq).set = _
  rw [View.set_reshape]; exact View.set_slice_whole cc0_scratch2 _

/-- Two planes at different first coordinates share no element. -/
theorem plane_disj {o o' : Fin 3 → Nat} {inb : ∀ a, o a + S1x128x128.size a ≤ S4x128x128.size a} {inb' : ∀ a, o' a + S1x128x128.size a ≤ S4x128x128.size a}
    (h : o 0 + S1x128x128.size 0 ≤ o' 0 ∨ o' 0 + S1x128x128.size 0 ≤ o 0) :
    Disjoint ((((bV).slice (Rect.unit (s := S4x128x128) o S1x128x128.size inb) (fun _ => rfl)).squeeze S128x128 squeezes_S1x128x128_S128x128).view.set : Finset S4x128x128.Idx)
      (((bV).slice (Rect.unit (s := S4x128x128) o' S1x128x128.size inb') (fun _ => rfl)).squeeze S128x128 squeezes_S1x128x128_S128x128).view.set := by
  rw [set_plane, set_plane]; exact Rect.unit_disjoint 0 h

/-- A chunk of an index list has the chunk's elements, and two chunks apart share none. -/
theorem set_usC (o : Fin 1 → Nat) (inb : ∀ a, o a + S128.size a ≤ S512.size a) :
    (((usV).slice (Rect.unit (s := S512) o S128.size inb) (fun _ => rfl)).view.set : Finset S512.Idx) = (Rect.unit (s := S512) o S128.size inb).set :=
  View.set_slice_whole cc0_scratch0 _
theorem set_isC (o : Fin 1 → Nat) (inb : ∀ a, o a + S128.size a ≤ S512.size a) :
    (((isV).slice (Rect.unit (s := S512) o S128.size inb) (fun _ => rfl)).view.set : Finset S512.Idx) = (Rect.unit (s := S512) o S128.size inb).set :=
  View.set_slice_whole cc0_scratch1 _
theorem usC_disj {o o' : Fin 1 → Nat} {inb : ∀ a, o a + S128.size a ≤ S512.size a} {inb' : ∀ a, o' a + S128.size a ≤ S512.size a}
    (h : o 0 + S128.size 0 ≤ o' 0 ∨ o' 0 + S128.size 0 ≤ o 0) :
    Disjoint (((usV).slice (Rect.unit (s := S512) o S128.size inb) (fun _ => rfl)).view.set : Finset S512.Idx)
      ((usV).slice (Rect.unit (s := S512) o' S128.size inb') (fun _ => rfl)).view.set := by
  rw [set_usC, set_usC]; exact Rect.unit_disjoint 0 h
theorem isC_disj {o o' : Fin 1 → Nat} {inb : ∀ a, o a + S128.size a ≤ S512.size a} {inb' : ∀ a, o' a + S128.size a ≤ S512.size a}
    (h : o 0 + S128.size 0 ≤ o' 0 ∨ o' 0 + S128.size 0 ≤ o 0) :
    Disjoint (((isV).slice (Rect.unit (s := S512) o S128.size inb) (fun _ => rfl)).view.set : Finset S512.Idx)
      ((isV).slice (Rect.unit (s := S512) o' S128.size inb') (fun _ => rfl)).view.set := by
  rw [set_isC, set_isC]; exact Rect.unit_disjoint 0 h

/-- The tables are addressed whole: every element is in the slice the gathers read. -/
theorem set_utS : ((utS).view.set : Finset S100000x128.Idx) = Finset.univ :=
  (View.set_slice_whole main_arg2_scv _).trans (Finset.eq_univ_iff_forall.mpr fun y =>
    View.mem_set_unit_zero (by funext a; match a with | ⟨0, _⟩ => rfl | ⟨1, _⟩ => rfl) _ y)
theorem set_itS : ((itS).view.set : Finset S100000x128.Idx) = Finset.univ :=
  (View.set_slice_whole main_arg3_scv _).trans (Finset.eq_univ_iff_forall.mpr fun y =>
    View.mem_set_unit_zero (by funext a; match a with | ⟨0, _⟩ => rfl | ⟨1, _⟩ => rfl) _ y)

end Geometry

/-! ## One listed write of a whole block is the block written -/

section Block

/-- On the view's own elements, a payload written through the whole-rectangle slice of the view is the payload
    written through the view. -/
theorem write_slice_whole_emb {sig' : RefSig} {κ : Kind} {sp : Space} {s : Shape} {e : EltTy} {Val : EltTy → Type}
    (v : View sig' κ sp s e) (f : v.ty.Contents Val) (w : s.Idx → Val e) (x : s.Idx) :
    (v.slice (Rect.whole s)).write Val f w Finset.univ (v.emb x) = v.write Val f w Finset.univ (v.emb x) := by
  have e : v.emb x = (v.slice (Rect.whole s)).emb x := by
    show _ = v.emb ((Rect.whole s).emb x); rw [Rect.emb_whole_apply]
  conv_lhs => rw [e, View.write_emb_of_mem _ _ (Finset.mem_univ _)]
  rw [View.write_emb_of_mem _ _ (Finset.mem_univ _)]

/-- A block memref held on its own elements after ONE listed write of the whole block holds the block written. -/
theorem block_written (v : Memref sig .scVector .hbm S128x128 .f32) (d : Dev nD) (c : Fin τ.nSC) (i : Fin τ.nSub) (f : Buf (Elt F) (v.view.loc (V d c i)))
    (P Q : S128x128.Idx → Elt F .f32) (h : P = Q) :
    (v.view.loc (V d c i) ↦[v.view.set]{fullShare} v.view.writes (Elt F) f [⟨Rect.whole S128x128, P⟩] : sProp 𝕄)
      = v.view.loc (V d c i) ↦[v.view.set]{fullShare} v.view.write (Elt F) f Q Finset.univ := by
  subst h
  refine pointsTo_congr fun i hi => ?_
  obtain ⟨x, -, rfl⟩ := Finset.mem_map.mp hi
  exact write_slice_whole_emb v.view f P x

/-- What a buffer reads after a list of writes whose last covers it: that last payload. -/
theorem read_writes_whole {sig' : RefSig} {κ : Kind} {sp : Space} {s : Shape} {e : EltTy} {Val : EltTy → Type}
    (v : View sig' κ sp s e) (f : v.ty.Contents Val) (w : s.Idx → Val e) (L : List (View.Piece Val s e)) :
    v.read Val (v.writes Val f (⟨Rect.whole s, w⟩ :: L)) = w := by
  funext y
  have := View.read_writes_cons_emb v f (Rect.whole s) w L y
  rwa [Rect.emb_whole_apply] at this

end Block

/-! ## The tile's obligation -/

section Tile

variable (m : (ℓ : Loc nD τ sig) → Buf (Elt F) ℓ) (d : Dev nD) (L : grid0.Coords)

set_option maxHeartbeats 4000000 in
/-- The body on vector subcore `(L 0, L 1)` of device `d`: from a read share of each input array, the tile's eight
    output blocks as launched and its own scratch storage, to the same with the blocks at the gathered rows. -/
theorem tile_body (hF : (K (F := F)).Facts) (hpre : PreOK m) (qui qii qut qit : PosShare TreeShare)
    (O : CellTallies nD τ sig (HIx 1)) (W : Waits sig (HIx 1)) (hO : ∀ g, O g none = 0) :
    iprop(levAts (K (F := F)).L (K (F := F)).lev ∗ emp
        ∗ (inputs m d qui qii qut qit ∗ blocksIn m d L)
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc0__gather_tec_body L uiV (Memref.isWhole_whole _) iiV (Memref.isWhole_whole _) utV (Memref.isWhole_whole _) itV (Memref.isWhole_whole _)
            oV (Memref.isWhole_whole _) usV (Memref.isWhole_whole _) isV (Memref.isWhole_whole _) bV (Memref.isWhole_whole _)
            cc0_scratch3 cc0_scratch4 cc0_scratch5 cc0_scratch6 cc0_scratch7 cc0_scratch8 cc0_scratch9 cc0_scratch10 cc0_scoped0 cc0_scoped1)
          fun _ => iprop((inputs m d qui qii qut qit ∗ blocksOut m d L hpre)
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  simp only [cc0__gather_tec_body_eq_skeleton]; unfold cc0__gather_tec_body_skel
  rw [(K (F := F)).scopedBufs_V hF d (cV L) (jV L), SparseCore.Cfg.scopedSems0_V (Val := Elt F) d (cV L) (jV L), ownSems0_V, ownBufs_V]
  iintro ⟨#Hlv, -, ⟨⟨Hui, Hii, Hut, Hit⟩, ⟨HoU0, HoU1, HoU2, HoU3, HoI0, HoI1, HoI2, HoI3⟩⟩, ⟨⟨%fus, Hus⟩, ⟨%fis, His⟩, ⟨%fb, Hb⟩, Hbufs⟩, ⟨Hs0, Hs1, Hg0, Hg1, Hg2, Hg3, Ht0, Ht1, Ht2, Ht3, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hui' := (Entails.of_eq (show (uiLoc d ↦{qui} m (uiLoc d) : sProp 𝕄) = (uiV).view.loc (V d (cV L) (jV L)) ↦{qui} m (uiLoc d) from rfl)) $$ Hui
  ihave Hii' := (Entails.of_eq (show (iiLoc d ↦{qii} m (iiLoc d) : sProp 𝕄) = (iiV).view.loc (V d (cV L) (jV L)) ↦{qii} m (iiLoc d) from rfl)) $$ Hii
  ihave Hus' := (Entails.of_eq (show ((V d (cV L) (jV L)).loc cc0_scratch0 ↦{fullShare} fus : sProp 𝕄) = (usV).view.loc (V d (cV L) (jV L)) ↦{fullShare} fus from rfl)) $$ Hus
  ihave His' := (Entails.of_eq (show ((V d (cV L) (jV L)).loc cc0_scratch1 ↦{fullShare} fis : sProp 𝕄) = (isV).view.loc (V d (cV L) (jV L)) ↦{fullShare} fis from rfl)) $$ His
  ihave Hb' := (Entails.of_eq (show ((V d (cV L) (jV L)).loc cc0_scratch2 ↦{fullShare} fb : sProp 𝕄) = (bV).view.loc (V d (cV L) (jV L)) ↦{fullShare} fb from rfl)) $$ Hb
  ihave Hut' := (Entails.of_eq (show (utLoc d ↦{qut} m (utLoc d) : sProp 𝕄) = (utV).view.loc (V d (cV L) (jV L)) ↦{qut} m (utLoc d) from rfl)) $$ Hut
  ihave Hit' := (Entails.of_eq (show (itLoc d ↦{qit} m (itLoc d) : sProp 𝕄) = (itV).view.loc (V d (cV L) (jV L)) ↦{qit} m (itLoc d) from rfl)) $$ Hit
  sl_exec
  -- the index scratches: name what the copies left, carve the four chunks of each
  have eUs : (View.write (Elt F) (usV).view fus (tile_body.sl.dma0 m d L) Finset.univ : Buf (Elt F) ((usV).view.loc (V d (cV L) (jV L)))) = usW m d L := View.write_whole_univ _ _ _
  have eIs : (View.write (Elt F) (isV).view fis (tile_body.sl.dma0_1 m d L) Finset.univ : Buf (Elt F) ((isV).view.loc (V d (cV L) (jV L)))) = isW m d L := View.write_whole_univ _ _ _
  ihave Hus2 := (Entails.of_eq (congrArg (fun f => ((usV).view.loc (V d (cV L) (jV L)) ↦{fullShare} f : sProp 𝕄)) eUs)) $$ Hus'
  ihave His2 := (Entails.of_eq (congrArg (fun f => ((isV).view.loc (V d (cV L) (jV L)) ↦{fullShare} f : sProp 𝕄)) eIs)) $$ His'
  ihave Hus3 := (carve4 (ℓ := (usV).view.loc (V d (cV L) (jV L))) (usC0).view.set (usC1).view.set (usC2).view.set (usC3).view.set
    (usC_disj (Or.inr (by decide))) (usC_disj (Or.inr (by decide))) (usC_disj (Or.inr (by decide))) (usC_disj (Or.inr (by decide))) (usC_disj (Or.inr (by decide))) (usC_disj (Or.inr (by decide)))) $$ Hus2
  icases Hus3 with ⟨Hu0, Hu1, Hu2, Hu3, Hur⟩
  ihave His3 := (carve4 (ℓ := (isV).view.loc (V d (cV L) (jV L))) (isC0).view.set (isC1).view.set (isC2).view.set (isC3).view.set
    (isC_disj (Or.inr (by decide))) (isC_disj (Or.inr (by decide))) (isC_disj (Or.inr (by decide))) (isC_disj (Or.inr (by decide))) (isC_disj (Or.inr (by decide))) (isC_disj (Or.inr (by decide)))) $$ His2
  icases His3 with ⟨Hi0, Hi1, Hi2, Hi3, Hir⟩
  ihave Hu0 := (Entails.of_eq (show ((usV).view.loc (V d (cV L) (jV L)) ↦[(usC0).view.set]{fullShare} usW m d L : sProp 𝕄) = (usC0).view.loc (V d (cV L) (jV L)) ↦[(usC0).view.set]{fullShare} usW m d L from rfl)) $$ Hu0
  ihave Hi0 := (Entails.of_eq (show ((isV).view.loc (V d (cV L) (jV L)) ↦[(isC0).view.set]{fullShare} isW m d L : sProp 𝕄) = (isC0).view.loc (V d (cV L) (jV L)) ↦[(isC0).view.set]{fullShare} isW m d L from rfl)) $$ Hi0
  ihave Hu1 := (Entails.of_eq (show ((usV).view.loc (V d (cV L) (jV L)) ↦[(usC1).view.set]{fullShare} usW m d L : sProp 𝕄) = (usC1).view.loc (V d (cV L) (jV L)) ↦[(usC1).view.set]{fullShare} usW m d L from rfl)) $$ Hu1
  ihave Hi1 := (Entails.of_eq (show ((isV).view.loc (V d (cV L) (jV L)) ↦[(isC1).view.set]{fullShare} isW m d L : sProp 𝕄) = (isC1).view.loc (V d (cV L) (jV L)) ↦[(isC1).view.set]{fullShare} isW m d L from rfl)) $$ Hi1
  ihave Hu2 := (Entails.of_eq (show ((usV).view.loc (V d (cV L) (jV L)) ↦[(usC2).view.set]{fullShare} usW m d L : sProp 𝕄) = (usC2).view.loc (V d (cV L) (jV L)) ↦[(usC2).view.set]{fullShare} usW m d L from rfl)) $$ Hu2
  ihave Hi2 := (Entails.of_eq (show ((isV).view.loc (V d (cV L) (jV L)) ↦[(isC2).view.set]{fullShare} isW m d L : sProp 𝕄) = (isC2).view.loc (V d (cV L) (jV L)) ↦[(isC2).view.set]{fullShare} isW m d L from rfl)) $$ Hi2
  ihave Hu3 := (Entails.of_eq (show ((usV).view.loc (V d (cV L) (jV L)) ↦[(usC3).view.set]{fullShare} usW m d L : sProp 𝕄) = (usC3).view.loc (V d (cV L) (jV L)) ↦[(usC3).view.set]{fullShare} usW m d L from rfl)) $$ Hu3
  ihave Hi3 := (Entails.of_eq (show ((isV).view.loc (V d (cV L) (jV L)) ↦[(isC3).view.set]{fullShare} isW m d L : sProp 𝕄) = (isC3).view.loc (V d (cV L) (jV L)) ↦[(isC3).view.set]{fullShare} isW m d L from rfl)) $$ Hi3
  have hinU0 : ∀ x, ((usC0).view.read (Elt F) (usW m d L) x).toNat < S100000x128.size gathers_S100000x128_S128x128.axis := uLst0_inb m d L hpre
  have hinI0 : ∀ x, ((isC0).view.read (Elt F) (isW m d L) x).toNat < S100000x128.size gathers_S100000x128_S128x128.axis := iLst0_inb m d L hpre
  have hinU1 : ∀ x, ((usC1).view.read (Elt F) (usW m d L) x).toNat < S100000x128.size gathers_S100000x128_S128x128.axis := uLst1_inb m d L hpre
  have hinI1 : ∀ x, ((isC1).view.read (Elt F) (isW m d L) x).toNat < S100000x128.size gathers_S100000x128_S128x128.axis := iLst1_inb m d L hpre
  have hinU2 : ∀ x, ((usC2).view.read (Elt F) (usW m d L) x).toNat < S100000x128.size gathers_S100000x128_S128x128.axis := uLst2_inb m d L hpre
  have hinI2 : ∀ x, ((isC2).view.read (Elt F) (isW m d L) x).toNat < S100000x128.size gathers_S100000x128_S128x128.axis := iLst2_inb m d L hpre
  have hinU3 : ∀ x, ((usC3).view.read (Elt F) (usW m d L) x).toNat < S100000x128.size gathers_S100000x128_S128x128.axis := uLst3_inb m d L hpre
  have hinI3 : ∀ x, ((isC3).view.read (Elt F) (isW m d L) x).toNat < S100000x128.size gathers_S100000x128_S128x128.axis := iLst3_inb m d L hpre
  -- the row buffers: the four planes
  ihave Hb3 := (carve4 (ℓ := (bV).view.loc (V d (cV L) (jV L))) (buf0).view.set (buf1).view.set (buf2).view.set (buf3).view.set
    (plane_disj (Or.inr (by decide))) (plane_disj (Or.inr (by decide))) (plane_disj (Or.inr (by decide))) (plane_disj (Or.inr (by decide))) (plane_disj (Or.inr (by decide))) (plane_disj (Or.inr (by decide)))) $$ Hb'
  icases Hb3 with ⟨Hb0, Hb1, Hb2, Hb3, Hbr⟩
  ihave Hb0 := (Entails.of_eq (show ((bV).view.loc (V d (cV L) (jV L)) ↦[(buf0).view.set]{fullShare} fb : sProp 𝕄) = (buf0).view.loc (V d (cV L) (jV L)) ↦[(buf0).view.set]{fullShare} fb from rfl)) $$ Hb0
  ihave Hb1 := (Entails.of_eq (show ((bV).view.loc (V d (cV L) (jV L)) ↦[(buf1).view.set]{fullShare} fb : sProp 𝕄) = (buf1).view.loc (V d (cV L) (jV L)) ↦[(buf1).view.set]{fullShare} fb from rfl)) $$ Hb1
  ihave Hb2 := (Entails.of_eq (show ((bV).view.loc (V d (cV L) (jV L)) ↦[(buf2).view.set]{fullShare} fb : sProp 𝕄) = (buf2).view.loc (V d (cV L) (jV L)) ↦[(buf2).view.set]{fullShare} fb from rfl)) $$ Hb2
  ihave Hb3 := (Entails.of_eq (show ((bV).view.loc (V d (cV L) (jV L)) ↦[(buf3).view.set]{fullShare} fb : sProp 𝕄) = (buf3).view.loc (V d (cV L) (jV L)) ↦[(buf3).view.set]{fullShare} fb from rfl)) $$ Hb3
  -- the tables: by exactly the elements the gathers read, a quarter of the share each
  ihave Hut2 := (Entails.of_eq (show ((utV).view.loc (V d (cV L) (jV L)) ↦{qut} m (utLoc d) : sProp 𝕄) = (utS).view.loc (V d (cV L) (jV L)) ↦[(utS).view.set]{qut} m (utLoc d) by rw [set_utS])) $$ Hut'
  ihave Hut3 := share4_split $$ Hut2
  icases Hut3 with ⟨Hut0, Hut1, Hut2, Hut3⟩
  ihave Hit2 := (Entails.of_eq (show ((itV).view.loc (V d (cV L) (jV L)) ↦{qit} m (itLoc d) : sProp 𝕄) = (itS).view.loc (V d (cV L) (jV L)) ↦[(itS).view.set]{qit} m (itLoc d) by rw [set_itS])) $$ Hit'
  ihave Hit3 := share4_split $$ Hit2
  icases Hit3 with ⟨Hit0, Hit1, Hit2, Hit3⟩
  -- the output blocks, through their own memrefs
  ihave HoU0 := (Entails.of_eq (show (oLoc d ↦[oU0Set L]{fullShare} m (oLoc d) : sProp 𝕄) = (oU0 L).view.loc (V d (cV L) (jV L)) ↦[(oU0 L).view.set]{fullShare} m (oLoc d) from rfl)) $$ HoU0
  ihave HoU1 := (Entails.of_eq (show (oLoc d ↦[oU1Set L]{fullShare} m (oLoc d) : sProp 𝕄) = (oU1 L).view.loc (V d (cV L) (jV L)) ↦[(oU1 L).view.set]{fullShare} m (oLoc d) from rfl)) $$ HoU1
  ihave HoU2 := (Entails.of_eq (show (oLoc d ↦[oU2Set L]{fullShare} m (oLoc d) : sProp 𝕄) = (oU2 L).view.loc (V d (cV L) (jV L)) ↦[(oU2 L).view.set]{fullShare} m (oLoc d) from rfl)) $$ HoU2
  ihave HoU3 := (Entails.of_eq (show (oLoc d ↦[oU3Set L]{fullShare} m (oLoc d) : sProp 𝕄) = (oU3 L).view.loc (V d (cV L) (jV L)) ↦[(oU3 L).view.set]{fullShare} m (oLoc d) from rfl)) $$ HoU3
  ihave HoI0 := (Entails.of_eq (show (oLoc d ↦[oI0Set L]{fullShare} m (oLoc d) : sProp 𝕄) = (oI0 L).view.loc (V d (cV L) (jV L)) ↦[(oI0 L).view.set]{fullShare} m (oLoc d) from rfl)) $$ HoI0
  ihave HoI1 := (Entails.of_eq (show (oLoc d ↦[oI1Set L]{fullShare} m (oLoc d) : sProp 𝕄) = (oI1 L).view.loc (V d (cV L) (jV L)) ↦[(oI1 L).view.set]{fullShare} m (oLoc d) from rfl)) $$ HoI1
  ihave HoI2 := (Entails.of_eq (show (oLoc d ↦[oI2Set L]{fullShare} m (oLoc d) : sProp 𝕄) = (oI2 L).view.loc (V d (cV L) (jV L)) ↦[(oI2 L).view.set]{fullShare} m (oLoc d) from rfl)) $$ HoI2
  ihave HoI3 := (Entails.of_eq (show (oLoc d ↦[oI3Set L]{fullShare} m (oLoc d) : sProp 𝕄) = (oI3 L).view.loc (V d (cV L) (jV L)) ↦[(oI3 L).view.set]{fullShare} m (oLoc d) from rfl)) $$ HoI3
  sl_exec
  sl_step
  -- the eight blocks hold the gathered rows
  have ePU0 : tile_body.sl.dma0_2 m d L fb hinU0 = blockPay (uTab m d) (uLst0 m d L) (uLst0_inb m d L hpre) := (read_writes_whole (buf0).view fb _ []).trans rfl
  have ePI0 : tile_body.sl.dma0_6 m d L fb hinU0 hinI0 = blockPay (iTab m d) (iLst0 m d L) (iLst0_inb m d L hpre) := (read_writes_whole (buf0).view fb _ [_]).trans rfl
  have ePU1 : tile_body.sl.dma0_3 m d L fb hinU1 = blockPay (uTab m d) (uLst1 m d L) (uLst1_inb m d L hpre) := (read_writes_whole (buf1).view fb _ []).trans rfl
  have ePI1 : tile_body.sl.dma0_7 m d L fb hinU1 hinI1 = blockPay (iTab m d) (iLst1 m d L) (iLst1_inb m d L hpre) := (read_writes_whole (buf1).view fb _ [_]).trans rfl
  have ePU2 : tile_body.sl.dma0_4 m d L fb hinU2 = blockPay (uTab m d) (uLst2 m d L) (uLst2_inb m d L hpre) := (read_writes_whole (buf2).view fb _ []).trans rfl
  have ePI2 : tile_body.sl.dma0_8 m d L fb hinU2 hinI2 = blockPay (iTab m d) (iLst2 m d L) (iLst2_inb m d L hpre) := (read_writes_whole (buf2).view fb _ [_]).trans rfl
  have ePU3 : tile_body.sl.dma0_5 m d L fb hinU3 = blockPay (uTab m d) (uLst3 m d L) (uLst3_inb m d L hpre) := (read_writes_whole (buf3).view fb _ []).trans rfl
  have ePI3 : tile_body.sl.dma0_9 m d L fb hinU3 hinI3 = blockPay (iTab m d) (iLst3 m d L) (iLst3_inb m d L hpre) := (read_writes_whole (buf3).view fb _ [_]).trans rfl
  isplitl [Hui' Hii' Hut0 Hut1 Hut2 Hut3 Hit0 Hit1 Hit2 Hit3 HoU0 HoU1 HoU2 HoU3 HoI0 HoI1 HoI2 HoI3]
  · isplitl [Hui' Hii' Hut0 Hut1 Hut2 Hut3 Hit0 Hit1 Hit2 Hit3]
    · isplitl [Hui']; · iexact Hui'
      isplitl [Hii']; · iexact Hii'
      isplitl [Hut0 Hut1 Hut2 Hut3]
      · iapply (Entails.of_eq (show ((utS).view.loc (V d (cV L) (jV L)) ↦[(utS).view.set]{qut} m (utLoc d) : sProp 𝕄) = (utLoc d ↦{qut} m (utLoc d)) by rw [set_utS]))
        iapply share4_join
        isplitl [Hut0]; · iexact Hut0
        isplitl [Hut1]; · iexact Hut1
        isplitl [Hut2]; · iexact Hut2
        iexact Hut3
      · iapply (Entails.of_eq (show ((itS).view.loc (V d (cV L) (jV L)) ↦[(itS).view.set]{qit} m (itLoc d) : sProp 𝕄) = (itLoc d ↦{qit} m (itLoc d)) by rw [set_itS]))
        iapply share4_join
        isplitl [Hit0]; · iexact Hit0
        isplitl [Hit1]; · iexact Hit1
        isplitl [Hit2]; · iexact Hit2
        iexact Hit3
    · isplitl [HoU0]; · iapply (Entails.of_eq (block_written (oU0 L) d (cV L) (jV L) (m (oLoc d)) _ _ ePU0)); iexact HoU0
      isplitl [HoU1]; · iapply (Entails.of_eq (block_written (oU1 L) d (cV L) (jV L) (m (oLoc d)) _ _ ePU1)); iexact HoU1
      isplitl [HoU2]; · iapply (Entails.of_eq (block_written (oU2 L) d (cV L) (jV L) (m (oLoc d)) _ _ ePU2)); iexact HoU2
      isplitl [HoU3]; · iapply (Entails.of_eq (block_written (oU3 L) d (cV L) (jV L) (m (oLoc d)) _ _ ePU3)); iexact HoU3
      isplitl [HoI0]; · iapply (Entails.of_eq (block_written (oI0 L) d (cV L) (jV L) (m (oLoc d)) _ _ ePI0)); iexact HoI0
      isplitl [HoI1]; · iapply (Entails.of_eq (block_written (oI1 L) d (cV L) (jV L) (m (oLoc d)) _ _ ePI1)); iexact HoI1
      isplitl [HoI2]; · iapply (Entails.of_eq (block_written (oI2 L) d (cV L) (jV L) (m (oLoc d)) _ _ ePI2)); iexact HoI2
      iapply (Entails.of_eq (block_written (oI3 L) d (cV L) (jV L) (m (oLoc d)) _ _ ePI3)); iexact HoI3
  -- the scratches whole again, at some contents
  ihave Hu0 := (Entails.of_eq (show ((usC0).view.loc (V d (cV L) (jV L)) ↦[(usC0).view.set]{fullShare} usW m d L : sProp 𝕄) = (usV).view.loc (V d (cV L) (jV L)) ↦[(usC0).view.set]{fullShare} usW m d L from rfl)) $$ Hu0
  ihave Hi0 := (Entails.of_eq (show ((isC0).view.loc (V d (cV L) (jV L)) ↦[(isC0).view.set]{fullShare} isW m d L : sProp 𝕄) = (isV).view.loc (V d (cV L) (jV L)) ↦[(isC0).view.set]{fullShare} isW m d L from rfl)) $$ Hi0
  ihave Hu1 := (Entails.of_eq (show ((usC1).view.loc (V d (cV L) (jV L)) ↦[(usC1).view.set]{fullShare} usW m d L : sProp 𝕄) = (usV).view.loc (V d (cV L) (jV L)) ↦[(usC1).view.set]{fullShare} usW m d L from rfl)) $$ Hu1
  ihave Hi1 := (Entails.of_eq (show ((isC1).view.loc (V d (cV L) (jV L)) ↦[(isC1).view.set]{fullShare} isW m d L : sProp 𝕄) = (isV).view.loc (V d (cV L) (jV L)) ↦[(isC1).view.set]{fullShare} isW m d L from rfl)) $$ Hi1
  ihave Hu2 := (Entails.of_eq (show ((usC2).view.loc (V d (cV L) (jV L)) ↦[(usC2).view.set]{fullShare} usW m d L : sProp 𝕄) = (usV).view.loc (V d (cV L) (jV L)) ↦[(usC2).view.set]{fullShare} usW m d L from rfl)) $$ Hu2
  ihave Hi2 := (Entails.of_eq (show ((isC2).view.loc (V d (cV L) (jV L)) ↦[(isC2).view.set]{fullShare} isW m d L : sProp 𝕄) = (isV).view.loc (V d (cV L) (jV L)) ↦[(isC2).view.set]{fullShare} isW m d L from rfl)) $$ Hi2
  ihave Hu3 := (Entails.of_eq (show ((usC3).view.loc (V d (cV L) (jV L)) ↦[(usC3).view.set]{fullShare} usW m d L : sProp 𝕄) = (usV).view.loc (V d (cV L) (jV L)) ↦[(usC3).view.set]{fullShare} usW m d L from rfl)) $$ Hu3
  ihave Hi3 := (Entails.of_eq (show ((isC3).view.loc (V d (cV L) (jV L)) ↦[(isC3).view.set]{fullShare} isW m d L : sProp 𝕄) = (isV).view.loc (V d (cV L) (jV L)) ↦[(isC3).view.set]{fullShare} isW m d L from rfl)) $$ Hi3
  isplitl [Hu0 Hu1 Hu2 Hu3 Hur Hi0 Hi1 Hi2 Hi3 Hir Hb0 Hb1 Hb2 Hb3 Hbr Hbufs]
  · isplitl [Hu0 Hu1 Hu2 Hu3 Hur]
    · iapply (join4 (ℓ := (usV).view.loc (V d (cV L) (jV L))) (usC0).view.set (usC1).view.set (usC2).view.set (usC3).view.set
        (usC_disj (Or.inr (by decide))) (usC_disj (Or.inr (by decide))) (usC_disj (Or.inr (by decide))) (usC_disj (Or.inr (by decide))) (usC_disj (Or.inr (by decide))) (usC_disj (Or.inr (by decide))))
      isplitl [Hu0]; · iexact Hu0
      isplitl [Hu1]; · iexact Hu1
      isplitl [Hu2]; · iexact Hu2
      isplitl [Hu3]; · iexact Hu3
      iexact Hur
    isplitl [Hi0 Hi1 Hi2 Hi3 Hir]
    · iapply (join4 (ℓ := (isV).view.loc (V d (cV L) (jV L))) (isC0).view.set (isC1).view.set (isC2).view.set (isC3).view.set
        (isC_disj (Or.inr (by decide))) (isC_disj (Or.inr (by decide))) (isC_disj (Or.inr (by decide))) (isC_disj (Or.inr (by decide))) (isC_disj (Or.inr (by decide))) (isC_disj (Or.inr (by decide))))
      isplitl [Hi0]; · iexact Hi0
      isplitl [Hi1]; · iexact Hi1
      isplitl [Hi2]; · iexact Hi2
      isplitl [Hi3]; · iexact Hi3
      iexact Hir
    isplitl [Hb0 Hb1 Hb2 Hb3 Hbr]
    · iapply (join4 (ℓ := (bV).view.loc (V d (cV L) (jV L))) (buf0).view.set (buf1).view.set (buf2).view.set (buf3).view.set
        (plane_disj (Or.inr (by decide))) (plane_disj (Or.inr (by decide))) (plane_disj (Or.inr (by decide))) (plane_disj (Or.inr (by decide))) (plane_disj (Or.inr (by decide))) (plane_disj (Or.inr (by decide))))
      isplitl [Hb0]; · iexact Hb0
      isplitl [Hb1]; · iexact Hb1
      isplitl [Hb2]; · iexact Hb2
      isplitl [Hb3]; · iexact Hb3
      iexact Hbr
    iexact Hbufs
  isplitl [Hs0 Hs1 Hg0 Hg1 Hg2 Hg3 Ht0 Ht1 Ht2 Ht3 Hsems]
  · isplitl [Hs0]; · iexact Hs0
    isplitl [Hs1]; · iexact Hs1
    isplitl [Hg0]; · iexact Hg0
    isplitl [Hg1]; · iexact Hg1
    isplitl [Hg2]; · iexact Hg2
    isplitl [Hg3]; · iexact Hg3
    isplitl [Ht0]; · iexact Ht0
    isplitl [Ht1]; · iexact Ht1
    isplitl [Ht2]; · iexact Ht2
    isplitl [Ht3]; · iexact Ht3
    iexact Hsems
  iexists _; isplitr
  swap; · iexact HO
  ipureintro; intro p hp
  repeat (rcases Finset.mem_insert.mp hp with hp | hp; · exact .inr (hp ▸ rfl))
  exact .inl hp

end Tile

end Cert.Kernel.ScTile

end
-- ==== Proof.BSplitJoin.lean ====
/-
  The gathered array joined back from its 256 blocks.

  After the gather call every tile hands back its read shares of the four input arrays and its eight blocks of the
  gathered array.  A block was written through its own slice, so at an element `(r, k)` of the block it holds the
  gathered payload at the element's position inside the block: the table row that word `r` of the index array names,
  at column `k` (left half, user table) or `k − 128` (right half, item table).  That is the value of the one function
  `gathered` of the launch memory at `(r, k)` — the clamp in `gathered` does nothing because every index word names a
  row of its table.  Ownership of a set of elements depends only on the contents on that set, so each block is held at
  `gathered`; the 256 blocks are pairwise disjoint and cover the array, so they join to the whole array at
  `gathered`; the thirty-two read shares of each input join back to the full share at the launch contents.
-/
import proofs.«201366_g32727650796262_cont_8to1_b_1271_35_alg».proof.Proof.BSplit

noncomputable section

namespace Cert.Kernel.SplitJoin

open Cert.Kernel.Launch

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.ValueIdx

variable {F : FTy → Type} [FloatOps F]

local notation "uiV" => (Memref.whole Cert.Kernel.main_arg0_scv : Memref Cert.Kernel.sig Kind.scVector Space.hbm Cert.Kernel.S16384 EltTy.i32)
local notation "iiV" => (Memref.whole Cert.Kernel.main_arg1_scv : Memref Cert.Kernel.sig Kind.scVector Space.hbm Cert.Kernel.S16384 EltTy.i32)
local notation "utV" => (Memref.whole Cert.Kernel.main_arg2_scv : Memref Cert.Kernel.sig Kind.scVector Space.hbm Cert.Kernel.S100000x128 EltTy.f32)
local notation "itV" => (Memref.whole Cert.Kernel.main_arg3_scv : Memref Cert.Kernel.sig Kind.scVector Space.hbm Cert.Kernel.S100000x128 EltTy.f32)
local notation "oV" => (Memref.whole Cert.Kernel.main_v0_scv : Memref Cert.Kernel.sig Kind.scVector Space.hbm Cert.Kernel.S16384x256 EltTy.f32)

local notation "𝕄" => MT nD τ sig (HIx 1) (Elt F) ℕ UU ℕ

variable (m : (ℓ : Loc nD τ sig) → Buf (Elt F) ℓ)

/-! ## A block written through its slice; the tables and the index lists read at an index -/

/-- A block of the gathered array written through its slice: at an element of the block, the payload at the
    element's position inside the block. -/
theorem oBlk_write (d : Dev nD) (off : Fin 2 → Nat) (inb : ∀ a, off a + S128x128.size a ≤ S16384x256.size a)
    (f : Buf (Elt F) (ScTile.oLoc d)) (w : S128x128.Idx → Elt F .f32) (x : S16384x256.Idx)
    (h0 : off 0 ≤ (x 0).val ∧ (x 0).val < off 0 + 128) (h1 : off 1 ≤ (x 1).val ∧ (x 1).val < off 1 + 128) :
    ((oV).slice (Rect.unit (s := S16384x256) off S128x128.size inb) (fun _ => rfl)).view.write (Elt F) f w Finset.univ x
      = w (ix2 ⟨(x 0).val - off 0, by omega⟩ ⟨(x 1).val - off 1, by omega⟩) := by
  have hx : ((oV).slice (Rect.unit (s := S16384x256) off S128x128.size inb) (fun _ => rfl)).view.emb
      (ix2 ⟨(x 0).val - off 0, by omega⟩ ⟨(x 1).val - off 1, by omega⟩) = x := by
    funext a
    apply Fin.ext
    match a with
    | ⟨0, _⟩ => show off 0 + 1 * ((x 0).val - off 0) = (x 0).val; omega
    | ⟨1, _⟩ => show off 1 + 1 * ((x 1).val - off 1) = (x 1).val; omega
  conv_lhs => rw [← hx]
  exact (View.write_emb_of_mem _ _ (Finset.mem_univ _)).trans (cast_eq _ _)

/-- The same with the offsets given as numbers. -/
theorem oBlk_write' (d : Dev nD) (off : Fin 2 → Nat) (inb : ∀ a, off a + S128x128.size a ≤ S16384x256.size a)
    (o0 o1 : Nat) (e : off = ![o0, o1])
    (f : Buf (Elt F) (ScTile.oLoc d)) (w : S128x128.Idx → Elt F .f32) (x : S16384x256.Idx)
    (h0 : o0 ≤ (x 0).val ∧ (x 0).val < o0 + 128) (h1 : o1 ≤ (x 1).val ∧ (x 1).val < o1 + 128) :
    ((oV).slice (Rect.unit (s := S16384x256) off S128x128.size inb) (fun _ => rfl)).view.write (Elt F) f w Finset.univ x
      = w (ix2 ⟨(x 0).val - o0, by omega⟩ ⟨(x 1).val - o1, by omega⟩) := by
  subst e
  exact oBlk_write d _ inb f w x h0 h1

/-- A table read whole is the table. -/
theorem uTab_apply (d : Dev nD) (j : S100000x128.Idx) : ScTile.uTab m d j = m (ScTile.utLoc d) j := by
  have e : ScTile.uTab m d j = m (ScTile.utLoc d) ((ScTile.utS).view.emb j) := (View.read_apply _ _).trans (cast_eq _ _)
  rw [e]
  congr 1
  funext a
  apply Fin.ext
  match a with
  | ⟨0, _⟩ => show 0 + 1 * (j 0).val = (j 0).val; omega
  | ⟨1, _⟩ => show 0 + 1 * (j 1).val = (j 1).val; omega
theorem iTab_apply (d : Dev nD) (j : S100000x128.Idx) : ScTile.iTab m d j = m (ScTile.itLoc d) j := by
  have e : ScTile.iTab m d j = m (ScTile.itLoc d) ((ScTile.itS).view.emb j) := (View.read_apply _ _).trans (cast_eq _ _)
  rw [e]
  congr 1
  funext a
  apply Fin.ext
  match a with
  | ⟨0, _⟩ => show 0 + 1 * (j 0).val = (j 0).val; omega
  | ⟨1, _⟩ => show 0 + 1 * (j 1).val = (j 1).val; omega

/-! Word `ρ` of row group `j` of the tile's words of an index array is word `base + 128 j + ρ` of the array,
`base = 1024 · subcore + 512 · core`. -/

theorem uLst0_apply (d : Dev nD) (L : grid0.Coords) (ρ : Fin 128)
    (h : 1024 * (L 1).val + 512 * (L 0).val + 128 * 0 + ρ.val < 16384) :
    ScTile.uLst0 m d L (ix1 ρ) = m (ScTile.uiLoc d) (ix1 ⟨1024 * (L 1).val + 512 * (L 0).val + 128 * 0 + ρ.val, h⟩) := by
  have e : ScTile.uLst0 m d L (ix1 ρ) = m (ScTile.uiLoc d) (((ScTile.uiS L).slice ScTile.chunk0 (fun _ => rfl)).view.emb (ix1 ρ)) :=
    (View.read_apply _ _).trans (cast_eq _ _)
  rw [e]
  congr 1
  funext a
  apply Fin.ext
  match a with
  | ⟨0, _⟩ =>
    show k0_off1 L 0 + 1 * (0 + 1 * ρ.val) = 1024 * (L 1).val + 512 * (L 0).val + 128 * 0 + ρ.val
    rw [k0_off1_eq L]
    show 1024 * (L 1).val + 512 * (L 0).val + 1 * (0 + 1 * ρ.val) = _
    omega
theorem uLst1_apply (d : Dev nD) (L : grid0.Coords) (ρ : Fin 128)
    (h : 1024 * (L 1).val + 512 * (L 0).val + 128 * 1 + ρ.val < 16384) :
    ScTile.uLst1 m d L (ix1 ρ) = m (ScTile.uiLoc d) (ix1 ⟨1024 * (L 1).val + 512 * (L 0).val + 128 * 1 + ρ.val, h⟩) := by
  have e : ScTile.uLst1 m d L (ix1 ρ) = m (ScTile.uiLoc d) (((ScTile.uiS L).slice ScTile.chunk1 (fun _ => rfl)).view.emb (ix1 ρ)) :=
    (View.read_apply _ _).trans (cast_eq _ _)
  rw [e]
  congr 1
  funext a
  apply Fin.ext
  match a with
  | ⟨0, _⟩ =>
    show k0_off1 L 0 + 1 * (128 + 1 * ρ.val) = 1024 * (L 1).val + 512 * (L 0).val + 128 * 1 + ρ.val
    rw [k0_off1_eq L]
    show 1024 * (L 1).val + 512 * (L 0).val + 1 * (128 + 1 * ρ.val) = _
    omega
theorem uLst2_apply (d : Dev nD) (L : grid0.Coords) (ρ : Fin 128)
    (h : 1024 * (L 1).val + 512 * (L 0).val + 128 * 2 + ρ.val < 16384) :
    ScTile.uLst2 m d L (ix1 ρ) = m (ScTile.uiLoc d) (ix1 ⟨1024 * (L 1).val + 512 * (L 0).val + 128 * 2 + ρ.val, h⟩) := by
  have e : ScTile.uLst2 m d L (ix1 ρ) = m (ScTile.uiLoc d) (((ScTile.uiS L).slice ScTile.chunk2 (fun _ => rfl)).view.emb (ix1 ρ)) :=
    (View.read_apply _ _).trans (cast_eq _ _)
  rw [e]
  congr 1
  funext a
  apply Fin.ext
  match a with
  | ⟨0, _⟩ =>
    show k0_off1 L 0 + 1 * (256 + 1 * ρ.val) = 1024 * (L 1).val + 512 * (L 0).val + 128 * 2 + ρ.val
    rw [k0_off1_eq L]
    show 1024 * (L 1).val + 512 * (L 0).val + 1 * (256 + 1 * ρ.val) = _
    omega
theorem uLst3_apply (d : Dev nD) (L : grid0.Coords) (ρ : Fin 128)
    (h : 1024 * (L 1).val + 512 * (L 0).val + 128 * 3 + ρ.val < 16384) :
    ScTile.uLst3 m d L (ix1 ρ) = m (ScTile.uiLoc d) (ix1 ⟨1024 * (L 1).val + 512 * (L 0).val + 128 * 3 + ρ.val, h⟩) := by
  have e : ScTile.uLst3 m d L (ix1 ρ) = m (ScTile.uiLoc d) (((ScTile.uiS L).slice ScTile.chunk3 (fun _ => rfl)).view.emb (ix1 ρ)) :=
    (View.read_apply _ _).trans (cast_eq _ _)
  rw [e]
  congr 1
  funext a
  apply Fin.ext
  match a with
  | ⟨0, _⟩ =>
    show k0_off1 L 0 + 1 * (384 + 1 * ρ.val) = 1024 * (L 1).val + 512 * (L 0).val + 128 * 3 + ρ.val
    rw [k0_off1_eq L]
    show 1024 * (L 1).val + 512 * (L 0).val + 1 * (384 + 1 * ρ.val) = _
    omega
theorem iLst0_apply (d : Dev nD) (L : grid0.Coords) (ρ : Fin 128)
    (h : 1024 * (L 1).val + 512 * (L 0).val + 128 * 0 + ρ.val < 16384) :
    ScTile.iLst0 m d L (ix1 ρ) = m (ScTile.iiLoc d) (ix1 ⟨1024 * (L 1).val + 512 * (L 0).val + 128 * 0 + ρ.val, h⟩) := by
  have e : ScTile.iLst0 m d L (ix1 ρ) = m (ScTile.iiLoc d) (((ScTile.iiS L).slice ScTile.chunk0 (fun _ => rfl)).view.emb (ix1 ρ)) :=
    (View.read_apply _ _).trans (cast_eq _ _)
  rw [e]
  congr 1
  funext a
  apply Fin.ext
  match a with
  | ⟨0, _⟩ =>
    show k0_off1 L 0 + 1 * (0 + 1 * ρ.val) = 1024 * (L 1).val + 512 * (L 0).val + 128 * 0 + ρ.val
    rw [k0_off1_eq L]
    show 1024 * (L 1).val + 512 * (L 0).val + 1 * (0 + 1 * ρ.val) = _
    omega
theorem iLst1_apply (d : Dev nD) (L : grid0.Coords) (ρ : Fin 128)
    (h : 1024 * (L 1).val + 512 * (L 0).val + 128 * 1 + ρ.val < 16384) :
    ScTile.iLst1 m d L (ix1 ρ) = m (ScTile.iiLoc d) (ix1 ⟨1024 * (L 1).val + 512 * (L 0).val + 128 * 1 + ρ.val, h⟩) := by
  have e : ScTile.iLst1 m d L (ix1 ρ) = m (ScTile.iiLoc d) (((ScTile.iiS L).slice ScTile.chunk1 (fun _ => rfl)).view.emb (ix1 ρ)) :=
    (View.read_apply _ _).trans (cast_eq _ _)
  rw [e]
  congr 1
  funext a
  apply Fin.ext
  match a with
  | ⟨0, _⟩ =>
    show k0_off1 L 0 + 1 * (128 + 1 * ρ.val) = 1024 * (L 1).val + 512 * (L 0).val + 128 * 1 + ρ.val
    rw [k0_off1_eq L]
    show 1024 * (L 1).val + 512 * (L 0).val + 1 * (128 + 1 * ρ.val) = _
    omega
theorem iLst2_apply (d : Dev nD) (L : grid0.Coords) (ρ : Fin 128)
    (h : 1024 * (L 1).val + 512 * (L 0).val + 128 * 2 + ρ.val < 16384) :
    ScTile.iLst2 m d L (ix1 ρ) = m (ScTile.iiLoc d) (ix1 ⟨1024 * (L 1).val + 512 * (L 0).val + 128 * 2 + ρ.val, h⟩) := by
  have e : ScTile.iLst2 m d L (ix1 ρ) = m (ScTile.iiLoc d) (((ScTile.iiS L).slice ScTile.chunk2 (fun _ => rfl)).view.emb (ix1 ρ)) :=
    (View.read_apply _ _).trans (cast_eq _ _)
  rw [e]
  congr 1
  funext a
  apply Fin.ext
  match a with
  | ⟨0, _⟩ =>
    show k0_off1 L 0 + 1 * (256 + 1 * ρ.val) = 1024 * (L 1).val + 512 * (L 0).val + 128 * 2 + ρ.val
    rw [k0_off1_eq L]
    show 1024 * (L 1).val + 512 * (L 0).val + 1 * (256 + 1 * ρ.val) = _
    omega
theorem iLst3_apply (d : Dev nD) (L : grid0.Coords) (ρ : Fin 128)
    (h : 1024 * (L 1).val + 512 * (L 0).val + 128 * 3 + ρ.val < 16384) :
    ScTile.iLst3 m d L (ix1 ρ) = m (ScTile.iiLoc d) (ix1 ⟨1024 * (L 1).val + 512 * (L 0).val + 128 * 3 + ρ.val, h⟩) := by
  have e : ScTile.iLst3 m d L (ix1 ρ) = m (ScTile.iiLoc d) (((ScTile.iiS L).slice ScTile.chunk3 (fun _ => rfl)).view.emb (ix1 ρ)) :=
    (View.read_apply _ _).trans (cast_eq _ _)
  rw [e]
  congr 1
  funext a
  apply Fin.ext
  match a with
  | ⟨0, _⟩ =>
    show k0_off1 L 0 + 1 * (384 + 1 * ρ.val) = 1024 * (L 1).val + 512 * (L 0).val + 128 * 3 + ρ.val
    rw [k0_off1_eq L]
    show 1024 * (L 1).val + 512 * (L 0).val + 1 * (384 + 1 * ρ.val) = _
    omega

/-! ## The gathered array at an element of the left half and of the right half -/

/-- Under the precondition the row number is not clamped. -/
theorem gath_left (hpre : ScTile.PreOK m) (d : Dev nD) (x : S16384x256.Idx) (h : (x 1).val < 128)
    (n : Nat) (hn : n < 100000) (κ : Fin 128) (hκ : κ.val = (x 1).val)
    (hnv : n = (m (ScTile.uiLoc d) (ix1 (⟨(x 0).val, idx2_lt0 x⟩ : Fin 16384))).toNat) :
    m (ScTile.utLoc d) (ix2 (⟨n, hn⟩ : Fin 100000) κ) = gathered m d x := by
  unfold gathered
  rw [dif_pos h]
  congr 1
  have hle := (hpre d (ix1 (⟨(x 0).val, idx2_lt0 x⟩ : Fin 16384))).1
  funext a
  match a with
  | ⟨0, _⟩ => exact Fin.ext (by show n = min _ 99999; rw [hnv]; omega)
  | ⟨1, _⟩ => exact Fin.ext hκ

theorem gath_right (hpre : ScTile.PreOK m) (d : Dev nD) (x : S16384x256.Idx) (h : ¬ (x 1).val < 128)
    (n : Nat) (hn : n < 100000) (κ : Fin 128) (hκ : κ.val = (x 1).val - 128)
    (hnv : n = (m (ScTile.iiLoc d) (ix1 (⟨(x 0).val, idx2_lt0 x⟩ : Fin 16384))).toNat) :
    m (ScTile.itLoc d) (ix2 (⟨n, hn⟩ : Fin 100000) κ) = gathered m d x := by
  unfold gathered
  rw [dif_neg h]
  congr 1
  have hle := (hpre d (ix1 (⟨(x 0).val, idx2_lt0 x⟩ : Fin 16384))).2
  funext a
  match a with
  | ⟨0, _⟩ => exact Fin.ext (by show n = min _ 99999; rw [hnv]; omega)
  | ⟨1, _⟩ => exact Fin.ext hκ

/-! ## Every block holds the gathered rows -/

/-- Block (user half, row group 0) holds the gathered rows on its own elements. -/
theorem oU0_eq (hpre : ScTile.PreOK m) (d : Dev nD) (L : grid0.Coords) (x : S16384x256.Idx) (hx : x ∈ ScTile.oU0Set L) :
    ScTile.oU0Val m d L hpre x = gathered m d x := by
  obtain ⟨h0, h1⟩ := (mem_oU0 L x).mp hx
  have hx0 : (x 0).val < 16384 := idx2_lt0 x
  have hw := oBlk_write' d (k0_off2 L 0#32) (k0_off2_inb L 0) (1024 * (L 1).val + 512 * (L 0).val + 128 * 0) 0
    (k0_off2_eq L ⟨0, by decide⟩) (m (ScTile.oLoc d))
    (ScTile.blockPay (ScTile.uTab m d) (ScTile.uLst0 m d L) (ScTile.uLst0_inb m d L hpre)) x h0 h1
  refine hw.trans ?_
  rw [ScTile.blockPay_apply, uTab_apply]
  refine gath_left m hpre d x (by omega) _ _ _ (by show (x 1).val - 0 = _; omega) ?_
  rw [uLst0_apply m d L _ (by show 1024 * (L 1).val + 512 * (L 0).val + 128 * 0 + ((x 0).val - (1024 * (L 1).val + 512 * (L 0).val + 128 * 0)) < 16384; omega)]
  congr 3
  apply Fin.ext
  show 1024 * (L 1).val + 512 * (L 0).val + 128 * 0 + ((x 0).val - (1024 * (L 1).val + 512 * (L 0).val + 128 * 0)) = (x 0).val
  omega
/-- Block (user half, row group 1) holds the gathered rows on its own elements. -/
theorem oU1_eq (hpre : ScTile.PreOK m) (d : Dev nD) (L : grid0.Coords) (x : S16384x256.Idx) (hx : x ∈ ScTile.oU1Set L) :
    ScTile.oU1Val m d L hpre x = gathered m d x := by
  obtain ⟨h0, h1⟩ := (mem_oU1 L x).mp hx
  have hx0 : (x 0).val < 16384 := idx2_lt0 x
  have hw := oBlk_write' d (k0_off2 L 128#32) (k0_off2_inb L 1) (1024 * (L 1).val + 512 * (L 0).val + 128 * 1) 0
    (k0_off2_eq L ⟨1, by decide⟩) (m (ScTile.oLoc d))
    (ScTile.blockPay (ScTile.uTab m d) (ScTile.uLst1 m d L) (ScTile.uLst1_inb m d L hpre)) x h0 h1
  refine hw.trans ?_
  rw [ScTile.blockPay_apply, uTab_apply]
  refine gath_left m hpre d x (by omega) _ _ _ (by show (x 1).val - 0 = _; omega) ?_
  rw [uLst1_apply m d L _ (by show 1024 * (L 1).val + 512 * (L 0).val + 128 * 1 + ((x 0).val - (1024 * (L 1).val + 512 * (L 0).val + 128 * 1)) < 16384; omega)]
  congr 3
  apply Fin.ext
  show 1024 * (L 1).val + 512 * (L 0).val + 128 * 1 + ((x 0).val - (1024 * (L 1).val + 512 * (L 0).val + 128 * 1)) = (x 0).val
  omega
/-- Block (user half, row group 2) holds the gathered rows on its own elements. -/
theorem oU2_eq (hpre : ScTile.PreOK m) (d : Dev nD) (L : grid0.Coords) (x : S16384x256.Idx) (hx : x ∈ ScTile.oU2Set L) :
    ScTile.oU2Val m d L hpre x = gathered m d x := by
  obtain ⟨h0, h1⟩ := (mem_oU2 L x).mp hx
  have hx0 : (x 0).val < 16384 := idx2_lt0 x
  have hw := oBlk_write' d (k0_off2 L 256#32) (k0_off2_inb L 2) (1024 * (L 1).val + 512 * (L 0).val + 128 * 2) 0
    (k0_off2_eq L ⟨2, by decide⟩) (m (ScTile.oLoc d))
    (ScTile.blockPay (ScTile.uTab m d) (ScTile.uLst2 m d L) (ScTile.uLst2_inb m d L hpre)) x h0 h1
  refine hw.trans ?_
  rw [ScTile.blockPay_apply, uTab_apply]
  refine gath_left m hpre d x (by omega) _ _ _ (by show (x 1).val - 0 = _; omega) ?_
  rw [uLst2_apply m d L _ (by show 1024 * (L 1).val + 512 * (L 0).val + 128 * 2 + ((x 0).val - (1024 * (L 1).val + 512 * (L 0).val + 128 * 2)) < 16384; omega)]
  congr 3
  apply Fin.ext
  show 1024 * (L 1).val + 512 * (L 0).val + 128 * 2 + ((x 0).val - (1024 * (L 1).val + 512 * (L 0).val + 128 * 2)) = (x 0).val
  omega
/-- Block (user half, row group 3) holds the gathered rows on its own elements. -/
theorem oU3_eq (hpre : ScTile.PreOK m) (d : Dev nD) (L : grid0.Coords) (x : S16384x256.Idx) (hx : x ∈ ScTile.oU3Set L) :
    ScTile.oU3Val m d L hpre x = gathered m d x := by
  obtain ⟨h0, h1⟩ := (mem_oU3 L x).mp hx
  have hx0 : (x 0).val < 16384 := idx2_lt0 x
  have hw := oBlk_write' d (k0_off2 L 384#32) (k0_off2_inb L 3) (1024 * (L 1).val + 512 * (L 0).val + 128 * 3) 0
    (k0_off2_eq L ⟨3, by decide⟩) (m (ScTile.oLoc d))
    (ScTile.blockPay (ScTile.uTab m d) (ScTile.uLst3 m d L) (ScTile.uLst3_inb m d L hpre)) x h0 h1
  refine hw.trans ?_
  rw [ScTile.blockPay_apply, uTab_apply]
  refine gath_left m hpre d x (by omega) _ _ _ (by show (x 1).val - 0 = _; omega) ?_
  rw [uLst3_apply m d L _ (by show 1024 * (L 1).val + 512 * (L 0).val + 128 * 3 + ((x 0).val - (1024 * (L 1).val + 512 * (L 0).val + 128 * 3)) < 16384; omega)]
  congr 3
  apply Fin.ext
  show 1024 * (L 1).val + 512 * (L 0).val + 128 * 3 + ((x 0).val - (1024 * (L 1).val + 512 * (L 0).val + 128 * 3)) = (x 0).val
  omega
/-- Block (item half, row group 0) holds the gathered rows on its own elements. -/
theorem oI0_eq (hpre : ScTile.PreOK m) (d : Dev nD) (L : grid0.Coords) (x : S16384x256.Idx) (hx : x ∈ ScTile.oI0Set L) :
    ScTile.oI0Val m d L hpre x = gathered m d x := by
  obtain ⟨h0, h1⟩ := (mem_oI0 L x).mp hx
  have hx0 : (x 0).val < 16384 := idx2_lt0 x
  have hw := oBlk_write' d (k0_off3 L 0#32) (k0_off3_inb L 0) (1024 * (L 1).val + 512 * (L 0).val + 128 * 0) 128
    (k0_off3_eq L ⟨0, by decide⟩) (m (ScTile.oLoc d))
    (ScTile.blockPay (ScTile.iTab m d) (ScTile.iLst0 m d L) (ScTile.iLst0_inb m d L hpre)) x h0 h1
  refine hw.trans ?_
  rw [ScTile.blockPay_apply, iTab_apply]
  refine gath_right m hpre d x (by omega) _ _ _ (by show (x 1).val - 128 = _; omega) ?_
  rw [iLst0_apply m d L _ (by show 1024 * (L 1).val + 512 * (L 0).val + 128 * 0 + ((x 0).val - (1024 * (L 1).val + 512 * (L 0).val + 128 * 0)) < 16384; omega)]
  congr 3
  apply Fin.ext
  show 1024 * (L 1).val + 512 * (L 0).val + 128 * 0 + ((x 0).val - (1024 * (L 1).val + 512 * (L 0).val + 128 * 0)) = (x 0).val
  omega
/-- Block (item half, row group 1) holds the gathered rows on its own elements. -/
theorem oI1_eq (hpre : ScTile.PreOK m) (d : Dev nD) (L : grid0.Coords) (x : S16384x256.Idx) (hx : x ∈ ScTile.oI1Set L) :
    ScTile.oI1Val m d L hpre x = gathered m d x := by
  obtain ⟨h0, h1⟩ := (mem_oI1 L x).mp hx
  have hx0 : (x 0).val < 16384 := idx2_lt0 x
  have hw := oBlk_write' d (k0_off3 L 128#32) (k0_off3_inb L 1) (1024 * (L 1).val + 512 * (L 0).val + 128 * 1) 128
    (k0_off3_eq L ⟨1, by decide⟩) (m (ScTile.oLoc d))
    (ScTile.blockPay (ScTile.iTab m d) (ScTile.iLst1 m d L) (ScTile.iLst1_inb m d L hpre)) x h0 h1
  refine hw.trans ?_
  rw [ScTile.blockPay_apply, iTab_apply]
  refine gath_right m hpre d x (by omega) _ _ _ (by show (x 1).val - 128 = _; omega) ?_
  rw [iLst1_apply m d L _ (by show 1024 * (L 1).val + 512 * (L 0).val + 128 * 1 + ((x 0).val - (1024 * (L 1).val + 512 * (L 0).val + 128 * 1)) < 16384; omega)]
  congr 3
  apply Fin.ext
  show 1024 * (L 1).val + 512 * (L 0).val + 128 * 1 + ((x 0).val - (1024 * (L 1).val + 512 * (L 0).val + 128 * 1)) = (x 0).val
  omega
/-- Block (item half, row group 2) holds the gathered rows on its own elements. -/
theorem oI2_eq (hpre : ScTile.PreOK m) (d : Dev nD) (L : grid0.Coords) (x : S16384x256.Idx) (hx : x ∈ ScTile.oI2Set L) :
    ScTile.oI2Val m d L hpre x = gathered m d x := by
  obtain ⟨h0, h1⟩ := (mem_oI2 L x).mp hx
  have hx0 : (x 0).val < 16384 := idx2_lt0 x
  have hw := oBlk_write' d (k0_off3 L 256#32) (k0_off3_inb L 2) (1024 * (L 1).val + 512 * (L 0).val + 128 * 2) 128
    (k0_off3_eq L ⟨2, by decide⟩) (m (ScTile.oLoc d))
    (ScTile.blockPay (ScTile.iTab m d) (ScTile.iLst2 m d L) (ScTile.iLst2_inb m d L hpre)) x h0 h1
  refine hw.trans ?_
  rw [ScTile.blockPay_apply, iTab_apply]
  refine gath_right m hpre d x (by omega) _ _ _ (by show (x 1).val - 128 = _; omega) ?_
  rw [iLst2_apply m d L _ (by show 1024 * (L 1).val + 512 * (L 0).val + 128 * 2 + ((x 0).val - (1024 * (L 1).val + 512 * (L 0).val + 128 * 2)) < 16384; omega)]
  congr 3
  apply Fin.ext
  show 1024 * (L 1).val + 512 * (L 0).val + 128 * 2 + ((x 0).val - (1024 * (L 1).val + 512 * (L 0).val + 128 * 2)) = (x 0).val
  omega
/-- Block (item half, row group 3) holds the gathered rows on its own elements. -/
theorem oI3_eq (hpre : ScTile.PreOK m) (d : Dev nD) (L : grid0.Coords) (x : S16384x256.Idx) (hx : x ∈ ScTile.oI3Set L) :
    ScTile.oI3Val m d L hpre x = gathered m d x := by
  obtain ⟨h0, h1⟩ := (mem_oI3 L x).mp hx
  have hx0 : (x 0).val < 16384 := idx2_lt0 x
  have hw := oBlk_write' d (k0_off3 L 384#32) (k0_off3_inb L 3) (1024 * (L 1).val + 512 * (L 0).val + 128 * 3) 128
    (k0_off3_eq L ⟨3, by decide⟩) (m (ScTile.oLoc d))
    (ScTile.blockPay (ScTile.iTab m d) (ScTile.iLst3 m d L) (ScTile.iLst3_inb m d L hpre)) x h0 h1
  refine hw.trans ?_
  rw [ScTile.blockPay_apply, iTab_apply]
  refine gath_right m hpre d x (by omega) _ _ _ (by show (x 1).val - 128 = _; omega) ?_
  rw [iLst3_apply m d L _ (by show 1024 * (L 1).val + 512 * (L 0).val + 128 * 3 + ((x 0).val - (1024 * (L 1).val + 512 * (L 0).val + 128 * 3)) < 16384; omega)]
  congr 3
  apply Fin.ext
  show 1024 * (L 1).val + 512 * (L 0).val + 128 * 3 + ((x 0).val - (1024 * (L 1).val + 512 * (L 0).val + 128 * 3)) = (x 0).val
  omega

/-! ## The join -/

/-- A tile's eight blocks after the call are its eight blocks of the gathered array. -/
theorem blocksOut_eq (hpre : ScTile.PreOK m) (d : Dev nD) (L : grid0.Coords) :
    (ScTile.blocksOut m d L hpre : sProp 𝕄)
      = bigSep Finset.univ fun k : Fin 8 => ScTile.oLoc d ↦[blkSet L k]{fullShare} gathered m d := by
  rw [bigSep_fin_eight (fun k : Fin 8 => (ScTile.oLoc d ↦[blkSet L k]{fullShare} gathered m d : sProp 𝕄))]
  unfold ScTile.blocksOut
  rw [pointsTo_congr (ℓ := ScTile.oLoc d) (I := ScTile.oU0Set L) (f := ScTile.oU0Val m d L hpre) (g := gathered m d) (oU0_eq m hpre d L)]
  rw [pointsTo_congr (ℓ := ScTile.oLoc d) (I := ScTile.oU1Set L) (f := ScTile.oU1Val m d L hpre) (g := gathered m d) (oU1_eq m hpre d L)]
  rw [pointsTo_congr (ℓ := ScTile.oLoc d) (I := ScTile.oU2Set L) (f := ScTile.oU2Val m d L hpre) (g := gathered m d) (oU2_eq m hpre d L)]
  rw [pointsTo_congr (ℓ := ScTile.oLoc d) (I := ScTile.oU3Set L) (f := ScTile.oU3Val m d L hpre) (g := gathered m d) (oU3_eq m hpre d L)]
  rw [pointsTo_congr (ℓ := ScTile.oLoc d) (I := ScTile.oI0Set L) (f := ScTile.oI0Val m d L hpre) (g := gathered m d) (oI0_eq m hpre d L)]
  rw [pointsTo_congr (ℓ := ScTile.oLoc d) (I := ScTile.oI1Set L) (f := ScTile.oI1Val m d L hpre) (g := gathered m d) (oI1_eq m hpre d L)]
  rw [pointsTo_congr (ℓ := ScTile.oLoc d) (I := ScTile.oI2Set L) (f := ScTile.oI2Val m d L hpre) (g := gathered m d) (oI2_eq m hpre d L)]
  rw [pointsTo_congr (ℓ := ScTile.oLoc d) (I := ScTile.oI3Set L) (f := ScTile.oI3Val m d L hpre) (g := gathered m d) (oI3_eq m hpre d L)]
  rfl

/-- What a tile hands back, over plain numbers. -/
abbrev tdP2 (hpre : ScTile.PreOK m) (d : Dev nD) (c : Fin 2) (i : Fin 16) : sProp 𝕄 :=
  iprop(ScTile.inputs m d (tileShare c i) (tileShare c i) (tileShare c i) (tileShare c i) ∗ ScTile.blocksOut m d (tileL2 c i) hpre)

/-- What the thirty-two tiles hand back is the five arrays whole: the four inputs as launched, each tile's share of
    them joined back to the full share, and the gathered array, its 256 blocks joined. -/
theorem hdn2 (hpre : ScTile.PreOK m) (d : Dev nD) :
    (bigSep Finset.univ fun c : Fin 2 => bigSep Finset.univ fun i : Fin 16 => tdP2 m hpre d c i)
      ⊢ (held (T d) S5 (V1 m (gathered m) d) : sProp 𝕄) := by
  rw [held_S5, call_keeps m (gathered m) d main_arg0 (by decide), call_keeps m (gathered m) d main_arg1 (by decide),
    call_keeps m (gathered m) d main_arg2 (by decide), call_keeps m (gathered m) d main_arg3 (by decide),
    show V1 m (gathered m) d (main_v0 : DevRef τ sig) = gathered m d from Function.update_self ..]
  show _ ⊢ iprop((ScTile.uiLoc d ↦{fullShare} m (ScTile.uiLoc d)) ∗ (ScTile.iiLoc d ↦{fullShare} m (ScTile.iiLoc d))
      ∗ (ScTile.utLoc d ↦{fullShare} m (ScTile.utLoc d)) ∗ (ScTile.itLoc d ↦{fullShare} m (ScTile.itLoc d))
      ∗ ScTile.oLoc d ↦{fullShare} gathered m d)
  rw [pts_tiles (m (ScTile.uiLoc d)), pts_tiles (m (ScTile.iiLoc d)), pts_tiles (m (ScTile.utLoc d)), pts_tiles (m (ScTile.itLoc d)),
    o_blocks d (gathered m d)]
  have e : (bigSep Finset.univ fun c : Fin 2 => bigSep Finset.univ fun i : Fin 16 => tdP2 m hpre d c i)
      = iprop(((bigSep Finset.univ fun c : Fin 2 => bigSep Finset.univ fun i : Fin 16 => ScTile.uiLoc d ↦{tileShare c i} m (ScTile.uiLoc d))
          ∗ (bigSep Finset.univ fun c : Fin 2 => bigSep Finset.univ fun i : Fin 16 => ScTile.iiLoc d ↦{tileShare c i} m (ScTile.iiLoc d))
          ∗ (bigSep Finset.univ fun c : Fin 2 => bigSep Finset.univ fun i : Fin 16 => ScTile.utLoc d ↦{tileShare c i} m (ScTile.utLoc d))
          ∗ (bigSep Finset.univ fun c : Fin 2 => bigSep Finset.univ fun i : Fin 16 => ScTile.itLoc d ↦{tileShare c i} m (ScTile.itLoc d)))
        ∗ bigSep Finset.univ fun c : Fin 2 => bigSep Finset.univ fun i : Fin 16 =>
            bigSep Finset.univ fun k : Fin 8 => ScTile.oLoc d ↦[blkSet (tileL2 c i) k]{fullShare} gathered m d) := by
    simp only [blocksOut_eq, bigSep_sep']
  rw [e]
  iintro ⟨⟨Ha, Hb, Hc, Hd⟩, He⟩
  isplitl [Ha]; · iexact Ha
  isplitl [Hb]; · iexact Hb
  isplitl [Hc]; · iexact Hc
  isplitl [Hd]; · iexact Hd
  iexact He

/-- THE JOIN after the call: what the call's SparseCores hand back is the five arrays whole, the gathered array at
    the one function `gathered` of the launch memory. -/
theorem hdn (hpre : ScTile.PreOK m) (d : Dev nD) :
    (bigSep Finset.univ fun c : Fin ((K (F := F)).nCore 0) => (P m hpre).dn 0 d c)
      ⊢ (held (T d) S5 (V1 m (gathered m) d) : sProp 𝕄) := by
  refine (Entails.of_eq ?_).trans (hdn2 m hpre d)
  show (bigSep Finset.univ fun c : Fin ((K (F := F)).nCore 0) => bigSep Finset.univ fun i : Fin ((K (F := F)).nSub 0) =>
    tdP2 m hpre d (Fin.cast (nCore_zero (F := F)) c) (Fin.cast (nSub_zero (F := F)) i)) = _
  rw [← bigSep_cores (F := F) (fun c => bigSep Finset.univ fun i : Fin 16 => tdP2 m hpre d c i)]
  exact bigSep_congr fun c _ => bigSep_subs (F := F) (fun i => tdP2 m hpre d (Fin.cast (nCore_zero (F := F)) c) i)

end Cert.Kernel.SplitJoin

end
-- ==== Proof.BPreGlue.lean ====
/-
  The precondition, in the forms the proof uses.

  The certificate's precondition says, of the two index arrays, that every word read as a signed integer lies in
  [0, 99999].  A word in that range is its own unsigned value, below 100000: a row number of either table.
-/
import proofs.«201366_g32727650796262_cont_8to1_b_1271_35_alg».proof.Defs
import proofs.«201366_g32727650796262_cont_8to1_b_1271_35_alg».proof.Proof.Gen.Pre_input_domain
import proofs.«201366_g32727650796262_cont_8to1_b_1271_35_alg».proof.Proof.PreRange
import proofs.«201366_g32727650796262_cont_8to1_b_1271_35_alg».proof.Proof.BScTileDefs

noncomputable section

namespace Cert.Kernel.PreGlue

open Cert.Kernel
open Idealize.ShloMosaic Idealize.SL.Sem

/-- A word that is a non-negative signed integer at most 99999 is, unsigned, below 100000. -/
theorem toNat_lt_of_range (w : BitVec 32) (h0 : 0 ≤ w.toInt) (h1 : w.toInt ≤ 99999) : w.toNat < 100000 := by
  have hc := BitVec.toInt_eq_toNat_cond w
  have hlt := w.isLt
  split at hc <;> omega

/-- The signed ranges of the two index arrays, on every device. -/
theorem ranges_of_pre (m : (ℓ : Loc nD τ sig) → Buf (Elt Bits) ℓ) (h : Cert.Pre_Kernel m) (c : Dev nD) :
    (∀ j, 0 ≤ (m ((c.tc : Thread nD τ).loc main_arg0) j).toInt ∧ (m ((c.tc : Thread nD τ).loc main_arg0) j).toInt ≤ 99999)
      ∧ (∀ j, 0 ≤ (m ((c.tc : Thread nD τ).loc main_arg1) j).toInt ∧ (m ((c.tc : Thread nD τ).loc main_arg1) j).toInt ≤ 99999) :=
  Cert.PreRange.ranges (F := Bits) _ _ _ _ _ _ _ _ _ _ _ _ (h c)

/-- Every index word names a row of its table. -/
theorem preOK_of_pre (m : (ℓ : Loc nD τ sig) → Buf (Elt Bits) ℓ) (h : Cert.Pre_Kernel m) : ScTile.PreOK m := fun d j =>
  ⟨toNat_lt_of_range _ ((ranges_of_pre m h d).1 j).1 ((ranges_of_pre m h d).1 j).2,
    toNat_lt_of_range _ ((ranges_of_pre m h d).2 j).1 ((ranges_of_pre m h d).2 j).2⟩

end Cert.Kernel.PreGlue

end
-- ==== Proof.ClaimsB.lean ====
/-
  The claim about the word-level kernel: its frame.  The same run as the idealized kernel's, read at the word-level
  instance: data movement and the pipeline's protocol do not depend on what a float is.
-/
import proofs.«201366_g32727650796262_cont_8to1_b_1271_35_alg».proof.Defs
import proofs.«201366_g32727650796262_cont_8to1_b_1271_35_alg».proof.Proof.BKRun
import proofs.«201366_g32727650796262_cont_8to1_b_1271_35_alg».proof.Proof.BScTile
import proofs.«201366_g32727650796262_cont_8to1_b_1271_35_alg».proof.Proof.BSplitJoin
import proofs.«201366_g32727650796262_cont_8to1_b_1271_35_alg».proof.Proof.BPreGlue
import proofs.«201366_g32727650796262_cont_8to1_b_1271_35_alg».proof.Proof.Gen.Kernel
import proofs.«201366_g32727650796262_cont_8to1_b_1271_35_alg».proof.Proof.Gen.Pre_input_domain

noncomputable section

namespace Cert.Proof.KernelClaims

open Cert.Kernel Cert.Kernel.Gen Cert.Kernel.Launch
open Idealize.ShloMosaic Idealize.ShloMosaic.TcCoe Idealize.SL.Sem

variable (m : (ℓ : Loc nD τ sig) → Buf (Elt Bits) ℓ)

/-- The tile body's specification, at every tile. -/
theorem body (hpre : ScTile.PreOK m) : TileBody m hpre :=
  fun d L q O W hO => ScTile.tile_body m d L facts hpre q q q q O W hO

/-- The kernel's run under the certificate's precondition. -/
theorem run (ρ : Dev nD → PrngReg) (h : Cert.Pre_Kernel m) :
    θ_run (Cert.Kernel.defs (F := Bits)) (Cert.Kernel.threads (F := Bits)) ⟨m, fun _ => 0, ρ⟩ (QC m (gathered m) (result m)) :=
  kernel_run m ρ (Cert.Kernel.PreGlue.preOK_of_pre m h) (body m _) (hst m _) (Cert.Kernel.SplitJoin.hdn m _)

/-- The kernel's frame. -/
theorem frame_k : Cert.frame_Kernel := fun m ρ h =>
  (θ_run Cert.Kernel.defs _ _).mono (fun r hr c => QC_args m _ _ r hr c) (run m ρ h)

end Cert.Proof.KernelClaims

end
-- ==== Proof.RefFrame.lean ====
/-
  The reference's frame: it runs to the end without a fault and leaves its twelve argument arrays as they were.
  This is the reference's run with what it says about the result array dropped; the precondition is not needed,
  since a straight line of array operations runs from any memory.
-/
import proofs.«201366_g32727650796262_cont_8to1_b_1271_35_alg».proof.Defs
import proofs.«201366_g32727650796262_cont_8to1_b_1271_35_alg».proof.Proof.Gen.Pre_input_domain
import proofs.«201366_g32727650796262_cont_8to1_b_1271_35_alg».proof.Proof.RefRun

noncomputable section

namespace Cert.ReferenceIdeal.RefRun

open Idealize.ShloMosaic Idealize.SL.Sem

theorem frame_ri : Cert.frame_ReferenceIdeal :=
  fun m ρ _ => (θ_run _ _ _).mono (fun _ h c => (h c).2) (run m ρ)

end Cert.ReferenceIdeal.RefRun

end
-- ==== Proof.lean ====
/-
  The certificate's claims, assembled.

  The kernel looks up one row of the user table and one row of the item table per batch row on the SparseCores' tiles,
  lays them side by side, and runs a three-layer perceptron with a final inner product on the TensorCore; the reference
  does the same with whole-array operations.  The three frames come from the three programs' runs (the two kernels' from
  one text read at both float instances, the reference's from its host line); the idealization rewrote nothing; and at
  the ideal instance both programs end at one function of the arguments, proved sum by sum and factor by factor.
-/
import proofs.«201366_g32727650796262_cont_8to1_b_1271_35_alg».proof.Defs
import proofs.«201366_g32727650796262_cont_8to1_b_1271_35_alg».proof.Proof.Gen.Kernel
import proofs.«201366_g32727650796262_cont_8to1_b_1271_35_alg».proof.Proof.Gen.Kernel.Skeleton
import proofs.«201366_g32727650796262_cont_8to1_b_1271_35_alg».proof.Proof.Gen.Kernel.Launch
import proofs.«201366_g32727650796262_cont_8to1_b_1271_35_alg».proof.Proof.Gen.Kernel.Points
import proofs.«201366_g32727650796262_cont_8to1_b_1271_35_alg».proof.Proof.Gen.KernelIdeal
import proofs.«201366_g32727650796262_cont_8to1_b_1271_35_alg».proof.Proof.Gen.KernelIdeal.Skeleton
import proofs.«201366_g32727650796262_cont_8to1_b_1271_35_alg».proof.Proof.Gen.KernelIdeal.Launch
import proofs.«201366_g32727650796262_cont_8to1_b_1271_35_alg».proof.Proof.Gen.KernelIdeal.Points
import proofs.«201366_g32727650796262_cont_8to1_b_1271_35_alg».proof.Proof.Gen.ReferenceIdeal
import proofs.«201366_g32727650796262_cont_8to1_b_1271_35_alg».proof.Proof.Gen.Pre_input_domain
import proofs.«201366_g32727650796262_cont_8to1_b_1271_35_alg».proof.Proof.ClaimsI
import proofs.«201366_g32727650796262_cont_8to1_b_1271_35_alg».proof.Proof.ClaimsB
import proofs.«201366_g32727650796262_cont_8to1_b_1271_35_alg».proof.Proof.RefFrame
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_input_domain.Gen.facts,
    Cert.Proof.KernelClaims.frame_k, Cert.Proof.KernelIdealClaims.frame_ki, Cert.ReferenceIdeal.RefRun.frame_ri, trivial,
    Cert.Proof.KernelIdealClaims.algebraic⟩

end Cert.Proof

end
